-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v166)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v166) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v308) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x8x320x320 : Shape := ⟨4, ![16, 8, 320, 320]⟩
abbrev S16x8192 : Shape := ⟨2, ![16, 8192]⟩
abbrev S8192x4 : Shape := ⟨2, ![8192, 4]⟩
abbrev S16x8192x2 : Shape := ⟨3, ![16, 8192, 2]⟩
abbrev S16x128x4 : Shape := ⟨3, ![16, 128, 4]⟩
abbrev S_ : Shape := ⟨0, ![]⟩

class Facts : Prop where
  bcast_S_S16x8x320x320 : S_.BroadcastsInDim S16x8x320x320 (![] : Fin 0 → Fin S16x8x320x320.rank)
  reducesTo_S16x8x320x320_S_d0_1_2_3 : S16x8x320x320.ReducesTo [0, 1, 2, 3] S_
  h_S_ : 0 < S_.numel
  bcast_S_S8192x4 : S_.BroadcastsInDim S8192x4 (![] : Fin 0 → Fin S8192x4.rank)
  reducesTo_S8192x4_S_d0_1 : S8192x4.ReducesTo [0, 1] S_
  bcast_S_S16x8192x2 : S_.BroadcastsInDim S16x8192x2 (![] : Fin 0 → Fin S16x8192x2.rank)
  reducesTo_S16x8192x2_S_d0_1_2 : S16x8192x2.ReducesTo [0, 1, 2] S_
  bcast_S_S16x128x4 : S_.BroadcastsInDim S16x128x4 (![] : Fin 0 → Fin S16x128x4.rank)
  reducesTo_S16x128x4_S_d0_1_2 : S16x128x4.ReducesTo [0, 1, 2] S_

variable [Facts]

def fn_part1 {F : FTy → Type} [FloatOps F] (main_v13 : IVec S_ 1) (main_v16 : IVec S16x128x4 1) : IVec S_ 1 :=
  let main_c_5 : IVec S_ 1 := constantI S_ 1 1#1
  let main_v17 : IVec S_ 1 := (fun x v => Host.reduce IntOp.andi x v reducesTo_S16x128x4_S_d0_1_2 h_S_) main_v16 main_c_5
  let main_v18 : IVec S_ 1 := andi main_v13 main_v17
  main_v18

def fn {F : FTy → Type} [FloatOps F] (main_arg0 : FVec F S16x8x320x320 .f32) (main_arg1 : IVec S16x8192 32) (main_arg2 : FVec F S8192x4 .f32) (main_arg3 : FVec F S16x8192x2 .f32) (main_arg4 : FVec F S16x128x4 .f32) : IVec S_ 1 :=
  let main_v0 : FVec F S16x8x320x320 .f32 := Host.absf main_arg0
  let main_cst : FVec F S_ .f32 := constant S_ .f32 0x7F800000#32
  let main_v1 : FVec F S16x8x320x320 .f32 := broadcastInDim S16x8x320x320 ![] bcast_S_S16x8x320x320 main_cst
  let main_v2 : IVec S16x8x320x320 1 := cmpf .olt main_v0 main_v1
  let main_c : IVec S_ 1 := constantI S_ 1 1#1
  let main_v3 : IVec S_ 1 := (fun x v => Host.reduce IntOp.andi x v reducesTo_S16x8x320x320_S_d0_1_2_3 h_S_) main_v2 main_c
  let main_v4 : FVec F S8192x4 .f32 := Host.absf main_arg2
  let main_cst_0 : FVec F S_ .f32 := constant S_ .f32 0x7F800000#32
  let main_v5 : FVec F S8192x4 .f32 := broadcastInDim S8192x4 ![] bcast_S_S8192x4 main_cst_0
  let main_v6 : IVec S8192x4 1 := cmpf .olt main_v4 main_v5
  let main_c_1 : IVec S_ 1 := constantI S_ 1 1#1
  let main_v7 : IVec S_ 1 := (fun x v => Host.reduce IntOp.andi x v reducesTo_S8192x4_S_d0_1 h_S_) main_v6 main_c_1
  let main_v8 : IVec S_ 1 := andi main_v3 main_v7
  let main_v9 : FVec F S16x8192x2 .f32 := Host.absf main_arg3
  let main_cst_2 : FVec F S_ .f32 := constant S_ .f32 0x7F800000#32
  let main_v10 : FVec F S16x8192x2 .f32 := broadcastInDim S16x8192x2 ![] bcast_S_S16x8192x2 main_cst_2
  let main_v11 : IVec S16x8192x2 1 := cmpf .olt main_v9 main_v10
  let main_c_3 : IVec S_ 1 := constantI S_ 1 1#1
  let main_v12 : IVec S_ 1 := (fun x v => Host.reduce IntOp.andi x v reducesTo_S16x8192x2_S_d0_1_2 h_S_) main_v11 main_c_3
  let main_v13 : IVec S_ 1 := andi main_v8 main_v12
  let main_v14 : FVec F S16x128x4 .f32 := Host.absf main_arg4
  let main_cst_4 : FVec F S_ .f32 := constant S_ .f32 0x7F800000#32
  let main_v15 : FVec F S16x128x4 .f32 := broadcastInDim S16x128x4 ![] bcast_S_S16x128x4 main_cst_4
  let main_v16 : IVec S16x128x4 1 := cmpf .olt main_v14 main_v15
  fn_part1 (F := F) main_v13 main_v16
-- ==== Kernel.lean ====
abbrev S16x8x320x320 : Shape := ⟨4, ![16, 8, 320, 320]⟩
abbrev S16x8192 : Shape := ⟨2, ![16, 8192]⟩
abbrev S8192x4 : Shape := ⟨2, ![8192, 4]⟩
abbrev S16x8192x2 : Shape := ⟨3, ![16, 8192, 2]⟩
abbrev S16x128x4 : Shape := ⟨3, ![16, 128, 4]⟩
abbrev S8192x1 : Shape := ⟨2, ![8192, 1]⟩
abbrev S8192 : Shape := ⟨1, ![8192]⟩
abbrev S_ : Shape := ⟨0, ![]⟩
abbrev S1x8192 : Shape := ⟨2, ![1, 8192]⟩
abbrev S16x8192x1 : Shape := ⟨3, ![16, 8192, 1]⟩
abbrev S16x1x8192 : Shape := ⟨3, ![16, 1, 8192]⟩
abbrev S16x8x8192 : Shape := ⟨3, ![16, 8, 8192]⟩
abbrev S1x8x320x320 : Shape := ⟨4, ![1, 8, 320, 320]⟩
abbrev S1x1x2048 : Shape := ⟨3, ![1, 1, 2048]⟩
abbrev S1x8x2048 : Shape := ⟨3, ![1, 8, 2048]⟩
abbrev S1x2048 : Shape := ⟨2, ![1, 2048]⟩
abbrev S320x2048 : Shape := ⟨2, ![320, 2048]⟩
abbrev S1x1x320x320 : Shape := ⟨4, ![1, 1, 320, 320]⟩
abbrev S320x320 : Shape := ⟨2, ![320, 320]⟩
abbrev S2048 : Shape := ⟨1, ![2048]⟩
abbrev S8x2048 : Shape := ⟨2, ![8, 2048]⟩
abbrev S16x8192x8 : Shape := ⟨3, ![16, 8192, 8]⟩
abbrev S16x128x64x8 : Shape := ⟨4, ![16, 128, 64, 8]⟩
abbrev S16x128x8 : Shape := ⟨3, ![16, 128, 8]⟩
abbrev S16x128x1x8 : Shape := ⟨4, ![16, 128, 1, 8]⟩
abbrev S16x128x64 : Shape := ⟨3, ![16, 128, 64]⟩
abbrev S16x128 : Shape := ⟨2, ![16, 128]⟩
abbrev S16 : Shape := ⟨1, ![16]⟩
abbrev S16x1x128x8 : Shape := ⟨4, ![16, 1, 128, 8]⟩
abbrev S16x128x128x8 : Shape := ⟨4, ![16, 128, 128, 8]⟩
abbrev S16x128x128 : Shape := ⟨3, ![16, 128, 128]⟩
abbrev S16x128x1 : Shape := ⟨3, ![16, 128, 1]⟩
abbrev S16x128x2 : Shape := ⟨3, ![16, 128, 2]⟩
abbrev S16x128x1x2 : Shape := ⟨4, ![16, 128, 1, 2]⟩
abbrev S16x1x128x2 : Shape := ⟨4, ![16, 1, 128, 2]⟩
abbrev S16x128x128x2 : Shape := ⟨4, ![16, 128, 128, 2]⟩
abbrev S16x128x128x1 : Shape := ⟨4, ![16, 128, 128, 1]⟩
abbrev S16x1x128 : Shape := ⟨3, ![16, 1, 128]⟩
abbrev S128x128 : Shape := ⟨2, ![128, 128]⟩
abbrev S1 : Shape := ⟨1, ![1]⟩
abbrev S2 : Shape := ⟨1, ![2]⟩

abbrev nBuf : Space → Nat
  | .hbm => 232
  | .vmem => 8
  | .smem => 0
  | _ => 0

abbrev hbmTy0_0 (i : Nat) : BufTy := match i % 128 with
  | 0 => ⟨S16x8x320x320, .f32⟩
  | 1 => ⟨S16x8192, .i32⟩
  | 2 => ⟨S8192x4, .f32⟩
  | 3 => ⟨S16x8192x2, .f32⟩
  | 4 => ⟨S16x128x4, .f32⟩
  | 5 => ⟨S8192x1, .f32⟩
  | 6 => ⟨S8192, .f32⟩
  | 7 => ⟨S8192x1, .f32⟩
  | 8 => ⟨S8192, .f32⟩
  | 9 => ⟨S8192, .f32⟩
  | 10 => ⟨S_, .f32⟩
  | 11 => ⟨S8192, .f32⟩
  | 12 => ⟨S8192, .f32⟩
  | 13 => ⟨S8192x1, .f32⟩
  | 14 => ⟨S8192, .f32⟩
  | 15 => ⟨S8192x1, .f32⟩
  | 16 => ⟨S8192, .f32⟩
  | 17 => ⟨S8192, .f32⟩
  | 18 => ⟨S_, .f32⟩
  | 19 => ⟨S8192, .f32⟩
  | 20 => ⟨S8192, .f32⟩
  | 21 => ⟨S1x8192, .f32⟩
  | 22 => ⟨S16x8192x1, .f32⟩
  | 23 => ⟨S16x8192, .f32⟩
  | 24 => ⟨S16x8192, .f32⟩
  | 25 => ⟨S16x8192, .f32⟩
  | 26 => ⟨S1x8192, .f32⟩
  | 27 => ⟨S16x8192x1, .f32⟩
  | 28 => ⟨S16x8192, .f32⟩
  | 29 => ⟨S16x8192, .f32⟩
  | 30 => ⟨S16x8192, .f32⟩
  | 31 => ⟨S_, .f32⟩
  | 32 => ⟨S_, .f32⟩
  | 33 => ⟨S_, .f32⟩
  | 34 => ⟨S16x8192, .f32⟩
  | 35 => ⟨S16x8192, .f32⟩
  | 36 => ⟨S_, .f32⟩
  | 37 => ⟨S16x8192, .f32⟩
  | 38 => ⟨S16x8192, .f32⟩
  | 39 => ⟨S_, .f32⟩
  | 40 => ⟨S_, .f32⟩
  | 41 => ⟨S_, .f32⟩
  | 42 => ⟨S16x8192, .f32⟩
  | 43 => ⟨S16x8192, .f32⟩
  | 44 => ⟨S_, .f32⟩
  | 45 => ⟨S16x8192, .f32⟩
  | 46 => ⟨S16x8192, .f32⟩
  | 47 => ⟨S16x1x8192, .f32⟩
  | 48 => ⟨S16x1x8192, .f32⟩
  | 49 => ⟨S16x8x8192, .f32⟩
  | 50 => ⟨S16x8192x8, .f32⟩
  | 51 => ⟨S16x128x64x8, .f32⟩
  | 52 => ⟨S_, .f32⟩
  | 53 => ⟨S16x128x8, .f32⟩
  | 54 => ⟨S_, .f32⟩
  | 55 => ⟨S16x128x8, .f32⟩
  | 56 => ⟨S16x128x8, .f32⟩
  | 57 => ⟨S16x128x1x8, .f32⟩
  | 58 => ⟨S16x128x64x8, .f32⟩
  | 59 => ⟨S16x128x64x8, .f32⟩
  | 60 => ⟨S16x128x64x8, .f32⟩
  | 61 => ⟨S_, .f32⟩
  | 62 => ⟨S16x128x64, .f32⟩
  | 63 => ⟨S_, .f32⟩
  | 64 => ⟨S16x128x64, .f32⟩
  | 65 => ⟨S16x128x64, .f32⟩
  | 66 => ⟨S_, .f32⟩
  | 67 => ⟨S16x128x64, .f32⟩
  | 68 => ⟨S16x128x64, .i1⟩
  | 69 => ⟨S_, .f32⟩
  | 70 => ⟨S_, .f32⟩
  | 71 => ⟨S16x128x64, .f32⟩
  | 72 => ⟨S16x128x64, .f32⟩
  | 73 => ⟨S_, .f32⟩
  | 74 => ⟨S16x128, .f32⟩
  | 75 => ⟨S_, .f32⟩
  | 76 => ⟨S16x128, .f32⟩
  | 77 => ⟨S16x128, .f32⟩
  | 78 => ⟨S_, .f32⟩
  | 79 => ⟨S16, .f32⟩
  | 80 => ⟨S_, .f32⟩
  | 81 => ⟨S16, .f32⟩
  | 82 => ⟨S16, .f32⟩
  | 83 => ⟨S16x128x1x8, .f32⟩
  | 84 => ⟨S16x1x128x8, .f32⟩
  | 85 => ⟨S16x128x128x8, .f32⟩
  | 86 => ⟨S16x128x128x8, .f32⟩
  | 87 => ⟨S16x128x128x8, .f32⟩
  | 88 => ⟨S16x128x128x8, .f32⟩
  | 89 => ⟨S_, .f32⟩
  | 90 => ⟨S16x128x128, .f32⟩
  | 91 => ⟨S_, .f32⟩
  | 92 => ⟨S16x128x128, .f32⟩
  | 93 => ⟨S16x128x128, .f32⟩
  | 94 => ⟨S16x128x128, .f32⟩
  | 95 => ⟨S16x128x128, .f32⟩
  | 96 => ⟨S16x128x1, .f32⟩
  | 97 => ⟨S16x128, .f32⟩
  | 98 => ⟨S16x128x1, .f32⟩
  | 99 => ⟨S16x128, .f32⟩
  | 100 => ⟨S16x128, .f32⟩
  | 101 => ⟨S_, .f32⟩
  | 102 => ⟨S16x128, .f32⟩
  | 103 => ⟨S16x128, .f32⟩
  | 104 => ⟨S16x128x1, .f32⟩
  | 105 => ⟨S16x128, .f32⟩
  | 106 => ⟨S16x128x1, .f32⟩
  | 107 => ⟨S16x128, .f32⟩
  | 108 => ⟨S16x128, .f32⟩
  | 109 => ⟨S_, .f32⟩
  | 110 => ⟨S16x128, .f32⟩
  | 111 => ⟨S16x128, .f32⟩
  | 112 => ⟨S16x128x1, .f32⟩
  | 113 => ⟨S16x128, .f32⟩
  | 114 => ⟨S_, .f32⟩
  | 115 => ⟨S16x128, .f32⟩
  | 116 => ⟨S16x128, .f32⟩
  | 117 => ⟨S16x128, .f32⟩
  | 118 => ⟨S16x128x1, .f32⟩
  | 119 => ⟨S16x128, .f32⟩
  | 120 => ⟨S_, .f32⟩
  | 121 => ⟨S16x128, .f32⟩
  | 122 => ⟨S16x128, .f32⟩
  | 123 => ⟨S16x128, .f32⟩
  | 124 => ⟨S16x128x1, .f32⟩
  | 125 => ⟨S16x128, .f32⟩
  | 126 => ⟨S_, .f32⟩
  | 127 => ⟨S16x128, .f32⟩
  | _ => ⟨S16x8x320x320, .f32⟩

abbrev hbmTy0_1 (i : Nat) : BufTy := match i % 128 with
  | 0 => ⟨S16x128, .f32⟩
  | 1 => ⟨S16x128, .f32⟩
  | 2 => ⟨S16x128x1, .f32⟩
  | 3 => ⟨S16x128, .f32⟩
  | 4 => ⟨S_, .f32⟩
  | 5 => ⟨S16x128, .f32⟩
  | 6 => ⟨S16x128, .f32⟩
  | 7 => ⟨S16x128, .f32⟩
  | 8 => ⟨S16x128x1, .f32⟩
  | 9 => ⟨S16x128x1, .f32⟩
  | 10 => ⟨S16x128x1, .f32⟩
  | 11 => ⟨S16x128x1, .f32⟩
  | 12 => ⟨S16x128x4, .f32⟩
  | 13 => ⟨S16x128x2, .f32⟩
  | 14 => ⟨S16x128x1x2, .f32⟩
  | 15 => ⟨S16x128x2, .f32⟩
  | 16 => ⟨S16x1x128x2, .f32⟩
  | 17 => ⟨S16x128x128x2, .f32⟩
  | 18 => ⟨S16x128x128x2, .f32⟩
  | 19 => ⟨S16x128x128x2, .f32⟩
  | 20 => ⟨S16x128x2, .f32⟩
  | 21 => ⟨S16x128x1x2, .f32⟩
  | 22 => ⟨S16x128x2, .f32⟩
  | 23 => ⟨S16x1x128x2, .f32⟩
  | 24 => ⟨S16x128x128x2, .f32⟩
  | 25 => ⟨S16x128x128x2, .f32⟩
  | 26 => ⟨S16x128x128x2, .f32⟩
  | 27 => ⟨S16x128x128x2, .f32⟩
  | 28 => ⟨S_, .f32⟩
  | 29 => ⟨S16x128x128x2, .f32⟩
  | 30 => ⟨S16x128x128x2, .f32⟩
  | 31 => ⟨S_, .f32⟩
  | 32 => ⟨S_, .f32⟩
  | 33 => ⟨S16x128x128x2, .f32⟩
  | 34 => ⟨S16x128x128x2, .f32⟩
  | 35 => ⟨S16x128x128x1, .f32⟩
  | 36 => ⟨S16x128x128, .f32⟩
  | 37 => ⟨S16x128x128x1, .f32⟩
  | 38 => ⟨S16x128x128, .f32⟩
  | 39 => ⟨S16x128x128, .f32⟩
  | 40 => ⟨S16x128x1, .f32⟩
  | 41 => ⟨S16x128, .f32⟩
  | 42 => ⟨S16x128x1, .f32⟩
  | 43 => ⟨S16x128, .f32⟩
  | 44 => ⟨S16x128, .f32⟩
  | 45 => ⟨S_, .f32⟩
  | 46 => ⟨S16x128, .f32⟩
  | 47 => ⟨S16x128, .f32⟩
  | 48 => ⟨S16x128x1, .f32⟩
  | 49 => ⟨S16x128, .f32⟩
  | 50 => ⟨S16x128x1, .f32⟩
  | 51 => ⟨S16x128, .f32⟩
  | 52 => ⟨S16x128, .f32⟩
  | 53 => ⟨S_, .f32⟩
  | 54 => ⟨S16x128, .f32⟩
  | 55 => ⟨S16x128, .f32⟩
  | 56 => ⟨S16x128, .f32⟩
  | 57 => ⟨S16x128x1, .f32⟩
  | 58 => ⟨S16x1x128, .f32⟩
  | 59 => ⟨S16x128x128, .f32⟩
  | 60 => ⟨S16x128x128, .f32⟩
  | 61 => ⟨S16x128x128, .f32⟩
  | 62 => ⟨S16x128x128, .f32⟩
  | 63 => ⟨S16x128x128, .f32⟩
  | 64 => ⟨S_, .f32⟩
  | 65 => ⟨S16x128x128, .f32⟩
  | 66 => ⟨S16x128x128, .i1⟩
  | 67 => ⟨S_, .f32⟩
  | 68 => ⟨S_, .f32⟩
  | 69 => ⟨S128x128, .f32⟩
  | 70 => ⟨S128x128, .f32⟩
  | 71 => ⟨S16x128x128, .f32⟩
  | 72 => ⟨S16x128x128, .f32⟩
  | 73 => ⟨S16x128x128, .f32⟩
  | 74 => ⟨S_, .f32⟩
  | 75 => ⟨S16x128x128, .f32⟩
  | 76 => ⟨S16x128x128, .i1⟩
  | 77 => ⟨S_, .f32⟩
  | 78 => ⟨S16x128x128, .f32⟩
  | 79 => ⟨S16x128x128, .f32⟩
  | 80 => ⟨S16x128x128, .f32⟩
  | 81 => ⟨S16x128x128, .f32⟩
  | 82 => ⟨S_, .f32⟩
  | 83 => ⟨S16, .f32⟩
  | 84 => ⟨S_, .f32⟩
  | 85 => ⟨S16, .f32⟩
  | 86 => ⟨S16, .f32⟩
  | 87 => ⟨S_, .f32⟩
  | 88 => ⟨S16, .f32⟩
  | 89 => ⟨S16, .f32⟩
  | 90 => ⟨S_, .f32⟩
  | 91 => ⟨S16, .f32⟩
  | 92 => ⟨S16, .f32⟩
  | 93 => ⟨S_, .f32⟩
  | 94 => ⟨S_, .f32⟩
  | 95 => ⟨S_, .f32⟩
  | 96 => ⟨S_, .f32⟩
  | 97 => ⟨S_, .f32⟩
  | 98 => ⟨S_, .f32⟩
  | 99 => ⟨S_, .f32⟩
  | 100 => ⟨S_, .f32⟩
  | 101 => ⟨S1, .f32⟩
  | 102 => ⟨S1, .f32⟩
  | 103 => ⟨S2, .f32⟩
  | _ => ⟨S16x8x320x320, .f32⟩

abbrev hbmTy (i : Nat) : BufTy := match i / 128 with
  | 0 => hbmTy0_0 i
  | 1 => hbmTy0_1 i
  | _ => ⟨S16x8x320x320, .f32⟩

abbrev bufTy : (tb : Table) → Fin (tcTables nBuf tb) → BufTy
  | .hbm, ⟨i, _⟩ => hbmTy i
  | .local _ .vmem, ⟨0, _⟩ => ⟨S1x8x320x320, .f32⟩
  | .local _ .vmem, ⟨1, _⟩ => ⟨S1x8x320x320, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x8x2048, .f32⟩
  | .local _ .vmem, ⟨7, _⟩ => ⟨S1x8x2048, .f32⟩
  | _, _ => ⟨S16x8x320x320, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_1 : Ref sig .tc := ⟨.hbm, 31, rfl⟩
abbrev main_cst_2 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_v24 : Ref sig .tc := ⟨.hbm, 38, rfl⟩
abbrev main_cst_3 : Ref sig .tc := ⟨.hbm, 39, rfl⟩
abbrev main_cst_4 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_5 : Ref sig .tc := ⟨.hbm, 52, rfl⟩
abbrev main_v31 : Ref sig .tc := ⟨.hbm, 53, rfl⟩
abbrev main_cst_6 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_7 : Ref sig .tc := ⟨.hbm, 61, rfl⟩
abbrev main_v38 : Ref sig .tc := ⟨.hbm, 62, rfl⟩
abbrev main_cst_8 : Ref sig .tc := ⟨.hbm, 63, rfl⟩
abbrev main_v39 : Ref sig .tc := ⟨.hbm, 64, rfl⟩
abbrev main_v40 : Ref sig .tc := ⟨.hbm, 65, rfl⟩
abbrev main_cst_9 : Ref sig .tc := ⟨.hbm, 66, rfl⟩
abbrev main_v41 : Ref sig .tc := ⟨.hbm, 67, rfl⟩
abbrev main_v42 : Ref sig .tc := ⟨.hbm, 68, rfl⟩
abbrev main_cst_10 : Ref sig .tc := ⟨.hbm, 69, rfl⟩
abbrev main_call2_v0 : Ref sig .tc := ⟨.hbm, 70, rfl⟩
abbrev main_call2_v1 : Ref sig .tc := ⟨.hbm, 71, rfl⟩
abbrev main_v43 : Ref sig .tc := ⟨.hbm, 72, rfl⟩
abbrev main_cst_11 : Ref sig .tc := ⟨.hbm, 73, rfl⟩
abbrev main_v44 : Ref sig .tc := ⟨.hbm, 74, rfl⟩
abbrev main_cst_12 : Ref sig .tc := ⟨.hbm, 75, rfl⟩
abbrev main_v45 : Ref sig .tc := ⟨.hbm, 76, rfl⟩
abbrev main_v46 : Ref sig .tc := ⟨.hbm, 77, rfl⟩
abbrev main_cst_13 : Ref sig .tc := ⟨.hbm, 78, rfl⟩
abbrev main_v47 : Ref sig .tc := ⟨.hbm, 79, rfl⟩
abbrev main_cst_14 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_15 : Ref sig .tc := ⟨.hbm, 89, rfl⟩
abbrev main_v56 : Ref sig .tc := ⟨.hbm, 90, rfl⟩
abbrev main_cst_16 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_cst_17 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_cst_18 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_cst_19 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_cst_20 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_cst_21 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_cst_22 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_cst_23 : Ref sig .tc := ⟨.hbm, 156, rfl⟩
abbrev main_v115 : Ref sig .tc := ⟨.hbm, 157, rfl⟩
abbrev main_v116 : Ref sig .tc := ⟨.hbm, 158, rfl⟩
abbrev main_cst_24 : Ref sig .tc := ⟨.hbm, 159, rfl⟩
abbrev main_call3_v0 : Ref sig .tc := ⟨.hbm, 160, rfl⟩
abbrev main_call3_v1 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_cst_25 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_cst_26 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩
abbrev main_v143 : Ref sig .tc := ⟨.hbm, 190, rfl⟩
abbrev main_v144 : Ref sig .tc := ⟨.hbm, 191, rfl⟩
abbrev main_cst_27 : Ref sig .tc := ⟨.hbm, 192, rfl⟩
abbrev main_v145 : Ref sig .tc := ⟨.hbm, 193, rfl⟩
abbrev main_v146 : Ref sig .tc := ⟨.hbm, 194, rfl⟩
abbrev main_cst_28 : Ref sig .tc := ⟨.hbm, 195, rfl⟩
abbrev main_cst_29 : Ref sig .tc := ⟨.hbm, 196, rfl⟩
abbrev main_call4_v0 : Ref sig .tc := ⟨.hbm, 197, rfl⟩
abbrev main_call4_v1 : Ref sig .tc := ⟨.hbm, 198, rfl⟩
abbrev main_call4_v2 : Ref sig .tc := ⟨.hbm, 199, rfl⟩
abbrev main_call4_v3 : Ref sig .tc := ⟨.hbm, 200, rfl⟩
abbrev main_v147 : Ref sig .tc := ⟨.hbm, 201, rfl⟩
abbrev main_cst_30 : Ref sig .tc := ⟨.hbm, 202, rfl⟩
abbrev main_v148 : Ref sig .tc := ⟨.hbm, 203, rfl⟩
abbrev main_v149 : Ref sig .tc := ⟨.hbm, 204, rfl⟩
abbrev main_cst_31 : Ref sig .tc := ⟨.hbm, 205, rfl⟩
abbrev main_call5_v0 : Ref sig .tc := ⟨.hbm, 206, rfl⟩
abbrev main_v150 : Ref sig .tc := ⟨.hbm, 207, rfl⟩
abbrev main_v151 : Ref sig .tc := ⟨.hbm, 208, rfl⟩
abbrev main_v152 : Ref sig .tc := ⟨.hbm, 209, rfl⟩
abbrev main_cst_32 : Ref sig .tc := ⟨.hbm, 210, rfl⟩
abbrev main_v153 : Ref sig .tc := ⟨.hbm, 211, rfl⟩
abbrev main_cst_33 : Ref sig .tc := ⟨.hbm, 212, rfl⟩
abbrev main_v154 : Ref sig .tc := ⟨.hbm, 213, rfl⟩
abbrev main_v155 : Ref sig .tc := ⟨.hbm, 214, rfl⟩
abbrev main_cst_34 : Ref sig .tc := ⟨.hbm, 215, rfl⟩
abbrev main_v156 : Ref sig .tc := ⟨.hbm, 216, rfl⟩
abbrev main_v157 : Ref sig .tc := ⟨.hbm, 217, rfl⟩
abbrev main_cst_35 : Ref sig .tc := ⟨.hbm, 218, rfl⟩
abbrev main_v158 : Ref sig .tc := ⟨.hbm, 219, rfl⟩
abbrev main_v159 : Ref sig .tc := ⟨.hbm, 220, rfl⟩
abbrev main_cst_36 : Ref sig .tc := ⟨.hbm, 221, rfl⟩
abbrev main_v160 : Ref sig .tc := ⟨.hbm, 222, rfl⟩
abbrev main_cst_37 : Ref sig .tc := ⟨.hbm, 223, rfl⟩
abbrev main_v161 : Ref sig .tc := ⟨.hbm, 224, rfl⟩
abbrev main_cst_38 : Ref sig .tc := ⟨.hbm, 225, rfl⟩
abbrev main_v162 : Ref sig .tc := ⟨.hbm, 226, rfl⟩
abbrev main_cst_39 : Ref sig .tc := ⟨.hbm, 227, rfl⟩
abbrev main_v163 : Ref sig .tc := ⟨.hbm, 228, rfl⟩
abbrev main_v164 : Ref sig .tc := ⟨.hbm, 229, rfl⟩
abbrev main_v165 : Ref sig .tc := ⟨.hbm, 230, rfl⟩
abbrev main_v166 : Ref sig .tc := ⟨.hbm, 231, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x8x320x320 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  slices_S8192x4_S8192x1_0_0 : S8192x4.Slices ![0, 0] S8192x1
  shapeCasts_S8192x1_S8192 : S8192x1.ShapeCasts S8192
  slices_S8192x4_S8192x1_0_2 : S8192x4.Slices ![0, 2] S8192x1
  bcast_S_S8192 : S_.BroadcastsInDim S8192 (![] : Fin 0 → Fin S8192.rank)
  slices_S8192x4_S8192x1_0_1 : S8192x4.Slices ![0, 1] S8192x1
  slices_S8192x4_S8192x1_0_3 : S8192x4.Slices ![0, 3] S8192x1
  bcast_S8192_S1x8192_1 : S8192.BroadcastsInDim S1x8192 (![1] : Fin 1 → Fin S1x8192.rank)
  slices_S16x8192x2_S16x8192x1_0_0_0 : S16x8192x2.Slices ![0, 0, 0] S16x8192x1
  shapeCasts_S16x8192x1_S16x8192 : S16x8192x1.ShapeCasts S16x8192
  bcast_S1x8192_S16x8192_0_1 : S1x8192.BroadcastsInDim S16x8192 (![0, 1] : Fin 2 → Fin S16x8192.rank)
  slices_S16x8192x2_S16x8192x1_0_0_1 : S16x8192x2.Slices ![0, 0, 1] S16x8192x1
  bcast_S_S16x8192 : S_.BroadcastsInDim S16x8192 (![] : Fin 0 → Fin S16x8192.rank)
  bcast_S16x8192_S16x1x8192_0_2 : S16x8192.BroadcastsInDim S16x1x8192 (![0, 2] : Fin 2 → Fin S16x1x8192.rank)
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  iota_S320x2048_d0_w32 : S320x2048.Iotas .tc 32 [0]
  broadcasts_S1x2048_S320x2048 : S1x2048.Broadcasts S320x2048
  shapeCasts_S1x2048_S1x2048 : S1x2048.ShapeCasts S1x2048
  bitsLt_bf16_f32 : FTy.bits .bf16 < FTy.bits .f32
  inb_S1x8x320x320_S1x1x320x320_0_0_0_0 : ∀ a, (![0, 0, 0, 0] : Fin 4 → Nat) a + S1x1x320x320.size a ≤ S1x8x320x320.size a
  h_S1x1x320x320 : 0 < S1x1x320x320.numel
  shapeCasts_S1x1x320x320_S320x320 : S1x1x320x320.ShapeCasts S320x320
  reduces_S320x2048_S2048 : S320x2048.Reduces [0] S2048
  inb_S1x8x320x320_S1x1x320x320_0_1_0_0 : ∀ a, (![0, 1, 0, 0] : Fin 4 → Nat) a + S1x1x320x320.size a ≤ S1x8x320x320.size a
  inb_S1x8x320x320_S1x1x320x320_0_2_0_0 : ∀ a, (![0, 2, 0, 0] : Fin 4 → Nat) a + S1x1x320x320.size a ≤ S1x8x320x320.size a
  inb_S1x8x320x320_S1x1x320x320_0_3_0_0 : ∀ a, (![0, 3, 0, 0] : Fin 4 → Nat) a + S1x1x320x320.size a ≤ S1x8x320x320.size a
  inb_S1x8x320x320_S1x1x320x320_0_4_0_0 : ∀ a, (![0, 4, 0, 0] : Fin 4 → Nat) a + S1x1x320x320.size a ≤ S1x8x320x320.size a
  inb_S1x8x320x320_S1x1x320x320_0_5_0_0 : ∀ a, (![0, 5, 0, 0] : Fin 4 → Nat) a + S1x1x320x320.size a ≤ S1x8x320x320.size a
  inb_S1x8x320x320_S1x1x320x320_0_6_0_0 : ∀ a, (![0, 6, 0, 0] : Fin 4 → Nat) a + S1x1x320x320.size a ≤ S1x8x320x320.size a
  inb_S1x8x320x320_S1x1x320x320_0_7_0_0 : ∀ a, (![0, 7, 0, 0] : Fin 4 → Nat) a + S1x1x320x320.size a ≤ S1x8x320x320.size a
  shapeCasts_S2048_S1x2048 : S2048.ShapeCasts S1x2048
  concatenates_S1x2048_S1x2048_S1x2048_S1x2048_S1x2048_S1x2048_S1x2048_S1x2048_S8x2048_d0 : Shape.Concatenates [S1x2048, S1x2048, S1x2048, S1x2048, S1x2048, S1x2048, S1x2048, S1x2048] S8x2048 0
  inb_S1x8x2048_S1x8x2048_0_0_0 : ∀ a, (![0, 0, 0] : Fin 3 → Nat) a + S1x8x2048.size a ≤ S1x8x2048.size a
  h_S1x8x2048 : 0 < S1x8x2048.numel
  shapeCasts_S1x8x2048_S8x2048 : S1x8x2048.ShapeCasts S8x2048
  shapeCasts_S8x2048_S1x8x2048 : S8x2048.ShapeCasts S1x8x2048
  transposes_S16x8x8192_S16x8192x8_0_2_1 : S16x8x8192.Transposes [0, 2, 1] S16x8192x8
  shapeCasts_S16x8192x8_S16x128x64x8 : S16x8192x8.ShapeCasts S16x128x64x8
  reducesTo_S16x128x64x8_S16x128x8_d2 : S16x128x64x8.ReducesTo [2] S16x128x8
  h_S_ : 0 < S_.numel
  bcast_S_S16x128x8 : S_.BroadcastsInDim S16x128x8 (![] : Fin 0 → Fin S16x128x8.rank)
  bcast_S16x128x8_S16x128x1x8_0_1_3 : S16x128x8.BroadcastsInDim S16x128x1x8 (![0, 1, 3] : Fin 3 → Fin S16x128x1x8.rank)
  bcast_S16x128x1x8_S16x128x64x8_0_1_2_3 : S16x128x1x8.BroadcastsInDim S16x128x64x8 (![0, 1, 2, 3] : Fin 4 → Fin S16x128x64x8.rank)
  reducesTo_S16x128x64x8_S16x128x64_d3 : S16x128x64x8.ReducesTo [3] S16x128x64
  bcast_S_S16x128x64 : S_.BroadcastsInDim S16x128x64 (![] : Fin 0 → Fin S16x128x64.rank)
  reducesTo_S16x128x64_S16x128_d2 : S16x128x64.ReducesTo [2] S16x128
  bcast_S_S16x128 : S_.BroadcastsInDim S16x128 (![] : Fin 0 → Fin S16x128.rank)
  reducesTo_S16x128_S16_d1 : S16x128.ReducesTo [1] S16
  bcast_S_S16 : S_.BroadcastsInDim S16 (![] : Fin 0 → Fin S16.rank)
  bcast_S16x128x8_S16x1x128x8_0_2_3 : S16x128x8.BroadcastsInDim S16x1x128x8 (![0, 2, 3] : Fin 3 → Fin S16x1x128x8.rank)
  bcast_S16x128x1x8_S16x128x128x8_0_1_2_3 : S16x128x1x8.BroadcastsInDim S16x128x128x8 (![0, 1, 2, 3] : Fin 4 → Fin S16x128x128x8.rank)
  bcast_S16x1x128x8_S16x128x128x8_0_1_2_3 : S16x1x128x8.BroadcastsInDim S16x128x128x8 (![0, 1, 2, 3] : Fin 4 → Fin S16x128x128x8.rank)
  reducesTo_S16x128x128x8_S16x128x128_d3 : S16x128x128x8.ReducesTo [3] S16x128x128
  bcast_S_S16x128x128 : S_.BroadcastsInDim S16x128x128 (![] : Fin 0 → Fin S16x128x128.rank)
  slices_S16x128x4_S16x128x1_0_0_3 : S16x128x4.Slices ![0, 0, 3] S16x128x1
  shapeCasts_S16x128x1_S16x128 : S16x128x1.ShapeCasts S16x128
  slices_S16x128x4_S16x128x1_0_0_1 : S16x128x4.Slices ![0, 0, 1] S16x128x1
  slices_S16x128x4_S16x128x1_0_0_2 : S16x128x4.Slices ![0, 0, 2] S16x128x1
  slices_S16x128x4_S16x128x1_0_0_0 : S16x128x4.Slices ![0, 0, 0] S16x128x1
  bcast_S16x128_S16x128x1_0_1 : S16x128.BroadcastsInDim S16x128x1 (![0, 1] : Fin 2 → Fin S16x128x1.rank)
  concatenates_S16x128x1_S16x128x1_S16x128x1_S16x128x1_S16x128x4_d2 : Shape.Concatenates [S16x128x1, S16x128x1, S16x128x1, S16x128x1] S16x128x4 2
  slices_S16x128x4_S16x128x2_0_0_0 : S16x128x4.Slices ![0, 0, 0] S16x128x2
  bcast_S16x128x2_S16x128x1x2_0_1_3 : S16x128x2.BroadcastsInDim S16x128x1x2 (![0, 1, 3] : Fin 3 → Fin S16x128x1x2.rank)
  bcast_S16x128x2_S16x1x128x2_0_2_3 : S16x128x2.BroadcastsInDim S16x1x128x2 (![0, 2, 3] : Fin 3 → Fin S16x1x128x2.rank)
  bcast_S16x128x1x2_S16x128x128x2_0_1_2_3 : S16x128x1x2.BroadcastsInDim S16x128x128x2 (![0, 1, 2, 3] : Fin 4 → Fin S16x128x128x2.rank)
  bcast_S16x1x128x2_S16x128x128x2_0_1_2_3 : S16x1x128x2.BroadcastsInDim S16x128x128x2 (![0, 1, 2, 3] : Fin 4 → Fin S16x128x128x2.rank)
  slices_S16x128x4_S16x128x2_0_0_2 : S16x128x4.Slices ![0, 0, 2] S16x128x2
  bcast_S_S16x128x128x2 : S_.BroadcastsInDim S16x128x128x2 (![] : Fin 0 → Fin S16x128x128x2.rank)
  slices_S16x128x128x2_S16x128x128x1_0_0_0_0 : S16x128x128x2.Slices ![0, 0, 0, 0] S16x128x128x1
  shapeCasts_S16x128x128x1_S16x128x128 : S16x128x128x1.ShapeCasts S16x128x128
  slices_S16x128x128x2_S16x128x128x1_0_0_0_1 : S16x128x128x2.Slices ![0, 0, 0, 1] S16x128x128x1
  bcast_S16x128_S16x1x128_0_2 : S16x128.BroadcastsInDim S16x1x128 (![0, 2] : Fin 2 → Fin S16x1x128.rank)
  bcast_S16x128x1_S16x128x128_0_1_2 : S16x128x1.BroadcastsInDim S16x128x128 (![0, 1, 2] : Fin 3 → Fin S16x128x128.rank)
  bcast_S16x1x128_S16x128x128_0_1_2 : S16x1x128.BroadcastsInDim S16x128x128 (![0, 1, 2] : Fin 3 → Fin S16x128x128.rank)
  bcast_S_S128x128 : S_.BroadcastsInDim S128x128 (![] : Fin 0 → Fin S128x128.rank)
  bcast_S128x128_S16x128x128_1_2 : S128x128.BroadcastsInDim S16x128x128 (![1, 2] : Fin 2 → Fin S16x128x128.rank)
  reducesTo_S16x128x128_S16_d1_2 : S16x128x128.ReducesTo [1, 2] S16
  reducesTo_S16_S_d0 : S16.ReducesTo [0] S_
  bcast_S_S1 : S_.BroadcastsInDim S1 (![] : Fin 0 → Fin S1.rank)
  concatenates_S1_S1_S2_d0 : Shape.Concatenates [S1, S1] S2 0
  dot_S320x320_S320x2048_S320x2048_0_0_1_1_n_n_wf : DotDims.WF S320x320 S320x2048 S320x2048 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8x320x320.size a ≤ S16x8x320x320.size a
  hwx0_0 : ∀ i : grid0.Coords, EltTy.bits .f32 = 32 ∨ (Rect.block (s := S16x8x320x320) S1x8x320x320.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x2048.size a ≤ S16x1x8192.size a
  hwx0_1 : ∀ i : grid0.Coords, EltTy.bits .f32 = 32 ∨ (Rect.block (s := S16x1x8192) S1x1x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x2048.size a ≤ S16x1x8192.size a
  hwx0_2 : ∀ i : grid0.Coords, EltTy.bits .f32 = 32 ∨ (Rect.block (s := S16x1x8192) S1x1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x2048.size a ≤ S16x8x8192.size a
  hwx0_3 : ∀ i : grid0.Coords, EltTy.bits .f32 = 32 ∨ (Rect.block (s := S16x8x8192) S1x8x2048.size (cc0_transform_3 i) (hinb0_3 i)).WholeWords (EltTy.packing .f32)

variable [Facts₀]

def dot_S320x320_S320x2048_S320x2048_0_0_1_1_n_n : DotDims S320x320 S320x2048 S320x2048 where
  lhsContracting := [0]
  rhsContracting := [0]
  lhsNonContracting := [1]
  rhsNonContracting := [1]
  lhsBatch := []
  rhsBatch := []
  wf := dot_S320x320_S320x2048_S320x2048_0_0_1_1_n_n_wf

abbrev win0_0 : Pipeline.Window sig grid0 :=
  Pipeline.Window.ofSpec (Memref.whole main_arg0) S1x8x320x320.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v26) S1x1x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v27) S1x1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v28) S1x8x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x8x320x320 : Shape := ⟨4, ![16, 8, 320, 320]⟩
abbrev S16x8192 : Shape := ⟨2, ![16, 8192]⟩
abbrev S8192x4 : Shape := ⟨2, ![8192, 4]⟩
abbrev S16x8192x2 : Shape := ⟨3, ![16, 8192, 2]⟩
abbrev S16x128x4 : Shape := ⟨3, ![16, 128, 4]⟩
abbrev S8192x2 : Shape := ⟨2, ![8192, 2]⟩
abbrev S_ : Shape := ⟨0, ![]⟩
abbrev S1x8192x2 : Shape := ⟨3, ![1, 8192, 2]⟩
abbrev S16x8192x1 : Shape := ⟨3, ![16, 8192, 1]⟩
abbrev S16x8x8192 : Shape := ⟨3, ![16, 8, 8192]⟩
abbrev S16x1x8192 : Shape := ⟨3, ![16, 1, 8192]⟩
abbrev S8x8192 : Shape := ⟨2, ![8, 8192]⟩
abbrev S16x8192x8 : Shape := ⟨3, ![16, 8192, 8]⟩
abbrev S16x128x64x8 : Shape := ⟨4, ![16, 128, 64, 8]⟩
abbrev S16x128x8 : Shape := ⟨3, ![16, 128, 8]⟩
abbrev S16x128x1x8 : Shape := ⟨4, ![16, 128, 1, 8]⟩
abbrev S16x128x64 : Shape := ⟨3, ![16, 128, 64]⟩
abbrev S16x128 : Shape := ⟨2, ![16, 128]⟩
abbrev S16 : Shape := ⟨1, ![16]⟩
abbrev S16x1x128x8 : Shape := ⟨4, ![16, 1, 128, 8]⟩
abbrev S16x128x128x8 : Shape := ⟨4, ![16, 128, 128, 8]⟩
abbrev S16x128x128 : Shape := ⟨3, ![16, 128, 128]⟩
abbrev S16x128x1 : Shape := ⟨3, ![16, 128, 1]⟩
abbrev S16x128x2 : Shape := ⟨3, ![16, 128, 2]⟩
abbrev S16x128x1x2 : Shape := ⟨4, ![16, 128, 1, 2]⟩
abbrev S16x1x128x2 : Shape := ⟨4, ![16, 1, 128, 2]⟩
abbrev S16x128x128x2 : Shape := ⟨4, ![16, 128, 128, 2]⟩
abbrev S16x128x128x1 : Shape := ⟨4, ![16, 128, 128, 1]⟩
abbrev S16x1x128 : Shape := ⟨3, ![16, 1, 128]⟩
abbrev S128x128 : Shape := ⟨2, ![128, 128]⟩
abbrev S1 : Shape := ⟨1, ![1]⟩
abbrev S2 : Shape := ⟨1, ![2]⟩

abbrev nBuf : Space → Nat
  | .hbm => 473
  | .vmem => 0
  | .smem => 0
  | _ => 0

abbrev hbmTy0_0 (i : Nat) : BufTy := match i % 128 with
  | 0 => ⟨S16x8x320x320, .f32⟩
  | 1 => ⟨S16x8192, .i32⟩
  | 2 => ⟨S8192x4, .f32⟩
  | 3 => ⟨S16x8192x2, .f32⟩
  | 4 => ⟨S16x128x4, .f32⟩
  | 5 => ⟨S8192x2, .f32⟩
  | 6 => ⟨S8192x2, .f32⟩
  | 7 => ⟨S8192x2, .f32⟩
  | 8 => ⟨S_, .f32⟩
  | 9 => ⟨S8192x2, .f32⟩
  | 10 => ⟨S8192x2, .f32⟩
  | 11 => ⟨S1x8192x2, .f32⟩
  | 12 => ⟨S16x8192x2, .f32⟩
  | 13 => ⟨S16x8192x2, .f32⟩
  | 14 => ⟨S16x8192x1, .f32⟩
  | 15 => ⟨S16x8192, .f32⟩
  | 16 => ⟨S16x8192x1, .f32⟩
  | 17 => ⟨S16x8192, .f32⟩
  | 18 => ⟨S16x8192, .f32⟩
  | 19 => ⟨S16x8192, .f32⟩
  | 20 => ⟨S16x8192, .f32⟩
  | 21 => ⟨S_, .f32⟩
  | 22 => ⟨S16x8192, .f32⟩
  | 23 => ⟨S16x8192, .f32⟩
  | 24 => ⟨S16x8192, .f32⟩
  | 25 => ⟨S_, .f32⟩
  | 26 => ⟨S16x8192, .f32⟩
  | 27 => ⟨S16x8192, .f32⟩
  | 28 => ⟨S_, .f32⟩
  | 29 => ⟨S16x8192, .f32⟩
  | 30 => ⟨S16x8192, .i1⟩
  | 31 => ⟨S_, .f32⟩
  | 32 => ⟨S16x8192, .f32⟩
  | 33 => ⟨S16x8192, .i1⟩
  | 34 => ⟨S16x8192, .i1⟩
  | 35 => ⟨S_, .f32⟩
  | 36 => ⟨S16x8192, .f32⟩
  | 37 => ⟨S16x8192, .i1⟩
  | 38 => ⟨S16x8192, .i1⟩
  | 39 => ⟨S_, .f32⟩
  | 40 => ⟨S16x8192, .f32⟩
  | 41 => ⟨S16x8192, .i1⟩
  | 42 => ⟨S16x8192, .i1⟩
  | 43 => ⟨S_, .i32⟩
  | 44 => ⟨S_, .i32⟩
  | 45 => ⟨S_, .f32⟩
  | 46 => ⟨S16x8192, .f32⟩
  | 47 => ⟨S16x8192, .f32⟩
  | 48 => ⟨S_, .f32⟩
  | 49 => ⟨S16x8192, .f32⟩
  | 50 => ⟨S16x8192, .f32⟩
  | 51 => ⟨S16x8192, .i32⟩
  | 52 => ⟨S_, .i32⟩
  | 53 => ⟨S_, .i32⟩
  | 54 => ⟨S_, .f32⟩
  | 55 => ⟨S16x8192, .f32⟩
  | 56 => ⟨S16x8192, .f32⟩
  | 57 => ⟨S_, .f32⟩
  | 58 => ⟨S16x8192, .f32⟩
  | 59 => ⟨S16x8192, .f32⟩
  | 60 => ⟨S16x8192, .i32⟩
  | 61 => ⟨S_, .i32⟩
  | 62 => ⟨S16x8192, .i32⟩
  | 63 => ⟨S16x8192, .i1⟩
  | 64 => ⟨S_, .i32⟩
  | 65 => ⟨S16x8192, .i32⟩
  | 66 => ⟨S16x8192, .i32⟩
  | 67 => ⟨S16x8192, .i32⟩
  | 68 => ⟨S_, .i32⟩
  | 69 => ⟨S16x8192, .i32⟩
  | 70 => ⟨S16x8192, .i1⟩
  | 71 => ⟨S_, .i32⟩
  | 72 => ⟨S16x8192, .i32⟩
  | 73 => ⟨S16x8192, .i32⟩
  | 74 => ⟨S16x8192, .i32⟩
  | 75 => ⟨S16x8192x1, .i32⟩
  | 76 => ⟨S16x8192x1, .i32⟩
  | 77 => ⟨S16x8192x2, .i32⟩
  | 78 => ⟨S16x8x8192, .f32⟩
  | 79 => ⟨S16x1x8192, .i1⟩
  | 80 => ⟨S_, .f32⟩
  | 81 => ⟨S_, .f32⟩
  | 82 => ⟨S16x8x8192, .i1⟩
  | 83 => ⟨S8x8192, .f32⟩
  | 84 => ⟨S16x8x8192, .f32⟩
  | 85 => ⟨S16x8x8192, .f32⟩
  | 86 => ⟨S16x8192, .f32⟩
  | 87 => ⟨S16x1x8192, .f32⟩
  | 88 => ⟨S16x8x8192, .f32⟩
  | 89 => ⟨S16x8x8192, .f32⟩
  | 90 => ⟨S_, .f32⟩
  | 91 => ⟨S16x8192, .f32⟩
  | 92 => ⟨S16x8192, .f32⟩
  | 93 => ⟨S_, .f32⟩
  | 94 => ⟨S16x8192, .f32⟩
  | 95 => ⟨S16x8192, .i1⟩
  | 96 => ⟨S_, .f32⟩
  | 97 => ⟨S16x8192, .f32⟩
  | 98 => ⟨S16x8192, .i1⟩
  | 99 => ⟨S16x8192, .i1⟩
  | 100 => ⟨S_, .f32⟩
  | 101 => ⟨S16x8192, .f32⟩
  | 102 => ⟨S16x8192, .i1⟩
  | 103 => ⟨S16x8192, .i1⟩
  | 104 => ⟨S_, .f32⟩
  | 105 => ⟨S16x8192, .f32⟩
  | 106 => ⟨S16x8192, .i1⟩
  | 107 => ⟨S16x8192, .i1⟩
  | 108 => ⟨S_, .i32⟩
  | 109 => ⟨S_, .i32⟩
  | 110 => ⟨S_, .f32⟩
  | 111 => ⟨S16x8192, .f32⟩
  | 112 => ⟨S16x8192, .f32⟩
  | 113 => ⟨S_, .f32⟩
  | 114 => ⟨S16x8192, .f32⟩
  | 115 => ⟨S16x8192, .f32⟩
  | 116 => ⟨S16x8192, .i32⟩
  | 117 => ⟨S_, .i32⟩
  | 118 => ⟨S_, .i32⟩
  | 119 => ⟨S_, .f32⟩
  | 120 => ⟨S16x8192, .f32⟩
  | 121 => ⟨S16x8192, .f32⟩
  | 122 => ⟨S_, .f32⟩
  | 123 => ⟨S16x8192, .f32⟩
  | 124 => ⟨S16x8192, .f32⟩
  | 125 => ⟨S16x8192, .i32⟩
  | 126 => ⟨S_, .i32⟩
  | 127 => ⟨S16x8192, .i32⟩
  | _ => ⟨S16x8x320x320, .f32⟩

abbrev hbmTy0_1 (i : Nat) : BufTy := match i % 128 with
  | 0 => ⟨S16x8192, .i1⟩
  | 1 => ⟨S_, .i32⟩
  | 2 => ⟨S16x8192, .i32⟩
  | 3 => ⟨S16x8192, .i32⟩
  | 4 => ⟨S16x8192, .i32⟩
  | 5 => ⟨S_, .i32⟩
  | 6 => ⟨S16x8192, .i32⟩
  | 7 => ⟨S16x8192, .i1⟩
  | 8 => ⟨S_, .i32⟩
  | 9 => ⟨S16x8192, .i32⟩
  | 10 => ⟨S16x8192, .i32⟩
  | 11 => ⟨S16x8192, .i32⟩
  | 12 => ⟨S16x8192x1, .i32⟩
  | 13 => ⟨S16x8192x1, .i32⟩
  | 14 => ⟨S16x8192x2, .i32⟩
  | 15 => ⟨S16x8x8192, .f32⟩
  | 16 => ⟨S16x1x8192, .i1⟩
  | 17 => ⟨S_, .f32⟩
  | 18 => ⟨S_, .f32⟩
  | 19 => ⟨S16x8x8192, .i1⟩
  | 20 => ⟨S8x8192, .f32⟩
  | 21 => ⟨S16x8x8192, .f32⟩
  | 22 => ⟨S16x8x8192, .f32⟩
  | 23 => ⟨S16x8192, .f32⟩
  | 24 => ⟨S16x1x8192, .f32⟩
  | 25 => ⟨S16x8x8192, .f32⟩
  | 26 => ⟨S16x8x8192, .f32⟩
  | 27 => ⟨S16x8x8192, .f32⟩
  | 28 => ⟨S_, .f32⟩
  | 29 => ⟨S16x8192, .f32⟩
  | 30 => ⟨S16x8192, .f32⟩
  | 31 => ⟨S_, .f32⟩
  | 32 => ⟨S16x8192, .f32⟩
  | 33 => ⟨S16x8192, .i1⟩
  | 34 => ⟨S_, .f32⟩
  | 35 => ⟨S16x8192, .f32⟩
  | 36 => ⟨S16x8192, .i1⟩
  | 37 => ⟨S16x8192, .i1⟩
  | 38 => ⟨S_, .f32⟩
  | 39 => ⟨S16x8192, .f32⟩
  | 40 => ⟨S16x8192, .i1⟩
  | 41 => ⟨S16x8192, .i1⟩
  | 42 => ⟨S_, .f32⟩
  | 43 => ⟨S16x8192, .f32⟩
  | 44 => ⟨S16x8192, .i1⟩
  | 45 => ⟨S16x8192, .i1⟩
  | 46 => ⟨S_, .i32⟩
  | 47 => ⟨S_, .i32⟩
  | 48 => ⟨S_, .f32⟩
  | 49 => ⟨S16x8192, .f32⟩
  | 50 => ⟨S16x8192, .f32⟩
  | 51 => ⟨S_, .f32⟩
  | 52 => ⟨S16x8192, .f32⟩
  | 53 => ⟨S16x8192, .f32⟩
  | 54 => ⟨S16x8192, .i32⟩
  | 55 => ⟨S_, .i32⟩
  | 56 => ⟨S_, .i32⟩
  | 57 => ⟨S_, .f32⟩
  | 58 => ⟨S16x8192, .f32⟩
  | 59 => ⟨S16x8192, .f32⟩
  | 60 => ⟨S_, .f32⟩
  | 61 => ⟨S16x8192, .f32⟩
  | 62 => ⟨S16x8192, .f32⟩
  | 63 => ⟨S16x8192, .i32⟩
  | 64 => ⟨S_, .i32⟩
  | 65 => ⟨S16x8192, .i32⟩
  | 66 => ⟨S16x8192, .i1⟩
  | 67 => ⟨S_, .i32⟩
  | 68 => ⟨S16x8192, .i32⟩
  | 69 => ⟨S16x8192, .i32⟩
  | 70 => ⟨S16x8192, .i32⟩
  | 71 => ⟨S_, .i32⟩
  | 72 => ⟨S16x8192, .i32⟩
  | 73 => ⟨S16x8192, .i1⟩
  | 74 => ⟨S_, .i32⟩
  | 75 => ⟨S16x8192, .i32⟩
  | 76 => ⟨S16x8192, .i32⟩
  | 77 => ⟨S16x8192, .i32⟩
  | 78 => ⟨S16x8192x1, .i32⟩
  | 79 => ⟨S16x8192x1, .i32⟩
  | 80 => ⟨S16x8192x2, .i32⟩
  | 81 => ⟨S16x8x8192, .f32⟩
  | 82 => ⟨S16x1x8192, .i1⟩
  | 83 => ⟨S_, .f32⟩
  | 84 => ⟨S_, .f32⟩
  | 85 => ⟨S16x8x8192, .i1⟩
  | 86 => ⟨S8x8192, .f32⟩
  | 87 => ⟨S16x8x8192, .f32⟩
  | 88 => ⟨S16x8x8192, .f32⟩
  | 89 => ⟨S16x8192, .f32⟩
  | 90 => ⟨S16x1x8192, .f32⟩
  | 91 => ⟨S16x8x8192, .f32⟩
  | 92 => ⟨S16x8x8192, .f32⟩
  | 93 => ⟨S16x8x8192, .f32⟩
  | 94 => ⟨S_, .f32⟩
  | 95 => ⟨S16x8192, .f32⟩
  | 96 => ⟨S16x8192, .f32⟩
  | 97 => ⟨S_, .f32⟩
  | 98 => ⟨S16x8192, .f32⟩
  | 99 => ⟨S16x8192, .f32⟩
  | 100 => ⟨S_, .f32⟩
  | 101 => ⟨S16x8192, .f32⟩
  | 102 => ⟨S16x8192, .i1⟩
  | 103 => ⟨S_, .f32⟩
  | 104 => ⟨S16x8192, .f32⟩
  | 105 => ⟨S16x8192, .i1⟩
  | 106 => ⟨S16x8192, .i1⟩
  | 107 => ⟨S_, .f32⟩
  | 108 => ⟨S16x8192, .f32⟩
  | 109 => ⟨S16x8192, .i1⟩
  | 110 => ⟨S16x8192, .i1⟩
  | 111 => ⟨S_, .f32⟩
  | 112 => ⟨S16x8192, .f32⟩
  | 113 => ⟨S16x8192, .i1⟩
  | 114 => ⟨S16x8192, .i1⟩
  | 115 => ⟨S_, .i32⟩
  | 116 => ⟨S_, .i32⟩
  | 117 => ⟨S_, .f32⟩
  | 118 => ⟨S16x8192, .f32⟩
  | 119 => ⟨S16x8192, .f32⟩
  | 120 => ⟨S_, .f32⟩
  | 121 => ⟨S16x8192, .f32⟩
  | 122 => ⟨S16x8192, .f32⟩
  | 123 => ⟨S16x8192, .i32⟩
  | 124 => ⟨S_, .i32⟩
  | 125 => ⟨S_, .i32⟩
  | 126 => ⟨S_, .f32⟩
  | 127 => ⟨S16x8192, .f32⟩
  | _ => ⟨S16x8x320x320, .f32⟩

abbrev hbmTy0_2 (i : Nat) : BufTy := match i % 128 with
  | 0 => ⟨S16x8192, .f32⟩
  | 1 => ⟨S_, .f32⟩
  | 2 => ⟨S16x8192, .f32⟩
  | 3 => ⟨S16x8192, .f32⟩
  | 4 => ⟨S16x8192, .i32⟩
  | 5 => ⟨S_, .i32⟩
  | 6 => ⟨S16x8192, .i32⟩
  | 7 => ⟨S16x8192, .i1⟩
  | 8 => ⟨S_, .i32⟩
  | 9 => ⟨S16x8192, .i32⟩
  | 10 => ⟨S16x8192, .i32⟩
  | 11 => ⟨S16x8192, .i32⟩
  | 12 => ⟨S_, .i32⟩
  | 13 => ⟨S16x8192, .i32⟩
  | 14 => ⟨S16x8192, .i1⟩
  | 15 => ⟨S_, .i32⟩
  | 16 => ⟨S16x8192, .i32⟩
  | 17 => ⟨S16x8192, .i32⟩
  | 18 => ⟨S16x8192, .i32⟩
  | 19 => ⟨S16x8192x1, .i32⟩
  | 20 => ⟨S16x8192x1, .i32⟩
  | 21 => ⟨S16x8192x2, .i32⟩
  | 22 => ⟨S16x8x8192, .f32⟩
  | 23 => ⟨S16x1x8192, .i1⟩
  | 24 => ⟨S_, .f32⟩
  | 25 => ⟨S_, .f32⟩
  | 26 => ⟨S16x8x8192, .i1⟩
  | 27 => ⟨S8x8192, .f32⟩
  | 28 => ⟨S16x8x8192, .f32⟩
  | 29 => ⟨S16x8x8192, .f32⟩
  | 30 => ⟨S16x8192, .f32⟩
  | 31 => ⟨S16x1x8192, .f32⟩
  | 32 => ⟨S16x8x8192, .f32⟩
  | 33 => ⟨S16x8x8192, .f32⟩
  | 34 => ⟨S16x8x8192, .f32⟩
  | 35 => ⟨S16x8192x8, .f32⟩
  | 36 => ⟨S16x128x64x8, .f32⟩
  | 37 => ⟨S_, .f32⟩
  | 38 => ⟨S16x128x8, .f32⟩
  | 39 => ⟨S_, .f32⟩
  | 40 => ⟨S16x128x8, .f32⟩
  | 41 => ⟨S16x128x8, .f32⟩
  | 42 => ⟨S16x128x1x8, .f32⟩
  | 43 => ⟨S16x128x64x8, .f32⟩
  | 44 => ⟨S16x128x64x8, .f32⟩
  | 45 => ⟨S16x128x64x8, .f32⟩
  | 46 => ⟨S_, .f32⟩
  | 47 => ⟨S16x128x64, .f32⟩
  | 48 => ⟨S_, .f32⟩
  | 49 => ⟨S16x128x64, .f32⟩
  | 50 => ⟨S16x128x64, .f32⟩
  | 51 => ⟨S_, .f32⟩
  | 52 => ⟨S16x128x64, .f32⟩
  | 53 => ⟨S16x128x64, .i1⟩
  | 54 => ⟨S_, .f32⟩
  | 55 => ⟨S_, .f32⟩
  | 56 => ⟨S16x128x64, .f32⟩
  | 57 => ⟨S16x128x64, .f32⟩
  | 58 => ⟨S_, .f32⟩
  | 59 => ⟨S16x128, .f32⟩
  | 60 => ⟨S_, .f32⟩
  | 61 => ⟨S16x128, .f32⟩
  | 62 => ⟨S16x128, .f32⟩
  | 63 => ⟨S_, .f32⟩
  | 64 => ⟨S16, .f32⟩
  | 65 => ⟨S_, .f32⟩
  | 66 => ⟨S16, .f32⟩
  | 67 => ⟨S16, .f32⟩
  | 68 => ⟨S16x128x1x8, .f32⟩
  | 69 => ⟨S16x1x128x8, .f32⟩
  | 70 => ⟨S16x128x128x8, .f32⟩
  | 71 => ⟨S16x128x128x8, .f32⟩
  | 72 => ⟨S16x128x128x8, .f32⟩
  | 73 => ⟨S16x128x128x8, .f32⟩
  | 74 => ⟨S_, .f32⟩
  | 75 => ⟨S16x128x128, .f32⟩
  | 76 => ⟨S_, .f32⟩
  | 77 => ⟨S16x128x128, .f32⟩
  | 78 => ⟨S16x128x128, .f32⟩
  | 79 => ⟨S16x128x128, .f32⟩
  | 80 => ⟨S16x128x128, .f32⟩
  | 81 => ⟨S16x128x1, .f32⟩
  | 82 => ⟨S16x128, .f32⟩
  | 83 => ⟨S16x128x1, .f32⟩
  | 84 => ⟨S16x128, .f32⟩
  | 85 => ⟨S16x128, .f32⟩
  | 86 => ⟨S_, .f32⟩
  | 87 => ⟨S16x128, .f32⟩
  | 88 => ⟨S16x128, .f32⟩
  | 89 => ⟨S16x128x1, .f32⟩
  | 90 => ⟨S16x128, .f32⟩
  | 91 => ⟨S16x128x1, .f32⟩
  | 92 => ⟨S16x128, .f32⟩
  | 93 => ⟨S16x128, .f32⟩
  | 94 => ⟨S_, .f32⟩
  | 95 => ⟨S16x128, .f32⟩
  | 96 => ⟨S16x128, .f32⟩
  | 97 => ⟨S16x128x1, .f32⟩
  | 98 => ⟨S16x128, .f32⟩
  | 99 => ⟨S_, .f32⟩
  | 100 => ⟨S16x128, .f32⟩
  | 101 => ⟨S16x128, .f32⟩
  | 102 => ⟨S16x128, .f32⟩
  | 103 => ⟨S16x128x1, .f32⟩
  | 104 => ⟨S16x128, .f32⟩
  | 105 => ⟨S_, .f32⟩
  | 106 => ⟨S16x128, .f32⟩
  | 107 => ⟨S16x128, .f32⟩
  | 108 => ⟨S16x128, .f32⟩
  | 109 => ⟨S16x128x1, .f32⟩
  | 110 => ⟨S16x128, .f32⟩
  | 111 => ⟨S_, .f32⟩
  | 112 => ⟨S16x128, .f32⟩
  | 113 => ⟨S16x128, .f32⟩
  | 114 => ⟨S16x128, .f32⟩
  | 115 => ⟨S16x128x1, .f32⟩
  | 116 => ⟨S16x128, .f32⟩
  | 117 => ⟨S_, .f32⟩
  | 118 => ⟨S16x128, .f32⟩
  | 119 => ⟨S16x128, .f32⟩
  | 120 => ⟨S16x128, .f32⟩
  | 121 => ⟨S16x128x1, .f32⟩
  | 122 => ⟨S16x128x1, .f32⟩
  | 123 => ⟨S16x128x1, .f32⟩
  | 124 => ⟨S16x128x1, .f32⟩
  | 125 => ⟨S16x128x4, .f32⟩
  | 126 => ⟨S16x128x2, .f32⟩
  | 127 => ⟨S16x128x1x2, .f32⟩
  | _ => ⟨S16x8x320x320, .f32⟩

abbrev hbmTy0_3 (i : Nat) : BufTy := match i % 128 with
  | 0 => ⟨S16x128x2, .f32⟩
  | 1 => ⟨S16x1x128x2, .f32⟩
  | 2 => ⟨S16x128x128x2, .f32⟩
  | 3 => ⟨S16x128x128x2, .f32⟩
  | 4 => ⟨S16x128x128x2, .f32⟩
  | 5 => ⟨S16x128x2, .f32⟩
  | 6 => ⟨S16x128x1x2, .f32⟩
  | 7 => ⟨S16x128x2, .f32⟩
  | 8 => ⟨S16x1x128x2, .f32⟩
  | 9 => ⟨S16x128x128x2, .f32⟩
  | 10 => ⟨S16x128x128x2, .f32⟩
  | 11 => ⟨S16x128x128x2, .f32⟩
  | 12 => ⟨S16x128x128x2, .f32⟩
  | 13 => ⟨S_, .f32⟩
  | 14 => ⟨S16x128x128x2, .f32⟩
  | 15 => ⟨S16x128x128x2, .f32⟩
  | 16 => ⟨S_, .f32⟩
  | 17 => ⟨S_, .f32⟩
  | 18 => ⟨S16x128x128x2, .f32⟩
  | 19 => ⟨S16x128x128x2, .f32⟩
  | 20 => ⟨S16x128x128x1, .f32⟩
  | 21 => ⟨S16x128x128, .f32⟩
  | 22 => ⟨S16x128x128x1, .f32⟩
  | 23 => ⟨S16x128x128, .f32⟩
  | 24 => ⟨S16x128x128, .f32⟩
  | 25 => ⟨S16x128x1, .f32⟩
  | 26 => ⟨S16x128, .f32⟩
  | 27 => ⟨S16x128x1, .f32⟩
  | 28 => ⟨S16x128, .f32⟩
  | 29 => ⟨S16x128, .f32⟩
  | 30 => ⟨S_, .f32⟩
  | 31 => ⟨S16x128, .f32⟩
  | 32 => ⟨S16x128, .f32⟩
  | 33 => ⟨S16x128x1, .f32⟩
  | 34 => ⟨S16x128, .f32⟩
  | 35 => ⟨S16x128x1, .f32⟩
  | 36 => ⟨S16x128, .f32⟩
  | 37 => ⟨S16x128, .f32⟩
  | 38 => ⟨S_, .f32⟩
  | 39 => ⟨S16x128, .f32⟩
  | 40 => ⟨S16x128, .f32⟩
  | 41 => ⟨S16x128, .f32⟩
  | 42 => ⟨S16x128x1, .f32⟩
  | 43 => ⟨S16x1x128, .f32⟩
  | 44 => ⟨S16x128x128, .f32⟩
  | 45 => ⟨S16x128x128, .f32⟩
  | 46 => ⟨S16x128x128, .f32⟩
  | 47 => ⟨S16x128x128, .f32⟩
  | 48 => ⟨S16x128x128, .f32⟩
  | 49 => ⟨S_, .f32⟩
  | 50 => ⟨S16x128x128, .f32⟩
  | 51 => ⟨S16x128x128, .i1⟩
  | 52 => ⟨S_, .f32⟩
  | 53 => ⟨S_, .f32⟩
  | 54 => ⟨S128x128, .f32⟩
  | 55 => ⟨S128x128, .f32⟩
  | 56 => ⟨S16x128x128, .f32⟩
  | 57 => ⟨S16x128x128, .f32⟩
  | 58 => ⟨S16x128x128, .f32⟩
  | 59 => ⟨S_, .f32⟩
  | 60 => ⟨S16x128x128, .f32⟩
  | 61 => ⟨S16x128x128, .i1⟩
  | 62 => ⟨S_, .f32⟩
  | 63 => ⟨S16x128x128, .f32⟩
  | 64 => ⟨S16x128x128, .f32⟩
  | 65 => ⟨S16x128x128, .f32⟩
  | 66 => ⟨S16x128x128, .f32⟩
  | 67 => ⟨S_, .f32⟩
  | 68 => ⟨S16, .f32⟩
  | 69 => ⟨S_, .f32⟩
  | 70 => ⟨S16, .f32⟩
  | 71 => ⟨S16, .f32⟩
  | 72 => ⟨S_, .f32⟩
  | 73 => ⟨S16, .f32⟩
  | 74 => ⟨S16, .f32⟩
  | 75 => ⟨S_, .f32⟩
  | 76 => ⟨S16, .f32⟩
  | 77 => ⟨S16, .f32⟩
  | 78 => ⟨S_, .f32⟩
  | 79 => ⟨S_, .f32⟩
  | 80 => ⟨S_, .f32⟩
  | 81 => ⟨S_, .f32⟩
  | 82 => ⟨S_, .f32⟩
  | 83 => ⟨S_, .f32⟩
  | 84 => ⟨S_, .f32⟩
  | 85 => ⟨S_, .f32⟩
  | 86 => ⟨S1, .f32⟩
  | 87 => ⟨S1, .f32⟩
  | 88 => ⟨S2, .f32⟩
  | _ => ⟨S16x8x320x320, .f32⟩

abbrev hbmTy (i : Nat) : BufTy := match i / 128 with
  | 0 => hbmTy0_0 i
  | 1 => hbmTy0_1 i
  | 2 => hbmTy0_2 i
  | 3 => hbmTy0_3 i
  | _ => ⟨S16x8x320x320, .f32⟩

abbrev bufTy : (tb : Table) → Fin (tcTables nBuf tb) → BufTy
  | .hbm, ⟨i, _⟩ => hbmTy i
  | _, _ => ⟨S16x8x320x320, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_c : Ref sig .tc := ⟨.hbm, 43, rfl⟩
abbrev main_c_6 : Ref sig .tc := ⟨.hbm, 44, rfl⟩
abbrev main_call0_v0 : Ref sig .tc := ⟨.hbm, 45, rfl⟩
abbrev main_call0_v1 : Ref sig .tc := ⟨.hbm, 46, rfl⟩
abbrev main_call0_v2 : Ref sig .tc := ⟨.hbm, 47, rfl⟩
abbrev main_call0_v3 : Ref sig .tc := ⟨.hbm, 48, rfl⟩
abbrev main_call0_v4 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_c_8 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_call1_v3 : Ref sig .tc := ⟨.hbm, 57, rfl⟩
abbrev main_call1_v4 : Ref sig .tc := ⟨.hbm, 58, rfl⟩
abbrev main_v33 : Ref sig .tc := ⟨.hbm, 59, rfl⟩
abbrev main_v34 : Ref sig .tc := ⟨.hbm, 60, rfl⟩
abbrev main_c_9 : Ref sig .tc := ⟨.hbm, 61, rfl⟩
abbrev main_v35 : Ref sig .tc := ⟨.hbm, 62, rfl⟩
abbrev main_v36 : Ref sig .tc := ⟨.hbm, 63, rfl⟩
abbrev main_c_10 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_c_11 : Ref sig .tc := ⟨.hbm, 68, rfl⟩
abbrev main_v40 : Ref sig .tc := ⟨.hbm, 69, rfl⟩
abbrev main_v41 : Ref sig .tc := ⟨.hbm, 70, rfl⟩
abbrev main_c_12 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_cst_13 : Ref sig .tc := ⟨.hbm, 80, rfl⟩
abbrev main_call2_v0 : Ref sig .tc := ⟨.hbm, 81, rfl⟩
abbrev main_call2_v1 : Ref sig .tc := ⟨.hbm, 82, rfl⟩
abbrev main_call2_v2 : Ref sig .tc := ⟨.hbm, 83, rfl⟩
abbrev main_call2_v3 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_cst_14 : Ref sig .tc := ⟨.hbm, 90, rfl⟩
abbrev main_v55 : Ref sig .tc := ⟨.hbm, 91, rfl⟩
abbrev main_v56 : Ref sig .tc := ⟨.hbm, 92, rfl⟩
abbrev main_cst_15 : Ref sig .tc := ⟨.hbm, 93, rfl⟩
abbrev main_v57 : Ref sig .tc := ⟨.hbm, 94, rfl⟩
abbrev main_v58 : Ref sig .tc := ⟨.hbm, 95, rfl⟩
abbrev main_cst_16 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_cst_17 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_cst_18 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_c_19 : Ref sig .tc := ⟨.hbm, 108, rfl⟩
abbrev main_c_20 : Ref sig .tc := ⟨.hbm, 109, rfl⟩
abbrev main_call3_v0 : Ref sig .tc := ⟨.hbm, 110, rfl⟩
abbrev main_call3_v1 : Ref sig .tc := ⟨.hbm, 111, rfl⟩
abbrev main_call3_v2 : Ref sig .tc := ⟨.hbm, 112, rfl⟩
abbrev main_call3_v3 : Ref sig .tc := ⟨.hbm, 113, rfl⟩
abbrev main_call3_v4 : Ref sig .tc := ⟨.hbm, 114, rfl⟩
abbrev main_v68 : Ref sig .tc := ⟨.hbm, 115, rfl⟩
abbrev main_v69 : Ref sig .tc := ⟨.hbm, 116, rfl⟩
abbrev main_c_21 : Ref sig .tc := ⟨.hbm, 117, rfl⟩
abbrev main_c_22 : Ref sig .tc := ⟨.hbm, 118, rfl⟩
abbrev main_call4_v0 : Ref sig .tc := ⟨.hbm, 119, rfl⟩
abbrev main_call4_v1 : Ref sig .tc := ⟨.hbm, 120, rfl⟩
abbrev main_call4_v2 : Ref sig .tc := ⟨.hbm, 121, rfl⟩
abbrev main_call4_v3 : Ref sig .tc := ⟨.hbm, 122, rfl⟩
abbrev main_call4_v4 : Ref sig .tc := ⟨.hbm, 123, rfl⟩
abbrev main_v70 : Ref sig .tc := ⟨.hbm, 124, rfl⟩
abbrev main_v71 : Ref sig .tc := ⟨.hbm, 125, rfl⟩
abbrev main_c_23 : Ref sig .tc := ⟨.hbm, 126, rfl⟩
abbrev main_v72 : Ref sig .tc := ⟨.hbm, 127, rfl⟩
abbrev main_v73 : Ref sig .tc := ⟨.hbm, 128, rfl⟩
abbrev main_c_24 : Ref sig .tc := ⟨.hbm, 129, rfl⟩
abbrev main_v74 : Ref sig .tc := ⟨.hbm, 130, rfl⟩
abbrev main_v75 : Ref sig .tc := ⟨.hbm, 131, rfl⟩
abbrev main_v76 : Ref sig .tc := ⟨.hbm, 132, rfl⟩
abbrev main_c_25 : Ref sig .tc := ⟨.hbm, 133, rfl⟩
abbrev main_v77 : Ref sig .tc := ⟨.hbm, 134, rfl⟩
abbrev main_v78 : Ref sig .tc := ⟨.hbm, 135, rfl⟩
abbrev main_c_26 : Ref sig .tc := ⟨.hbm, 136, rfl⟩
abbrev main_v79 : Ref sig .tc := ⟨.hbm, 137, rfl⟩
abbrev main_v80 : Ref sig .tc := ⟨.hbm, 138, rfl⟩
abbrev main_v81 : Ref sig .tc := ⟨.hbm, 139, rfl⟩
abbrev main_v82 : Ref sig .tc := ⟨.hbm, 140, rfl⟩
abbrev main_v83 : Ref sig .tc := ⟨.hbm, 141, rfl⟩
abbrev main_v84 : Ref sig .tc := ⟨.hbm, 142, rfl⟩
abbrev main_v85 : Ref sig .tc := ⟨.hbm, 143, rfl⟩
abbrev main_v86 : Ref sig .tc := ⟨.hbm, 144, rfl⟩
abbrev main_cst_27 : Ref sig .tc := ⟨.hbm, 145, rfl⟩
abbrev main_call5_v0 : Ref sig .tc := ⟨.hbm, 146, rfl⟩
abbrev main_call5_v1 : Ref sig .tc := ⟨.hbm, 147, rfl⟩
abbrev main_call5_v2 : Ref sig .tc := ⟨.hbm, 148, rfl⟩
abbrev main_call5_v3 : Ref sig .tc := ⟨.hbm, 149, rfl⟩
abbrev main_v87 : Ref sig .tc := ⟨.hbm, 150, rfl⟩
abbrev main_v88 : Ref sig .tc := ⟨.hbm, 151, rfl⟩
abbrev main_v89 : Ref sig .tc := ⟨.hbm, 152, rfl⟩
abbrev main_v90 : Ref sig .tc := ⟨.hbm, 153, rfl⟩
abbrev main_v91 : Ref sig .tc := ⟨.hbm, 154, rfl⟩
abbrev main_v92 : Ref sig .tc := ⟨.hbm, 155, rfl⟩
abbrev main_cst_28 : Ref sig .tc := ⟨.hbm, 156, rfl⟩
abbrev main_v93 : Ref sig .tc := ⟨.hbm, 157, rfl⟩
abbrev main_v94 : Ref sig .tc := ⟨.hbm, 158, rfl⟩
abbrev main_cst_29 : Ref sig .tc := ⟨.hbm, 159, rfl⟩
abbrev main_v95 : Ref sig .tc := ⟨.hbm, 160, rfl⟩
abbrev main_v96 : Ref sig .tc := ⟨.hbm, 161, rfl⟩
abbrev main_cst_30 : Ref sig .tc := ⟨.hbm, 162, rfl⟩
abbrev main_v97 : Ref sig .tc := ⟨.hbm, 163, rfl⟩
abbrev main_v98 : Ref sig .tc := ⟨.hbm, 164, rfl⟩
abbrev main_v99 : Ref sig .tc := ⟨.hbm, 165, rfl⟩
abbrev main_cst_31 : Ref sig .tc := ⟨.hbm, 166, rfl⟩
abbrev main_v100 : Ref sig .tc := ⟨.hbm, 167, rfl⟩
abbrev main_v101 : Ref sig .tc := ⟨.hbm, 168, rfl⟩
abbrev main_v102 : Ref sig .tc := ⟨.hbm, 169, rfl⟩
abbrev main_cst_32 : Ref sig .tc := ⟨.hbm, 170, rfl⟩
abbrev main_v103 : Ref sig .tc := ⟨.hbm, 171, rfl⟩
abbrev main_v104 : Ref sig .tc := ⟨.hbm, 172, rfl⟩
abbrev main_v105 : Ref sig .tc := ⟨.hbm, 173, rfl⟩
abbrev main_c_33 : Ref sig .tc := ⟨.hbm, 174, rfl⟩
abbrev main_c_34 : Ref sig .tc := ⟨.hbm, 175, rfl⟩
abbrev main_call6_v0 : Ref sig .tc := ⟨.hbm, 176, rfl⟩
abbrev main_call6_v1 : Ref sig .tc := ⟨.hbm, 177, rfl⟩
abbrev main_call6_v2 : Ref sig .tc := ⟨.hbm, 178, rfl⟩
abbrev main_call6_v3 : Ref sig .tc := ⟨.hbm, 179, rfl⟩
abbrev main_call6_v4 : Ref sig .tc := ⟨.hbm, 180, rfl⟩
abbrev main_v106 : Ref sig .tc := ⟨.hbm, 181, rfl⟩
abbrev main_v107 : Ref sig .tc := ⟨.hbm, 182, rfl⟩
abbrev main_c_35 : Ref sig .tc := ⟨.hbm, 183, rfl⟩
abbrev main_c_36 : Ref sig .tc := ⟨.hbm, 184, rfl⟩
abbrev main_call7_v0 : Ref sig .tc := ⟨.hbm, 185, rfl⟩
abbrev main_call7_v1 : Ref sig .tc := ⟨.hbm, 186, rfl⟩
abbrev main_call7_v2 : Ref sig .tc := ⟨.hbm, 187, rfl⟩
abbrev main_call7_v3 : Ref sig .tc := ⟨.hbm, 188, rfl⟩
abbrev main_call7_v4 : Ref sig .tc := ⟨.hbm, 189, rfl⟩
abbrev main_v108 : Ref sig .tc := ⟨.hbm, 190, rfl⟩
abbrev main_v109 : Ref sig .tc := ⟨.hbm, 191, rfl⟩
abbrev main_c_37 : Ref sig .tc := ⟨.hbm, 192, rfl⟩
abbrev main_v110 : Ref sig .tc := ⟨.hbm, 193, rfl⟩
abbrev main_v111 : Ref sig .tc := ⟨.hbm, 194, rfl⟩
abbrev main_c_38 : Ref sig .tc := ⟨.hbm, 195, rfl⟩
abbrev main_v112 : Ref sig .tc := ⟨.hbm, 196, rfl⟩
abbrev main_v113 : Ref sig .tc := ⟨.hbm, 197, rfl⟩
abbrev main_v114 : Ref sig .tc := ⟨.hbm, 198, rfl⟩
abbrev main_c_39 : Ref sig .tc := ⟨.hbm, 199, rfl⟩
abbrev main_v115 : Ref sig .tc := ⟨.hbm, 200, rfl⟩
abbrev main_v116 : Ref sig .tc := ⟨.hbm, 201, rfl⟩
abbrev main_c_40 : Ref sig .tc := ⟨.hbm, 202, rfl⟩
abbrev main_v117 : Ref sig .tc := ⟨.hbm, 203, rfl⟩
abbrev main_v118 : Ref sig .tc := ⟨.hbm, 204, rfl⟩
abbrev main_v119 : Ref sig .tc := ⟨.hbm, 205, rfl⟩
abbrev main_v120 : Ref sig .tc := ⟨.hbm, 206, rfl⟩
abbrev main_v121 : Ref sig .tc := ⟨.hbm, 207, rfl⟩
abbrev main_v122 : Ref sig .tc := ⟨.hbm, 208, rfl⟩
abbrev main_v123 : Ref sig .tc := ⟨.hbm, 209, rfl⟩
abbrev main_v124 : Ref sig .tc := ⟨.hbm, 210, rfl⟩
abbrev main_cst_41 : Ref sig .tc := ⟨.hbm, 211, rfl⟩
abbrev main_call8_v0 : Ref sig .tc := ⟨.hbm, 212, rfl⟩
abbrev main_call8_v1 : Ref sig .tc := ⟨.hbm, 213, rfl⟩
abbrev main_call8_v2 : Ref sig .tc := ⟨.hbm, 214, rfl⟩
abbrev main_call8_v3 : Ref sig .tc := ⟨.hbm, 215, rfl⟩
abbrev main_v125 : Ref sig .tc := ⟨.hbm, 216, rfl⟩
abbrev main_v126 : Ref sig .tc := ⟨.hbm, 217, rfl⟩
abbrev main_v127 : Ref sig .tc := ⟨.hbm, 218, rfl⟩
abbrev main_v128 : Ref sig .tc := ⟨.hbm, 219, rfl⟩
abbrev main_v129 : Ref sig .tc := ⟨.hbm, 220, rfl⟩
abbrev main_v130 : Ref sig .tc := ⟨.hbm, 221, rfl⟩
abbrev main_cst_42 : Ref sig .tc := ⟨.hbm, 222, rfl⟩
abbrev main_v131 : Ref sig .tc := ⟨.hbm, 223, rfl⟩
abbrev main_v132 : Ref sig .tc := ⟨.hbm, 224, rfl⟩
abbrev main_cst_43 : Ref sig .tc := ⟨.hbm, 225, rfl⟩
abbrev main_v133 : Ref sig .tc := ⟨.hbm, 226, rfl⟩
abbrev main_v134 : Ref sig .tc := ⟨.hbm, 227, rfl⟩
abbrev main_cst_44 : Ref sig .tc := ⟨.hbm, 228, rfl⟩
abbrev main_v135 : Ref sig .tc := ⟨.hbm, 229, rfl⟩
abbrev main_v136 : Ref sig .tc := ⟨.hbm, 230, rfl⟩
abbrev main_cst_45 : Ref sig .tc := ⟨.hbm, 231, rfl⟩
abbrev main_v137 : Ref sig .tc := ⟨.hbm, 232, rfl⟩
abbrev main_v138 : Ref sig .tc := ⟨.hbm, 233, rfl⟩
abbrev main_v139 : Ref sig .tc := ⟨.hbm, 234, rfl⟩
abbrev main_cst_46 : Ref sig .tc := ⟨.hbm, 235, rfl⟩
abbrev main_v140 : Ref sig .tc := ⟨.hbm, 236, rfl⟩
abbrev main_v141 : Ref sig .tc := ⟨.hbm, 237, rfl⟩
abbrev main_v142 : Ref sig .tc := ⟨.hbm, 238, rfl⟩
abbrev main_cst_47 : Ref sig .tc := ⟨.hbm, 239, rfl⟩
abbrev main_v143 : Ref sig .tc := ⟨.hbm, 240, rfl⟩
abbrev main_v144 : Ref sig .tc := ⟨.hbm, 241, rfl⟩
abbrev main_v145 : Ref sig .tc := ⟨.hbm, 242, rfl⟩
abbrev main_c_48 : Ref sig .tc := ⟨.hbm, 243, rfl⟩
abbrev main_c_49 : Ref sig .tc := ⟨.hbm, 244, rfl⟩
abbrev main_call9_v0 : Ref sig .tc := ⟨.hbm, 245, rfl⟩
abbrev main_call9_v1 : Ref sig .tc := ⟨.hbm, 246, rfl⟩
abbrev main_call9_v2 : Ref sig .tc := ⟨.hbm, 247, rfl⟩
abbrev main_call9_v3 : Ref sig .tc := ⟨.hbm, 248, rfl⟩
abbrev main_call9_v4 : Ref sig .tc := ⟨.hbm, 249, rfl⟩
abbrev main_v146 : Ref sig .tc := ⟨.hbm, 250, rfl⟩
abbrev main_v147 : Ref sig .tc := ⟨.hbm, 251, rfl⟩
abbrev main_c_50 : Ref sig .tc := ⟨.hbm, 252, rfl⟩
abbrev main_c_51 : Ref sig .tc := ⟨.hbm, 253, rfl⟩
abbrev main_call10_v0 : Ref sig .tc := ⟨.hbm, 254, rfl⟩
abbrev main_call10_v1 : Ref sig .tc := ⟨.hbm, 255, rfl⟩
abbrev main_call10_v2 : Ref sig .tc := ⟨.hbm, 256, rfl⟩
abbrev main_call10_v3 : Ref sig .tc := ⟨.hbm, 257, rfl⟩
abbrev main_call10_v4 : Ref sig .tc := ⟨.hbm, 258, rfl⟩
abbrev main_v148 : Ref sig .tc := ⟨.hbm, 259, rfl⟩
abbrev main_v149 : Ref sig .tc := ⟨.hbm, 260, rfl⟩
abbrev main_c_52 : Ref sig .tc := ⟨.hbm, 261, rfl⟩
abbrev main_v150 : Ref sig .tc := ⟨.hbm, 262, rfl⟩
abbrev main_v151 : Ref sig .tc := ⟨.hbm, 263, rfl⟩
abbrev main_c_53 : Ref sig .tc := ⟨.hbm, 264, rfl⟩
abbrev main_v152 : Ref sig .tc := ⟨.hbm, 265, rfl⟩
abbrev main_v153 : Ref sig .tc := ⟨.hbm, 266, rfl⟩
abbrev main_v154 : Ref sig .tc := ⟨.hbm, 267, rfl⟩
abbrev main_c_54 : Ref sig .tc := ⟨.hbm, 268, rfl⟩
abbrev main_v155 : Ref sig .tc := ⟨.hbm, 269, rfl⟩
abbrev main_v156 : Ref sig .tc := ⟨.hbm, 270, rfl⟩
abbrev main_c_55 : Ref sig .tc := ⟨.hbm, 271, rfl⟩
abbrev main_v157 : Ref sig .tc := ⟨.hbm, 272, rfl⟩
abbrev main_v158 : Ref sig .tc := ⟨.hbm, 273, rfl⟩
abbrev main_v159 : Ref sig .tc := ⟨.hbm, 274, rfl⟩
abbrev main_v160 : Ref sig .tc := ⟨.hbm, 275, rfl⟩
abbrev main_v161 : Ref sig .tc := ⟨.hbm, 276, rfl⟩
abbrev main_v162 : Ref sig .tc := ⟨.hbm, 277, rfl⟩
abbrev main_v163 : Ref sig .tc := ⟨.hbm, 278, rfl⟩
abbrev main_v164 : Ref sig .tc := ⟨.hbm, 279, rfl⟩
abbrev main_cst_56 : Ref sig .tc := ⟨.hbm, 280, rfl⟩
abbrev main_call11_v0 : Ref sig .tc := ⟨.hbm, 281, rfl⟩
abbrev main_call11_v1 : Ref sig .tc := ⟨.hbm, 282, rfl⟩
abbrev main_call11_v2 : Ref sig .tc := ⟨.hbm, 283, rfl⟩
abbrev main_call11_v3 : Ref sig .tc := ⟨.hbm, 284, rfl⟩
abbrev main_v165 : Ref sig .tc := ⟨.hbm, 285, rfl⟩
abbrev main_v166 : Ref sig .tc := ⟨.hbm, 286, rfl⟩
abbrev main_v167 : Ref sig .tc := ⟨.hbm, 287, rfl⟩
abbrev main_v168 : Ref sig .tc := ⟨.hbm, 288, rfl⟩
abbrev main_v169 : Ref sig .tc := ⟨.hbm, 289, rfl⟩
abbrev main_v170 : Ref sig .tc := ⟨.hbm, 290, rfl⟩
abbrev main_v171 : Ref sig .tc := ⟨.hbm, 291, rfl⟩
abbrev main_v172 : Ref sig .tc := ⟨.hbm, 292, rfl⟩
abbrev main_cst_57 : Ref sig .tc := ⟨.hbm, 293, rfl⟩
abbrev main_v173 : Ref sig .tc := ⟨.hbm, 294, rfl⟩
abbrev main_cst_58 : Ref sig .tc := ⟨.hbm, 295, rfl⟩
abbrev main_v174 : Ref sig .tc := ⟨.hbm, 296, rfl⟩
abbrev main_v175 : Ref sig .tc := ⟨.hbm, 297, rfl⟩
abbrev main_v176 : Ref sig .tc := ⟨.hbm, 298, rfl⟩
abbrev main_v177 : Ref sig .tc := ⟨.hbm, 299, rfl⟩
abbrev main_v178 : Ref sig .tc := ⟨.hbm, 300, rfl⟩
abbrev main_v179 : Ref sig .tc := ⟨.hbm, 301, rfl⟩
abbrev main_cst_59 : Ref sig .tc := ⟨.hbm, 302, rfl⟩
abbrev main_v180 : Ref sig .tc := ⟨.hbm, 303, rfl⟩
abbrev main_cst_60 : Ref sig .tc := ⟨.hbm, 304, rfl⟩
abbrev main_v181 : Ref sig .tc := ⟨.hbm, 305, rfl⟩
abbrev main_v182 : Ref sig .tc := ⟨.hbm, 306, rfl⟩
abbrev main_cst_61 : Ref sig .tc := ⟨.hbm, 307, rfl⟩
abbrev main_v183 : Ref sig .tc := ⟨.hbm, 308, rfl⟩
abbrev main_v184 : Ref sig .tc := ⟨.hbm, 309, rfl⟩
abbrev main_cst_62 : Ref sig .tc := ⟨.hbm, 310, rfl⟩
abbrev main_call12_v0 : Ref sig .tc := ⟨.hbm, 311, rfl⟩
abbrev main_call12_v1 : Ref sig .tc := ⟨.hbm, 312, rfl⟩
abbrev main_v185 : Ref sig .tc := ⟨.hbm, 313, rfl⟩
abbrev main_cst_63 : Ref sig .tc := ⟨.hbm, 314, rfl⟩
abbrev main_v186 : Ref sig .tc := ⟨.hbm, 315, rfl⟩
abbrev main_cst_64 : Ref sig .tc := ⟨.hbm, 316, rfl⟩
abbrev main_v187 : Ref sig .tc := ⟨.hbm, 317, rfl⟩
abbrev main_v188 : Ref sig .tc := ⟨.hbm, 318, rfl⟩
abbrev main_cst_65 : Ref sig .tc := ⟨.hbm, 319, rfl⟩
abbrev main_v189 : Ref sig .tc := ⟨.hbm, 320, rfl⟩
abbrev main_cst_66 : Ref sig .tc := ⟨.hbm, 321, rfl⟩
abbrev main_v190 : Ref sig .tc := ⟨.hbm, 322, rfl⟩
abbrev main_v191 : Ref sig .tc := ⟨.hbm, 323, rfl⟩
abbrev main_v192 : Ref sig .tc := ⟨.hbm, 324, rfl⟩
abbrev main_v193 : Ref sig .tc := ⟨.hbm, 325, rfl⟩
abbrev main_v194 : Ref sig .tc := ⟨.hbm, 326, rfl⟩
abbrev main_v195 : Ref sig .tc := ⟨.hbm, 327, rfl⟩
abbrev main_v196 : Ref sig .tc := ⟨.hbm, 328, rfl⟩
abbrev main_v197 : Ref sig .tc := ⟨.hbm, 329, rfl⟩
abbrev main_cst_67 : Ref sig .tc := ⟨.hbm, 330, rfl⟩
abbrev main_v198 : Ref sig .tc := ⟨.hbm, 331, rfl⟩
abbrev main_cst_68 : Ref sig .tc := ⟨.hbm, 332, rfl⟩
abbrev main_v199 : Ref sig .tc := ⟨.hbm, 333, rfl⟩
abbrev main_v200 : Ref sig .tc := ⟨.hbm, 334, rfl⟩
abbrev main_v201 : Ref sig .tc := ⟨.hbm, 335, rfl⟩
abbrev main_v202 : Ref sig .tc := ⟨.hbm, 336, rfl⟩
abbrev main_v203 : Ref sig .tc := ⟨.hbm, 337, rfl⟩
abbrev main_v204 : Ref sig .tc := ⟨.hbm, 338, rfl⟩
abbrev main_v205 : Ref sig .tc := ⟨.hbm, 339, rfl⟩
abbrev main_v206 : Ref sig .tc := ⟨.hbm, 340, rfl⟩
abbrev main_v207 : Ref sig .tc := ⟨.hbm, 341, rfl⟩
abbrev main_cst_69 : Ref sig .tc := ⟨.hbm, 342, rfl⟩
abbrev main_v208 : Ref sig .tc := ⟨.hbm, 343, rfl⟩
abbrev main_v209 : Ref sig .tc := ⟨.hbm, 344, rfl⟩
abbrev main_v210 : Ref sig .tc := ⟨.hbm, 345, rfl⟩
abbrev main_v211 : Ref sig .tc := ⟨.hbm, 346, rfl⟩
abbrev main_v212 : Ref sig .tc := ⟨.hbm, 347, rfl⟩
abbrev main_v213 : Ref sig .tc := ⟨.hbm, 348, rfl⟩
abbrev main_v214 : Ref sig .tc := ⟨.hbm, 349, rfl⟩
abbrev main_cst_70 : Ref sig .tc := ⟨.hbm, 350, rfl⟩
abbrev main_v215 : Ref sig .tc := ⟨.hbm, 351, rfl⟩
abbrev main_v216 : Ref sig .tc := ⟨.hbm, 352, rfl⟩
abbrev main_v217 : Ref sig .tc := ⟨.hbm, 353, rfl⟩
abbrev main_v218 : Ref sig .tc := ⟨.hbm, 354, rfl⟩
abbrev main_cst_71 : Ref sig .tc := ⟨.hbm, 355, rfl⟩
abbrev main_v219 : Ref sig .tc := ⟨.hbm, 356, rfl⟩
abbrev main_v220 : Ref sig .tc := ⟨.hbm, 357, rfl⟩
abbrev main_v221 : Ref sig .tc := ⟨.hbm, 358, rfl⟩
abbrev main_v222 : Ref sig .tc := ⟨.hbm, 359, rfl⟩
abbrev main_v223 : Ref sig .tc := ⟨.hbm, 360, rfl⟩
abbrev main_cst_72 : Ref sig .tc := ⟨.hbm, 361, rfl⟩
abbrev main_v224 : Ref sig .tc := ⟨.hbm, 362, rfl⟩
abbrev main_v225 : Ref sig .tc := ⟨.hbm, 363, rfl⟩
abbrev main_v226 : Ref sig .tc := ⟨.hbm, 364, rfl⟩
abbrev main_v227 : Ref sig .tc := ⟨.hbm, 365, rfl⟩
abbrev main_v228 : Ref sig .tc := ⟨.hbm, 366, rfl⟩
abbrev main_cst_73 : Ref sig .tc := ⟨.hbm, 367, rfl⟩
abbrev main_v229 : Ref sig .tc := ⟨.hbm, 368, rfl⟩
abbrev main_v230 : Ref sig .tc := ⟨.hbm, 369, rfl⟩
abbrev main_v231 : Ref sig .tc := ⟨.hbm, 370, rfl⟩
abbrev main_v232 : Ref sig .tc := ⟨.hbm, 371, rfl⟩
abbrev main_v233 : Ref sig .tc := ⟨.hbm, 372, rfl⟩
abbrev main_cst_74 : Ref sig .tc := ⟨.hbm, 373, rfl⟩
abbrev main_v234 : Ref sig .tc := ⟨.hbm, 374, rfl⟩
abbrev main_v235 : Ref sig .tc := ⟨.hbm, 375, rfl⟩
abbrev main_v236 : Ref sig .tc := ⟨.hbm, 376, rfl⟩
abbrev main_v237 : Ref sig .tc := ⟨.hbm, 377, rfl⟩
abbrev main_v238 : Ref sig .tc := ⟨.hbm, 378, rfl⟩
abbrev main_v239 : Ref sig .tc := ⟨.hbm, 379, rfl⟩
abbrev main_v240 : Ref sig .tc := ⟨.hbm, 380, rfl⟩
abbrev main_v241 : Ref sig .tc := ⟨.hbm, 381, rfl⟩
abbrev main_v242 : Ref sig .tc := ⟨.hbm, 382, rfl⟩
abbrev main_v243 : Ref sig .tc := ⟨.hbm, 383, rfl⟩
abbrev main_v244 : Ref sig .tc := ⟨.hbm, 384, rfl⟩
abbrev main_v245 : Ref sig .tc := ⟨.hbm, 385, rfl⟩
abbrev main_v246 : Ref sig .tc := ⟨.hbm, 386, rfl⟩
abbrev main_v247 : Ref sig .tc := ⟨.hbm, 387, rfl⟩
abbrev main_v248 : Ref sig .tc := ⟨.hbm, 388, rfl⟩
abbrev main_v249 : Ref sig .tc := ⟨.hbm, 389, rfl⟩
abbrev main_v250 : Ref sig .tc := ⟨.hbm, 390, rfl⟩
abbrev main_v251 : Ref sig .tc := ⟨.hbm, 391, rfl⟩
abbrev main_v252 : Ref sig .tc := ⟨.hbm, 392, rfl⟩
abbrev main_v253 : Ref sig .tc := ⟨.hbm, 393, rfl⟩
abbrev main_v254 : Ref sig .tc := ⟨.hbm, 394, rfl⟩
abbrev main_v255 : Ref sig .tc := ⟨.hbm, 395, rfl⟩
abbrev main_v256 : Ref sig .tc := ⟨.hbm, 396, rfl⟩
abbrev main_cst_75 : Ref sig .tc := ⟨.hbm, 397, rfl⟩
abbrev main_v257 : Ref sig .tc := ⟨.hbm, 398, rfl⟩
abbrev main_v258 : Ref sig .tc := ⟨.hbm, 399, rfl⟩
abbrev main_cst_76 : Ref sig .tc := ⟨.hbm, 400, rfl⟩
abbrev main_call13_v0 : Ref sig .tc := ⟨.hbm, 401, rfl⟩
abbrev main_call13_v1 : Ref sig .tc := ⟨.hbm, 402, rfl⟩
abbrev main_v259 : Ref sig .tc := ⟨.hbm, 403, rfl⟩
abbrev main_v260 : Ref sig .tc := ⟨.hbm, 404, rfl⟩
abbrev main_v261 : Ref sig .tc := ⟨.hbm, 405, rfl⟩
abbrev main_v262 : Ref sig .tc := ⟨.hbm, 406, rfl⟩
abbrev main_v263 : Ref sig .tc := ⟨.hbm, 407, rfl⟩
abbrev main_v264 : Ref sig .tc := ⟨.hbm, 408, rfl⟩
abbrev main_v265 : Ref sig .tc := ⟨.hbm, 409, rfl⟩
abbrev main_v266 : Ref sig .tc := ⟨.hbm, 410, rfl⟩
abbrev main_v267 : Ref sig .tc := ⟨.hbm, 411, rfl⟩
abbrev main_v268 : Ref sig .tc := ⟨.hbm, 412, rfl⟩
abbrev main_v269 : Ref sig .tc := ⟨.hbm, 413, rfl⟩
abbrev main_cst_77 : Ref sig .tc := ⟨.hbm, 414, rfl⟩
abbrev main_v270 : Ref sig .tc := ⟨.hbm, 415, rfl⟩
abbrev main_v271 : Ref sig .tc := ⟨.hbm, 416, rfl⟩
abbrev main_v272 : Ref sig .tc := ⟨.hbm, 417, rfl⟩
abbrev main_v273 : Ref sig .tc := ⟨.hbm, 418, rfl⟩
abbrev main_v274 : Ref sig .tc := ⟨.hbm, 419, rfl⟩
abbrev main_v275 : Ref sig .tc := ⟨.hbm, 420, rfl⟩
abbrev main_v276 : Ref sig .tc := ⟨.hbm, 421, rfl⟩
abbrev main_cst_78 : Ref sig .tc := ⟨.hbm, 422, rfl⟩
abbrev main_v277 : Ref sig .tc := ⟨.hbm, 423, rfl⟩
abbrev main_v278 : Ref sig .tc := ⟨.hbm, 424, rfl⟩
abbrev main_v279 : Ref sig .tc := ⟨.hbm, 425, rfl⟩
abbrev main_v280 : Ref sig .tc := ⟨.hbm, 426, rfl⟩
abbrev main_v281 : Ref sig .tc := ⟨.hbm, 427, rfl⟩
abbrev main_v282 : Ref sig .tc := ⟨.hbm, 428, rfl⟩
abbrev main_v283 : Ref sig .tc := ⟨.hbm, 429, rfl⟩
abbrev main_v284 : Ref sig .tc := ⟨.hbm, 430, rfl⟩
abbrev main_v285 : Ref sig .tc := ⟨.hbm, 431, rfl⟩
abbrev main_v286 : Ref sig .tc := ⟨.hbm, 432, rfl⟩
abbrev main_cst_79 : Ref sig .tc := ⟨.hbm, 433, rfl⟩
abbrev main_v287 : Ref sig .tc := ⟨.hbm, 434, rfl⟩
abbrev main_v288 : Ref sig .tc := ⟨.hbm, 435, rfl⟩
abbrev main_cst_80 : Ref sig .tc := ⟨.hbm, 436, rfl⟩
abbrev main_cst_81 : Ref sig .tc := ⟨.hbm, 437, rfl⟩
abbrev main_call14_v0 : Ref sig .tc := ⟨.hbm, 438, rfl⟩
abbrev main_call14_v1 : Ref sig .tc := ⟨.hbm, 439, rfl⟩
abbrev main_call14_v2 : Ref sig .tc := ⟨.hbm, 440, rfl⟩
abbrev main_call14_v3 : Ref sig .tc := ⟨.hbm, 441, rfl⟩
abbrev main_v289 : Ref sig .tc := ⟨.hbm, 442, rfl⟩
abbrev main_cst_82 : Ref sig .tc := ⟨.hbm, 443, rfl⟩
abbrev main_v290 : Ref sig .tc := ⟨.hbm, 444, rfl⟩
abbrev main_v291 : Ref sig .tc := ⟨.hbm, 445, rfl⟩
abbrev main_cst_83 : Ref sig .tc := ⟨.hbm, 446, rfl⟩
abbrev main_call15_v0 : Ref sig .tc := ⟨.hbm, 447, rfl⟩
abbrev main_v292 : Ref sig .tc := ⟨.hbm, 448, rfl⟩
abbrev main_v293 : Ref sig .tc := ⟨.hbm, 449, rfl⟩
abbrev main_v294 : Ref sig .tc := ⟨.hbm, 450, rfl⟩
abbrev main_cst_84 : Ref sig .tc := ⟨.hbm, 451, rfl⟩
abbrev main_v295 : Ref sig .tc := ⟨.hbm, 452, rfl⟩
abbrev main_cst_85 : Ref sig .tc := ⟨.hbm, 453, rfl⟩
abbrev main_v296 : Ref sig .tc := ⟨.hbm, 454, rfl⟩
abbrev main_v297 : Ref sig .tc := ⟨.hbm, 455, rfl⟩
abbrev main_cst_86 : Ref sig .tc := ⟨.hbm, 456, rfl⟩
abbrev main_v298 : Ref sig .tc := ⟨.hbm, 457, rfl⟩
abbrev main_v299 : Ref sig .tc := ⟨.hbm, 458, rfl⟩
abbrev main_cst_87 : Ref sig .tc := ⟨.hbm, 459, rfl⟩
abbrev main_v300 : Ref sig .tc := ⟨.hbm, 460, rfl⟩
abbrev main_v301 : Ref sig .tc := ⟨.hbm, 461, rfl⟩
abbrev main_cst_88 : Ref sig .tc := ⟨.hbm, 462, rfl⟩
abbrev main_v302 : Ref sig .tc := ⟨.hbm, 463, rfl⟩
abbrev main_cst_89 : Ref sig .tc := ⟨.hbm, 464, rfl⟩
abbrev main_v303 : Ref sig .tc := ⟨.hbm, 465, rfl⟩
abbrev main_cst_90 : Ref sig .tc := ⟨.hbm, 466, rfl⟩
abbrev main_v304 : Ref sig .tc := ⟨.hbm, 467, rfl⟩
abbrev main_cst_91 : Ref sig .tc := ⟨.hbm, 468, rfl⟩
abbrev main_v305 : Ref sig .tc := ⟨.hbm, 469, rfl⟩
abbrev main_v306 : Ref sig .tc := ⟨.hbm, 470, rfl⟩
abbrev main_v307 : Ref sig .tc := ⟨.hbm, 471, rfl⟩
abbrev main_v308 : Ref sig .tc := ⟨.hbm, 472, rfl⟩

abbrev nD : Nat := 1
abbrev τ : Topo := Topo.v7x

variable {F : FTy → Type} [FloatOps F]

class Facts₀ : Prop where
  slices_S8192x4_S8192x2_0_0 : S8192x4.Slices ![0, 0] S8192x2
  slices_S8192x4_S8192x2_0_2 : S8192x4.Slices ![0, 2] S8192x2
  bcast_S_S8192x2 : S_.BroadcastsInDim S8192x2 (![] : Fin 0 → Fin S8192x2.rank)
  bcast_S8192x2_S1x8192x2_1_2 : S8192x2.BroadcastsInDim S1x8192x2 (![1, 2] : Fin 2 → Fin S1x8192x2.rank)
  bcast_S1x8192x2_S16x8192x2_0_1_2 : S1x8192x2.BroadcastsInDim S16x8192x2 (![0, 1, 2] : Fin 3 → Fin S16x8192x2.rank)
  slices_S16x8192x2_S16x8192x1_0_0_0 : S16x8192x2.Slices ![0, 0, 0] S16x8192x1
  shapeCasts_S16x8192x1_S16x8192 : S16x8192x1.ShapeCasts S16x8192
  slices_S16x8192x2_S16x8192x1_0_0_1 : S16x8192x2.Slices ![0, 0, 1] S16x8192x1
  bcast_S_S16x8192 : S_.BroadcastsInDim S16x8192 (![] : Fin 0 → Fin S16x8192.rank)
  bcast_S16x8192_S16x8192x1_0_1 : S16x8192.BroadcastsInDim S16x8192x1 (![0, 1] : Fin 2 → Fin S16x8192x1.rank)
  concatenates_S16x8192x1_S16x8192x1_S16x8192x2_d2 : Shape.Concatenates [S16x8192x1, S16x8192x1] S16x8192x2 2
  bcast_S16x8192_S16x1x8192_0_2 : S16x8192.BroadcastsInDim S16x1x8192 (![0, 2] : Fin 2 → Fin S16x1x8192.rank)
  bcast_S16x1x8192_S16x8x8192_0_1_2 : S16x1x8192.BroadcastsInDim S16x8x8192 (![0, 1, 2] : Fin 3 → Fin S16x8x8192.rank)
  bcast_S_S8x8192 : S_.BroadcastsInDim S8x8192 (![] : Fin 0 → Fin S8x8192.rank)
  bcast_S8x8192_S16x8x8192_1_2 : S8x8192.BroadcastsInDim S16x8x8192 (![1, 2] : Fin 2 → Fin S16x8x8192.rank)
  transposes_S16x8x8192_S16x8192x8_0_2_1 : S16x8x8192.Transposes [0, 2, 1] S16x8192x8
  shapeCasts_S16x8192x8_S16x128x64x8 : S16x8192x8.ShapeCasts S16x128x64x8
  reducesTo_S16x128x64x8_S16x128x8_d2 : S16x128x64x8.ReducesTo [2] S16x128x8
  h_S_ : 0 < S_.numel
  bcast_S_S16x128x8 : S_.BroadcastsInDim S16x128x8 (![] : Fin 0 → Fin S16x128x8.rank)
  bcast_S16x128x8_S16x128x1x8_0_1_3 : S16x128x8.BroadcastsInDim S16x128x1x8 (![0, 1, 3] : Fin 3 → Fin S16x128x1x8.rank)
  bcast_S16x128x1x8_S16x128x64x8_0_1_2_3 : S16x128x1x8.BroadcastsInDim S16x128x64x8 (![0, 1, 2, 3] : Fin 4 → Fin S16x128x64x8.rank)
  reducesTo_S16x128x64x8_S16x128x64_d3 : S16x128x64x8.ReducesTo [3] S16x128x64
  bcast_S_S16x128x64 : S_.BroadcastsInDim S16x128x64 (![] : Fin 0 → Fin S16x128x64.rank)
  reducesTo_S16x128x64_S16x128_d2 : S16x128x64.ReducesTo [2] S16x128
  bcast_S_S16x128 : S_.BroadcastsInDim S16x128 (![] : Fin 0 → Fin S16x128.rank)
  reducesTo_S16x128_S16_d1 : S16x128.ReducesTo [1] S16
  bcast_S_S16 : S_.BroadcastsInDim S16 (![] : Fin 0 → Fin S16.rank)
  bcast_S16x128x8_S16x1x128x8_0_2_3 : S16x128x8.BroadcastsInDim S16x1x128x8 (![0, 2, 3] : Fin 3 → Fin S16x1x128x8.rank)
  bcast_S16x128x1x8_S16x128x128x8_0_1_2_3 : S16x128x1x8.BroadcastsInDim S16x128x128x8 (![0, 1, 2, 3] : Fin 4 → Fin S16x128x128x8.rank)
  bcast_S16x1x128x8_S16x128x128x8_0_1_2_3 : S16x1x128x8.BroadcastsInDim S16x128x128x8 (![0, 1, 2, 3] : Fin 4 → Fin S16x128x128x8.rank)
  reducesTo_S16x128x128x8_S16x128x128_d3 : S16x128x128x8.ReducesTo [3] S16x128x128
  bcast_S_S16x128x128 : S_.BroadcastsInDim S16x128x128 (![] : Fin 0 → Fin S16x128x128.rank)
  slices_S16x128x4_S16x128x1_0_0_3 : S16x128x4.Slices ![0, 0, 3] S16x128x1
  shapeCasts_S16x128x1_S16x128 : S16x128x1.ShapeCasts S16x128
  slices_S16x128x4_S16x128x1_0_0_1 : S16x128x4.Slices ![0, 0, 1] S16x128x1
  slices_S16x128x4_S16x128x1_0_0_2 : S16x128x4.Slices ![0, 0, 2] S16x128x1
  slices_S16x128x4_S16x128x1_0_0_0 : S16x128x4.Slices ![0, 0, 0] S16x128x1
  bcast_S16x128_S16x128x1_0_1 : S16x128.BroadcastsInDim S16x128x1 (![0, 1] : Fin 2 → Fin S16x128x1.rank)
  concatenates_S16x128x1_S16x128x1_S16x128x1_S16x128x1_S16x128x4_d2 : Shape.Concatenates [S16x128x1, S16x128x1, S16x128x1, S16x128x1] S16x128x4 2
  slices_S16x128x4_S16x128x2_0_0_0 : S16x128x4.Slices ![0, 0, 0] S16x128x2
  bcast_S16x128x2_S16x128x1x2_0_1_3 : S16x128x2.BroadcastsInDim S16x128x1x2 (![0, 1, 3] : Fin 3 → Fin S16x128x1x2.rank)
  bcast_S16x128x2_S16x1x128x2_0_2_3 : S16x128x2.BroadcastsInDim S16x1x128x2 (![0, 2, 3] : Fin 3 → Fin S16x1x128x2.rank)
  bcast_S16x128x1x2_S16x128x128x2_0_1_2_3 : S16x128x1x2.BroadcastsInDim S16x128x128x2 (![0, 1, 2, 3] : Fin 4 → Fin S16x128x128x2.rank)
  bcast_S16x1x128x2_S16x128x128x2_0_1_2_3 : S16x1x128x2.BroadcastsInDim S16x128x128x2 (![0, 1, 2, 3] : Fin 4 → Fin S16x128x128x2.rank)
  slices_S16x128x4_S16x128x2_0_0_2 : S16x128x4.Slices ![0, 0, 2] S16x128x2
  bcast_S_S16x128x128x2 : S_.BroadcastsInDim S16x128x128x2 (![] : Fin 0 → Fin S16x128x128x2.rank)
  slices_S16x128x128x2_S16x128x128x1_0_0_0_0 : S16x128x128x2.Slices ![0, 0, 0, 0] S16x128x128x1
  shapeCasts_S16x128x128x1_S16x128x128 : S16x128x128x1.ShapeCasts S16x128x128
  slices_S16x128x128x2_S16x128x128x1_0_0_0_1 : S16x128x128x2.Slices ![0, 0, 0, 1] S16x128x128x1
  bcast_S16x128_S16x1x128_0_2 : S16x128.BroadcastsInDim S16x1x128 (![0, 2] : Fin 2 → Fin S16x1x128.rank)
  bcast_S16x128x1_S16x128x128_0_1_2 : S16x128x1.BroadcastsInDim S16x128x128 (![0, 1, 2] : Fin 3 → Fin S16x128x128.rank)
  bcast_S16x1x128_S16x128x128_0_1_2 : S16x1x128.BroadcastsInDim S16x128x128 (![0, 1, 2] : Fin 3 → Fin S16x128x128.rank)
  bcast_S_S128x128 : S_.BroadcastsInDim S128x128 (![] : Fin 0 → Fin S128x128.rank)
  bcast_S128x128_S16x128x128_1_2 : S128x128.BroadcastsInDim S16x128x128 (![1, 2] : Fin 2 → Fin S16x128x128.rank)
  reducesTo_S16x128x128_S16_d1_2 : S16x128x128.ReducesTo [1, 2] S16
  reducesTo_S16_S_d0 : S16.ReducesTo [0] S_
  bcast_S_S1 : S_.BroadcastsInDim S1 (![] : Fin 0 → Fin S1.rank)
  concatenates_S1_S1_S2_d0 : Shape.Concatenates [S1, S1] S2 0
  gather_S16x8x320x320_S16x8192x2_S16x8x8192_1_23_0_0_23_2_1811_wf : GatherDims.WF S16x8x320x320 S16x8192x2 S16x8x8192 [1] [2, 3] [0] [2, 3] [0] 2 ![1, 8, 1, 1]

variable [Facts₀]

def gather_S16x8x320x320_S16x8192x2_S16x8x8192_1_23_0_0_23_2_1811 : GatherDims S16x8x320x320 S16x8192x2 S16x8x8192 where
  offsetDims := [1]
  collapsedSliceDims := [2, 3]
  operandBatchingDims := [0]
  startIndicesBatchingDims := [0]
  startIndexMap := [2, 3]
  indexVectorDim := 2
  sliceSizes := ![1, 8, 1, 1]
  wf := gather_S16x8x320x320_S16x8192x2_S16x8x8192_1_23_0_0_23_2_1811_wf

class Facts : Prop extends Facts₀ where

variable [Facts]
-- ==== Proof.SamplerData.lean ====
/-
  The sampling kernel's proof data, stated once for both frames and for the value.

  The program is: host lines that build the two coordinate rows, ONE region on a 16 × 4 grid, and host lines that reduce
  the region's result to the two losses. At grid point (b, j) the region's body is handed image b whole (8 × 320 × 320),
  and the j-th run of 2048 entries of each coordinate row of image b, and writes the j-th run of 2048 columns of the
  8 × 8192 result of image b. What it writes is a pure function of what it loads (`tileVal`): for channel k and column n,
  the sum over columns w of (the sum over rows h of image[k, h, w] · rowWeight[h, n]) · colWeight[w, n], where the two
  weight tables hold, in each column n, the two bilinear weights of the point's neighbouring rows (columns) at those
  rows' (columns') positions, zero where a neighbour falls outside the image, and zero elsewhere.
-/
import proofs.«169545_j87136296501797_2_alg».proof.Proof.Gen.KernelIdeal.Launch
import proofs.«169545_j87136296501797_2_alg».proof.Proof.Gen.KernelIdeal.Skeleton
import proofs.«169545_j87136296501797_2_alg».proof.Proof.Gen.KernelIdeal.Points
import Idealize.ShloMosaic.Lib.Pipeline.FrameBody
import Idealize.ShloMosaic.Lib.Pipeline.FrameSuffix

noncomputable section

namespace Cert.KernelIdeal.Sampler

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Idealize.ShloMosaic.Pipeline (Dat Cfg Window)

variable {F : FTy → Type} [FloatOps F]

/-! ## The host lines around the region -/

/-- The host lines before the region, stretch by stretch. -/
abbrev linesBefore : List (List (HloOp τ sig (Elt F))) := [hostOps0, hostOps0_1, hostOps0_2, hostOps0_3, hostOps0_4]

/-- The host lines after the region, stretch by stretch. -/
abbrev linesAfter : List (List (HloOp τ sig (Elt F))) :=
  [hostOps1, hostOps1_1, hostOps1_2, hostOps1_3, hostOps1_4, hostOps1_5, hostOps1_6, hostOps1_7, hostOps1_8]

variable (m : (ℓ : Loc nD τ sig) → Buf (Elt F) ℓ)

/-- Core `c`'s buffer contents when the region is entered: the launch contents after the lines before the region. -/
abbrev V0 (c : Dev nD) : Valuation τ sig (Elt F) := StableHlo.after (List.flatten linesBefore) (fun b => m (c, b))

/-- The same, read at a TensorCore reference. -/
abbrev V (c : Dev nD) (b : Ref sig .tc) : Buf (Elt F) ((c : Thread nD τ).loc b) := V0 m c (Proc.devRef .tc b)

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The rectangles the body loads and stores through -/

/-- A coordinate row's whole block. -/
abbrev rRow : Rect S1x1x2048 := Rect.unit (s := S1x1x2048) ![0, 0, 0] S1x1x2048.size inb_S1x1x2048_S1x1x2048_0_0_0
/-- Channel `k` of the image block, `k = 0 … 7`. -/
abbrev rCh0 : Rect S1x8x320x320 := Rect.unit (s := S1x8x320x320) ![0, 0, 0, 0] S1x1x320x320.size inb_S1x8x320x320_S1x1x320x320_0_0_0_0
abbrev rCh1 : Rect S1x8x320x320 := Rect.unit (s := S1x8x320x320) ![0, 1, 0, 0] S1x1x320x320.size inb_S1x8x320x320_S1x1x320x320_0_1_0_0
abbrev rCh2 : Rect S1x8x320x320 := Rect.unit (s := S1x8x320x320) ![0, 2, 0, 0] S1x1x320x320.size inb_S1x8x320x320_S1x1x320x320_0_2_0_0
abbrev rCh3 : Rect S1x8x320x320 := Rect.unit (s := S1x8x320x320) ![0, 3, 0, 0] S1x1x320x320.size inb_S1x8x320x320_S1x1x320x320_0_3_0_0
abbrev rCh4 : Rect S1x8x320x320 := Rect.unit (s := S1x8x320x320) ![0, 4, 0, 0] S1x1x320x320.size inb_S1x8x320x320_S1x1x320x320_0_4_0_0
abbrev rCh5 : Rect S1x8x320x320 := Rect.unit (s := S1x8x320x320) ![0, 5, 0, 0] S1x1x320x320.size inb_S1x8x320x320_S1x1x320x320_0_5_0_0
abbrev rCh6 : Rect S1x8x320x320 := Rect.unit (s := S1x8x320x320) ![0, 6, 0, 0] S1x1x320x320.size inb_S1x8x320x320_S1x1x320x320_0_6_0_0
abbrev rCh7 : Rect S1x8x320x320 := Rect.unit (s := S1x8x320x320) ![0, 7, 0, 0] S1x1x320x320.size inb_S1x8x320x320_S1x1x320x320_0_7_0_0
/-- The result block, whole. -/
abbrev rOut : Rect S1x8x2048 := Rect.unit (s := S1x8x2048) ![0, 0, 0] S1x8x2048.size inb_S1x8x2048_S1x8x2048_0_0_0

/-! ## What the body stores, from what it loads -/

/-- The column-weight table (320 × 2048) from the x-coordinate row: in column n, the weight 1 − frac at the clamped
    floor's position and frac at the clamped floor-plus-one's, each zeroed when that neighbour is outside 0 … 319. -/
def colWeight (cx : Vec F S1x1x2048 .f32) : FVec F S320x2048 .f32 :=
  k0_pay19 (k0_pay6 cx) (k0_pay7 cx) (k0_pay10 cx) (k0_pay11 cx) (k0_pay14 cx) (k0_pay15 cx) 0#32 319#32

/-- The row-weight table (320 × 2048) from the y-coordinate row, in the matrix unit's operand format. -/
def rowWeight (cy : Vec F S1x1x2048 .f32) : FVec F S320x2048 .bf16 :=
  k0_pay22 (k0_pay18 (k0_pay8 cy) (k0_pay17 cy)) (k0_pay20 (k0_pay9 cy) (k0_pay12 cy) (k0_pay16 cy)) (k0_pay21 (k0_pay13 cy))

/-- One channel's row of 2048 sampled values: contract the image's rows against the row weights, multiply by the
    column weights, sum over the columns. The first four channels are computed by this payload, -/
def channelRow (cx cy : Vec F S1x1x2048 .f32) (img : Vec F S1x1x320x320 .f32) : FVec F S2048 .f32 :=
  k0_pay23 (k0_pay18 (k0_pay8 cy) (k0_pay17 cy)) (colWeight cx) (k0_pay20 (k0_pay9 cy) (k0_pay12 cy) (k0_pay16 cy)) (k0_pay21 (k0_pay13 cy)) img

/-- The block the body stores: the eight channels' rows stacked, as a function of the two coordinate rows and the eight
    channel images it loads. (Channels 1 … 3 repeat channel 0's operations under their own payload names; channels 4 … 7
    are computed inside the stacking payload.) -/
def tileVal (cx cy : Vec F S1x1x2048 .f32) (p0 p1 p2 p3 p4 p5 p6 p7 : Vec F S1x1x320x320 .f32) : FVec F S1x8x2048 .f32 :=
  k0_pay1 (k0_pay27 (colWeight cx) (rowWeight cy)
    (channelRow cx cy p0)
    (k0_pay24 (k0_pay18 (k0_pay8 cy) (k0_pay17 cy)) (colWeight cx) (k0_pay20 (k0_pay9 cy) (k0_pay12 cy) (k0_pay16 cy)) (k0_pay21 (k0_pay13 cy)) p1)
    (k0_pay25 (k0_pay18 (k0_pay8 cy) (k0_pay17 cy)) (colWeight cx) (k0_pay20 (k0_pay9 cy) (k0_pay12 cy) (k0_pay16 cy)) (k0_pay21 (k0_pay13 cy)) p2)
    (k0_pay26 (k0_pay18 (k0_pay8 cy) (k0_pay17 cy)) (colWeight cx) (k0_pay20 (k0_pay9 cy) (k0_pay12 cy) (k0_pay16 cy)) (k0_pay21 (k0_pay13 cy)) p3)
    p4 p5 p6 p7)

/-- The result window's staging buffer after the body, from the three input windows' blocks: its one store, covering. -/
def outBlock (img : Vec F S1x8x320x320 .f32) (bx by_ : Vec F S1x1x2048 .f32) : Vec F S1x8x2048 .f32 :=
  View.canon [⟨rOut, tileVal (View.ld bx rRow) (View.ld by_ rRow)
    (View.ld img rCh0) (View.ld img rCh1) (View.ld img rCh2) (View.ld img rCh3)
    (View.ld img rCh4) (View.ld img rCh5) (View.ld img rCh6) (View.ld img rCh7)⟩]

/-! ## The pipeline's proof data -/

/-- On core `c`: the arrays as the region finds them; after the body at point `t` each input's buffer at its block and the
    result's at `outBlock` of the three input blocks; the region invariant the plain one (the scoped rest and the generator
    register, untouched); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlock (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_img (c : Dev nD) (t : Fin cfg0.N) : (dats m 0 c).after 0 t = iblk m c 0 t := by dsimp only [dats]
theorem after_cx (c : Dev nD) (t : Fin cfg0.N) : (dats m 0 c).after 1 t = iblk m c 1 t := by dsimp only [dats]
theorem after_cy (c : Dev nD) (t : Fin cfg0.N) : (dats m 0 c).after 2 t = iblk m c 2 t := by dsimp only [dats]
theorem after_out (c : Dev nD) (t : Fin cfg0.N) :
    (dats m 0 c).after 3 t = outBlock (iblk m c 0 t) (iblk m c 1 t) (iblk m c 2 t) := by dsimp only [dats]

end Cert.KernelIdeal.Sampler

end
-- ==== Proof.SamplerLines.lean ====
/-
  The host lines around the sampling region.

  Every operation of every stretch writes exactly one buffer — its result — and allocates nothing. Listing the written
  references stretch by stretch turns "no line writes buffer b" into one membership question over a literal list of
  references: b is written by no line when b is not in the list. From that: the lines after the region write none of the
  four arrays the region's pipeline moves; no line at all writes one of @main's five arguments; and @main is the lines
  before, the region, the lines after, each line within the unscoped TensorCore buffers.
-/
import proofs.«169545_j87136296501797_2_alg».proof.Proof.SamplerData
import Idealize.ShloMosaic.Lib.Pipeline.FrameBody
import Idealize.ShloMosaic.Lib.Pipeline.FrameSuffix
import Idealize.ShloMosaic.Lib.Ring
import Idealize.ShloMosaic.Lib.Tactic

-- membership in a rectangle of these extents, and the long stretches' lists, recurse past the default depth
set_option maxRecDepth 16384

noncomputable section

namespace Cert.KernelIdeal.Sampler

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Lists of lists of operations -/

/-- A property of every operation of every stretch, from the stretches one by one. -/
theorem forall_lines {P : HloOp τ sig (Elt F) → Prop} {L : List (List (HloOp τ sig (Elt F)))}
    (h : L.Forall fun ops => ops.Forall P) : ∀ ops ∈ L, ∀ op ∈ ops, P op :=
  fun ops hops op hop => List.forall_iff_forall_mem.mp (List.forall_iff_forall_mem.mp h ops hops) op hop

/-- When each operation of a line writes exactly the reference listed beside it, a reference not in the list is written
    by no operation of the line. -/
theorem not_written {ops : List (HloOp τ sig (Elt F))} {W : List (Ref sig .tc)}
    (h : List.Forall₂ (fun (op : HloOp τ sig (Elt F)) y => op.writes = {Proc.devRef .tc y}) ops W)
    {b : Ref sig .tc} (hb : b ∉ W) : ops.Forall fun op => Proc.devRef .tc b ∉ op.writes := by
  induction h with
  | nil => exact List.forall_iff_forall_mem.mpr fun _ h => absurd h List.not_mem_nil
  | @cons op y ops W hw _ ih =>
    refine List.forall_iff_forall_mem.mpr fun o ho hmem => ?_
    rcases List.mem_cons.mp ho with rfl | ho
    · rw [hw, Finset.mem_singleton] at hmem
      exact hb (List.mem_cons.mpr (.inl (Proc.devRef_injective _ hmem)))
    · exact List.forall_iff_forall_mem.mp (ih fun h => hb (List.mem_cons_of_mem _ h)) o ho hmem

/-! ## What each stretch writes, and that it allocates nothing -/

/-- The references the 28 operations of this stretch write, in order. -/
def res0 : List (Ref sig .tc) :=
  [
    main_v0, main_v1, main_v2, main_v3, main_v4, main_cst, main_v5, main_v6, main_v7, main_v8,
    main_v9, main_v10, main_v11, main_cst_0, main_v12, main_v13, main_v14, main_v15, main_v16, main_v17,
    main_v18, main_v19, main_v20, main_v21, main_v22, main_v23, main_cst_1, main_cst_2 ]
theorem hostOps0_writes : List.Forall₂ (fun (op : HloOp τ sig (Elt F)) y => op.writes = {Proc.devRef .tc y}) hostOps0 res0 :=
  .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .nil
theorem hostOps0_fresh : (hostOps0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl⟩

/-- The references the 6 operations of this stretch write, in order. -/
def res0_1 : List (Ref sig .tc) :=
  [
    main_call0_v0, main_call0_v1, main_call0_v2, main_call0_v3, main_call0_v4, main_v24 ]
theorem hostOps0_1_writes : List.Forall₂ (fun (op : HloOp τ sig (Elt F)) y => op.writes = {Proc.devRef .tc y}) hostOps0_1 res0_1 :=
  .cons rfl <| .cons rfl <| .cons rfl <| .cons rfl <| .cons rfl <| .cons rfl <| .nil
theorem hostOps0_1_fresh : (hostOps0_1 : List (HloOp τ sig (Elt F))).Forall fun op => op.fresh = ∅ :=
  ⟨rfl, rfl, rfl, rfl, rfl, rfl⟩

/-- The references the 2 operations of this stretch write, in order. -/
def res0_2 : List (Ref sig .tc) :=
  [
    main_cst_3, main_cst_4 ]
theorem hostOps0_2_writes : List.Forall₂ (fun (op : HloOp τ sig (Elt F)) y => op.writes = {Proc.devRef .tc y}) hostOps0_2 res0_2 :=
  .cons rfl <| .cons rfl <| .nil
theorem hostOps0_2_fresh : (hostOps0_2 : List (HloOp τ sig (Elt F))).Forall fun op => op.fresh = ∅ :=
  ⟨rfl, rfl⟩

/-- The references the 6 operations of this stretch write, in order. -/
def res0_3 : List (Ref sig .tc) :=
  [
    main_call1_v0, main_call1_v1, main_call1_v2, main_call1_v3, main_call1_v4, main_v25 ]
theorem hostOps0_3_writes : List.Forall₂ (fun (op : HloOp τ sig (Elt F)) y => op.writes = {Proc.devRef .tc y}) hostOps0_3 res0_3 :=
  .cons rfl <| .cons rfl <| .cons rfl <| .cons rfl <| .cons rfl <| .cons rfl <| .nil
theorem hostOps0_3_fresh : (hostOps0_3 : List (HloOp τ sig (Elt F))).Forall fun op => op.fresh = ∅ :=
  ⟨rfl, rfl, rfl, rfl, rfl, rfl⟩

/-- The references the 2 operations of this stretch write, in order. -/
def res0_4 : List (Ref sig .tc) :=
  [
    main_v26, main_v27 ]
theorem hostOps0_4_writes : List.Forall₂ (fun (op : HloOp τ sig (Elt F)) y => op.writes = {Proc.devRef .tc y}) hostOps0_4 res0_4 :=
  .cons rfl <| .cons rfl <| .nil
theorem hostOps0_4_fresh : (hostOps0_4 : List (HloOp τ sig (Elt F))).Forall fun op => op.fresh = ∅ :=
  ⟨rfl, rfl⟩

/-- The references the 20 operations of this stretch write, in order. -/
def res1 : List (Ref sig .tc) :=
  [
    main_v29, main_v30, main_cst_5, main_v31, main_cst_6, main_v32, main_v33, main_v34, main_v35, main_v36,
    main_v37, main_cst_7, main_v38, main_cst_8, main_v39, main_v40, main_cst_9, main_v41, main_v42, main_cst_10 ]
theorem hostOps1_writes : List.Forall₂ (fun (op : HloOp τ sig (Elt F)) y => op.writes = {Proc.devRef .tc y}) hostOps1 res1 :=
  .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .nil
theorem hostOps1_fresh : (hostOps1 : List (HloOp τ sig (Elt F))).Forall fun op => op.fresh = ∅ :=
  ⟨rfl, rfl, rfl, rfl, rfl, rfl, rfl, rfl, rfl, rfl, rfl, rfl, rfl, rfl, rfl, rfl, rfl, rfl, rfl, rfl⟩

/-- The references the 3 operations of this stretch write, in order. -/
def res1_1 : List (Ref sig .tc) :=
  [
    main_call2_v0, main_call2_v1, main_v43 ]
theorem hostOps1_1_writes : List.Forall₂ (fun (op : HloOp τ sig (Elt F)) y => op.writes = {Proc.devRef .tc y}) hostOps1_1 res1_1 :=
  .cons rfl <| .cons rfl <| .cons rfl <| .nil
theorem hostOps1_1_fresh : (hostOps1_1 : List (HloOp τ sig (Elt F))).Forall fun op => op.fresh = ∅ :=
  ⟨rfl, rfl, rfl⟩

/-- The references the 87 operations of this stretch write, in order. -/
def res1_2 : List (Ref sig .tc) :=
  [
    main_cst_11, main_v44, main_cst_12, main_v45, main_v46, main_cst_13, main_v47, main_cst_14, main_v48, main_v49,
    main_v50, main_v51, main_v52, main_v53, main_v54, main_v55, main_cst_15, main_v56, main_cst_16, main_v57,
    main_v58, main_v59, main_v60, main_v61, main_v62, main_v63, main_v64, main_v65, main_cst_17, main_v66,
    main_v67, main_v68, main_v69, main_v70, main_v71, main_v72, main_cst_18, main_v73, main_v74, main_v75,
    main_v76, main_cst_19, main_v77, main_v78, main_v79, main_v80, main_v81, main_cst_20, main_v82, main_v83,
    main_v84, main_v85, main_v86, main_cst_21, main_v87, main_v88, main_v89, main_v90, main_v91, main_cst_22,
    main_v92, main_v93, main_v94, main_v95, main_v96, main_v97, main_v98, main_v99, main_v100, main_v101,
    main_v102, main_v103, main_v104, main_v105, main_v106, main_v107, main_v108, main_v109, main_v110, main_v111,
    main_v112, main_v113, main_v114, main_cst_23, main_v115, main_v116, main_cst_24 ]
set_option maxHeartbeats 4000000 in
theorem hostOps1_2_writes : List.Forall₂ (fun (op : HloOp τ sig (Elt F)) y => op.writes = {Proc.devRef .tc y}) hostOps1_2 res1_2 :=
  .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .nil
set_option maxHeartbeats 4000000 in
theorem hostOps1_2_fresh : (hostOps1_2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The references the 3 operations of this stretch write, in order. -/
def res1_3 : List (Ref sig .tc) :=
  [
    main_call3_v0, main_call3_v1, main_v117 ]
theorem hostOps1_3_writes : List.Forall₂ (fun (op : HloOp τ sig (Elt F)) y => op.writes = {Proc.devRef .tc y}) hostOps1_3 res1_3 :=
  .cons rfl <| .cons rfl <| .cons rfl <| .nil
theorem hostOps1_3_fresh : (hostOps1_3 : List (HloOp τ sig (Elt F))).Forall fun op => op.fresh = ∅ :=
  ⟨rfl, rfl, rfl⟩

/-- The references the 34 operations of this stretch write, in order. -/
def res1_4 : List (Ref sig .tc) :=
  [
    main_v118, main_v119, main_v120, main_v121, main_v122, main_v123, main_v124, main_v125, main_v126, main_v127,
    main_cst_25, main_v128, main_v129, main_v130, main_v131, main_v132, main_v133, main_v134, main_cst_26, main_v135,
    main_v136, main_v137, main_v138, main_v139, main_v140, main_v141, main_v142, main_v143, main_v144, main_cst_27,
    main_v145, main_v146, main_cst_28, main_cst_29 ]
set_option maxHeartbeats 4000000 in
theorem hostOps1_4_writes : List.Forall₂ (fun (op : HloOp τ sig (Elt F)) y => op.writes = {Proc.devRef .tc y}) hostOps1_4 res1_4 :=
  .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .nil
set_option maxHeartbeats 4000000 in
theorem hostOps1_4_fresh : (hostOps1_4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The references the 5 operations of this stretch write, in order. -/
def res1_5 : List (Ref sig .tc) :=
  [
    main_call4_v0, main_call4_v1, main_call4_v2, main_call4_v3, main_v147 ]
theorem hostOps1_5_writes : List.Forall₂ (fun (op : HloOp τ sig (Elt F)) y => op.writes = {Proc.devRef .tc y}) hostOps1_5 res1_5 :=
  .cons rfl <| .cons rfl <| .cons rfl <| .cons rfl <| .cons rfl <| .nil
theorem hostOps1_5_fresh : (hostOps1_5 : List (HloOp τ sig (Elt F))).Forall fun op => op.fresh = ∅ :=
  ⟨rfl, rfl, rfl, rfl, rfl⟩

/-- The references the 4 operations of this stretch write, in order. -/
def res1_6 : List (Ref sig .tc) :=
  [
    main_cst_30, main_v148, main_v149, main_cst_31 ]
theorem hostOps1_6_writes : List.Forall₂ (fun (op : HloOp τ sig (Elt F)) y => op.writes = {Proc.devRef .tc y}) hostOps1_6 res1_6 :=
  .cons rfl <| .cons rfl <| .cons rfl <| .cons rfl <| .nil
theorem hostOps1_6_fresh : (hostOps1_6 : List (HloOp τ sig (Elt F))).Forall fun op => op.fresh = ∅ :=
  ⟨rfl, rfl, rfl, rfl⟩

/-- The references the 2 operations of this stretch write, in order. -/
def res1_7 : List (Ref sig .tc) :=
  [
    main_call5_v0, main_v150 ]
theorem hostOps1_7_writes : List.Forall₂ (fun (op : HloOp τ sig (Elt F)) y => op.writes = {Proc.devRef .tc y}) hostOps1_7 res1_7 :=
  .cons rfl <| .cons rfl <| .nil
theorem hostOps1_7_fresh : (hostOps1_7 : List (HloOp τ sig (Elt F))).Forall fun op => op.fresh = ∅ :=
  ⟨rfl, rfl⟩

/-- The references the 24 operations of this stretch write, in order. -/
def res1_8 : List (Ref sig .tc) :=
  [
    main_v151, main_v152, main_cst_32, main_v153, main_cst_33, main_v154, main_v155, main_cst_34, main_v156, main_v157,
    main_cst_35, main_v158, main_v159, main_cst_36, main_v160, main_cst_37, main_v161, main_cst_38, main_v162, main_cst_39,
    main_v163, main_v164, main_v165, main_v166 ]
theorem hostOps1_8_writes : List.Forall₂ (fun (op : HloOp τ sig (Elt F)) y => op.writes = {Proc.devRef .tc y}) hostOps1_8 res1_8 :=
  .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .nil
theorem hostOps1_8_fresh : (hostOps1_8 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl⟩

/-! ## Every reference the lines before, and the lines after, write -/

theorem forall₂_append {α β : Type} {R : α → β → Prop} {l₁ l₂ : List α} {w₁ w₂ : List β}
    (h₁ : List.Forall₂ R l₁ w₁) (h₂ : List.Forall₂ R l₂ w₂) : List.Forall₂ R (l₁ ++ l₂) (w₁ ++ w₂) := by
  induction h₁ with
  | nil => exact h₂
  | cons h _ ih => exact .cons h ih

/-- The references the lines before the region write, in order. -/
def resBefore : List (Ref sig .tc) := res0 ++ (res0_1 ++ (res0_2 ++ (res0_3 ++ (res0_4 ++ ([])))))
/-- The references the lines after the region write, in order. -/
def resAfter : List (Ref sig .tc) := res1 ++ (res1_1 ++ (res1_2 ++ (res1_3 ++ (res1_4 ++ (res1_5 ++ (res1_6 ++ (res1_7 ++ (res1_8 ++ ([])))))))))

theorem before_writes : List.Forall₂ (fun (op : HloOp τ sig (Elt F)) y => op.writes = {Proc.devRef .tc y}) (List.flatten linesBefore) resBefore :=
  forall₂_append hostOps0_writes (forall₂_append hostOps0_1_writes (forall₂_append hostOps0_2_writes (forall₂_append hostOps0_3_writes (forall₂_append hostOps0_4_writes (.nil)))))
theorem after_writes : List.Forall₂ (fun (op : HloOp τ sig (Elt F)) y => op.writes = {Proc.devRef .tc y}) (List.flatten linesAfter) resAfter :=
  forall₂_append hostOps1_writes (forall₂_append hostOps1_1_writes (forall₂_append hostOps1_2_writes (forall₂_append hostOps1_3_writes (forall₂_append hostOps1_4_writes (forall₂_append hostOps1_5_writes (forall₂_append hostOps1_6_writes (forall₂_append hostOps1_7_writes (forall₂_append hostOps1_8_writes (.nil)))))))))

/-! ## @main is the lines before, the region, the lines after -/

theorem before_sub : (linesBefore : List (List (HloOp τ sig (Elt F)))).Forall fun ops => ops.Forall fun op => op.bufs ⊆ StableHlo.tcRefs τ sig :=
  ⟨hostOps0_sub, hostOps0_1_sub, hostOps0_2_sub, hostOps0_3_sub, hostOps0_4_sub⟩
theorem before_fresh : (linesBefore : List (List (HloOp τ sig (Elt F)))).Forall fun ops => ops.Forall fun op => op.fresh = ∅ :=
  ⟨hostOps0_fresh, hostOps0_1_fresh, hostOps0_2_fresh, hostOps0_3_fresh, hostOps0_4_fresh⟩
theorem after_sub : (linesAfter : List (List (HloOp τ sig (Elt F)))).Forall fun ops => ops.Forall fun op => op.bufs ⊆ StableHlo.tcRefs τ sig :=
  ⟨hostOps1_sub, hostOps1_1_sub, hostOps1_2_sub, hostOps1_3_sub, hostOps1_4_sub, hostOps1_5_sub, hostOps1_6_sub, hostOps1_7_sub, hostOps1_8_sub⟩
theorem after_fresh : (linesAfter : List (List (HloOp τ sig (Elt F)))).Forall fun ops => ops.Forall fun op => op.fresh = ∅ :=
  ⟨hostOps1_fresh, hostOps1_1_fresh, hostOps1_2_fresh, hostOps1_3_fresh, hostOps1_4_fresh, hostOps1_5_fresh, hostOps1_6_fresh, hostOps1_7_fresh, hostOps1_8_fresh⟩

variable (m : (ℓ : Loc nD τ sig) → Buf (Elt F) ℓ)

/-- @main reduces to the region continued by the lines after it, entered at the contents the lines before it leave. -/
theorem hmain (𝒱₀ : Variants) : Pipeline.HMainK (Ix := Unit) (Name := ℕ) (U := UR sig nD τ) (Lvl := ℕ) cfgs 0 defs₀ 𝒱₀ m (main (F := F)) (V m)
      (fun _ => Pipeline.chain (linesAfter.map StableHlo.seq)) :=
  Pipeline.hmain_around cfgs 0 defs₀ 𝒱₀ m main linesBefore linesAfter before_sub before_fresh main_chain

/-! ## The lines after the region -/

/-- They touch only the pipeline's arrays and the buffers that bypass the region: every operation's buffers are unscoped
    TensorCore references, and with nothing prefetched every such reference is one or the other. -/
theorem sfx_sub : ∀ ops ∈ (linesAfter : List (List (HloOp τ sig (Elt F)))), ∀ op ∈ ops,
    op.bufs ⊆ Pipeline.tailRefs sig Pipeline.Prefetch.none spec0 := by
  rw [Pipeline.tailRefs_none spec0 launch0.win.arr_unscoped]
  exact fun ops hops op hop => Pipeline.sub_ucRefs op (forall_lines after_sub ops hops op hop)

/-- They allocate nothing. -/
theorem sfx_fresh : ∀ ops ∈ (linesAfter : List (List (HloOp τ sig (Elt F)))), ∀ op ∈ ops, op.fresh = ∅ :=
  forall_lines after_fresh

/-- None of the pipeline's four arrays is among the references they write. -/
theorem arr_not_after : ∀ w, Pipeline.arrRef spec0 w ∉ resAfter := by decide

/-- So they write no array of the pipeline. -/
theorem sfx_keeps : ∀ ops ∈ (linesAfter : List (List (HloOp τ sig (Elt F)))), ∀ op ∈ ops,
    ∀ w, Proc.devRef .tc (Pipeline.arrRef spec0 w) ∉ op.writes :=
  fun ops hops op hop w =>
    List.forall_iff_forall_mem.mp (not_written after_writes (arr_not_after w)) op (List.mem_flatten.mpr ⟨ops, hops, hop⟩)

/-! ## Buffers no line writes -/

/-- A reference no line before the region writes is found by the region as launched. -/
theorem V_of_not_written (c : Dev nD) {b : Ref sig .tc} (hb : b ∉ resBefore) : V m c b = m ((c : Thread nD τ).loc b) :=
  StableHlo.after_of_forall_not_mem (b := Proc.devRef .tc b) _ _ (List.forall_iff_forall_mem.mp (not_written before_writes hb))

/-- A reference that is no array of the pipeline and that no line after the region writes ends at what the region found. -/
theorem afterTail_of_not_written (c : Dev nD) {b : Ref sig .tc} (harr : ∀ w, Pipeline.arrRef spec0 w ≠ b) (ha : b ∉ resAfter) :
    Pipeline.afterTail₀ cfgs (dats m) 0 (V0 m) linesAfter c b = V m c b := by
  unfold Pipeline.afterTail₀
  rw [StableHlo.after_of_forall_not_mem (b := Proc.devRef .tc b) _ _ (List.forall_iff_forall_mem.mp (not_written after_writes ha)),
    Pipeline.withArrays_of_ne _ c (V0 m c) _ b harr]

/-- The five arguments are found by the region as launched: no line before it writes one. -/
theorem V_main_arg0 (c : Dev nD) : V m c main_arg0 = m ((c : Thread nD τ).loc main_arg0) := V_of_not_written m c (by decide)
theorem V_main_arg1 (c : Dev nD) : V m c main_arg1 = m ((c : Thread nD τ).loc main_arg1) := V_of_not_written m c (by decide)
theorem V_main_arg2 (c : Dev nD) : V m c main_arg2 = m ((c : Thread nD τ).loc main_arg2) := V_of_not_written m c (by decide)
theorem V_main_arg3 (c : Dev nD) : V m c main_arg3 = m ((c : Thread nD τ).loc main_arg3) := V_of_not_written m c (by decide)
theorem V_main_arg4 (c : Dev nD) : V m c main_arg4 = m ((c : Thread nD τ).loc main_arg4) := V_of_not_written m c (by decide)

/-- Arguments 1 … 4 are no array of the pipeline, and no line after the region writes one: they end as launched. -/
theorem kept_main_arg1 (c : Dev nD) :
    Pipeline.afterTail₀ cfgs (dats m) 0 (V0 m) linesAfter c main_arg1 = m ((c : Thread nD τ).loc main_arg1) :=
  (afterTail_of_not_written m c (by decide) (by decide)).trans (V_main_arg1 m c)
theorem kept_main_arg2 (c : Dev nD) :
    Pipeline.afterTail₀ cfgs (dats m) 0 (V0 m) linesAfter c main_arg2 = m ((c : Thread nD τ).loc main_arg2) :=
  (afterTail_of_not_written m c (by decide) (by decide)).trans (V_main_arg2 m c)
theorem kept_main_arg3 (c : Dev nD) :
    Pipeline.afterTail₀ cfgs (dats m) 0 (V0 m) linesAfter c main_arg3 = m ((c : Thread nD τ).loc main_arg3) :=
  (afterTail_of_not_written m c (by decide) (by decide)).trans (V_main_arg3 m c)
theorem kept_main_arg4 (c : Dev nD) :
    Pipeline.afterTail₀ cfgs (dats m) 0 (V0 m) linesAfter c main_arg4 = m ((c : Thread nD τ).loc main_arg4) :=
  (afterTail_of_not_written m c (by decide) (by decide)).trans (V_main_arg4 m c)

end Cert.KernelIdeal.Sampler

end
-- ==== Proof.SamplerBody.lean ====
/-
  The sampling region's body.

  On whole staging buffers — the image block's, the two coordinate rows', the result's — the body loads the two rows and the
  eight channel images, loads the result buffer once without using what it read, and stores one value over the whole result
  block: tileVal of what it loaded. So after the body the inputs' buffers are as they were and the result's holds outBlock of
  the three input blocks. At every grid point each input's current staging buffer holds that window's block, fetched there
  or not, which makes this the body obligation of the pipeline's proof data.
-/
import proofs.«169545_j87136296501797_2_alg».proof.Proof.SamplerData
import Idealize.ShloMosaic.Lib.Pipeline.FrameBody
import Idealize.ShloMosaic.Lib.Pipeline.FrameSuffix
import Idealize.ShloMosaic.Lib.Ring
import Idealize.ShloMosaic.Lib.Tactic

-- membership in a rectangle of these extents, and the long stretches' lists, recurse past the default depth
set_option maxRecDepth 16384

noncomputable section

namespace Cert.KernelIdeal.Sampler

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The result block is covered by its one store -/

/-- The one store's rectangle is the whole result block. -/
theorem cover_out (p : (rOut).shape.Idx → Elt F .f32) (y : S1x8x2048.Idx) :
    ∃ pc ∈ ([⟨rOut, p⟩] : List (View.Piece (Elt F) S1x8x2048 .f32)), y ∈ pc.1.set :=
  View.cover_of_tiled [⟨rOut, p⟩] S1x8x2048.size (by rfl) y

/-! ## The body's triple -/

set_option maxHeartbeats 4000000 in
/-- The body on whole staging memrefs — the image block's at read contents x0, the two coordinate rows' at x1 and x2, the
    result's at anything — runs to the continuation holding the three inputs' as they were and the result's at
    outBlock x0 x1 x2: ten loads of the inputs, one load of the result buffer whose value is never used, and one store of
    tileVal of the loaded values over the whole result block. -/
theorem sound_kernel (c : Dev nD) (E : Set ℕ) (i : grid0.Coords)
    (arg2 : Memref sig .tc .vmem S1x8x320x320 .f32) (harg2 : arg2.IsWhole)
    (arg3 : Memref sig .tc .vmem S1x1x2048 .f32) (harg3 : arg3.IsWhole)
    (arg4 : Memref sig .tc .vmem S1x1x2048 .f32) (harg4 : arg4.IsWhole)
    (arg5 : Memref sig .tc .vmem S1x8x2048 .f32) (harg5 : arg5.IsWhole)
    (x0 : Vec F S1x8x320x320 .f32) (x1 x2 : Vec F S1x1x2048 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (outBlock x0 x1 x2)) -∗ K ⟨⟩))
      ⊢ wp frame (wpE (defs₀ (F := F)) Variants.none c none) E (cc0__sample_kernel i arg2 harg2 arg3 harg3 arg4 harg4 arg5 harg5) K := by
  simp only [cc0__sample_kernel_eq_skeleton]; unfold cc0__sample_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover_out _)

variable (m : (ℓ : Loc nD τ sig) → Buf (Elt F) ℓ)

/-! ## What the body finds in each input window's buffer

An input window's current staging buffer holds the window's block at every point, fetched there or not: where the pipeline
does not fetch, the block index has not moved since the last fetch and the body left the block in place. (The image's
window is fetched only when the first grid coordinate advances, every fourth point; the coordinate rows' at every point.) -/

theorem before_img (c : Dev nD) (t : Fin cfg0.N) (d) : (dats m 0 c).before 0 t d = iblk m c 0 t :=
  ((dats m 0 c).before_in_eq_fetched 0 rfl (fun _ => rfl) (fun _ _ _ => rfl)
      (fun t => by rw [after_img]; unfold Dat.blockOf iblk; rw [A_eq]; try rfl) t d).trans
    (by unfold Dat.fetched Dat.blockOf iblk; rw [A_eq]; try rfl)

theorem before_cx (c : Dev nD) (t : Fin cfg0.N) (d) : (dats m 0 c).before 1 t d = iblk m c 1 t :=
  ((dats m 0 c).before_in_eq_fetched 1 rfl (fun _ => rfl) (fun _ _ _ => rfl)
      (fun t => by rw [after_cx]; unfold Dat.blockOf iblk; rw [A_eq]; try rfl) t d).trans
    (by unfold Dat.fetched Dat.blockOf iblk; rw [A_eq]; try rfl)

theorem before_cy (c : Dev nD) (t : Fin cfg0.N) (d) : (dats m 0 c).before 2 t d = iblk m c 2 t :=
  ((dats m 0 c).before_in_eq_fetched 2 rfl (fun _ => rfl) (fun _ _ _ => rfl)
      (fun t => by rw [after_cy]; unfold Dat.blockOf iblk; rw [A_eq]; try rfl) t d).trans
    (by unfold Dat.fetched Dat.blockOf iblk; rw [A_eq]; try rfl)

/-! ## The body obligation, at a generic point -/

/-- What the body is called with at point t: the invariant, the core's debt, and the four windows' current staging
    buffers, each whole at the full share, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the three inputs' buffers hold their blocks, so the body's triple applies; the invariant and the
    core's debt pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_img, before_cx, before_cy]
  rw [show (dats m 0 c).Φ t.succ = (dats m 0 c).Φ t.castSucc from rfl,
    show (dats m 0 c).owesAt () t.succ = (dats m 0 c).owesAt () t.castSucc from rfl,
    after_img, after_cx, after_cy, after_out]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Sampler

end
-- ==== Proof.SamplerFrame.lean ====
/-
  The sampling kernel's run and frame.

  @main is host lines, one region, host lines. The run: it terminates without fault, each of the pipeline's four arrays ends
  at what the library computes from the proof data, and every other unscoped buffer at what the lines after the region leave
  in it. Read at the five arguments — the first is the image window's array, an input never written back; the other four
  bypass the region and no line writes them — this is the frame; read at the result buffer, it is the run the value is
  stated over.
-/
import proofs.«169545_j87136296501797_2_alg».proof.Proof.SamplerLines
import proofs.«169545_j87136296501797_2_alg».proof.Proof.SamplerBody
import Idealize.ShloMosaic.Lib.Pipeline.FrameBody
import Idealize.ShloMosaic.Lib.Pipeline.FrameSuffix
import Idealize.ShloMosaic.Lib.Ring
import Idealize.ShloMosaic.Lib.Tactic

-- membership in a rectangle of these extents, and the long stretches' lists, recurse past the default depth
set_option maxRecDepth 16384

noncomputable section

namespace Cert.KernelIdeal.Sampler

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The run -/

-- the launch theorem's implicit arguments are found by unifying its conclusion with this one, which takes unfolding plain
-- definitions in a metavariable's type
set_option backward.isDefEq.respectTransparency.types false in
/-- At the compiled mesh, for any values, from any memory with zero counters: every weakly fair execution of @main on the
    TensorCores terminates, and in every final state each of the pipeline's four arrays holds what the library computes from
    the proof data, and every other unscoped buffer what the lines after the region leave in it. -/
theorem run_main : θ_run defs (onTc (τ := τ) (main (F := F))) (s₀ m ρ)
    (Pipeline.FramePost cfgs (dats m) 0 (Pipeline.afterTail₀ cfgs (dats m) 0 (V0 m) linesAfter)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := linesAfter) (hsub := sfx_sub) (hfresh := sfx_fresh) (hkeep := sfx_keeps)
    (hmain := hmain m Variants.none) (hA := A_eq m) (hΦ := fun _ _ => rfl)

/-! ## Reading the post -/

/-- The first argument is the image window's array, an input: the pipeline never writes it back, so it ends at what the
    region found, which is what was launched. -/
theorem final_main_arg0 (r : PUnit × MemSt nD τ sig (Elt F))
    (h : Pipeline.FramePost cfgs (dats m) 0 (Pipeline.afterTail₀ cfgs (dats m) 0 (V0 m) linesAfter) r) (c : Dev nD) :
    r.2.mem ((c.tc : Thread nD τ).loc main_arg0) = m ((c.tc : Thread nD τ).loc main_arg0) :=
  ((h c).1 0).trans ((((dats m 0 c).arrAt_in 0 rfl _).trans (A_eq m c 0)).trans (V_main_arg0 m c))

/-- The other four arguments bypass the region and no line writes them. -/
theorem final_main_arg1 (r : PUnit × MemSt nD τ sig (Elt F))
    (h : Pipeline.FramePost cfgs (dats m) 0 (Pipeline.afterTail₀ cfgs (dats m) 0 (V0 m) linesAfter) r) (c : Dev nD) :
    r.2.mem ((c.tc : Thread nD τ).loc main_arg1) = m ((c.tc : Thread nD τ).loc main_arg1) :=
  ((h c).2 main_arg1 (Pipeline.mem_restRefs_of main_arg1 (by decide) (by decide))).trans (kept_main_arg1 m c)
theorem final_main_arg2 (r : PUnit × MemSt nD τ sig (Elt F))
    (h : Pipeline.FramePost cfgs (dats m) 0 (Pipeline.afterTail₀ cfgs (dats m) 0 (V0 m) linesAfter) r) (c : Dev nD) :
    r.2.mem ((c.tc : Thread nD τ).loc main_arg2) = m ((c.tc : Thread nD τ).loc main_arg2) :=
  ((h c).2 main_arg2 (Pipeline.mem_restRefs_of main_arg2 (by decide) (by decide))).trans (kept_main_arg2 m c)
theorem final_main_arg3 (r : PUnit × MemSt nD τ sig (Elt F))
    (h : Pipeline.FramePost cfgs (dats m) 0 (Pipeline.afterTail₀ cfgs (dats m) 0 (V0 m) linesAfter) r) (c : Dev nD) :
    r.2.mem ((c.tc : Thread nD τ).loc main_arg3) = m ((c.tc : Thread nD τ).loc main_arg3) :=
  ((h c).2 main_arg3 (Pipeline.mem_restRefs_of main_arg3 (by decide) (by decide))).trans (kept_main_arg3 m c)
theorem final_main_arg4 (r : PUnit × MemSt nD τ sig (Elt F))
    (h : Pipeline.FramePost cfgs (dats m) 0 (Pipeline.afterTail₀ cfgs (dats m) 0 (V0 m) linesAfter) r) (c : Dev nD) :
    r.2.mem ((c.tc : Thread nD τ).loc main_arg4) = m ((c.tc : Thread nD τ).loc main_arg4) :=
  ((h c).2 main_arg4 (Pipeline.mem_restRefs_of main_arg4 (by decide) (by decide))).trans (kept_main_arg4 m c)

/-- The result buffer bypasses the region: it ends at what the lines after the region leave in it. -/
theorem result_at (r : PUnit × MemSt nD τ sig (Elt F))
    (h : Pipeline.FramePost cfgs (dats m) 0 (Pipeline.afterTail₀ cfgs (dats m) 0 (V0 m) linesAfter) r) (c : Dev nD) :
    r.2.mem ((c.tc : Thread nD τ).loc main_v166) = Pipeline.afterTail₀ cfgs (dats m) 0 (V0 m) linesAfter c main_v166 :=
  (h c).2 main_v166 (Pipeline.mem_restRefs_of main_v166 (by decide) (by decide))

/-! ## The frame, and the run the value is read from -/

/-- The frame: @main terminates without fault and its five argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨final_main_arg0 m r h c, final_main_arg1 m r h c, final_main_arg2 m r h c,
    final_main_arg3 m r h c, final_main_arg4 m r h c⟩) (run_main m ρ)

/-- The same run, also reading the result buffer: it ends at what the lines after the region compute from the region's exit. -/
theorem run_value : θ_run defs (onTc (τ := τ) (main (F := F))) ⟨m, fun _ => 0, ρ⟩ (fun r => ∀ c : Dev nD,
      r.2.mem ((c.tc : Thread nD τ).loc main_v166) = Pipeline.afterTail₀ cfgs (dats m) 0 (V0 m) linesAfter c main_v166
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨result_at m r h c, final_main_arg0 m r h c, final_main_arg1 m r h c, final_main_arg2 m r h c,
    final_main_arg3 m r h c, final_main_arg4 m r h c⟩) (run_main m ρ)

end Cert.KernelIdeal.Sampler

end
-- ==== Proof.SamplerDataK.lean ====
/-
  The sampling kernel's proof data, stated once for both frames and for the value.

  The program is: host lines that build the two coordinate rows, ONE region on a 16 × 4 grid, and host lines that reduce
  the region's result to the two losses. At grid point (b, j) the region's body is handed image b whole (8 × 320 × 320),
  and the j-th run of 2048 entries of each coordinate row of image b, and writes the j-th run of 2048 columns of the
  8 × 8192 result of image b. What it writes is a pure function of what it loads (`tileVal`): for channel k and column n,
  the sum over columns w of (the sum over rows h of image[k, h, w] · rowWeight[h, n]) · colWeight[w, n], where the two
  weight tables hold, in each column n, the two bilinear weights of the point's neighbouring rows (columns) at those
  rows' (columns') positions, zero where a neighbour falls outside the image, and zero elsewhere.
-/
import proofs.«169545_j87136296501797_2_alg».proof.Proof.Gen.Kernel.Launch
import proofs.«169545_j87136296501797_2_alg».proof.Proof.Gen.Kernel.Skeleton
import proofs.«169545_j87136296501797_2_alg».proof.Proof.Gen.Kernel.Points
import Idealize.ShloMosaic.Lib.Pipeline.FrameBody
import Idealize.ShloMosaic.Lib.Pipeline.FrameSuffix

noncomputable section

namespace Cert.Kernel.Sampler

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Idealize.ShloMosaic.Pipeline (Dat Cfg Window)

variable {F : FTy → Type} [FloatOps F]

/-! ## The host lines around the region -/

/-- The host lines before the region, stretch by stretch. -/
abbrev linesBefore : List (List (HloOp τ sig (Elt F))) := [hostOps0, hostOps0_1, hostOps0_2, hostOps0_3, hostOps0_4]

/-- The host lines after the region, stretch by stretch. -/
abbrev linesAfter : List (List (HloOp τ sig (Elt F))) :=
  [hostOps1, hostOps1_1, hostOps1_2, hostOps1_3, hostOps1_4, hostOps1_5, hostOps1_6, hostOps1_7, hostOps1_8]

variable (m : (ℓ : Loc nD τ sig) → Buf (Elt F) ℓ)

/-- Core `c`'s buffer contents when the region is entered: the launch contents after the lines before the region. -/
abbrev V0 (c : Dev nD) : Valuation τ sig (Elt F) := StableHlo.after (List.flatten linesBefore) (fun b => m (c, b))

/-- The same, read at a TensorCore reference. -/
abbrev V (c : Dev nD) (b : Ref sig .tc) : Buf (Elt F) ((c : Thread nD τ).loc b) := V0 m c (Proc.devRef .tc b)

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The rectangles the body loads and stores through -/

/-- A coordinate row's whole block. -/
abbrev rRow : Rect S1x1x2048 := Rect.unit (s := S1x1x2048) ![0, 0, 0] S1x1x2048.size inb_S1x1x2048_S1x1x2048_0_0_0
/-- Channel `k` of the image block, `k = 0 … 7`. -/
abbrev rCh0 : Rect S1x8x320x320 := Rect.unit (s := S1x8x320x320) ![0, 0, 0, 0] S1x1x320x320.size inb_S1x8x320x320_S1x1x320x320_0_0_0_0
abbrev rCh1 : Rect S1x8x320x320 := Rect.unit (s := S1x8x320x320) ![0, 1, 0, 0] S1x1x320x320.size inb_S1x8x320x320_S1x1x320x320_0_1_0_0
abbrev rCh2 : Rect S1x8x320x320 := Rect.unit (s := S1x8x320x320) ![0, 2, 0, 0] S1x1x320x320.size inb_S1x8x320x320_S1x1x320x320_0_2_0_0
abbrev rCh3 : Rect S1x8x320x320 := Rect.unit (s := S1x8x320x320) ![0, 3, 0, 0] S1x1x320x320.size inb_S1x8x320x320_S1x1x320x320_0_3_0_0
abbrev rCh4 : Rect S1x8x320x320 := Rect.unit (s := S1x8x320x320) ![0, 4, 0, 0] S1x1x320x320.size inb_S1x8x320x320_S1x1x320x320_0_4_0_0
abbrev rCh5 : Rect S1x8x320x320 := Rect.unit (s := S1x8x320x320) ![0, 5, 0, 0] S1x1x320x320.size inb_S1x8x320x320_S1x1x320x320_0_5_0_0
abbrev rCh6 : Rect S1x8x320x320 := Rect.unit (s := S1x8x320x320) ![0, 6, 0, 0] S1x1x320x320.size inb_S1x8x320x320_S1x1x320x320_0_6_0_0
abbrev rCh7 : Rect S1x8x320x320 := Rect.unit (s := S1x8x320x320) ![0, 7, 0, 0] S1x1x320x320.size inb_S1x8x320x320_S1x1x320x320_0_7_0_0
/-- The result block, whole. -/
abbrev rOut : Rect S1x8x2048 := Rect.unit (s := S1x8x2048) ![0, 0, 0] S1x8x2048.size inb_S1x8x2048_S1x8x2048_0_0_0

/-! ## What the body stores, from what it loads -/

/-- The column-weight table (320 × 2048) from the x-coordinate row: in column n, the weight 1 − frac at the clamped
    floor's position and frac at the clamped floor-plus-one's, each zeroed when that neighbour is outside 0 … 319. -/
def colWeight (cx : Vec F S1x1x2048 .f32) : FVec F S320x2048 .f32 :=
  k0_pay19 (k0_pay6 cx) (k0_pay7 cx) (k0_pay10 cx) (k0_pay11 cx) (k0_pay14 cx) (k0_pay15 cx) 0#32 319#32

/-- The row-weight table (320 × 2048) from the y-coordinate row, in the matrix unit's operand format. -/
def rowWeight (cy : Vec F S1x1x2048 .f32) : FVec F S320x2048 .bf16 :=
  k0_pay22 (k0_pay18 (k0_pay8 cy) (k0_pay17 cy)) (k0_pay20 (k0_pay9 cy) (k0_pay12 cy) (k0_pay16 cy)) (k0_pay21 (k0_pay13 cy))

/-- One channel's row of 2048 sampled values: contract the image's rows against the row weights, multiply by the
    column weights, sum over the columns. The first four channels are computed by this payload, -/
def channelRow (cx cy : Vec F S1x1x2048 .f32) (img : Vec F S1x1x320x320 .f32) : FVec F S2048 .f32 :=
  k0_pay23 (k0_pay18 (k0_pay8 cy) (k0_pay17 cy)) (colWeight cx) (k0_pay20 (k0_pay9 cy) (k0_pay12 cy) (k0_pay16 cy)) (k0_pay21 (k0_pay13 cy)) img

/-- The block the body stores: the eight channels' rows stacked, as a function of the two coordinate rows and the eight
    channel images it loads. (Channels 1 … 3 repeat channel 0's operations under their own payload names; channels 4 … 7
    are computed inside the stacking payload.) -/
def tileVal (cx cy : Vec F S1x1x2048 .f32) (p0 p1 p2 p3 p4 p5 p6 p7 : Vec F S1x1x320x320 .f32) : FVec F S1x8x2048 .f32 :=
  k0_pay1 (k0_pay27 (colWeight cx) (rowWeight cy)
    (channelRow cx cy p0)
    (k0_pay24 (k0_pay18 (k0_pay8 cy) (k0_pay17 cy)) (colWeight cx) (k0_pay20 (k0_pay9 cy) (k0_pay12 cy) (k0_pay16 cy)) (k0_pay21 (k0_pay13 cy)) p1)
    (k0_pay25 (k0_pay18 (k0_pay8 cy) (k0_pay17 cy)) (colWeight cx) (k0_pay20 (k0_pay9 cy) (k0_pay12 cy) (k0_pay16 cy)) (k0_pay21 (k0_pay13 cy)) p2)
    (k0_pay26 (k0_pay18 (k0_pay8 cy) (k0_pay17 cy)) (colWeight cx) (k0_pay20 (k0_pay9 cy) (k0_pay12 cy) (k0_pay16 cy)) (k0_pay21 (k0_pay13 cy)) p3)
    p4 p5 p6 p7)

/-- The result window's staging buffer after the body, from the three input windows' blocks: its one store, covering. -/
def outBlock (img : Vec F S1x8x320x320 .f32) (bx by_ : Vec F S1x1x2048 .f32) : Vec F S1x8x2048 .f32 :=
  View.canon [⟨rOut, tileVal (View.ld bx rRow) (View.ld by_ rRow)
    (View.ld img rCh0) (View.ld img rCh1) (View.ld img rCh2) (View.ld img rCh3)
    (View.ld img rCh4) (View.ld img rCh5) (View.ld img rCh6) (View.ld img rCh7)⟩]

/-! ## The pipeline's proof data -/

/-- On core `c`: the arrays as the region finds them; after the body at point `t` each input's buffer at its block and the
    result's at `outBlock` of the three input blocks; the region invariant the plain one (the scoped rest and the generator
    register, untouched); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlock (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_img (c : Dev nD) (t : Fin cfg0.N) : (dats m 0 c).after 0 t = iblk m c 0 t := by dsimp only [dats]
theorem after_cx (c : Dev nD) (t : Fin cfg0.N) : (dats m 0 c).after 1 t = iblk m c 1 t := by dsimp only [dats]
theorem after_cy (c : Dev nD) (t : Fin cfg0.N) : (dats m 0 c).after 2 t = iblk m c 2 t := by dsimp only [dats]
theorem after_out (c : Dev nD) (t : Fin cfg0.N) :
    (dats m 0 c).after 3 t = outBlock (iblk m c 0 t) (iblk m c 1 t) (iblk m c 2 t) := by dsimp only [dats]

end Cert.Kernel.Sampler

end
-- ==== Proof.SamplerLinesK.lean ====
/-
  The host lines around the sampling region.

  Every operation of every stretch writes exactly one buffer — its result — and allocates nothing. Listing the written
  references stretch by stretch turns "no line writes buffer b" into one membership question over a literal list of
  references: b is written by no line when b is not in the list. From that: the lines after the region write none of the
  four arrays the region's pipeline moves; no line at all writes one of @main's five arguments; and @main is the lines
  before, the region, the lines after, each line within the unscoped TensorCore buffers.
-/
import proofs.«169545_j87136296501797_2_alg».proof.Proof.SamplerDataK
import Idealize.ShloMosaic.Lib.Pipeline.FrameBody
import Idealize.ShloMosaic.Lib.Pipeline.FrameSuffix
import Idealize.ShloMosaic.Lib.Ring
import Idealize.ShloMosaic.Lib.Tactic

-- membership in a rectangle of these extents, and the long stretches' lists, recurse past the default depth
set_option maxRecDepth 16384

noncomputable section

namespace Cert.Kernel.Sampler

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Lists of lists of operations -/

/-- A property of every operation of every stretch, from the stretches one by one. -/
theorem forall_lines {P : HloOp τ sig (Elt F) → Prop} {L : List (List (HloOp τ sig (Elt F)))}
    (h : L.Forall fun ops => ops.Forall P) : ∀ ops ∈ L, ∀ op ∈ ops, P op :=
  fun ops hops op hop => List.forall_iff_forall_mem.mp (List.forall_iff_forall_mem.mp h ops hops) op hop

/-- When each operation of a line writes exactly the reference listed beside it, a reference not in the list is written
    by no operation of the line. -/
theorem not_written {ops : List (HloOp τ sig (Elt F))} {W : List (Ref sig .tc)}
    (h : List.Forall₂ (fun (op : HloOp τ sig (Elt F)) y => op.writes = {Proc.devRef .tc y}) ops W)
    {b : Ref sig .tc} (hb : b ∉ W) : ops.Forall fun op => Proc.devRef .tc b ∉ op.writes := by
  induction h with
  | nil => exact List.forall_iff_forall_mem.mpr fun _ h => absurd h List.not_mem_nil
  | @cons op y ops W hw _ ih =>
    refine List.forall_iff_forall_mem.mpr fun o ho hmem => ?_
    rcases List.mem_cons.mp ho with rfl | ho
    · rw [hw, Finset.mem_singleton] at hmem
      exact hb (List.mem_cons.mpr (.inl (Proc.devRef_injective _ hmem)))
    · exact List.forall_iff_forall_mem.mp (ih fun h => hb (List.mem_cons_of_mem _ h)) o ho hmem

/-! ## What each stretch writes, and that it allocates nothing -/

/-- The references the 28 operations of this stretch write, in order. -/
def res0 : List (Ref sig .tc) :=
  [
    main_v0, main_v1, main_v2, main_v3, main_v4, main_cst, main_v5, main_v6, main_v7, main_v8,
    main_v9, main_v10, main_v11, main_cst_0, main_v12, main_v13, main_v14, main_v15, main_v16, main_v17,
    main_v18, main_v19, main_v20, main_v21, main_v22, main_v23, main_cst_1, main_cst_2 ]
theorem hostOps0_writes : List.Forall₂ (fun (op : HloOp τ sig (Elt F)) y => op.writes = {Proc.devRef .tc y}) hostOps0 res0 :=
  .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .nil
theorem hostOps0_fresh : (hostOps0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl⟩

/-- The references the 6 operations of this stretch write, in order. -/
def res0_1 : List (Ref sig .tc) :=
  [
    main_call0_v0, main_call0_v1, main_call0_v2, main_call0_v3, main_call0_v4, main_v24 ]
theorem hostOps0_1_writes : List.Forall₂ (fun (op : HloOp τ sig (Elt F)) y => op.writes = {Proc.devRef .tc y}) hostOps0_1 res0_1 :=
  .cons rfl <| .cons rfl <| .cons rfl <| .cons rfl <| .cons rfl <| .cons rfl <| .nil
theorem hostOps0_1_fresh : (hostOps0_1 : List (HloOp τ sig (Elt F))).Forall fun op => op.fresh = ∅ :=
  ⟨rfl, rfl, rfl, rfl, rfl, rfl⟩

/-- The references the 2 operations of this stretch write, in order. -/
def res0_2 : List (Ref sig .tc) :=
  [
    main_cst_3, main_cst_4 ]
theorem hostOps0_2_writes : List.Forall₂ (fun (op : HloOp τ sig (Elt F)) y => op.writes = {Proc.devRef .tc y}) hostOps0_2 res0_2 :=
  .cons rfl <| .cons rfl <| .nil
theorem hostOps0_2_fresh : (hostOps0_2 : List (HloOp τ sig (Elt F))).Forall fun op => op.fresh = ∅ :=
  ⟨rfl, rfl⟩

/-- The references the 6 operations of this stretch write, in order. -/
def res0_3 : List (Ref sig .tc) :=
  [
    main_call1_v0, main_call1_v1, main_call1_v2, main_call1_v3, main_call1_v4, main_v25 ]
theorem hostOps0_3_writes : List.Forall₂ (fun (op : HloOp τ sig (Elt F)) y => op.writes = {Proc.devRef .tc y}) hostOps0_3 res0_3 :=
  .cons rfl <| .cons rfl <| .cons rfl <| .cons rfl <| .cons rfl <| .cons rfl <| .nil
theorem hostOps0_3_fresh : (hostOps0_3 : List (HloOp τ sig (Elt F))).Forall fun op => op.fresh = ∅ :=
  ⟨rfl, rfl, rfl, rfl, rfl, rfl⟩

/-- The references the 2 operations of this stretch write, in order. -/
def res0_4 : List (Ref sig .tc) :=
  [
    main_v26, main_v27 ]
theorem hostOps0_4_writes : List.Forall₂ (fun (op : HloOp τ sig (Elt F)) y => op.writes = {Proc.devRef .tc y}) hostOps0_4 res0_4 :=
  .cons rfl <| .cons rfl <| .nil
theorem hostOps0_4_fresh : (hostOps0_4 : List (HloOp τ sig (Elt F))).Forall fun op => op.fresh = ∅ :=
  ⟨rfl, rfl⟩

/-- The references the 20 operations of this stretch write, in order. -/
def res1 : List (Ref sig .tc) :=
  [
    main_v29, main_v30, main_cst_5, main_v31, main_cst_6, main_v32, main_v33, main_v34, main_v35, main_v36,
    main_v37, main_cst_7, main_v38, main_cst_8, main_v39, main_v40, main_cst_9, main_v41, main_v42, main_cst_10 ]
theorem hostOps1_writes : List.Forall₂ (fun (op : HloOp τ sig (Elt F)) y => op.writes = {Proc.devRef .tc y}) hostOps1 res1 :=
  .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .nil
theorem hostOps1_fresh : (hostOps1 : List (HloOp τ sig (Elt F))).Forall fun op => op.fresh = ∅ :=
  ⟨rfl, rfl, rfl, rfl, rfl, rfl, rfl, rfl, rfl, rfl, rfl, rfl, rfl, rfl, rfl, rfl, rfl, rfl, rfl, rfl⟩

/-- The references the 3 operations of this stretch write, in order. -/
def res1_1 : List (Ref sig .tc) :=
  [
    main_call2_v0, main_call2_v1, main_v43 ]
theorem hostOps1_1_writes : List.Forall₂ (fun (op : HloOp τ sig (Elt F)) y => op.writes = {Proc.devRef .tc y}) hostOps1_1 res1_1 :=
  .cons rfl <| .cons rfl <| .cons rfl <| .nil
theorem hostOps1_1_fresh : (hostOps1_1 : List (HloOp τ sig (Elt F))).Forall fun op => op.fresh = ∅ :=
  ⟨rfl, rfl, rfl⟩

/-- The references the 87 operations of this stretch write, in order. -/
def res1_2 : List (Ref sig .tc) :=
  [
    main_cst_11, main_v44, main_cst_12, main_v45, main_v46, main_cst_13, main_v47, main_cst_14, main_v48, main_v49,
    main_v50, main_v51, main_v52, main_v53, main_v54, main_v55, main_cst_15, main_v56, main_cst_16, main_v57,
    main_v58, main_v59, main_v60, main_v61, main_v62, main_v63, main_v64, main_v65, main_cst_17, main_v66,
    main_v67, main_v68, main_v69, main_v70, main_v71, main_v72, main_cst_18, main_v73, main_v74, main_v75,
    main_v76, main_cst_19, main_v77, main_v78, main_v79, main_v80, main_v81, main_cst_20, main_v82, main_v83,
    main_v84, main_v85, main_v86, main_cst_21, main_v87, main_v88, main_v89, main_v90, main_v91, main_cst_22,
    main_v92, main_v93, main_v94, main_v95, main_v96, main_v97, main_v98, main_v99, main_v100, main_v101,
    main_v102, main_v103, main_v104, main_v105, main_v106, main_v107, main_v108, main_v109, main_v110, main_v111,
    main_v112, main_v113, main_v114, main_cst_23, main_v115, main_v116, main_cst_24 ]
set_option maxHeartbeats 4000000 in
theorem hostOps1_2_writes : List.Forall₂ (fun (op : HloOp τ sig (Elt F)) y => op.writes = {Proc.devRef .tc y}) hostOps1_2 res1_2 :=
  .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .nil
set_option maxHeartbeats 4000000 in
theorem hostOps1_2_fresh : (hostOps1_2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The references the 3 operations of this stretch write, in order. -/
def res1_3 : List (Ref sig .tc) :=
  [
    main_call3_v0, main_call3_v1, main_v117 ]
theorem hostOps1_3_writes : List.Forall₂ (fun (op : HloOp τ sig (Elt F)) y => op.writes = {Proc.devRef .tc y}) hostOps1_3 res1_3 :=
  .cons rfl <| .cons rfl <| .cons rfl <| .nil
theorem hostOps1_3_fresh : (hostOps1_3 : List (HloOp τ sig (Elt F))).Forall fun op => op.fresh = ∅ :=
  ⟨rfl, rfl, rfl⟩

/-- The references the 34 operations of this stretch write, in order. -/
def res1_4 : List (Ref sig .tc) :=
  [
    main_v118, main_v119, main_v120, main_v121, main_v122, main_v123, main_v124, main_v125, main_v126, main_v127,
    main_cst_25, main_v128, main_v129, main_v130, main_v131, main_v132, main_v133, main_v134, main_cst_26, main_v135,
    main_v136, main_v137, main_v138, main_v139, main_v140, main_v141, main_v142, main_v143, main_v144, main_cst_27,
    main_v145, main_v146, main_cst_28, main_cst_29 ]
set_option maxHeartbeats 4000000 in
theorem hostOps1_4_writes : List.Forall₂ (fun (op : HloOp τ sig (Elt F)) y => op.writes = {Proc.devRef .tc y}) hostOps1_4 res1_4 :=
  .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .nil
set_option maxHeartbeats 4000000 in
theorem hostOps1_4_fresh : (hostOps1_4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The references the 5 operations of this stretch write, in order. -/
def res1_5 : List (Ref sig .tc) :=
  [
    main_call4_v0, main_call4_v1, main_call4_v2, main_call4_v3, main_v147 ]
theorem hostOps1_5_writes : List.Forall₂ (fun (op : HloOp τ sig (Elt F)) y => op.writes = {Proc.devRef .tc y}) hostOps1_5 res1_5 :=
  .cons rfl <| .cons rfl <| .cons rfl <| .cons rfl <| .cons rfl <| .nil
theorem hostOps1_5_fresh : (hostOps1_5 : List (HloOp τ sig (Elt F))).Forall fun op => op.fresh = ∅ :=
  ⟨rfl, rfl, rfl, rfl, rfl⟩

/-- The references the 4 operations of this stretch write, in order. -/
def res1_6 : List (Ref sig .tc) :=
  [
    main_cst_30, main_v148, main_v149, main_cst_31 ]
theorem hostOps1_6_writes : List.Forall₂ (fun (op : HloOp τ sig (Elt F)) y => op.writes = {Proc.devRef .tc y}) hostOps1_6 res1_6 :=
  .cons rfl <| .cons rfl <| .cons rfl <| .cons rfl <| .nil
theorem hostOps1_6_fresh : (hostOps1_6 : List (HloOp τ sig (Elt F))).Forall fun op => op.fresh = ∅ :=
  ⟨rfl, rfl, rfl, rfl⟩

/-- The references the 2 operations of this stretch write, in order. -/
def res1_7 : List (Ref sig .tc) :=
  [
    main_call5_v0, main_v150 ]
theorem hostOps1_7_writes : List.Forall₂ (fun (op : HloOp τ sig (Elt F)) y => op.writes = {Proc.devRef .tc y}) hostOps1_7 res1_7 :=
  .cons rfl <| .cons rfl <| .nil
theorem hostOps1_7_fresh : (hostOps1_7 : List (HloOp τ sig (Elt F))).Forall fun op => op.fresh = ∅ :=
  ⟨rfl, rfl⟩

/-- The references the 24 operations of this stretch write, in order. -/
def res1_8 : List (Ref sig .tc) :=
  [
    main_v151, main_v152, main_cst_32, main_v153, main_cst_33, main_v154, main_v155, main_cst_34, main_v156, main_v157,
    main_cst_35, main_v158, main_v159, main_cst_36, main_v160, main_cst_37, main_v161, main_cst_38, main_v162, main_cst_39,
    main_v163, main_v164, main_v165, main_v166 ]
theorem hostOps1_8_writes : List.Forall₂ (fun (op : HloOp τ sig (Elt F)) y => op.writes = {Proc.devRef .tc y}) hostOps1_8 res1_8 :=
  .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .nil
theorem hostOps1_8_fresh : (hostOps1_8 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl⟩

/-! ## Every reference the lines before, and the lines after, write -/

theorem forall₂_append {α β : Type} {R : α → β → Prop} {l₁ l₂ : List α} {w₁ w₂ : List β}
    (h₁ : List.Forall₂ R l₁ w₁) (h₂ : List.Forall₂ R l₂ w₂) : List.Forall₂ R (l₁ ++ l₂) (w₁ ++ w₂) := by
  induction h₁ with
  | nil => exact h₂
  | cons h _ ih => exact .cons h ih

/-- The references the lines before the region write, in order. -/
def resBefore : List (Ref sig .tc) := res0 ++ (res0_1 ++ (res0_2 ++ (res0_3 ++ (res0_4 ++ ([])))))
/-- The references the lines after the region write, in order. -/
def resAfter : List (Ref sig .tc) := res1 ++ (res1_1 ++ (res1_2 ++ (res1_3 ++ (res1_4 ++ (res1_5 ++ (res1_6 ++ (res1_7 ++ (res1_8 ++ ([])))))))))

theorem before_writes : List.Forall₂ (fun (op : HloOp τ sig (Elt F)) y => op.writes = {Proc.devRef .tc y}) (List.flatten linesBefore) resBefore :=
  forall₂_append hostOps0_writes (forall₂_append hostOps0_1_writes (forall₂_append hostOps0_2_writes (forall₂_append hostOps0_3_writes (forall₂_append hostOps0_4_writes (.nil)))))
theorem after_writes : List.Forall₂ (fun (op : HloOp τ sig (Elt F)) y => op.writes = {Proc.devRef .tc y}) (List.flatten linesAfter) resAfter :=
  forall₂_append hostOps1_writes (forall₂_append hostOps1_1_writes (forall₂_append hostOps1_2_writes (forall₂_append hostOps1_3_writes (forall₂_append hostOps1_4_writes (forall₂_append hostOps1_5_writes (forall₂_append hostOps1_6_writes (forall₂_append hostOps1_7_writes (forall₂_append hostOps1_8_writes (.nil)))))))))

/-! ## @main is the lines before, the region, the lines after -/

theorem before_sub : (linesBefore : List (List (HloOp τ sig (Elt F)))).Forall fun ops => ops.Forall fun op => op.bufs ⊆ StableHlo.tcRefs τ sig :=
  ⟨hostOps0_sub, hostOps0_1_sub, hostOps0_2_sub, hostOps0_3_sub, hostOps0_4_sub⟩
theorem before_fresh : (linesBefore : List (List (HloOp τ sig (Elt F)))).Forall fun ops => ops.Forall fun op => op.fresh = ∅ :=
  ⟨hostOps0_fresh, hostOps0_1_fresh, hostOps0_2_fresh, hostOps0_3_fresh, hostOps0_4_fresh⟩
theorem after_sub : (linesAfter : List (List (HloOp τ sig (Elt F)))).Forall fun ops => ops.Forall fun op => op.bufs ⊆ StableHlo.tcRefs τ sig :=
  ⟨hostOps1_sub, hostOps1_1_sub, hostOps1_2_sub, hostOps1_3_sub, hostOps1_4_sub, hostOps1_5_sub, hostOps1_6_sub, hostOps1_7_sub, hostOps1_8_sub⟩
theorem after_fresh : (linesAfter : List (List (HloOp τ sig (Elt F)))).Forall fun ops => ops.Forall fun op => op.fresh = ∅ :=
  ⟨hostOps1_fresh, hostOps1_1_fresh, hostOps1_2_fresh, hostOps1_3_fresh, hostOps1_4_fresh, hostOps1_5_fresh, hostOps1_6_fresh, hostOps1_7_fresh, hostOps1_8_fresh⟩

variable (m : (ℓ : Loc nD τ sig) → Buf (Elt F) ℓ)

/-- @main reduces to the region continued by the lines after it, entered at the contents the lines before it leave. -/
theorem hmain (𝒱₀ : Variants) : Pipeline.HMainK (Ix := Unit) (Name := ℕ) (U := UR sig nD τ) (Lvl := ℕ) cfgs 0 defs₀ 𝒱₀ m (main (F := F)) (V m)
      (fun _ => Pipeline.chain (linesAfter.map StableHlo.seq)) :=
  Pipeline.hmain_around cfgs 0 defs₀ 𝒱₀ m main linesBefore linesAfter before_sub before_fresh main_chain

/-! ## The lines after the region -/

/-- They touch only the pipeline's arrays and the buffers that bypass the region: every operation's buffers are unscoped
    TensorCore references, and with nothing prefetched every such reference is one or the other. -/
theorem sfx_sub : ∀ ops ∈ (linesAfter : List (List (HloOp τ sig (Elt F)))), ∀ op ∈ ops,
    op.bufs ⊆ Pipeline.tailRefs sig Pipeline.Prefetch.none spec0 := by
  rw [Pipeline.tailRefs_none spec0 launch0.win.arr_unscoped]
  exact fun ops hops op hop => Pipeline.sub_ucRefs op (forall_lines after_sub ops hops op hop)

/-- They allocate nothing. -/
theorem sfx_fresh : ∀ ops ∈ (linesAfter : List (List (HloOp τ sig (Elt F)))), ∀ op ∈ ops, op.fresh = ∅ :=
  forall_lines after_fresh

/-- None of the pipeline's four arrays is among the references they write. -/
theorem arr_not_after : ∀ w, Pipeline.arrRef spec0 w ∉ resAfter := by decide

/-- So they write no array of the pipeline. -/
theorem sfx_keeps : ∀ ops ∈ (linesAfter : List (List (HloOp τ sig (Elt F)))), ∀ op ∈ ops,
    ∀ w, Proc.devRef .tc (Pipeline.arrRef spec0 w) ∉ op.writes :=
  fun ops hops op hop w =>
    List.forall_iff_forall_mem.mp (not_written after_writes (arr_not_after w)) op (List.mem_flatten.mpr ⟨ops, hops, hop⟩)

/-! ## Buffers no line writes -/

/-- A reference no line before the region writes is found by the region as launched. -/
theorem V_of_not_written (c : Dev nD) {b : Ref sig .tc} (hb : b ∉ resBefore) : V m c b = m ((c : Thread nD τ).loc b) :=
  StableHlo.after_of_forall_not_mem (b := Proc.devRef .tc b) _ _ (List.forall_iff_forall_mem.mp (not_written before_writes hb))

/-- A reference that is no array of the pipeline and that no line after the region writes ends at what the region found. -/
theorem afterTail_of_not_written (c : Dev nD) {b : Ref sig .tc} (harr : ∀ w, Pipeline.arrRef spec0 w ≠ b) (ha : b ∉ resAfter) :
    Pipeline.afterTail₀ cfgs (dats m) 0 (V0 m) linesAfter c b = V m c b := by
  unfold Pipeline.afterTail₀
  rw [StableHlo.after_of_forall_not_mem (b := Proc.devRef .tc b) _ _ (List.forall_iff_forall_mem.mp (not_written after_writes ha)),
    Pipeline.withArrays_of_ne _ c (V0 m c) _ b harr]

/-- The five arguments are found by the region as launched: no line before it writes one. -/
theorem V_main_arg0 (c : Dev nD) : V m c main_arg0 = m ((c : Thread nD τ).loc main_arg0) := V_of_not_written m c (by decide)
theorem V_main_arg1 (c : Dev nD) : V m c main_arg1 = m ((c : Thread nD τ).loc main_arg1) := V_of_not_written m c (by decide)
theorem V_main_arg2 (c : Dev nD) : V m c main_arg2 = m ((c : Thread nD τ).loc main_arg2) := V_of_not_written m c (by decide)
theorem V_main_arg3 (c : Dev nD) : V m c main_arg3 = m ((c : Thread nD τ).loc main_arg3) := V_of_not_written m c (by decide)
theorem V_main_arg4 (c : Dev nD) : V m c main_arg4 = m ((c : Thread nD τ).loc main_arg4) := V_of_not_written m c (by decide)

/-- Arguments 1 … 4 are no array of the pipeline, and no line after the region writes one: they end as launched. -/
theorem kept_main_arg1 (c : Dev nD) :
    Pipeline.afterTail₀ cfgs (dats m) 0 (V0 m) linesAfter c main_arg1 = m ((c : Thread nD τ).loc main_arg1) :=
  (afterTail_of_not_written m c (by decide) (by decide)).trans (V_main_arg1 m c)
theorem kept_main_arg2 (c : Dev nD) :
    Pipeline.afterTail₀ cfgs (dats m) 0 (V0 m) linesAfter c main_arg2 = m ((c : Thread nD τ).loc main_arg2) :=
  (afterTail_of_not_written m c (by decide) (by decide)).trans (V_main_arg2 m c)
theorem kept_main_arg3 (c : Dev nD) :
    Pipeline.afterTail₀ cfgs (dats m) 0 (V0 m) linesAfter c main_arg3 = m ((c : Thread nD τ).loc main_arg3) :=
  (afterTail_of_not_written m c (by decide) (by decide)).trans (V_main_arg3 m c)
theorem kept_main_arg4 (c : Dev nD) :
    Pipeline.afterTail₀ cfgs (dats m) 0 (V0 m) linesAfter c main_arg4 = m ((c : Thread nD τ).loc main_arg4) :=
  (afterTail_of_not_written m c (by decide) (by decide)).trans (V_main_arg4 m c)

end Cert.Kernel.Sampler

end
-- ==== Proof.SamplerBodyK.lean ====
/-
  The sampling region's body.

  On whole staging buffers — the image block's, the two coordinate rows', the result's — the body loads the two rows and the
  eight channel images, loads the result buffer once without using what it read, and stores one value over the whole result
  block: tileVal of what it loaded. So after the body the inputs' buffers are as they were and the result's holds outBlock of
  the three input blocks. At every grid point each input's current staging buffer holds that window's block, fetched there
  or not, which makes this the body obligation of the pipeline's proof data.
-/
import proofs.«169545_j87136296501797_2_alg».proof.Proof.SamplerDataK
import Idealize.ShloMosaic.Lib.Pipeline.FrameBody
import Idealize.ShloMosaic.Lib.Pipeline.FrameSuffix
import Idealize.ShloMosaic.Lib.Ring
import Idealize.ShloMosaic.Lib.Tactic

-- membership in a rectangle of these extents, and the long stretches' lists, recurse past the default depth
set_option maxRecDepth 16384

noncomputable section

namespace Cert.Kernel.Sampler

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The result block is covered by its one store -/

/-- The one store's rectangle is the whole result block. -/
theorem cover_out (p : (rOut).shape.Idx → Elt F .f32) (y : S1x8x2048.Idx) :
    ∃ pc ∈ ([⟨rOut, p⟩] : List (View.Piece (Elt F) S1x8x2048 .f32)), y ∈ pc.1.set :=
  View.cover_of_tiled [⟨rOut, p⟩] S1x8x2048.size (by rfl) y

/-! ## The body's triple -/

set_option maxHeartbeats 4000000 in
/-- The body on whole staging memrefs — the image block's at read contents x0, the two coordinate rows' at x1 and x2, the
    result's at anything — runs to the continuation holding the three inputs' as they were and the result's at
    outBlock x0 x1 x2: ten loads of the inputs, one load of the result buffer whose value is never used, and one store of
    tileVal of the loaded values over the whole result block. -/
theorem sound_kernel (c : Dev nD) (E : Set ℕ) (i : grid0.Coords)
    (arg2 : Memref sig .tc .vmem S1x8x320x320 .f32) (harg2 : arg2.IsWhole)
    (arg3 : Memref sig .tc .vmem S1x1x2048 .f32) (harg3 : arg3.IsWhole)
    (arg4 : Memref sig .tc .vmem S1x1x2048 .f32) (harg4 : arg4.IsWhole)
    (arg5 : Memref sig .tc .vmem S1x8x2048 .f32) (harg5 : arg5.IsWhole)
    (x0 : Vec F S1x8x320x320 .f32) (x1 x2 : Vec F S1x1x2048 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (outBlock x0 x1 x2)) -∗ K ⟨⟩))
      ⊢ wp frame (wpE (defs₀ (F := F)) Variants.none c none) E (cc0__sample_kernel i arg2 harg2 arg3 harg3 arg4 harg4 arg5 harg5) K := by
  simp only [cc0__sample_kernel_eq_skeleton]; unfold cc0__sample_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover_out _)

variable (m : (ℓ : Loc nD τ sig) → Buf (Elt F) ℓ)

/-! ## What the body finds in each input window's buffer

An input window's current staging buffer holds the window's block at every point, fetched there or not: where the pipeline
does not fetch, the block index has not moved since the last fetch and the body left the block in place. (The image's
window is fetched only when the first grid coordinate advances, every fourth point; the coordinate rows' at every point.) -/

theorem before_img (c : Dev nD) (t : Fin cfg0.N) (d) : (dats m 0 c).before 0 t d = iblk m c 0 t :=
  ((dats m 0 c).before_in_eq_fetched 0 rfl (fun _ => rfl) (fun _ _ _ => rfl)
      (fun t => by rw [after_img]; unfold Dat.blockOf iblk; rw [A_eq]; try rfl) t d).trans
    (by unfold Dat.fetched Dat.blockOf iblk; rw [A_eq]; try rfl)

theorem before_cx (c : Dev nD) (t : Fin cfg0.N) (d) : (dats m 0 c).before 1 t d = iblk m c 1 t :=
  ((dats m 0 c).before_in_eq_fetched 1 rfl (fun _ => rfl) (fun _ _ _ => rfl)
      (fun t => by rw [after_cx]; unfold Dat.blockOf iblk; rw [A_eq]; try rfl) t d).trans
    (by unfold Dat.fetched Dat.blockOf iblk; rw [A_eq]; try rfl)

theorem before_cy (c : Dev nD) (t : Fin cfg0.N) (d) : (dats m 0 c).before 2 t d = iblk m c 2 t :=
  ((dats m 0 c).before_in_eq_fetched 2 rfl (fun _ => rfl) (fun _ _ _ => rfl)
      (fun t => by rw [after_cy]; unfold Dat.blockOf iblk; rw [A_eq]; try rfl) t d).trans
    (by unfold Dat.fetched Dat.blockOf iblk; rw [A_eq]; try rfl)

/-! ## The body obligation, at a generic point -/

/-- What the body is called with at point t: the invariant, the core's debt, and the four windows' current staging
    buffers, each whole at the full share, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the three inputs' buffers hold their blocks, so the body's triple applies; the invariant and the
    core's debt pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_img, before_cx, before_cy]
  rw [show (dats m 0 c).Φ t.succ = (dats m 0 c).Φ t.castSucc from rfl,
    show (dats m 0 c).owesAt () t.succ = (dats m 0 c).owesAt () t.castSucc from rfl,
    after_img, after_cx, after_cy, after_out]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Sampler

end
-- ==== Proof.SamplerFrameK.lean ====
/-
  The sampling kernel's run and frame.

  @main is host lines, one region, host lines. The run: it terminates without fault, each of the pipeline's four arrays ends
  at what the library computes from the proof data, and every other unscoped buffer at what the lines after the region leave
  in it. Read at the five arguments — the first is the image window's array, an input never written back; the other four
  bypass the region and no line writes them — this is the frame; read at the result buffer, it is the run the value is
  stated over.
-/
import proofs.«169545_j87136296501797_2_alg».proof.Proof.SamplerLinesK
import proofs.«169545_j87136296501797_2_alg».proof.Proof.SamplerBodyK
import Idealize.ShloMosaic.Lib.Pipeline.FrameBody
import Idealize.ShloMosaic.Lib.Pipeline.FrameSuffix
import Idealize.ShloMosaic.Lib.Ring
import Idealize.ShloMosaic.Lib.Tactic

-- membership in a rectangle of these extents, and the long stretches' lists, recurse past the default depth
set_option maxRecDepth 16384

noncomputable section

namespace Cert.Kernel.Sampler

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The run -/

-- the launch theorem's implicit arguments are found by unifying its conclusion with this one, which takes unfolding plain
-- definitions in a metavariable's type
set_option backward.isDefEq.respectTransparency.types false in
/-- At the compiled mesh, for any values, from any memory with zero counters: every weakly fair execution of @main on the
    TensorCores terminates, and in every final state each of the pipeline's four arrays holds what the library computes from
    the proof data, and every other unscoped buffer what the lines after the region leave in it. -/
theorem run_main : θ_run defs (onTc (τ := τ) (main (F := F))) (s₀ m ρ)
    (Pipeline.FramePost cfgs (dats m) 0 (Pipeline.afterTail₀ cfgs (dats m) 0 (V0 m) linesAfter)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := linesAfter) (hsub := sfx_sub) (hfresh := sfx_fresh) (hkeep := sfx_keeps)
    (hmain := hmain m Variants.none) (hA := A_eq m) (hΦ := fun _ _ => rfl)

/-! ## Reading the post -/

/-- The first argument is the image window's array, an input: the pipeline never writes it back, so it ends at what the
    region found, which is what was launched. -/
theorem final_main_arg0 (r : PUnit × MemSt nD τ sig (Elt F))
    (h : Pipeline.FramePost cfgs (dats m) 0 (Pipeline.afterTail₀ cfgs (dats m) 0 (V0 m) linesAfter) r) (c : Dev nD) :
    r.2.mem ((c.tc : Thread nD τ).loc main_arg0) = m ((c.tc : Thread nD τ).loc main_arg0) :=
  ((h c).1 0).trans ((((dats m 0 c).arrAt_in 0 rfl _).trans (A_eq m c 0)).trans (V_main_arg0 m c))

/-- The other four arguments bypass the region and no line writes them. -/
theorem final_main_arg1 (r : PUnit × MemSt nD τ sig (Elt F))
    (h : Pipeline.FramePost cfgs (dats m) 0 (Pipeline.afterTail₀ cfgs (dats m) 0 (V0 m) linesAfter) r) (c : Dev nD) :
    r.2.mem ((c.tc : Thread nD τ).loc main_arg1) = m ((c.tc : Thread nD τ).loc main_arg1) :=
  ((h c).2 main_arg1 (Pipeline.mem_restRefs_of main_arg1 (by decide) (by decide))).trans (kept_main_arg1 m c)
theorem final_main_arg2 (r : PUnit × MemSt nD τ sig (Elt F))
    (h : Pipeline.FramePost cfgs (dats m) 0 (Pipeline.afterTail₀ cfgs (dats m) 0 (V0 m) linesAfter) r) (c : Dev nD) :
    r.2.mem ((c.tc : Thread nD τ).loc main_arg2) = m ((c.tc : Thread nD τ).loc main_arg2) :=
  ((h c).2 main_arg2 (Pipeline.mem_restRefs_of main_arg2 (by decide) (by decide))).trans (kept_main_arg2 m c)
theorem final_main_arg3 (r : PUnit × MemSt nD τ sig (Elt F))
    (h : Pipeline.FramePost cfgs (dats m) 0 (Pipeline.afterTail₀ cfgs (dats m) 0 (V0 m) linesAfter) r) (c : Dev nD) :
    r.2.mem ((c.tc : Thread nD τ).loc main_arg3) = m ((c.tc : Thread nD τ).loc main_arg3) :=
  ((h c).2 main_arg3 (Pipeline.mem_restRefs_of main_arg3 (by decide) (by decide))).trans (kept_main_arg3 m c)
theorem final_main_arg4 (r : PUnit × MemSt nD τ sig (Elt F))
    (h : Pipeline.FramePost cfgs (dats m) 0 (Pipeline.afterTail₀ cfgs (dats m) 0 (V0 m) linesAfter) r) (c : Dev nD) :
    r.2.mem ((c.tc : Thread nD τ).loc main_arg4) = m ((c.tc : Thread nD τ).loc main_arg4) :=
  ((h c).2 main_arg4 (Pipeline.mem_restRefs_of main_arg4 (by decide) (by decide))).trans (kept_main_arg4 m c)

/-- The result buffer bypasses the region: it ends at what the lines after the region leave in it. -/
theorem result_at (r : PUnit × MemSt nD τ sig (Elt F))
    (h : Pipeline.FramePost cfgs (dats m) 0 (Pipeline.afterTail₀ cfgs (dats m) 0 (V0 m) linesAfter) r) (c : Dev nD) :
    r.2.mem ((c.tc : Thread nD τ).loc main_v166) = Pipeline.afterTail₀ cfgs (dats m) 0 (V0 m) linesAfter c main_v166 :=
  (h c).2 main_v166 (Pipeline.mem_restRefs_of main_v166 (by decide) (by decide))

/-! ## The frame, and the run the value is read from -/

/-- The frame: @main terminates without fault and its five argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨final_main_arg0 m r h c, final_main_arg1 m r h c, final_main_arg2 m r h c,
    final_main_arg3 m r h c, final_main_arg4 m r h c⟩) (run_main m ρ)

/-- The same run, also reading the result buffer: it ends at what the lines after the region compute from the region's exit. -/
theorem run_value : θ_run defs (onTc (τ := τ) (main (F := F))) ⟨m, fun _ => 0, ρ⟩ (fun r => ∀ c : Dev nD,
      r.2.mem ((c.tc : Thread nD τ).loc main_v166) = Pipeline.afterTail₀ cfgs (dats m) 0 (V0 m) linesAfter c main_v166
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨result_at m r h c, final_main_arg0 m r h c, final_main_arg1 m r h c, final_main_arg2 m r h c,
    final_main_arg3 m r h c, final_main_arg4 m r h c⟩) (run_main m ρ)

end Cert.Kernel.Sampler

end
-- ==== Proof.RefKept.lean ====
/-
  The reference's five arguments are never written.

  The reference's @main is one straight line of 468 host operations. Each writes exactly one buffer, its result. Listing
  those results in order — and checking, operation by operation, that each writes the reference listed beside it — turns
  "no operation writes buffer b" into membership of b in a literal list of references, which is decided. The five arguments
  are not in the list, so after the whole line each holds what it held at the launch.
-/
import proofs.«169545_j87136296501797_2_alg».proof.Proof.RunQ
import Idealize.ShloMosaic.Lib.StableHlo.Run

-- the list of written references is long: deciding membership in it recurses once per element
set_option maxRecDepth 65536

noncomputable section

namespace Cert.ReferenceIdeal.RunFast

open Cert.ReferenceIdeal Cert.ReferenceIdeal.Gen Idealize.ShloMosaic Idealize.ShloMosaic.TcCoe Idealize.SL.Sem Idealize.ShloMosaic.StableHlo

variable {F : FTy → Type} [FloatOps F]

/-! ## Lists of operations and the references they write -/

theorem forall₂_append {α β : Type} {R : α → β → Prop} {l₁ l₂ : List α} {w₁ w₂ : List β}
    (h₁ : List.Forall₂ R l₁ w₁) (h₂ : List.Forall₂ R l₂ w₂) : List.Forall₂ R (l₁ ++ l₂) (w₁ ++ w₂) := by
  induction h₁ with
  | nil => exact h₂
  | cons h _ ih => exact .cons h ih

/-- Two lists related on their first n elements and on the rest are related. -/
theorem forall₂_of_take_drop {α β : Type} {R : α → β → Prop} (n : Nat) {l : List α} {w : List β}
    (h₁ : List.Forall₂ R (l.take n) (w.take n)) (h₂ : List.Forall₂ R (l.drop n) (w.drop n)) : List.Forall₂ R l w := by
  rw [← List.take_append_drop n l, ← List.take_append_drop n w]
  exact forall₂_append h₁ h₂

/-- When each operation of a line writes exactly the reference listed beside it, a reference not in the list is written
    by no operation of the line. -/
theorem not_written {ops : List (HloOp τ sig (Elt F))} {W : List (Ref sig .tc)}
    (h : List.Forall₂ (fun (op : HloOp τ sig (Elt F)) y => op.writes = {Proc.devRef .tc y}) ops W)
    {b : Ref sig .tc} (hb : b ∉ W) : ops.Forall fun op => Proc.devRef .tc b ∉ op.writes := by
  induction h with
  | nil => exact List.forall_iff_forall_mem.mpr fun _ h => absurd h List.not_mem_nil
  | @cons op y ops W hw _ ih =>
    refine List.forall_iff_forall_mem.mpr fun o ho hmem => ?_
    rcases List.mem_cons.mp ho with rfl | ho
    · rw [hw, Finset.mem_singleton] at hmem
      exact hb (List.mem_cons.mpr (.inl (Proc.devRef_injective _ hmem)))
    · exact List.forall_iff_forall_mem.mp (ih fun h => hb (List.mem_cons_of_mem _ h)) o ho hmem

/-! ## What @main's 468 operations write -/

/-- The reference each operation writes — its result —, in order. -/
def res : List (Ref sig .tc) :=
  [
    main_v0, main_v1, main_v2, main_cst, main_v3, main_v4, main_v5, main_v6, main_v7, main_v8,
    main_v9, main_v10, main_v11, main_v12, main_v13, main_v14, main_cst_0, main_v15, main_v16, main_v17,
    main_cst_1, main_v18, main_v19, main_cst_2, main_v20, main_v21, main_cst_3, main_v22, main_v23, main_v24,
    main_cst_4, main_v25, main_v26, main_v27, main_cst_5, main_v28, main_v29, main_v30, main_c, main_c_6,
    main_call0_v0, main_call0_v1, main_call0_v2, main_call0_v3, main_call0_v4, main_v31, main_v32, main_c_7, main_c_8, main_call1_v0,
    main_call1_v1, main_call1_v2, main_call1_v3, main_call1_v4, main_v33, main_v34, main_c_9, main_v35, main_v36, main_c_10,
    main_v37, main_v38, main_v39, main_c_11, main_v40, main_v41, main_c_12, main_v42, main_v43, main_v44,
    main_v45, main_v46, main_v47, main_v48, main_v49, main_cst_13, main_call2_v0, main_call2_v1, main_call2_v2, main_call2_v3,
    main_v50, main_v51, main_v52, main_v53, main_v54, main_cst_14, main_v55, main_v56, main_cst_15, main_v57,
    main_v58, main_cst_16, main_v59, main_v60, main_v61, main_cst_17, main_v62, main_v63, main_v64, main_cst_18,
    main_v65, main_v66, main_v67, main_c_19, main_c_20, main_call3_v0, main_call3_v1, main_call3_v2, main_call3_v3, main_call3_v4,
    main_v68, main_v69, main_c_21, main_c_22, main_call4_v0, main_call4_v1, main_call4_v2, main_call4_v3, main_call4_v4, main_v70,
    main_v71, main_c_23, main_v72, main_v73, main_c_24, main_v74, main_v75, main_v76, main_c_25, main_v77,
    main_v78, main_c_26, main_v79, main_v80, main_v81, main_v82, main_v83, main_v84, main_v85, main_v86,
    main_cst_27, main_call5_v0, main_call5_v1, main_call5_v2, main_call5_v3, main_v87, main_v88, main_v89, main_v90, main_v91,
    main_v92, main_cst_28, main_v93, main_v94, main_cst_29, main_v95, main_v96, main_cst_30, main_v97, main_v98,
    main_v99, main_cst_31, main_v100, main_v101, main_v102, main_cst_32, main_v103, main_v104, main_v105, main_c_33,
    main_c_34, main_call6_v0, main_call6_v1, main_call6_v2, main_call6_v3, main_call6_v4, main_v106, main_v107, main_c_35, main_c_36,
    main_call7_v0, main_call7_v1, main_call7_v2, main_call7_v3, main_call7_v4, main_v108, main_v109, main_c_37, main_v110, main_v111,
    main_c_38, main_v112, main_v113, main_v114, main_c_39, main_v115, main_v116, main_c_40, main_v117, main_v118,
    main_v119, main_v120, main_v121, main_v122, main_v123, main_v124, main_cst_41, main_call8_v0, main_call8_v1, main_call8_v2,
    main_call8_v3, main_v125, main_v126, main_v127, main_v128, main_v129, main_v130, main_cst_42, main_v131, main_v132,
    main_cst_43, main_v133, main_v134, main_cst_44, main_v135, main_v136, main_cst_45, main_v137, main_v138, main_v139,
    main_cst_46, main_v140, main_v141, main_v142, main_cst_47, main_v143, main_v144, main_v145, main_c_48, main_c_49,
    main_call9_v0, main_call9_v1, main_call9_v2, main_call9_v3, main_call9_v4, main_v146, main_v147, main_c_50, main_c_51, main_call10_v0,
    main_call10_v1, main_call10_v2, main_call10_v3, main_call10_v4, main_v148, main_v149, main_c_52, main_v150, main_v151, main_c_53,
    main_v152, main_v153, main_v154, main_c_54, main_v155, main_v156, main_c_55, main_v157, main_v158, main_v159,
    main_v160, main_v161, main_v162, main_v163, main_v164, main_cst_56, main_call11_v0, main_call11_v1, main_call11_v2, main_call11_v3,
    main_v165, main_v166, main_v167, main_v168, main_v169, main_v170, main_v171, main_v172, main_cst_57, main_v173,
    main_cst_58, main_v174, main_v175, main_v176, main_v177, main_v178, main_v179, main_cst_59, main_v180, main_cst_60,
    main_v181, main_v182, main_cst_61, main_v183, main_v184, main_cst_62, main_call12_v0, main_call12_v1, main_v185, main_cst_63,
    main_v186, main_cst_64, main_v187, main_v188, main_cst_65, main_v189, main_cst_66, main_v190, main_v191, main_v192,
    main_v193, main_v194, main_v195, main_v196, main_v197, main_cst_67, main_v198, main_cst_68, main_v199, main_v200,
    main_v201, main_v202, main_v203, main_v204, main_v205, main_v206, main_v207, main_cst_69, main_v208, main_v209,
    main_v210, main_v211, main_v212, main_v213, main_v214, main_cst_70, main_v215, main_v216, main_v217, main_v218,
    main_cst_71, main_v219, main_v220, main_v221, main_v222, main_v223, main_cst_72, main_v224, main_v225, main_v226,
    main_v227, main_v228, main_cst_73, main_v229, main_v230, main_v231, main_v232, main_v233, main_cst_74, main_v234,
    main_v235, main_v236, main_v237, main_v238, main_v239, main_v240, main_v241, main_v242, main_v243, main_v244,
    main_v245, main_v246, main_v247, main_v248, main_v249, main_v250, main_v251, main_v252, main_v253, main_v254,
    main_v255, main_v256, main_cst_75, main_v257, main_v258, main_cst_76, main_call13_v0, main_call13_v1, main_v259, main_v260,
    main_v261, main_v262, main_v263, main_v264, main_v265, main_v266, main_v267, main_v268, main_v269, main_cst_77,
    main_v270, main_v271, main_v272, main_v273, main_v274, main_v275, main_v276, main_cst_78, main_v277, main_v278,
    main_v279, main_v280, main_v281, main_v282, main_v283, main_v284, main_v285, main_v286, main_cst_79, main_v287,
    main_v288, main_cst_80, main_cst_81, main_call14_v0, main_call14_v1, main_call14_v2, main_call14_v3, main_v289, main_cst_82, main_v290,
    main_v291, main_cst_83, main_call15_v0, main_v292, main_v293, main_v294, main_cst_84, main_v295, main_cst_85, main_v296,
    main_v297, main_cst_86, main_v298, main_v299, main_cst_87, main_v300, main_v301, main_cst_88, main_v302, main_cst_89,
    main_v303, main_cst_90, main_v304, main_cst_91, main_v305, main_v306, main_v307, main_v308 ]

/-! Each operation writes exactly its result: checked 60 operations at a time, so that no single statement is long. -/

/-- Operations 1 … 60. -/
theorem writes_0 : List.Forall₂ (fun (op : HloOp τ sig (Elt F)) y => op.writes = {Proc.devRef .tc y})
    (List.take 60 (ValueQ.ops (F := F))) (List.take 60 res) :=
  .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .nil

/-- Operations 61 … 120. -/
theorem writes_1 : List.Forall₂ (fun (op : HloOp τ sig (Elt F)) y => op.writes = {Proc.devRef .tc y})
    (List.take 60 (List.drop 60 (ValueQ.ops (F := F)))) (List.take 60 (List.drop 60 res)) :=
  .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .nil

/-- Operations 121 … 180. -/
theorem writes_2 : List.Forall₂ (fun (op : HloOp τ sig (Elt F)) y => op.writes = {Proc.devRef .tc y})
    (List.take 60 (List.drop 60 (List.drop 60 (ValueQ.ops (F := F))))) (List.take 60 (List.drop 60 (List.drop 60 res))) :=
  .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .nil

/-- Operations 181 … 240. -/
theorem writes_3 : List.Forall₂ (fun (op : HloOp τ sig (Elt F)) y => op.writes = {Proc.devRef .tc y})
    (List.take 60 (List.drop 60 (List.drop 60 (List.drop 60 (ValueQ.ops (F := F)))))) (List.take 60 (List.drop 60 (List.drop 60 (List.drop 60 res)))) :=
  .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .nil

/-- Operations 241 … 300. -/
theorem writes_4 : List.Forall₂ (fun (op : HloOp τ sig (Elt F)) y => op.writes = {Proc.devRef .tc y})
    (List.take 60 (List.drop 60 (List.drop 60 (List.drop 60 (List.drop 60 (ValueQ.ops (F := F))))))) (List.take 60 (List.drop 60 (List.drop 60 (List.drop 60 (List.drop 60 res))))) :=
  .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .nil

/-- Operations 301 … 360. -/
theorem writes_5 : List.Forall₂ (fun (op : HloOp τ sig (Elt F)) y => op.writes = {Proc.devRef .tc y})
    (List.take 60 (List.drop 60 (List.drop 60 (List.drop 60 (List.drop 60 (List.drop 60 (ValueQ.ops (F := F)))))))) (List.take 60 (List.drop 60 (List.drop 60 (List.drop 60 (List.drop 60 (List.drop 60 res)))))) :=
  .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .nil

/-- Operations 361 … 420. -/
theorem writes_6 : List.Forall₂ (fun (op : HloOp τ sig (Elt F)) y => op.writes = {Proc.devRef .tc y})
    (List.take 60 (List.drop 60 (List.drop 60 (List.drop 60 (List.drop 60 (List.drop 60 (List.drop 60 (ValueQ.ops (F := F))))))))) (List.take 60 (List.drop 60 (List.drop 60 (List.drop 60 (List.drop 60 (List.drop 60 (List.drop 60 res))))))) :=
  .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .nil

/-- Operations 421 … 468. -/
theorem writes_7 : List.Forall₂ (fun (op : HloOp τ sig (Elt F)) y => op.writes = {Proc.devRef .tc y})
    (List.drop 60 (List.drop 60 (List.drop 60 (List.drop 60 (List.drop 60 (List.drop 60 (List.drop 60 (ValueQ.ops (F := F))))))))) (List.drop 60 (List.drop 60 (List.drop 60 (List.drop 60 (List.drop 60 (List.drop 60 (List.drop 60 res))))))) :=
  .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .nil

/-- Every operation of @main writes exactly the reference listed beside it. -/
theorem ops_writes : List.Forall₂ (fun (op : HloOp τ sig (Elt F)) y => op.writes = {Proc.devRef .tc y}) (ValueQ.ops (F := F)) res :=
  forall₂_of_take_drop 60 writes_0 (forall₂_of_take_drop 60 writes_1 (forall₂_of_take_drop 60 writes_2 (forall₂_of_take_drop 60 writes_3 (forall₂_of_take_drop 60 writes_4 (forall₂_of_take_drop 60 writes_5 (forall₂_of_take_drop 60 writes_6 (writes_7)))))))

/-! ## The arguments are never written -/

/-- A buffer that is no operation's result holds after the whole line what it held at the launch. -/
theorem kept_of_not_written (m : (ℓ : Loc nD τ sig) → Buf (Elt F) ℓ) (c : Dev nD) {b : Ref sig .tc} (hb : b ∉ res) :
    StableHlo.after (ValueQ.ops (F := F)) (fun b => m (c, b)) (Proc.devRef .tc b) = m ((c.tc : Thread nD τ).loc b) :=
  StableHlo.after_of_forall_not_mem (b := Proc.devRef .tc b) _ _ (List.forall_iff_forall_mem.mp (not_written ops_writes hb))

/-- None of the five arguments is an operation's result. -/
theorem kept_main_arg0 (m : (ℓ : Loc nD τ sig) → Buf (Elt F) ℓ) (c : Dev nD) :
    StableHlo.after (Cert.ReferenceIdeal.ValueQ.ops (F := F)) (fun b => m (c, b)) (Proc.devRef .tc main_arg0) = m ((c.tc : Thread nD τ).loc main_arg0) :=
  kept_of_not_written m c (by decide)
theorem kept_main_arg1 (m : (ℓ : Loc nD τ sig) → Buf (Elt F) ℓ) (c : Dev nD) :
    StableHlo.after (Cert.ReferenceIdeal.ValueQ.ops (F := F)) (fun b => m (c, b)) (Proc.devRef .tc main_arg1) = m ((c.tc : Thread nD τ).loc main_arg1) :=
  kept_of_not_written m c (by decide)
theorem kept_main_arg2 (m : (ℓ : Loc nD τ sig) → Buf (Elt F) ℓ) (c : Dev nD) :
    StableHlo.after (Cert.ReferenceIdeal.ValueQ.ops (F := F)) (fun b => m (c, b)) (Proc.devRef .tc main_arg2) = m ((c.tc : Thread nD τ).loc main_arg2) :=
  kept_of_not_written m c (by decide)
theorem kept_main_arg3 (m : (ℓ : Loc nD τ sig) → Buf (Elt F) ℓ) (c : Dev nD) :
    StableHlo.after (Cert.ReferenceIdeal.ValueQ.ops (F := F)) (fun b => m (c, b)) (Proc.devRef .tc main_arg3) = m ((c.tc : Thread nD τ).loc main_arg3) :=
  kept_of_not_written m c (by decide)
theorem kept_main_arg4 (m : (ℓ : Loc nD τ sig) → Buf (Elt F) ℓ) (c : Dev nD) :
    StableHlo.after (Cert.ReferenceIdeal.ValueQ.ops (F := F)) (fun b => m (c, b)) (Proc.devRef .tc main_arg4) = m ((c.tc : Thread nD τ).loc main_arg4) :=
  kept_of_not_written m c (by decide)

end Cert.ReferenceIdeal.RunFast

end
-- ==== Proof.RefValue.lean ====
/-
  The reference program, read as its last stage.

  The reference program is 468 host lines. They form the sampling coordinates (anchor centres plus the predicted
  offsets), their floors and fractional parts; for each of the four neighbouring pixels of a point — (⌊x⌋, ⌊y⌋),
  (⌊x⌋ + 1, ⌊y⌋), (⌊x⌋, ⌊y⌋ + 1), (⌊x⌋ + 1, ⌊y⌋ + 1) — whether it lies in the image, its clamped integer position, the
  pixel gathered there in every channel, zero outside, times the product of the two fractional weights; the sum of the
  four is the sampled features. Then the pull and push losses: the features regrouped into 128 groups of 64 points, the
  group means, each point's spread about its group's mean (zero below 0.001), the pull term; the similarities of the
  pairs of group means; the boxes grown by a quarter, the sides, areas and positivity of the pairwise overlaps, the push
  weights (1, 0.1, or 0 where the similarity is below 0.001); the two losses side by side.

  Line by line these are the stages of the reference (one stage per line, each a function of the argument arrays). The
  lines fall into ten stretches; what one stretch hands to the next is: the floors, the fractional weights and the first
  corner's weight product; the running sum of the corners; the sampled features; the group means and the thresholded
  spread; the pull terms, the similarities, the grown boxes and the overlaps' sides; whether each pair overlaps; the
  push weights. Each of these is the stage of the same name, and so is the result.
-/
import proofs.«169545_j87136296501797_2_alg».proof.Proof.RunQ
import proofs.«169545_j87136296501797_2_alg».proof.Proof.ReadP
import Idealize.ShloMosaic.Lib.StableHlo.Run
import Idealize.ShloMosaic.Lib.Pipeline.Frame

noncomputable section

namespace Cert.ReferenceIdeal.RunFast

open Cert.ReferenceIdeal Cert.ReferenceIdeal.Gen
open Idealize.ShloMosaic Idealize.ShloMosaic.TcCoe Idealize.SL.Sem Idealize.ShloMosaic.StableHlo

variable {F : FTy → Type} [FloatOps F]

/-! ## Joins, with the joined arrays as arguments -/
section Operands
variable {α : Type}

/-- Two arrays joined along an axis of the result, the two arrays as arguments of their own. -/
def join2 (t : Shape) (a : Fin t.rank) (s₁ s₂ : Shape) (h : Shape.Concatenates [s₁, s₂] t a)
    (x : s₁.Idx → α) (y : s₂.Idx → α) : t.Idx → α :=
  concatenate t a [⟨s₁, x⟩, ⟨s₂, y⟩] h

/-- A join of two arrays, as `join2` of them. -/
theorem concatenate_two (t : Shape) (a : Fin t.rank) (s₁ s₂ : Shape) (x : s₁.Idx → α) (y : s₂.Idx → α)
    (h : Shape.Concatenates [s₁, s₂] t a) :
    concatenate t a [⟨s₁, x⟩, ⟨s₂, y⟩] h = join2 t a s₁ s₂ h x y := rfl

/-- Four arrays joined along an axis of the result, the four arrays as arguments of their own. -/
def join4 (t : Shape) (a : Fin t.rank) (s₁ s₂ s₃ s₄ : Shape) (h : Shape.Concatenates [s₁, s₂, s₃, s₄] t a)
    (x : s₁.Idx → α) (y : s₂.Idx → α) (z : s₃.Idx → α) (w : s₄.Idx → α) : t.Idx → α :=
  concatenate t a [⟨s₁, x⟩, ⟨s₂, y⟩, ⟨s₃, z⟩, ⟨s₄, w⟩] h

end Operands

/-- The line that puts the four grown corners side by side: its result is the join, along the last axis, of what its four
    operands hold. -/
theorem joinCorners_result (G : Valuation τ sig (Elt F)) :
    (StableHlo.nary ![main_v237, main_v238, main_v239, main_v240] main_v241 (fun u => concatenate S16x128x4 2 [⟨S16x128x1, u 0⟩, ⟨S16x128x1, u 1⟩, ⟨S16x128x1, u 2⟩, ⟨S16x128x1, u 3⟩] concatenates_S16x128x1_S16x128x1_S16x128x1_S16x128x1_S16x128x4_d2)).result G (no_index (Proc.devRef .tc main_v241))
      = join4 S16x128x4 2 S16x128x1 S16x128x1 S16x128x1 S16x128x1 concatenates_S16x128x1_S16x128x1_S16x128x1_S16x128x1_S16x128x4_d2
          (G (Proc.devRef .tc main_v237)) (G (Proc.devRef .tc main_v238)) (G (Proc.devRef .tc main_v239)) (G (Proc.devRef .tc main_v240)) := by
  rw [nary_result]; rfl

/-! ## The ten stretches -/

set_option maxHeartbeats 4000000

/-- The lines that form the sampling coordinates (anchor centres plus offsets), their floors and the four fractional weights. -/
abbrev coordLines : List (HloOp τ sig (Elt F)) :=
  [ unary main_arg2 main_v0 ((extractStridedSlice S8192x2 ![0, 0] · slices_S8192x4_S8192x2_0_0) : (⟨S8192x4, .f32⟩ : BufTy).Contents (Elt F) → (⟨S8192x2, .f32⟩ : BufTy).Contents (Elt F)),
    unary main_arg2 main_v1 ((extractStridedSlice S8192x2 ![0, 2] · slices_S8192x4_S8192x2_0_2) : (⟨S8192x4, .f32⟩ : BufTy).Contents (Elt F) → (⟨S8192x2, .f32⟩ : BufTy).Contents (Elt F)),
    binary main_v0 main_v1 main_v2 (addf : (⟨S8192x2, .f32⟩ : BufTy).Contents (Elt F) → (⟨S8192x2, .f32⟩ : BufTy).Contents (Elt F) → (⟨S8192x2, .f32⟩ : BufTy).Contents (Elt F)),
    nullary main_cst (constant S_ .f32 0x3F000000#32),
    unary main_cst main_v3 (broadcastInDim S8192x2 ![] bcast_S_S8192x2 : (⟨S_, .f32⟩ : BufTy).Contents (Elt F) → (⟨S8192x2, .f32⟩ : BufTy).Contents (Elt F)),
    binary main_v3 main_v2 main_v4 (mulf : (⟨S8192x2, .f32⟩ : BufTy).Contents (Elt F) → (⟨S8192x2, .f32⟩ : BufTy).Contents (Elt F) → (⟨S8192x2, .f32⟩ : BufTy).Contents (Elt F)),
    unary main_v4 main_v5 (broadcastInDim S1x8192x2 ![1, 2] bcast_S8192x2_S1x8192x2_1_2 : (⟨S8192x2, .f32⟩ : BufTy).Contents (Elt F) → (⟨S1x8192x2, .f32⟩ : BufTy).Contents (Elt F)),
    unary main_v5 main_v6 (broadcastInDim S16x8192x2 ![0, 1, 2] bcast_S1x8192x2_S16x8192x2_0_1_2 : (⟨S1x8192x2, .f32⟩ : BufTy).Contents (Elt F) → (⟨S16x8192x2, .f32⟩ : BufTy).Contents (Elt F)),
    binary main_v6 main_arg3 main_v7 (addf : (⟨S16x8192x2, .f32⟩ : BufTy).Contents (Elt F) → (⟨S16x8192x2, .f32⟩ : BufTy).Contents (Elt F) → (⟨S16x8192x2, .f32⟩ : BufTy).Contents (Elt F)),
    unary main_v7 main_v8 ((extractStridedSlice S16x8192x1 ![0, 0, 0] · slices_S16x8192x2_S16x8192x1_0_0_0) : (⟨S16x8192x2, .f32⟩ : BufTy).Contents (Elt F) → (⟨S16x8192x1, .f32⟩ : BufTy).Contents (Elt F)),
    reshape main_v8 main_v9 rfl shapeCasts_S16x8192x1_S16x8192,
    unary main_v7 main_v10 ((extractStridedSlice S16x8192x1 ![0, 0, 1] · slices_S16x8192x2_S16x8192x1_0_0_1) : (⟨S16x8192x2, .f32⟩ : BufTy).Contents (Elt F) → (⟨S16x8192x1, .f32⟩ : BufTy).Contents (Elt F)),
    reshape main_v10 main_v11 rfl shapeCasts_S16x8192x1_S16x8192,
    unary main_v9 main_v12 (Host.floor : (⟨S16x8192, .f32⟩ : BufTy).Contents (Elt F) → (⟨S16x8192, .f32⟩ : BufTy).Contents (Elt F)),
    unary main_v11 main_v13 (Host.floor : (⟨S16x8192, .f32⟩ : BufTy).Contents (Elt F) → (⟨S16x8192, .f32⟩ : BufTy).Contents (Elt F)),
    binary main_v9 main_v12 main_v14 (subf : (⟨S16x8192, .f32⟩ : BufTy).Contents (Elt F) → (⟨S16x8192, .f32⟩ : BufTy).Contents (Elt F) → (⟨S16x8192, .f32⟩ : BufTy).Contents (Elt F)),
    nullary main_cst_0 (constant S_ .f32 0x3F800000#32),
    unary main_cst_0 main_v15 (broadcastInDim S16x8192 ![] bcast_S_S16x8192 : (⟨S_, .f32⟩ : BufTy).Contents (Elt F) → (⟨S16x8192, .f32⟩ : BufTy).Contents (Elt F)),
    binary main_v15 main_v14 main_v16 (subf : (⟨S16x8192, .f32⟩ : BufTy).Contents (Elt F) → (⟨S16x8192, .f32⟩ : BufTy).Contents (Elt F) → (⟨S16x8192, .f32⟩ : BufTy).Contents (Elt F)),
    binary main_v11 main_v13 main_v17 (subf : (⟨S16x8192, .f32⟩ : BufTy).Contents (Elt F) → (⟨S16x8192, .f32⟩ : BufTy).Contents (Elt F) → (⟨S16x8192, .f32⟩ : BufTy).Contents (Elt F)),
    nullary main_cst_1 (constant S_ .f32 0x3F800000#32),
    unary main_cst_1 main_v18 (broadcastInDim S16x8192 ![] bcast_S_S16x8192 : (⟨S_, .f32⟩ : BufTy).Contents (Elt F) → (⟨S16x8192, .f32⟩ : BufTy).Contents (Elt F)),
    binary main_v18 main_v17 main_v19 (subf : (⟨S16x8192, .f32⟩ : BufTy).Contents (Elt F) → (⟨S16x8192, .f32⟩ : BufTy).Contents (Elt F) → (⟨S16x8192, .f32⟩ : BufTy).Contents (Elt F)) ]

/-- The lines of the first corner (floor x, floor y): whether it lies in the image, its clamped integer position, the gathered pixel, zero outside, times its weight. -/
abbrev cornerLines0 : List (HloOp τ sig (Elt F)) :=
  [ nullary main_cst_2 (constant S_ .f32 0x00000000#32),
    unary main_cst_2 main_v20 (broadcastInDim S16x8192 ![] bcast_S_S16x8192 : (⟨S_, .f32⟩ : BufTy).Contents (Elt F) → (⟨S16x8192, .f32⟩ : BufTy).Contents (Elt F)),
    binary main_v12 main_v20 main_v21 (cmpf .oge : (⟨S16x8192, .f32⟩ : BufTy).Contents (Elt F) → (⟨S16x8192, .f32⟩ : BufTy).Contents (Elt F) → (⟨S16x8192, .i1⟩ : BufTy).Contents (Elt F)),
    nullary main_cst_3 (constant S_ .f32 0x439F8000#32),
    unary main_cst_3 main_v22 (broadcastInDim S16x8192 ![] bcast_S_S16x8192 : (⟨S_, .f32⟩ : BufTy).Contents (Elt F) → (⟨S16x8192, .f32⟩ : BufTy).Contents (Elt F)),
    binary main_v12 main_v22 main_v23 (cmpf .ole : (⟨S16x8192, .f32⟩ : BufTy).Contents (Elt F) → (⟨S16x8192, .f32⟩ : BufTy).Contents (Elt F) → (⟨S16x8192, .i1⟩ : BufTy).Contents (Elt F)),
    binary main_v21 main_v23 main_v24 (andi : (⟨S16x8192, .i1⟩ : BufTy).Contents (Elt F) → (⟨S16x8192, .i1⟩ : BufTy).Contents (Elt F) → (⟨S16x8192, .i1⟩ : BufTy).Contents (Elt F)),
    nullary main_cst_4 (constant S_ .f32 0x00000000#32),
    unary main_cst_4 main_v25 (broadcastInDim S16x8192 ![] bcast_S_S16x8192 : (⟨S_, .f32⟩ : BufTy).Contents (Elt F) → (⟨S16x8192, .f32⟩ : BufTy).Contents (Elt F)),
    binary main_v13 main_v25 main_v26 (cmpf .oge : (⟨S16x8192, .f32⟩ : BufTy).Contents (Elt F) → (⟨S16x8192, .f32⟩ : BufTy).Contents (Elt F) → (⟨S16x8192, .i1⟩ : BufTy).Contents (Elt F)),
    binary main_v24 main_v26 main_v27 (andi : (⟨S16x8192, .i1⟩ : BufTy).Contents (Elt F) → (⟨S16x8192, .i1⟩ : BufTy).Contents (Elt F) → (⟨S16x8192, .i1⟩ : BufTy).Contents (Elt F)),
    nullary main_cst_5 (constant S_ .f32 0x439F8000#32),
    unary main_cst_5 main_v28 (broadcastInDim S16x8192 ![] bcast_S_S16x8192 : (⟨S_, .f32⟩ : BufTy).Contents (Elt F) → (⟨S16x8192, .f32⟩ : BufTy).Contents (Elt F)),
    binary main_v13 main_v28 main_v29 (cmpf .ole : (⟨S16x8192, .f32⟩ : BufTy).Contents (Elt F) → (⟨S16x8192, .f32⟩ : BufTy).Contents (Elt F) → (⟨S16x8192, .i1⟩ : BufTy).Contents (Elt F)),
    binary main_v27 main_v29 main_v30 (andi : (⟨S16x8192, .i1⟩ : BufTy).Contents (Elt F) → (⟨S16x8192, .i1⟩ : BufTy).Contents (Elt F) → (⟨S16x8192, .i1⟩ : BufTy).Contents (Elt F)),
    nullary main_c (constantI S_ 32 0#32),
    nullary main_c_6 (constantI S_ 32 319#32),
    TRef.unary (TRef.of (T := ⟨S_, .i32⟩) main_c) (TRef.of (T := ⟨S_, .f32⟩) main_call0_v0) (sitofp .f32),
    TRef.unary (TRef.of (T := ⟨S_, .f32⟩) main_call0_v0) (TRef.of (T := ⟨S16x8192, .f32⟩) main_call0_v1) (broadcastInDim S16x8192 ![] bcast_S_S16x8192),
    TRef.binary (TRef.of (T := ⟨S16x8192, .f32⟩) main_call0_v1) (TRef.of (T := ⟨S16x8192, .f32⟩) main_v12) (TRef.of (T := ⟨S16x8192, .f32⟩) main_call0_v2) maximumf,
    TRef.unary (TRef.of (T := ⟨S_, .i32⟩) main_c_6) (TRef.of (T := ⟨S_, .f32⟩) main_call0_v3) (sitofp .f32),
    TRef.unary (TRef.of (T := ⟨S_, .f32⟩) main_call0_v3) (TRef.of (T := ⟨S16x8192, .f32⟩) main_call0_v4) (broadcastInDim S16x8192 ![] bcast_S_S16x8192),
    TRef.binary (TRef.of (T := ⟨S16x8192, .f32⟩) main_call0_v4) (TRef.of (T := ⟨S16x8192, .f32⟩) main_call0_v2) (TRef.of (T := ⟨S16x8192, .f32⟩) main_v31) minimumf,
    unary main_v31 main_v32 (fptosi 32 : (⟨S16x8192, .f32⟩ : BufTy).Contents (Elt F) → (⟨S16x8192, .i32⟩ : BufTy).Contents (Elt F)),
    nullary main_c_7 (constantI S_ 32 0#32),
    nullary main_c_8 (constantI S_ 32 319#32),
    TRef.unary (TRef.of (T := ⟨S_, .i32⟩) main_c_7) (TRef.of (T := ⟨S_, .f32⟩) main_call1_v0) (sitofp .f32),
    TRef.unary (TRef.of (T := ⟨S_, .f32⟩) main_call1_v0) (TRef.of (T := ⟨S16x8192, .f32⟩) main_call1_v1) (broadcastInDim S16x8192 ![] bcast_S_S16x8192),
    TRef.binary (TRef.of (T := ⟨S16x8192, .f32⟩) main_call1_v1) (TRef.of (T := ⟨S16x8192, .f32⟩) main_v13) (TRef.of (T := ⟨S16x8192, .f32⟩) main_call1_v2) maximumf,
    TRef.unary (TRef.of (T := ⟨S_, .i32⟩) main_c_8) (TRef.of (T := ⟨S_, .f32⟩) main_call1_v3) (sitofp .f32),
    TRef.unary (TRef.of (T := ⟨S_, .f32⟩) main_call1_v3) (TRef.of (T := ⟨S16x8192, .f32⟩) main_call1_v4) (broadcastInDim S16x8192 ![] bcast_S_S16x8192),
    TRef.binary (TRef.of (T := ⟨S16x8192, .f32⟩) main_call1_v4) (TRef.of (T := ⟨S16x8192, .f32⟩) main_call1_v2) (TRef.of (T := ⟨S16x8192, .f32⟩) main_v33) minimumf,
    unary main_v33 main_v34 (fptosi 32 : (⟨S16x8192, .f32⟩ : BufTy).Contents (Elt F) → (⟨S16x8192, .i32⟩ : BufTy).Contents (Elt F)),
    nullary main_c_9 (constantI S_ 32 0#32),
    unary main_c_9 main_v35 (broadcastInDim S16x8192 ![] bcast_S_S16x8192 : (⟨S_, .i32⟩ : BufTy).Contents (Elt F) → (⟨S16x8192, .i32⟩ : BufTy).Contents (Elt F)),
    binary main_v34 main_v35 main_v36 (cmpi .slt : (⟨S16x8192, .i32⟩ : BufTy).Contents (Elt F) → (⟨S16x8192, .i32⟩ : BufTy).Contents (Elt F) → (⟨S16x8192, .i1⟩ : BufTy).Contents (Elt F)),
    nullary main_c_10 (constantI S_ 32 320#32),
    unary main_c_10 main_v37 (broadcastInDim S16x8192 ![] bcast_S_S16x8192 : (⟨S_, .i32⟩ : BufTy).Contents (Elt F) → (⟨S16x8192, .i32⟩ : BufTy).Contents (Elt F)),
    binary main_v34 main_v37 main_v38 (addi : (⟨S16x8192, .i32⟩ : BufTy).Contents (Elt F) → (⟨S16x8192, .i32⟩ : BufTy).Contents (Elt F) → (⟨S16x8192, .i32⟩ : BufTy).Contents (Elt F)),
    ternary main_v36 main_v38 main_v34 main_v39 (select : (⟨S16x8192, .i1⟩ : BufTy).Contents (Elt F) → (⟨S16x8192, .i32⟩ : BufTy).Contents (Elt F) → (⟨S16x8192, .i32⟩ : BufTy).Contents (Elt F) → (⟨S16x8192, .i32⟩ : BufTy).Contents (Elt F)),
    nullary main_c_11 (constantI S_ 32 0#32),
    unary main_c_11 main_v40 (broadcastInDim S16x8192 ![] bcast_S_S16x8192 : (⟨S_, .i32⟩ : BufTy).Contents (Elt F) → (⟨S16x8192, .i32⟩ : BufTy).Contents (Elt F)),
    binary main_v32 main_v40 main_v41 (cmpi .slt : (⟨S16x8192, .i32⟩ : BufTy).Contents (Elt F) → (⟨S16x8192, .i32⟩ : BufTy).Contents (Elt F) → (⟨S16x8192, .i1⟩ : BufTy).Contents (Elt F)),
    nullary main_c_12 (constantI S_ 32 320#32),
    unary main_c_12 main_v42 (broadcastInDim S16x8192 ![] bcast_S_S16x8192 : (⟨S_, .i32⟩ : BufTy).Contents (Elt F) → (⟨S16x8192, .i32⟩ : BufTy).Contents (Elt F)),
    binary main_v32 main_v42 main_v43 (addi : (⟨S16x8192, .i32⟩ : BufTy).Contents (Elt F) → (⟨S16x8192, .i32⟩ : BufTy).Contents (Elt F) → (⟨S16x8192, .i32⟩ : BufTy).Contents (Elt F)),
    ternary main_v41 main_v43 main_v32 main_v44 (select : (⟨S16x8192, .i1⟩ : BufTy).Contents (Elt F) → (⟨S16x8192, .i32⟩ : BufTy).Contents (Elt F) → (⟨S16x8192, .i32⟩ : BufTy).Contents (Elt F) → (⟨S16x8192, .i32⟩ : BufTy).Contents (Elt F)),
    unary main_v39 main_v45 (broadcastInDim S16x8192x1 ![0, 1] bcast_S16x8192_S16x8192x1_0_1 : (⟨S16x8192, .i32⟩ : BufTy).Contents (Elt F) → (⟨S16x8192x1, .i32⟩ : BufTy).Contents (Elt F)),
    unary main_v44 main_v46 (broadcastInDim S16x8192x1 ![0, 1] bcast_S16x8192_S16x8192x1_0_1 : (⟨S16x8192, .i32⟩ : BufTy).Contents (Elt F) → (⟨S16x8192x1, .i32⟩ : BufTy).Contents (Elt F)),
    binary main_v45 main_v46 main_v47 ((fun a b => concatenate S16x8192x2 2 [⟨S16x8192x1, a⟩, ⟨S16x8192x1, b⟩] concatenates_S16x8192x1_S16x8192x1_S16x8192x2_d2) : (⟨S16x8192x1, .i32⟩ : BufTy).Contents (Elt F) → (⟨S16x8192x1, .i32⟩ : BufTy).Contents (Elt F) → (⟨S16x8192x2, .i32⟩ : BufTy).Contents (Elt F)),
    binary main_arg0 main_v47 main_v48 ((fun x i => Host.gather gather_S16x8x320x320_S16x8192x2_S16x8x8192_1_23_0_0_23_2_1811 x i) : (⟨S16x8x320x320, .f32⟩ : BufTy).Contents (Elt F) → (⟨S16x8192x2, .i32⟩ : BufTy).Contents (Elt F) → (⟨S16x8x8192, .f32⟩ : BufTy).Contents (Elt F)),
    unary main_v30 main_v49 (broadcastInDim S16x1x8192 ![0, 2] bcast_S16x8192_S16x1x8192_0_2 : (⟨S16x8192, .i1⟩ : BufTy).Contents (Elt F) → (⟨S16x1x8192, .i1⟩ : BufTy).Contents (Elt F)),
    nullary main_cst_13 (constant S_ .f32 0x00000000#32),
    TRef.unary (TRef.of (T := ⟨S_, .f32⟩) main_cst_13) (TRef.of (T := ⟨S_, .f32⟩) main_call2_v0) id,
    TRef.unary (TRef.of (T := ⟨S16x1x8192, .i1⟩) main_v49) (TRef.of (T := ⟨S16x8x8192, .i1⟩) main_call2_v1) (broadcastInDim S16x8x8192 ![0, 1, 2] bcast_S16x1x8192_S16x8x8192_0_1_2),
    TRef.unary (TRef.of (T := ⟨S_, .f32⟩) main_call2_v0) (TRef.of (T := ⟨S8x8192, .f32⟩) main_call2_v2) (broadcastInDim S8x8192 ![] bcast_S_S8x8192),
    TRef.unary (TRef.of (T := ⟨S8x8192, .f32⟩) main_call2_v2) (TRef.of (T := ⟨S16x8x8192, .f32⟩) main_call2_v3) (broadcastInDim S16x8x8192 ![1, 2] bcast_S8x8192_S16x8x8192_1_2),
    TRef.ternary (TRef.of (T := ⟨S16x8x8192, .i1⟩) main_call2_v1) (TRef.of (T := ⟨S16x8x8192, .f32⟩) main_v48) (TRef.of (T := ⟨S16x8x8192, .f32⟩) main_call2_v3) (TRef.of (T := ⟨S16x8x8192, .f32⟩) main_v50) select,
    binary main_v16 main_v19 main_v51 (mulf : (⟨S16x8192, .f32⟩ : BufTy).Contents (Elt F) → (⟨S16x8192, .f32⟩ : BufTy).Contents (Elt F) → (⟨S16x8192, .f32⟩ : BufTy).Contents (Elt F)),
    unary main_v51 main_v52 (broadcastInDim S16x1x8192 ![0, 2] bcast_S16x8192_S16x1x8192_0_2 : (⟨S16x8192, .f32⟩ : BufTy).Contents (Elt F) → (⟨S16x1x8192, .f32⟩ : BufTy).Contents (Elt F)),
    unary main_v52 main_v53 (broadcastInDim S16x8x8192 ![0, 1, 2] bcast_S16x1x8192_S16x8x8192_0_1_2 : (⟨S16x1x8192, .f32⟩ : BufTy).Contents (Elt F) → (⟨S16x8x8192, .f32⟩ : BufTy).Contents (Elt F)),
    binary main_v50 main_v53 main_v54 (mulf : (⟨S16x8x8192, .f32⟩ : BufTy).Contents (Elt F) → (⟨S16x8x8192, .f32⟩ : BufTy).Contents (Elt F) → (⟨S16x8x8192, .f32⟩ : BufTy).Contents (Elt F)) ]

/-- The lines of the second corner (floor x + 1, floor y), added to the first. -/
abbrev cornerLines1 : List (HloOp τ sig (Elt F)) :=
  [ nullary main_cst_14 (constant S_ .f32 0x3F800000#32),
    unary main_cst_14 main_v55 (broadcastInDim S16x8192 ![] bcast_S_S16x8192 : (⟨S_, .f32⟩ : BufTy).Contents (Elt F) → (⟨S16x8192, .f32⟩ : BufTy).Contents (Elt F)),
    binary main_v12 main_v55 main_v56 (addf : (⟨S16x8192, .f32⟩ : BufTy).Contents (Elt F) → (⟨S16x8192, .f32⟩ : BufTy).Contents (Elt F) → (⟨S16x8192, .f32⟩ : BufTy).Contents (Elt F)),
    nullary main_cst_15 (constant S_ .f32 0x00000000#32),
    unary main_cst_15 main_v57 (broadcastInDim S16x8192 ![] bcast_S_S16x8192 : (⟨S_, .f32⟩ : BufTy).Contents (Elt F) → (⟨S16x8192, .f32⟩ : BufTy).Contents (Elt F)),
    binary main_v56 main_v57 main_v58 (cmpf .oge : (⟨S16x8192, .f32⟩ : BufTy).Contents (Elt F) → (⟨S16x8192, .f32⟩ : BufTy).Contents (Elt F) → (⟨S16x8192, .i1⟩ : BufTy).Contents (Elt F)),
    nullary main_cst_16 (constant S_ .f32 0x439F8000#32),
    unary main_cst_16 main_v59 (broadcastInDim S16x8192 ![] bcast_S_S16x8192 : (⟨S_, .f32⟩ : BufTy).Contents (Elt F) → (⟨S16x8192, .f32⟩ : BufTy).Contents (Elt F)),
    binary main_v56 main_v59 main_v60 (cmpf .ole : (⟨S16x8192, .f32⟩ : BufTy).Contents (Elt F) → (⟨S16x8192, .f32⟩ : BufTy).Contents (Elt F) → (⟨S16x8192, .i1⟩ : BufTy).Contents (Elt F)),
    binary main_v58 main_v60 main_v61 (andi : (⟨S16x8192, .i1⟩ : BufTy).Contents (Elt F) → (⟨S16x8192, .i1⟩ : BufTy).Contents (Elt F) → (⟨S16x8192, .i1⟩ : BufTy).Contents (Elt F)),
    nullary main_cst_17 (constant S_ .f32 0x00000000#32),
    unary main_cst_17 main_v62 (broadcastInDim S16x8192 ![] bcast_S_S16x8192 : (⟨S_, .f32⟩ : BufTy).Contents (Elt F) → (⟨S16x8192, .f32⟩ : BufTy).Contents (Elt F)),
    binary main_v13 main_v62 main_v63 (cmpf .oge : (⟨S16x8192, .f32⟩ : BufTy).Contents (Elt F) → (⟨S16x8192, .f32⟩ : BufTy).Contents (Elt F) → (⟨S16x8192, .i1⟩ : BufTy).Contents (Elt F)),
    binary main_v61 main_v63 main_v64 (andi : (⟨S16x8192, .i1⟩ : BufTy).Contents (Elt F) → (⟨S16x8192, .i1⟩ : BufTy).Contents (Elt F) → (⟨S16x8192, .i1⟩ : BufTy).Contents (Elt F)),
    nullary main_cst_18 (constant S_ .f32 0x439F8000#32),
    unary main_cst_18 main_v65 (broadcastInDim S16x8192 ![] bcast_S_S16x8192 : (⟨S_, .f32⟩ : BufTy).Contents (Elt F) → (⟨S16x8192, .f32⟩ : BufTy).Contents (Elt F)),
    binary main_v13 main_v65 main_v66 (cmpf .ole : (⟨S16x8192, .f32⟩ : BufTy).Contents (Elt F) → (⟨S16x8192, .f32⟩ : BufTy).Contents (Elt F) → (⟨S16x8192, .i1⟩ : BufTy).Contents (Elt F)),
    binary main_v64 main_v66 main_v67 (andi : (⟨S16x8192, .i1⟩ : BufTy).Contents (Elt F) → (⟨S16x8192, .i1⟩ : BufTy).Contents (Elt F) → (⟨S16x8192, .i1⟩ : BufTy).Contents (Elt F)),
    nullary main_c_19 (constantI S_ 32 0#32),
    nullary main_c_20 (constantI S_ 32 319#32),
    TRef.unary (TRef.of (T := ⟨S_, .i32⟩) main_c_19) (TRef.of (T := ⟨S_, .f32⟩) main_call3_v0) (sitofp .f32),
    TRef.unary (TRef.of (T := ⟨S_, .f32⟩) main_call3_v0) (TRef.of (T := ⟨S16x8192, .f32⟩) main_call3_v1) (broadcastInDim S16x8192 ![] bcast_S_S16x8192),
    TRef.binary (TRef.of (T := ⟨S16x8192, .f32⟩) main_call3_v1) (TRef.of (T := ⟨S16x8192, .f32⟩) main_v56) (TRef.of (T := ⟨S16x8192, .f32⟩) main_call3_v2) maximumf,
    TRef.unary (TRef.of (T := ⟨S_, .i32⟩) main_c_20) (TRef.of (T := ⟨S_, .f32⟩) main_call3_v3) (sitofp .f32),
    TRef.unary (TRef.of (T := ⟨S_, .f32⟩) main_call3_v3) (TRef.of (T := ⟨S16x8192, .f32⟩) main_call3_v4) (broadcastInDim S16x8192 ![] bcast_S_S16x8192),
    TRef.binary (TRef.of (T := ⟨S16x8192, .f32⟩) main_call3_v4) (TRef.of (T := ⟨S16x8192, .f32⟩) main_call3_v2) (TRef.of (T := ⟨S16x8192, .f32⟩) main_v68) minimumf,
    unary main_v68 main_v69 (fptosi 32 : (⟨S16x8192, .f32⟩ : BufTy).Contents (Elt F) → (⟨S16x8192, .i32⟩ : BufTy).Contents (Elt F)),
    nullary main_c_21 (constantI S_ 32 0#32),
    nullary main_c_22 (constantI S_ 32 319#32),
    TRef.unary (TRef.of (T := ⟨S_, .i32⟩) main_c_21) (TRef.of (T := ⟨S_, .f32⟩) main_call4_v0) (sitofp .f32),
    TRef.unary (TRef.of (T := ⟨S_, .f32⟩) main_call4_v0) (TRef.of (T := ⟨S16x8192, .f32⟩) main_call4_v1) (broadcastInDim S16x8192 ![] bcast_S_S16x8192),
    TRef.binary (TRef.of (T := ⟨S16x8192, .f32⟩) main_call4_v1) (TRef.of (T := ⟨S16x8192, .f32⟩) main_v13) (TRef.of (T := ⟨S16x8192, .f32⟩) main_call4_v2) maximumf,
    TRef.unary (TRef.of (T := ⟨S_, .i32⟩) main_c_22) (TRef.of (T := ⟨S_, .f32⟩) main_call4_v3) (sitofp .f32),
    TRef.unary (TRef.of (T := ⟨S_, .f32⟩) main_call4_v3) (TRef.of (T := ⟨S16x8192, .f32⟩) main_call4_v4) (broadcastInDim S16x8192 ![] bcast_S_S16x8192),
    TRef.binary (TRef.of (T := ⟨S16x8192, .f32⟩) main_call4_v4) (TRef.of (T := ⟨S16x8192, .f32⟩) main_call4_v2) (TRef.of (T := ⟨S16x8192, .f32⟩) main_v70) minimumf,
    unary main_v70 main_v71 (fptosi 32 : (⟨S16x8192, .f32⟩ : BufTy).Contents (Elt F) → (⟨S16x8192, .i32⟩ : BufTy).Contents (Elt F)),
    nullary main_c_23 (constantI S_ 32 0#32),
    unary main_c_23 main_v72 (broadcastInDim S16x8192 ![] bcast_S_S16x8192 : (⟨S_, .i32⟩ : BufTy).Contents (Elt F) → (⟨S16x8192, .i32⟩ : BufTy).Contents (Elt F)),
    binary main_v71 main_v72 main_v73 (cmpi .slt : (⟨S16x8192, .i32⟩ : BufTy).Contents (Elt F) → (⟨S16x8192, .i32⟩ : BufTy).Contents (Elt F) → (⟨S16x8192, .i1⟩ : BufTy).Contents (Elt F)),
    nullary main_c_24 (constantI S_ 32 320#32),
    unary main_c_24 main_v74 (broadcastInDim S16x8192 ![] bcast_S_S16x8192 : (⟨S_, .i32⟩ : BufTy).Contents (Elt F) → (⟨S16x8192, .i32⟩ : BufTy).Contents (Elt F)),
    binary main_v71 main_v74 main_v75 (addi : (⟨S16x8192, .i32⟩ : BufTy).Contents (Elt F) → (⟨S16x8192, .i32⟩ : BufTy).Contents (Elt F) → (⟨S16x8192, .i32⟩ : BufTy).Contents (Elt F)),
    ternary main_v73 main_v75 main_v71 main_v76 (select : (⟨S16x8192, .i1⟩ : BufTy).Contents (Elt F) → (⟨S16x8192, .i32⟩ : BufTy).Contents (Elt F) → (⟨S16x8192, .i32⟩ : BufTy).Contents (Elt F) → (⟨S16x8192, .i32⟩ : BufTy).Contents (Elt F)),
    nullary main_c_25 (constantI S_ 32 0#32),
    unary main_c_25 main_v77 (broadcastInDim S16x8192 ![] bcast_S_S16x8192 : (⟨S_, .i32⟩ : BufTy).Contents (Elt F) → (⟨S16x8192, .i32⟩ : BufTy).Contents (Elt F)),
    binary main_v69 main_v77 main_v78 (cmpi .slt : (⟨S16x8192, .i32⟩ : BufTy).Contents (Elt F) → (⟨S16x8192, .i32⟩ : BufTy).Contents (Elt F) → (⟨S16x8192, .i1⟩ : BufTy).Contents (Elt F)),
    nullary main_c_26 (constantI S_ 32 320#32),
    unary main_c_26 main_v79 (broadcastInDim S16x8192 ![] bcast_S_S16x8192 : (⟨S_, .i32⟩ : BufTy).Contents (Elt F) → (⟨S16x8192, .i32⟩ : BufTy).Contents (Elt F)),
    binary main_v69 main_v79 main_v80 (addi : (⟨S16x8192, .i32⟩ : BufTy).Contents (Elt F) → (⟨S16x8192, .i32⟩ : BufTy).Contents (Elt F) → (⟨S16x8192, .i32⟩ : BufTy).Contents (Elt F)),
    ternary main_v78 main_v80 main_v69 main_v81 (select : (⟨S16x8192, .i1⟩ : BufTy).Contents (Elt F) → (⟨S16x8192, .i32⟩ : BufTy).Contents (Elt F) → (⟨S16x8192, .i32⟩ : BufTy).Contents (Elt F) → (⟨S16x8192, .i32⟩ : BufTy).Contents (Elt F)),
    unary main_v76 main_v82 (broadcastInDim S16x8192x1 ![0, 1] bcast_S16x8192_S16x8192x1_0_1 : (⟨S16x8192, .i32⟩ : BufTy).Contents (Elt F) → (⟨S16x8192x1, .i32⟩ : BufTy).Contents (Elt F)),
    unary main_v81 main_v83 (broadcastInDim S16x8192x1 ![0, 1] bcast_S16x8192_S16x8192x1_0_1 : (⟨S16x8192, .i32⟩ : BufTy).Contents (Elt F) → (⟨S16x8192x1, .i32⟩ : BufTy).Contents (Elt F)),
    binary main_v82 main_v83 main_v84 ((fun a b => concatenate S16x8192x2 2 [⟨S16x8192x1, a⟩, ⟨S16x8192x1, b⟩] concatenates_S16x8192x1_S16x8192x1_S16x8192x2_d2) : (⟨S16x8192x1, .i32⟩ : BufTy).Contents (Elt F) → (⟨S16x8192x1, .i32⟩ : BufTy).Contents (Elt F) → (⟨S16x8192x2, .i32⟩ : BufTy).Contents (Elt F)),
    binary main_arg0 main_v84 main_v85 ((fun x i => Host.gather gather_S16x8x320x320_S16x8192x2_S16x8x8192_1_23_0_0_23_2_1811 x i) : (⟨S16x8x320x320, .f32⟩ : BufTy).Contents (Elt F) → (⟨S16x8192x2, .i32⟩ : BufTy).Contents (Elt F) → (⟨S16x8x8192, .f32⟩ : BufTy).Contents (Elt F)),
    unary main_v67 main_v86 (broadcastInDim S16x1x8192 ![0, 2] bcast_S16x8192_S16x1x8192_0_2 : (⟨S16x8192, .i1⟩ : BufTy).Contents (Elt F) → (⟨S16x1x8192, .i1⟩ : BufTy).Contents (Elt F)),
    nullary main_cst_27 (constant S_ .f32 0x00000000#32),
    TRef.unary (TRef.of (T := ⟨S_, .f32⟩) main_cst_27) (TRef.of (T := ⟨S_, .f32⟩) main_call5_v0) id,
    TRef.unary (TRef.of (T := ⟨S16x1x8192, .i1⟩) main_v86) (TRef.of (T := ⟨S16x8x8192, .i1⟩) main_call5_v1) (broadcastInDim S16x8x8192 ![0, 1, 2] bcast_S16x1x8192_S16x8x8192_0_1_2),
    TRef.unary (TRef.of (T := ⟨S_, .f32⟩) main_call5_v0) (TRef.of (T := ⟨S8x8192, .f32⟩) main_call5_v2) (broadcastInDim S8x8192 ![] bcast_S_S8x8192),
    TRef.unary (TRef.of (T := ⟨S8x8192, .f32⟩) main_call5_v2) (TRef.of (T := ⟨S16x8x8192, .f32⟩) main_call5_v3) (broadcastInDim S16x8x8192 ![1, 2] bcast_S8x8192_S16x8x8192_1_2),
    TRef.ternary (TRef.of (T := ⟨S16x8x8192, .i1⟩) main_call5_v1) (TRef.of (T := ⟨S16x8x8192, .f32⟩) main_v85) (TRef.of (T := ⟨S16x8x8192, .f32⟩) main_call5_v3) (TRef.of (T := ⟨S16x8x8192, .f32⟩) main_v87) select,
    binary main_v14 main_v19 main_v88 (mulf : (⟨S16x8192, .f32⟩ : BufTy).Contents (Elt F) → (⟨S16x8192, .f32⟩ : BufTy).Contents (Elt F) → (⟨S16x8192, .f32⟩ : BufTy).Contents (Elt F)),
    unary main_v88 main_v89 (broadcastInDim S16x1x8192 ![0, 2] bcast_S16x8192_S16x1x8192_0_2 : (⟨S16x8192, .f32⟩ : BufTy).Contents (Elt F) → (⟨S16x1x8192, .f32⟩ : BufTy).Contents (Elt F)),
    unary main_v89 main_v90 (broadcastInDim S16x8x8192 ![0, 1, 2] bcast_S16x1x8192_S16x8x8192_0_1_2 : (⟨S16x1x8192, .f32⟩ : BufTy).Contents (Elt F) → (⟨S16x8x8192, .f32⟩ : BufTy).Contents (Elt F)),
    binary main_v87 main_v90 main_v91 (mulf : (⟨S16x8x8192, .f32⟩ : BufTy).Contents (Elt F) → (⟨S16x8x8192, .f32⟩ : BufTy).Contents (Elt F) → (⟨S16x8x8192, .f32⟩ : BufTy).Contents (Elt F)),
    binary main_v54 main_v91 main_v92 (addf : (⟨S16x8x8192, .f32⟩ : BufTy).Contents (Elt F) → (⟨S16x8x8192, .f32⟩ : BufTy).Contents (Elt F) → (⟨S16x8x8192, .f32⟩ : BufTy).Contents (Elt F)) ]

/-- The lines of the third corner (floor x, floor y + 1), added to the sum. -/
abbrev cornerLines2 : List (HloOp τ sig (Elt F)) :=
  [ nullary main_cst_28 (constant S_ .f32 0x3F800000#32),
    unary main_cst_28 main_v93 (broadcastInDim S16x8192 ![] bcast_S_S16x8192 : (⟨S_, .f32⟩ : BufTy).Contents (Elt F) → (⟨S16x8192, .f32⟩ : BufTy).Contents (Elt F)),
    binary main_v13 main_v93 main_v94 (addf : (⟨S16x8192, .f32⟩ : BufTy).Contents (Elt F) → (⟨S16x8192, .f32⟩ : BufTy).Contents (Elt F) → (⟨S16x8192, .f32⟩ : BufTy).Contents (Elt F)),
    nullary main_cst_29 (constant S_ .f32 0x00000000#32),
    unary main_cst_29 main_v95 (broadcastInDim S16x8192 ![] bcast_S_S16x8192 : (⟨S_, .f32⟩ : BufTy).Contents (Elt F) → (⟨S16x8192, .f32⟩ : BufTy).Contents (Elt F)),
    binary main_v12 main_v95 main_v96 (cmpf .oge : (⟨S16x8192, .f32⟩ : BufTy).Contents (Elt F) → (⟨S16x8192, .f32⟩ : BufTy).Contents (Elt F) → (⟨S16x8192, .i1⟩ : BufTy).Contents (Elt F)),
    nullary main_cst_30 (constant S_ .f32 0x439F8000#32),
    unary main_cst_30 main_v97 (broadcastInDim S16x8192 ![] bcast_S_S16x8192 : (⟨S_, .f32⟩ : BufTy).Contents (Elt F) → (⟨S16x8192, .f32⟩ : BufTy).Contents (Elt F)),
    binary main_v12 main_v97 main_v98 (cmpf .ole : (⟨S16x8192, .f32⟩ : BufTy).Contents (Elt F) → (⟨S16x8192, .f32⟩ : BufTy).Contents (Elt F) → (⟨S16x8192, .i1⟩ : BufTy).Contents (Elt F)),
    binary main_v96 main_v98 main_v99 (andi : (⟨S16x8192, .i1⟩ : BufTy).Contents (Elt F) → (⟨S16x8192, .i1⟩ : BufTy).Contents (Elt F) → (⟨S16x8192, .i1⟩ : BufTy).Contents (Elt F)),
    nullary main_cst_31 (constant S_ .f32 0x00000000#32),
    unary main_cst_31 main_v100 (broadcastInDim S16x8192 ![] bcast_S_S16x8192 : (⟨S_, .f32⟩ : BufTy).Contents (Elt F) → (⟨S16x8192, .f32⟩ : BufTy).Contents (Elt F)),
    binary main_v94 main_v100 main_v101 (cmpf .oge : (⟨S16x8192, .f32⟩ : BufTy).Contents (Elt F) → (⟨S16x8192, .f32⟩ : BufTy).Contents (Elt F) → (⟨S16x8192, .i1⟩ : BufTy).Contents (Elt F)),
    binary main_v99 main_v101 main_v102 (andi : (⟨S16x8192, .i1⟩ : BufTy).Contents (Elt F) → (⟨S16x8192, .i1⟩ : BufTy).Contents (Elt F) → (⟨S16x8192, .i1⟩ : BufTy).Contents (Elt F)),
    nullary main_cst_32 (constant S_ .f32 0x439F8000#32),
    unary main_cst_32 main_v103 (broadcastInDim S16x8192 ![] bcast_S_S16x8192 : (⟨S_, .f32⟩ : BufTy).Contents (Elt F) → (⟨S16x8192, .f32⟩ : BufTy).Contents (Elt F)),
    binary main_v94 main_v103 main_v104 (cmpf .ole : (⟨S16x8192, .f32⟩ : BufTy).Contents (Elt F) → (⟨S16x8192, .f32⟩ : BufTy).Contents (Elt F) → (⟨S16x8192, .i1⟩ : BufTy).Contents (Elt F)),
    binary main_v102 main_v104 main_v105 (andi : (⟨S16x8192, .i1⟩ : BufTy).Contents (Elt F) → (⟨S16x8192, .i1⟩ : BufTy).Contents (Elt F) → (⟨S16x8192, .i1⟩ : BufTy).Contents (Elt F)),
    nullary main_c_33 (constantI S_ 32 0#32),
    nullary main_c_34 (constantI S_ 32 319#32),
    TRef.unary (TRef.of (T := ⟨S_, .i32⟩) main_c_33) (TRef.of (T := ⟨S_, .f32⟩) main_call6_v0) (sitofp .f32),
    TRef.unary (TRef.of (T := ⟨S_, .f32⟩) main_call6_v0) (TRef.of (T := ⟨S16x8192, .f32⟩) main_call6_v1) (broadcastInDim S16x8192 ![] bcast_S_S16x8192),
    TRef.binary (TRef.of (T := ⟨S16x8192, .f32⟩) main_call6_v1) (TRef.of (T := ⟨S16x8192, .f32⟩) main_v12) (TRef.of (T := ⟨S16x8192, .f32⟩) main_call6_v2) maximumf,
    TRef.unary (TRef.of (T := ⟨S_, .i32⟩) main_c_34) (TRef.of (T := ⟨S_, .f32⟩) main_call6_v3) (sitofp .f32),
    TRef.unary (TRef.of (T := ⟨S_, .f32⟩) main_call6_v3) (TRef.of (T := ⟨S16x8192, .f32⟩) main_call6_v4) (broadcastInDim S16x8192 ![] bcast_S_S16x8192),
    TRef.binary (TRef.of (T := ⟨S16x8192, .f32⟩) main_call6_v4) (TRef.of (T := ⟨S16x8192, .f32⟩) main_call6_v2) (TRef.of (T := ⟨S16x8192, .f32⟩) main_v106) minimumf,
    unary main_v106 main_v107 (fptosi 32 : (⟨S16x8192, .f32⟩ : BufTy).Contents (Elt F) → (⟨S16x8192, .i32⟩ : BufTy).Contents (Elt F)),
    nullary main_c_35 (constantI S_ 32 0#32),
    nullary main_c_36 (constantI S_ 32 319#32),
    TRef.unary (TRef.of (T := ⟨S_, .i32⟩) main_c_35) (TRef.of (T := ⟨S_, .f32⟩) main_call7_v0) (sitofp .f32),
    TRef.unary (TRef.of (T := ⟨S_, .f32⟩) main_call7_v0) (TRef.of (T := ⟨S16x8192, .f32⟩) main_call7_v1) (broadcastInDim S16x8192 ![] bcast_S_S16x8192),
    TRef.binary (TRef.of (T := ⟨S16x8192, .f32⟩) main_call7_v1) (TRef.of (T := ⟨S16x8192, .f32⟩) main_v94) (TRef.of (T := ⟨S16x8192, .f32⟩) main_call7_v2) maximumf,
    TRef.unary (TRef.of (T := ⟨S_, .i32⟩) main_c_36) (TRef.of (T := ⟨S_, .f32⟩) main_call7_v3) (sitofp .f32),
    TRef.unary (TRef.of (T := ⟨S_, .f32⟩) main_call7_v3) (TRef.of (T := ⟨S16x8192, .f32⟩) main_call7_v4) (broadcastInDim S16x8192 ![] bcast_S_S16x8192),
    TRef.binary (TRef.of (T := ⟨S16x8192, .f32⟩) main_call7_v4) (TRef.of (T := ⟨S16x8192, .f32⟩) main_call7_v2) (TRef.of (T := ⟨S16x8192, .f32⟩) main_v108) minimumf,
    unary main_v108 main_v109 (fptosi 32 : (⟨S16x8192, .f32⟩ : BufTy).Contents (Elt F) → (⟨S16x8192, .i32⟩ : BufTy).Contents (Elt F)),
    nullary main_c_37 (constantI S_ 32 0#32),
    unary main_c_37 main_v110 (broadcastInDim S16x8192 ![] bcast_S_S16x8192 : (⟨S_, .i32⟩ : BufTy).Contents (Elt F) → (⟨S16x8192, .i32⟩ : BufTy).Contents (Elt F)),
    binary main_v109 main_v110 main_v111 (cmpi .slt : (⟨S16x8192, .i32⟩ : BufTy).Contents (Elt F) → (⟨S16x8192, .i32⟩ : BufTy).Contents (Elt F) → (⟨S16x8192, .i1⟩ : BufTy).Contents (Elt F)),
    nullary main_c_38 (constantI S_ 32 320#32),
    unary main_c_38 main_v112 (broadcastInDim S16x8192 ![] bcast_S_S16x8192 : (⟨S_, .i32⟩ : BufTy).Contents (Elt F) → (⟨S16x8192, .i32⟩ : BufTy).Contents (Elt F)),
    binary main_v109 main_v112 main_v113 (addi : (⟨S16x8192, .i32⟩ : BufTy).Contents (Elt F) → (⟨S16x8192, .i32⟩ : BufTy).Contents (Elt F) → (⟨S16x8192, .i32⟩ : BufTy).Contents (Elt F)),
    ternary main_v111 main_v113 main_v109 main_v114 (select : (⟨S16x8192, .i1⟩ : BufTy).Contents (Elt F) → (⟨S16x8192, .i32⟩ : BufTy).Contents (Elt F) → (⟨S16x8192, .i32⟩ : BufTy).Contents (Elt F) → (⟨S16x8192, .i32⟩ : BufTy).Contents (Elt F)),
    nullary main_c_39 (constantI S_ 32 0#32),
    unary main_c_39 main_v115 (broadcastInDim S16x8192 ![] bcast_S_S16x8192 : (⟨S_, .i32⟩ : BufTy).Contents (Elt F) → (⟨S16x8192, .i32⟩ : BufTy).Contents (Elt F)),
    binary main_v107 main_v115 main_v116 (cmpi .slt : (⟨S16x8192, .i32⟩ : BufTy).Contents (Elt F) → (⟨S16x8192, .i32⟩ : BufTy).Contents (Elt F) → (⟨S16x8192, .i1⟩ : BufTy).Contents (Elt F)),
    nullary main_c_40 (constantI S_ 32 320#32),
    unary main_c_40 main_v117 (broadcastInDim S16x8192 ![] bcast_S_S16x8192 : (⟨S_, .i32⟩ : BufTy).Contents (Elt F) → (⟨S16x8192, .i32⟩ : BufTy).Contents (Elt F)),
    binary main_v107 main_v117 main_v118 (addi : (⟨S16x8192, .i32⟩ : BufTy).Contents (Elt F) → (⟨S16x8192, .i32⟩ : BufTy).Contents (Elt F) → (⟨S16x8192, .i32⟩ : BufTy).Contents (Elt F)),
    ternary main_v116 main_v118 main_v107 main_v119 (select : (⟨S16x8192, .i1⟩ : BufTy).Contents (Elt F) → (⟨S16x8192, .i32⟩ : BufTy).Contents (Elt F) → (⟨S16x8192, .i32⟩ : BufTy).Contents (Elt F) → (⟨S16x8192, .i32⟩ : BufTy).Contents (Elt F)),
    unary main_v114 main_v120 (broadcastInDim S16x8192x1 ![0, 1] bcast_S16x8192_S16x8192x1_0_1 : (⟨S16x8192, .i32⟩ : BufTy).Contents (Elt F) → (⟨S16x8192x1, .i32⟩ : BufTy).Contents (Elt F)),
    unary main_v119 main_v121 (broadcastInDim S16x8192x1 ![0, 1] bcast_S16x8192_S16x8192x1_0_1 : (⟨S16x8192, .i32⟩ : BufTy).Contents (Elt F) → (⟨S16x8192x1, .i32⟩ : BufTy).Contents (Elt F)),
    binary main_v120 main_v121 main_v122 ((fun a b => concatenate S16x8192x2 2 [⟨S16x8192x1, a⟩, ⟨S16x8192x1, b⟩] concatenates_S16x8192x1_S16x8192x1_S16x8192x2_d2) : (⟨S16x8192x1, .i32⟩ : BufTy).Contents (Elt F) → (⟨S16x8192x1, .i32⟩ : BufTy).Contents (Elt F) → (⟨S16x8192x2, .i32⟩ : BufTy).Contents (Elt F)),
    binary main_arg0 main_v122 main_v123 ((fun x i => Host.gather gather_S16x8x320x320_S16x8192x2_S16x8x8192_1_23_0_0_23_2_1811 x i) : (⟨S16x8x320x320, .f32⟩ : BufTy).Contents (Elt F) → (⟨S16x8192x2, .i32⟩ : BufTy).Contents (Elt F) → (⟨S16x8x8192, .f32⟩ : BufTy).Contents (Elt F)),
    unary main_v105 main_v124 (broadcastInDim S16x1x8192 ![0, 2] bcast_S16x8192_S16x1x8192_0_2 : (⟨S16x8192, .i1⟩ : BufTy).Contents (Elt F) → (⟨S16x1x8192, .i1⟩ : BufTy).Contents (Elt F)),
    nullary main_cst_41 (constant S_ .f32 0x00000000#32),
    TRef.unary (TRef.of (T := ⟨S_, .f32⟩) main_cst_41) (TRef.of (T := ⟨S_, .f32⟩) main_call8_v0) id,
    TRef.unary (TRef.of (T := ⟨S16x1x8192, .i1⟩) main_v124) (TRef.of (T := ⟨S16x8x8192, .i1⟩) main_call8_v1) (broadcastInDim S16x8x8192 ![0, 1, 2] bcast_S16x1x8192_S16x8x8192_0_1_2),
    TRef.unary (TRef.of (T := ⟨S_, .f32⟩) main_call8_v0) (TRef.of (T := ⟨S8x8192, .f32⟩) main_call8_v2) (broadcastInDim S8x8192 ![] bcast_S_S8x8192),
    TRef.unary (TRef.of (T := ⟨S8x8192, .f32⟩) main_call8_v2) (TRef.of (T := ⟨S16x8x8192, .f32⟩) main_call8_v3) (broadcastInDim S16x8x8192 ![1, 2] bcast_S8x8192_S16x8x8192_1_2),
    TRef.ternary (TRef.of (T := ⟨S16x8x8192, .i1⟩) main_call8_v1) (TRef.of (T := ⟨S16x8x8192, .f32⟩) main_v123) (TRef.of (T := ⟨S16x8x8192, .f32⟩) main_call8_v3) (TRef.of (T := ⟨S16x8x8192, .f32⟩) main_v125) select,
    binary main_v16 main_v17 main_v126 (mulf : (⟨S16x8192, .f32⟩ : BufTy).Contents (Elt F) → (⟨S16x8192, .f32⟩ : BufTy).Contents (Elt F) → (⟨S16x8192, .f32⟩ : BufTy).Contents (Elt F)),
    unary main_v126 main_v127 (broadcastInDim S16x1x8192 ![0, 2] bcast_S16x8192_S16x1x8192_0_2 : (⟨S16x8192, .f32⟩ : BufTy).Contents (Elt F) → (⟨S16x1x8192, .f32⟩ : BufTy).Contents (Elt F)),
    unary main_v127 main_v128 (broadcastInDim S16x8x8192 ![0, 1, 2] bcast_S16x1x8192_S16x8x8192_0_1_2 : (⟨S16x1x8192, .f32⟩ : BufTy).Contents (Elt F) → (⟨S16x8x8192, .f32⟩ : BufTy).Contents (Elt F)),
    binary main_v125 main_v128 main_v129 (mulf : (⟨S16x8x8192, .f32⟩ : BufTy).Contents (Elt F) → (⟨S16x8x8192, .f32⟩ : BufTy).Contents (Elt F) → (⟨S16x8x8192, .f32⟩ : BufTy).Contents (Elt F)),
    binary main_v92 main_v129 main_v130 (addf : (⟨S16x8x8192, .f32⟩ : BufTy).Contents (Elt F) → (⟨S16x8x8192, .f32⟩ : BufTy).Contents (Elt F) → (⟨S16x8x8192, .f32⟩ : BufTy).Contents (Elt F)) ]

/-- The lines of the fourth corner (floor x + 1, floor y + 1), added to the sum: the sampled features. -/
abbrev cornerLines3 : List (HloOp τ sig (Elt F)) :=
  [ nullary main_cst_42 (constant S_ .f32 0x3F800000#32),
    unary main_cst_42 main_v131 (broadcastInDim S16x8192 ![] bcast_S_S16x8192 : (⟨S_, .f32⟩ : BufTy).Contents (Elt F) → (⟨S16x8192, .f32⟩ : BufTy).Contents (Elt F)),
    binary main_v12 main_v131 main_v132 (addf : (⟨S16x8192, .f32⟩ : BufTy).Contents (Elt F) → (⟨S16x8192, .f32⟩ : BufTy).Contents (Elt F) → (⟨S16x8192, .f32⟩ : BufTy).Contents (Elt F)),
    nullary main_cst_43 (constant S_ .f32 0x3F800000#32),
    unary main_cst_43 main_v133 (broadcastInDim S16x8192 ![] bcast_S_S16x8192 : (⟨S_, .f32⟩ : BufTy).Contents (Elt F) → (⟨S16x8192, .f32⟩ : BufTy).Contents (Elt F)),
    binary main_v13 main_v133 main_v134 (addf : (⟨S16x8192, .f32⟩ : BufTy).Contents (Elt F) → (⟨S16x8192, .f32⟩ : BufTy).Contents (Elt F) → (⟨S16x8192, .f32⟩ : BufTy).Contents (Elt F)),
    nullary main_cst_44 (constant S_ .f32 0x00000000#32),
    unary main_cst_44 main_v135 (broadcastInDim S16x8192 ![] bcast_S_S16x8192 : (⟨S_, .f32⟩ : BufTy).Contents (Elt F) → (⟨S16x8192, .f32⟩ : BufTy).Contents (Elt F)),
    binary main_v132 main_v135 main_v136 (cmpf .oge : (⟨S16x8192, .f32⟩ : BufTy).Contents (Elt F) → (⟨S16x8192, .f32⟩ : BufTy).Contents (Elt F) → (⟨S16x8192, .i1⟩ : BufTy).Contents (Elt F)),
    nullary main_cst_45 (constant S_ .f32 0x439F8000#32),
    unary main_cst_45 main_v137 (broadcastInDim S16x8192 ![] bcast_S_S16x8192 : (⟨S_, .f32⟩ : BufTy).Contents (Elt F) → (⟨S16x8192, .f32⟩ : BufTy).Contents (Elt F)),
    binary main_v132 main_v137 main_v138 (cmpf .ole : (⟨S16x8192, .f32⟩ : BufTy).Contents (Elt F) → (⟨S16x8192, .f32⟩ : BufTy).Contents (Elt F) → (⟨S16x8192, .i1⟩ : BufTy).Contents (Elt F)),
    binary main_v136 main_v138 main_v139 (andi : (⟨S16x8192, .i1⟩ : BufTy).Contents (Elt F) → (⟨S16x8192, .i1⟩ : BufTy).Contents (Elt F) → (⟨S16x8192, .i1⟩ : BufTy).Contents (Elt F)),
    nullary main_cst_46 (constant S_ .f32 0x00000000#32),
    unary main_cst_46 main_v140 (broadcastInDim S16x8192 ![] bcast_S_S16x8192 : (⟨S_, .f32⟩ : BufTy).Contents (Elt F) → (⟨S16x8192, .f32⟩ : BufTy).Contents (Elt F)),
    binary main_v134 main_v140 main_v141 (cmpf .oge : (⟨S16x8192, .f32⟩ : BufTy).Contents (Elt F) → (⟨S16x8192, .f32⟩ : BufTy).Contents (Elt F) → (⟨S16x8192, .i1⟩ : BufTy).Contents (Elt F)),
    binary main_v139 main_v141 main_v142 (andi : (⟨S16x8192, .i1⟩ : BufTy).Contents (Elt F) → (⟨S16x8192, .i1⟩ : BufTy).Contents (Elt F) → (⟨S16x8192, .i1⟩ : BufTy).Contents (Elt F)),
    nullary main_cst_47 (constant S_ .f32 0x439F8000#32),
    unary main_cst_47 main_v143 (broadcastInDim S16x8192 ![] bcast_S_S16x8192 : (⟨S_, .f32⟩ : BufTy).Contents (Elt F) → (⟨S16x8192, .f32⟩ : BufTy).Contents (Elt F)),
    binary main_v134 main_v143 main_v144 (cmpf .ole : (⟨S16x8192, .f32⟩ : BufTy).Contents (Elt F) → (⟨S16x8192, .f32⟩ : BufTy).Contents (Elt F) → (⟨S16x8192, .i1⟩ : BufTy).Contents (Elt F)),
    binary main_v142 main_v144 main_v145 (andi : (⟨S16x8192, .i1⟩ : BufTy).Contents (Elt F) → (⟨S16x8192, .i1⟩ : BufTy).Contents (Elt F) → (⟨S16x8192, .i1⟩ : BufTy).Contents (Elt F)),
    nullary main_c_48 (constantI S_ 32 0#32),
    nullary main_c_49 (constantI S_ 32 319#32),
    TRef.unary (TRef.of (T := ⟨S_, .i32⟩) main_c_48) (TRef.of (T := ⟨S_, .f32⟩) main_call9_v0) (sitofp .f32),
    TRef.unary (TRef.of (T := ⟨S_, .f32⟩) main_call9_v0) (TRef.of (T := ⟨S16x8192, .f32⟩) main_call9_v1) (broadcastInDim S16x8192 ![] bcast_S_S16x8192),
    TRef.binary (TRef.of (T := ⟨S16x8192, .f32⟩) main_call9_v1) (TRef.of (T := ⟨S16x8192, .f32⟩) main_v132) (TRef.of (T := ⟨S16x8192, .f32⟩) main_call9_v2) maximumf,
    TRef.unary (TRef.of (T := ⟨S_, .i32⟩) main_c_49) (TRef.of (T := ⟨S_, .f32⟩) main_call9_v3) (sitofp .f32),
    TRef.unary (TRef.of (T := ⟨S_, .f32⟩) main_call9_v3) (TRef.of (T := ⟨S16x8192, .f32⟩) main_call9_v4) (broadcastInDim S16x8192 ![] bcast_S_S16x8192),
    TRef.binary (TRef.of (T := ⟨S16x8192, .f32⟩) main_call9_v4) (TRef.of (T := ⟨S16x8192, .f32⟩) main_call9_v2) (TRef.of (T := ⟨S16x8192, .f32⟩) main_v146) minimumf,
    unary main_v146 main_v147 (fptosi 32 : (⟨S16x8192, .f32⟩ : BufTy).Contents (Elt F) → (⟨S16x8192, .i32⟩ : BufTy).Contents (Elt F)),
    nullary main_c_50 (constantI S_ 32 0#32),
    nullary main_c_51 (constantI S_ 32 319#32),
    TRef.unary (TRef.of (T := ⟨S_, .i32⟩) main_c_50) (TRef.of (T := ⟨S_, .f32⟩) main_call10_v0) (sitofp .f32),
    TRef.unary (TRef.of (T := ⟨S_, .f32⟩) main_call10_v0) (TRef.of (T := ⟨S16x8192, .f32⟩) main_call10_v1) (broadcastInDim S16x8192 ![] bcast_S_S16x8192),
    TRef.binary (TRef.of (T := ⟨S16x8192, .f32⟩) main_call10_v1) (TRef.of (T := ⟨S16x8192, .f32⟩) main_v134) (TRef.of (T := ⟨S16x8192, .f32⟩) main_call10_v2) maximumf,
    TRef.unary (TRef.of (T := ⟨S_, .i32⟩) main_c_51) (TRef.of (T := ⟨S_, .f32⟩) main_call10_v3) (sitofp .f32),
    TRef.unary (TRef.of (T := ⟨S_, .f32⟩) main_call10_v3) (TRef.of (T := ⟨S16x8192, .f32⟩) main_call10_v4) (broadcastInDim S16x8192 ![] bcast_S_S16x8192),
    TRef.binary (TRef.of (T := ⟨S16x8192, .f32⟩) main_call10_v4) (TRef.of (T := ⟨S16x8192, .f32⟩) main_call10_v2) (TRef.of (T := ⟨S16x8192, .f32⟩) main_v148) minimumf,
    unary main_v148 main_v149 (fptosi 32 : (⟨S16x8192, .f32⟩ : BufTy).Contents (Elt F) → (⟨S16x8192, .i32⟩ : BufTy).Contents (Elt F)),
    nullary main_c_52 (constantI S_ 32 0#32),
    unary main_c_52 main_v150 (broadcastInDim S16x8192 ![] bcast_S_S16x8192 : (⟨S_, .i32⟩ : BufTy).Contents (Elt F) → (⟨S16x8192, .i32⟩ : BufTy).Contents (Elt F)),
    binary main_v149 main_v150 main_v151 (cmpi .slt : (⟨S16x8192, .i32⟩ : BufTy).Contents (Elt F) → (⟨S16x8192, .i32⟩ : BufTy).Contents (Elt F) → (⟨S16x8192, .i1⟩ : BufTy).Contents (Elt F)),
    nullary main_c_53 (constantI S_ 32 320#32),
    unary main_c_53 main_v152 (broadcastInDim S16x8192 ![] bcast_S_S16x8192 : (⟨S_, .i32⟩ : BufTy).Contents (Elt F) → (⟨S16x8192, .i32⟩ : BufTy).Contents (Elt F)),
    binary main_v149 main_v152 main_v153 (addi : (⟨S16x8192, .i32⟩ : BufTy).Contents (Elt F) → (⟨S16x8192, .i32⟩ : BufTy).Contents (Elt F) → (⟨S16x8192, .i32⟩ : BufTy).Contents (Elt F)),
    ternary main_v151 main_v153 main_v149 main_v154 (select : (⟨S16x8192, .i1⟩ : BufTy).Contents (Elt F) → (⟨S16x8192, .i32⟩ : BufTy).Contents (Elt F) → (⟨S16x8192, .i32⟩ : BufTy).Contents (Elt F) → (⟨S16x8192, .i32⟩ : BufTy).Contents (Elt F)),
    nullary main_c_54 (constantI S_ 32 0#32),
    unary main_c_54 main_v155 (broadcastInDim S16x8192 ![] bcast_S_S16x8192 : (⟨S_, .i32⟩ : BufTy).Contents (Elt F) → (⟨S16x8192, .i32⟩ : BufTy).Contents (Elt F)),
    binary main_v147 main_v155 main_v156 (cmpi .slt : (⟨S16x8192, .i32⟩ : BufTy).Contents (Elt F) → (⟨S16x8192, .i32⟩ : BufTy).Contents (Elt F) → (⟨S16x8192, .i1⟩ : BufTy).Contents (Elt F)),
    nullary main_c_55 (constantI S_ 32 320#32),
    unary main_c_55 main_v157 (broadcastInDim S16x8192 ![] bcast_S_S16x8192 : (⟨S_, .i32⟩ : BufTy).Contents (Elt F) → (⟨S16x8192, .i32⟩ : BufTy).Contents (Elt F)),
    binary main_v147 main_v157 main_v158 (addi : (⟨S16x8192, .i32⟩ : BufTy).Contents (Elt F) → (⟨S16x8192, .i32⟩ : BufTy).Contents (Elt F) → (⟨S16x8192, .i32⟩ : BufTy).Contents (Elt F)),
    ternary main_v156 main_v158 main_v147 main_v159 (select : (⟨S16x8192, .i1⟩ : BufTy).Contents (Elt F) → (⟨S16x8192, .i32⟩ : BufTy).Contents (Elt F) → (⟨S16x8192, .i32⟩ : BufTy).Contents (Elt F) → (⟨S16x8192, .i32⟩ : BufTy).Contents (Elt F)),
    unary main_v154 main_v160 (broadcastInDim S16x8192x1 ![0, 1] bcast_S16x8192_S16x8192x1_0_1 : (⟨S16x8192, .i32⟩ : BufTy).Contents (Elt F) → (⟨S16x8192x1, .i32⟩ : BufTy).Contents (Elt F)),
    unary main_v159 main_v161 (broadcastInDim S16x8192x1 ![0, 1] bcast_S16x8192_S16x8192x1_0_1 : (⟨S16x8192, .i32⟩ : BufTy).Contents (Elt F) → (⟨S16x8192x1, .i32⟩ : BufTy).Contents (Elt F)),
    binary main_v160 main_v161 main_v162 ((fun a b => concatenate S16x8192x2 2 [⟨S16x8192x1, a⟩, ⟨S16x8192x1, b⟩] concatenates_S16x8192x1_S16x8192x1_S16x8192x2_d2) : (⟨S16x8192x1, .i32⟩ : BufTy).Contents (Elt F) → (⟨S16x8192x1, .i32⟩ : BufTy).Contents (Elt F) → (⟨S16x8192x2, .i32⟩ : BufTy).Contents (Elt F)),
    binary main_arg0 main_v162 main_v163 ((fun x i => Host.gather gather_S16x8x320x320_S16x8192x2_S16x8x8192_1_23_0_0_23_2_1811 x i) : (⟨S16x8x320x320, .f32⟩ : BufTy).Contents (Elt F) → (⟨S16x8192x2, .i32⟩ : BufTy).Contents (Elt F) → (⟨S16x8x8192, .f32⟩ : BufTy).Contents (Elt F)),
    unary main_v145 main_v164 (broadcastInDim S16x1x8192 ![0, 2] bcast_S16x8192_S16x1x8192_0_2 : (⟨S16x8192, .i1⟩ : BufTy).Contents (Elt F) → (⟨S16x1x8192, .i1⟩ : BufTy).Contents (Elt F)),
    nullary main_cst_56 (constant S_ .f32 0x00000000#32),
    TRef.unary (TRef.of (T := ⟨S_, .f32⟩) main_cst_56) (TRef.of (T := ⟨S_, .f32⟩) main_call11_v0) id,
    TRef.unary (TRef.of (T := ⟨S16x1x8192, .i1⟩) main_v164) (TRef.of (T := ⟨S16x8x8192, .i1⟩) main_call11_v1) (broadcastInDim S16x8x8192 ![0, 1, 2] bcast_S16x1x8192_S16x8x8192_0_1_2),
    TRef.unary (TRef.of (T := ⟨S_, .f32⟩) main_call11_v0) (TRef.of (T := ⟨S8x8192, .f32⟩) main_call11_v2) (broadcastInDim S8x8192 ![] bcast_S_S8x8192),
    TRef.unary (TRef.of (T := ⟨S8x8192, .f32⟩) main_call11_v2) (TRef.of (T := ⟨S16x8x8192, .f32⟩) main_call11_v3) (broadcastInDim S16x8x8192 ![1, 2] bcast_S8x8192_S16x8x8192_1_2),
    TRef.ternary (TRef.of (T := ⟨S16x8x8192, .i1⟩) main_call11_v1) (TRef.of (T := ⟨S16x8x8192, .f32⟩) main_v163) (TRef.of (T := ⟨S16x8x8192, .f32⟩) main_call11_v3) (TRef.of (T := ⟨S16x8x8192, .f32⟩) main_v165) select,
    binary main_v14 main_v17 main_v166 (mulf : (⟨S16x8192, .f32⟩ : BufTy).Contents (Elt F) → (⟨S16x8192, .f32⟩ : BufTy).Contents (Elt F) → (⟨S16x8192, .f32⟩ : BufTy).Contents (Elt F)),
    unary main_v166 main_v167 (broadcastInDim S16x1x8192 ![0, 2] bcast_S16x8192_S16x1x8192_0_2 : (⟨S16x8192, .f32⟩ : BufTy).Contents (Elt F) → (⟨S16x1x8192, .f32⟩ : BufTy).Contents (Elt F)),
    unary main_v167 main_v168 (broadcastInDim S16x8x8192 ![0, 1, 2] bcast_S16x1x8192_S16x8x8192_0_1_2 : (⟨S16x1x8192, .f32⟩ : BufTy).Contents (Elt F) → (⟨S16x8x8192, .f32⟩ : BufTy).Contents (Elt F)),
    binary main_v165 main_v168 main_v169 (mulf : (⟨S16x8x8192, .f32⟩ : BufTy).Contents (Elt F) → (⟨S16x8x8192, .f32⟩ : BufTy).Contents (Elt F) → (⟨S16x8x8192, .f32⟩ : BufTy).Contents (Elt F)),
    binary main_v130 main_v169 main_v170 (addf : (⟨S16x8x8192, .f32⟩ : BufTy).Contents (Elt F) → (⟨S16x8x8192, .f32⟩ : BufTy).Contents (Elt F) → (⟨S16x8x8192, .f32⟩ : BufTy).Contents (Elt F)) ]

/-- The lines that regroup the features, take the group means and each point's spread about its group's mean. -/
abbrev pullLines : List (HloOp τ sig (Elt F)) :=
  [ unary main_v170 main_v171 ((transpose S16x8192x8 [0, 2, 1] · transposes_S16x8x8192_S16x8192x8_0_2_1) : (⟨S16x8x8192, .f32⟩ : BufTy).Contents (Elt F) → (⟨S16x8192x8, .f32⟩ : BufTy).Contents (Elt F)),
    reshape main_v171 main_v172 rfl shapeCasts_S16x8192x8_S16x128x64x8,
    nullary main_cst_57 (constant S_ .f32 0x00000000#32),
    binary main_v172 main_cst_57 main_v173 ((fun x v => Host.reduceAdd x v reducesTo_S16x128x64x8_S16x128x8_d2 h_S_) : (⟨S16x128x64x8, .f32⟩ : BufTy).Contents (Elt F) → (⟨S_, .f32⟩ : BufTy).Contents (Elt F) → (⟨S16x128x8, .f32⟩ : BufTy).Contents (Elt F)),
    nullary main_cst_58 (constant S_ .f32 0x42800000#32),
    unary main_cst_58 main_v174 (broadcastInDim S16x128x8 ![] bcast_S_S16x128x8 : (⟨S_, .f32⟩ : BufTy).Contents (Elt F) → (⟨S16x128x8, .f32⟩ : BufTy).Contents (Elt F)),
    binary main_v173 main_v174 main_v175 (Host.divf : (⟨S16x128x8, .f32⟩ : BufTy).Contents (Elt F) → (⟨S16x128x8, .f32⟩ : BufTy).Contents (Elt F) → (⟨S16x128x8, .f32⟩ : BufTy).Contents (Elt F)),
    unary main_v175 main_v176 (broadcastInDim S16x128x1x8 ![0, 1, 3] bcast_S16x128x8_S16x128x1x8_0_1_3 : (⟨S16x128x8, .f32⟩ : BufTy).Contents (Elt F) → (⟨S16x128x1x8, .f32⟩ : BufTy).Contents (Elt F)),
    unary main_v176 main_v177 (broadcastInDim S16x128x64x8 ![0, 1, 2, 3] bcast_S16x128x1x8_S16x128x64x8_0_1_2_3 : (⟨S16x128x1x8, .f32⟩ : BufTy).Contents (Elt F) → (⟨S16x128x64x8, .f32⟩ : BufTy).Contents (Elt F)),
    binary main_v172 main_v177 main_v178 (subf : (⟨S16x128x64x8, .f32⟩ : BufTy).Contents (Elt F) → (⟨S16x128x64x8, .f32⟩ : BufTy).Contents (Elt F) → (⟨S16x128x64x8, .f32⟩ : BufTy).Contents (Elt F)),
    binary main_v178 main_v178 main_v179 (mulf : (⟨S16x128x64x8, .f32⟩ : BufTy).Contents (Elt F) → (⟨S16x128x64x8, .f32⟩ : BufTy).Contents (Elt F) → (⟨S16x128x64x8, .f32⟩ : BufTy).Contents (Elt F)),
    nullary main_cst_59 (constant S_ .f32 0x00000000#32),
    binary main_v179 main_cst_59 main_v180 ((fun x v => Host.reduceAdd x v reducesTo_S16x128x64x8_S16x128x64_d3 h_S_) : (⟨S16x128x64x8, .f32⟩ : BufTy).Contents (Elt F) → (⟨S_, .f32⟩ : BufTy).Contents (Elt F) → (⟨S16x128x64, .f32⟩ : BufTy).Contents (Elt F)),
    nullary main_cst_60 (constant S_ .f32 0x41000000#32),
    unary main_cst_60 main_v181 (broadcastInDim S16x128x64 ![] bcast_S_S16x128x64 : (⟨S_, .f32⟩ : BufTy).Contents (Elt F) → (⟨S16x128x64, .f32⟩ : BufTy).Contents (Elt F)),
    binary main_v180 main_v181 main_v182 (Host.divf : (⟨S16x128x64, .f32⟩ : BufTy).Contents (Elt F) → (⟨S16x128x64, .f32⟩ : BufTy).Contents (Elt F) → (⟨S16x128x64, .f32⟩ : BufTy).Contents (Elt F)),
    nullary main_cst_61 (constant S_ .f32 0x3A83126F#32),
    unary main_cst_61 main_v183 (broadcastInDim S16x128x64 ![] bcast_S_S16x128x64 : (⟨S_, .f32⟩ : BufTy).Contents (Elt F) → (⟨S16x128x64, .f32⟩ : BufTy).Contents (Elt F)),
    binary main_v182 main_v183 main_v184 (cmpf .olt : (⟨S16x128x64, .f32⟩ : BufTy).Contents (Elt F) → (⟨S16x128x64, .f32⟩ : BufTy).Contents (Elt F) → (⟨S16x128x64, .i1⟩ : BufTy).Contents (Elt F)),
    nullary main_cst_62 (constant S_ .f32 0x00000000#32),
    TRef.unary (TRef.of (T := ⟨S_, .f32⟩) main_cst_62) (TRef.of (T := ⟨S_, .f32⟩) main_call12_v0) id,
    TRef.unary (TRef.of (T := ⟨S_, .f32⟩) main_call12_v0) (TRef.of (T := ⟨S16x128x64, .f32⟩) main_call12_v1) (broadcastInDim S16x128x64 ![] bcast_S_S16x128x64),
    TRef.ternary (TRef.of (T := ⟨S16x128x64, .i1⟩) main_v184) (TRef.of (T := ⟨S16x128x64, .f32⟩) main_call12_v1) (TRef.of (T := ⟨S16x128x64, .f32⟩) main_v182) (TRef.of (T := ⟨S16x128x64, .f32⟩) main_v185) select ]

/-- The lines that finish the pull term, compare the group means pairwise, grow the boxes and take the sides of the pairwise overlaps. -/
abbrev middleLines : List (HloOp τ sig (Elt F)) :=
  [ nullary main_cst_63 (constant S_ .f32 0x00000000#32),
    binary main_v185 main_cst_63 main_v186 ((fun x v => Host.reduceAdd x v reducesTo_S16x128x64_S16x128_d2 h_S_) : (⟨S16x128x64, .f32⟩ : BufTy).Contents (Elt F) → (⟨S_, .f32⟩ : BufTy).Contents (Elt F) → (⟨S16x128, .f32⟩ : BufTy).Contents (Elt F)),
    nullary main_cst_64 (constant S_ .f32 0x42800000#32),
    unary main_cst_64 main_v187 (broadcastInDim S16x128 ![] bcast_S_S16x128 : (⟨S_, .f32⟩ : BufTy).Contents (Elt F) → (⟨S16x128, .f32⟩ : BufTy).Contents (Elt F)),
    binary main_v186 main_v187 main_v188 (Host.divf : (⟨S16x128, .f32⟩ : BufTy).Contents (Elt F) → (⟨S16x128, .f32⟩ : BufTy).Contents (Elt F) → (⟨S16x128, .f32⟩ : BufTy).Contents (Elt F)),
    nullary main_cst_65 (constant S_ .f32 0x00000000#32),
    binary main_v188 main_cst_65 main_v189 ((fun x v => Host.reduceAdd x v reducesTo_S16x128_S16_d1 h_S_) : (⟨S16x128, .f32⟩ : BufTy).Contents (Elt F) → (⟨S_, .f32⟩ : BufTy).Contents (Elt F) → (⟨S16, .f32⟩ : BufTy).Contents (Elt F)),
    nullary main_cst_66 (constant S_ .f32 0x43000000#32),
    unary main_cst_66 main_v190 (broadcastInDim S16 ![] bcast_S_S16 : (⟨S_, .f32⟩ : BufTy).Contents (Elt F) → (⟨S16, .f32⟩ : BufTy).Contents (Elt F)),
    binary main_v189 main_v190 main_v191 (Host.divf : (⟨S16, .f32⟩ : BufTy).Contents (Elt F) → (⟨S16, .f32⟩ : BufTy).Contents (Elt F) → (⟨S16, .f32⟩ : BufTy).Contents (Elt F)),
    unary main_v175 main_v192 (broadcastInDim S16x128x1x8 ![0, 1, 3] bcast_S16x128x8_S16x128x1x8_0_1_3 : (⟨S16x128x8, .f32⟩ : BufTy).Contents (Elt F) → (⟨S16x128x1x8, .f32⟩ : BufTy).Contents (Elt F)),
    unary main_v175 main_v193 (broadcastInDim S16x1x128x8 ![0, 2, 3] bcast_S16x128x8_S16x1x128x8_0_2_3 : (⟨S16x128x8, .f32⟩ : BufTy).Contents (Elt F) → (⟨S16x1x128x8, .f32⟩ : BufTy).Contents (Elt F)),
    unary main_v192 main_v194 (broadcastInDim S16x128x128x8 ![0, 1, 2, 3] bcast_S16x128x1x8_S16x128x128x8_0_1_2_3 : (⟨S16x128x1x8, .f32⟩ : BufTy).Contents (Elt F) → (⟨S16x128x128x8, .f32⟩ : BufTy).Contents (Elt F)),
    unary main_v193 main_v195 (broadcastInDim S16x128x128x8 ![0, 1, 2, 3] bcast_S16x1x128x8_S16x128x128x8_0_1_2_3 : (⟨S16x1x128x8, .f32⟩ : BufTy).Contents (Elt F) → (⟨S16x128x128x8, .f32⟩ : BufTy).Contents (Elt F)),
    binary main_v194 main_v195 main_v196 (subf : (⟨S16x128x128x8, .f32⟩ : BufTy).Contents (Elt F) → (⟨S16x128x128x8, .f32⟩ : BufTy).Contents (Elt F) → (⟨S16x128x128x8, .f32⟩ : BufTy).Contents (Elt F)),
    binary main_v196 main_v196 main_v197 (mulf : (⟨S16x128x128x8, .f32⟩ : BufTy).Contents (Elt F) → (⟨S16x128x128x8, .f32⟩ : BufTy).Contents (Elt F) → (⟨S16x128x128x8, .f32⟩ : BufTy).Contents (Elt F)),
    nullary main_cst_67 (constant S_ .f32 0x00000000#32),
    binary main_v197 main_cst_67 main_v198 ((fun x v => Host.reduceAdd x v reducesTo_S16x128x128x8_S16x128x128_d3 h_S_) : (⟨S16x128x128x8, .f32⟩ : BufTy).Contents (Elt F) → (⟨S_, .f32⟩ : BufTy).Contents (Elt F) → (⟨S16x128x128, .f32⟩ : BufTy).Contents (Elt F)),
    nullary main_cst_68 (constant S_ .f32 0x41000000#32),
    unary main_cst_68 main_v199 (broadcastInDim S16x128x128 ![] bcast_S_S16x128x128 : (⟨S_, .f32⟩ : BufTy).Contents (Elt F) → (⟨S16x128x128, .f32⟩ : BufTy).Contents (Elt F)),
    binary main_v198 main_v199 main_v200 (Host.divf : (⟨S16x128x128, .f32⟩ : BufTy).Contents (Elt F) → (⟨S16x128x128, .f32⟩ : BufTy).Contents (Elt F) → (⟨S16x128x128, .f32⟩ : BufTy).Contents (Elt F)),
    unary main_v200 main_v201 (Host.negf : (⟨S16x128x128, .f32⟩ : BufTy).Contents (Elt F) → (⟨S16x128x128, .f32⟩ : BufTy).Contents (Elt F)),
    unary main_v201 main_v202 (Host.exp : (⟨S16x128x128, .f32⟩ : BufTy).Contents (Elt F) → (⟨S16x128x128, .f32⟩ : BufTy).Contents (Elt F)),
    unary main_arg4 main_v203 ((extractStridedSlice S16x128x1 ![0, 0, 3] · slices_S16x128x4_S16x128x1_0_0_3) : (⟨S16x128x4, .f32⟩ : BufTy).Contents (Elt F) → (⟨S16x128x1, .f32⟩ : BufTy).Contents (Elt F)),
    reshape main_v203 main_v204 rfl shapeCasts_S16x128x1_S16x128,
    unary main_arg4 main_v205 ((extractStridedSlice S16x128x1 ![0, 0, 1] · slices_S16x128x4_S16x128x1_0_0_1) : (⟨S16x128x4, .f32⟩ : BufTy).Contents (Elt F) → (⟨S16x128x1, .f32⟩ : BufTy).Contents (Elt F)),
    reshape main_v205 main_v206 rfl shapeCasts_S16x128x1_S16x128,
    binary main_v204 main_v206 main_v207 (subf : (⟨S16x128, .f32⟩ : BufTy).Contents (Elt F) → (⟨S16x128, .f32⟩ : BufTy).Contents (Elt F) → (⟨S16x128, .f32⟩ : BufTy).Contents (Elt F)),
    nullary main_cst_69 (constant S_ .f32 0x3F800000#32),
    unary main_cst_69 main_v208 (broadcastInDim S16x128 ![] bcast_S_S16x128 : (⟨S_, .f32⟩ : BufTy).Contents (Elt F) → (⟨S16x128, .f32⟩ : BufTy).Contents (Elt F)),
    binary main_v207 main_v208 main_v209 (addf : (⟨S16x128, .f32⟩ : BufTy).Contents (Elt F) → (⟨S16x128, .f32⟩ : BufTy).Contents (Elt F) → (⟨S16x128, .f32⟩ : BufTy).Contents (Elt F)),
    unary main_arg4 main_v210 ((extractStridedSlice S16x128x1 ![0, 0, 2] · slices_S16x128x4_S16x128x1_0_0_2) : (⟨S16x128x4, .f32⟩ : BufTy).Contents (Elt F) → (⟨S16x128x1, .f32⟩ : BufTy).Contents (Elt F)),
    reshape main_v210 main_v211 rfl shapeCasts_S16x128x1_S16x128,
    unary main_arg4 main_v212 ((extractStridedSlice S16x128x1 ![0, 0, 0] · slices_S16x128x4_S16x128x1_0_0_0) : (⟨S16x128x4, .f32⟩ : BufTy).Contents (Elt F) → (⟨S16x128x1, .f32⟩ : BufTy).Contents (Elt F)),
    reshape main_v212 main_v213 rfl shapeCasts_S16x128x1_S16x128,
    binary main_v211 main_v213 main_v214 (subf : (⟨S16x128, .f32⟩ : BufTy).Contents (Elt F) → (⟨S16x128, .f32⟩ : BufTy).Contents (Elt F) → (⟨S16x128, .f32⟩ : BufTy).Contents (Elt F)),
    nullary main_cst_70 (constant S_ .f32 0x3F800000#32),
    unary main_cst_70 main_v215 (broadcastInDim S16x128 ![] bcast_S_S16x128 : (⟨S_, .f32⟩ : BufTy).Contents (Elt F) → (⟨S16x128, .f32⟩ : BufTy).Contents (Elt F)),
    binary main_v214 main_v215 main_v216 (addf : (⟨S16x128, .f32⟩ : BufTy).Contents (Elt F) → (⟨S16x128, .f32⟩ : BufTy).Contents (Elt F) → (⟨S16x128, .f32⟩ : BufTy).Contents (Elt F)),
    unary main_arg4 main_v217 ((extractStridedSlice S16x128x1 ![0, 0, 0] · slices_S16x128x4_S16x128x1_0_0_0) : (⟨S16x128x4, .f32⟩ : BufTy).Contents (Elt F) → (⟨S16x128x1, .f32⟩ : BufTy).Contents (Elt F)),
    reshape main_v217 main_v218 rfl shapeCasts_S16x128x1_S16x128,
    nullary main_cst_71 (constant S_ .f32 0x3E800000#32),
    unary main_cst_71 main_v219 (broadcastInDim S16x128 ![] bcast_S_S16x128 : (⟨S_, .f32⟩ : BufTy).Contents (Elt F) → (⟨S16x128, .f32⟩ : BufTy).Contents (Elt F)),
    binary main_v219 main_v216 main_v220 (mulf : (⟨S16x128, .f32⟩ : BufTy).Contents (Elt F) → (⟨S16x128, .f32⟩ : BufTy).Contents (Elt F) → (⟨S16x128, .f32⟩ : BufTy).Contents (Elt F)),
    binary main_v218 main_v220 main_v221 (subf : (⟨S16x128, .f32⟩ : BufTy).Contents (Elt F) → (⟨S16x128, .f32⟩ : BufTy).Contents (Elt F) → (⟨S16x128, .f32⟩ : BufTy).Contents (Elt F)),
    unary main_arg4 main_v222 ((extractStridedSlice S16x128x1 ![0, 0, 1] · slices_S16x128x4_S16x128x1_0_0_1) : (⟨S16x128x4, .f32⟩ : BufTy).Contents (Elt F) → (⟨S16x128x1, .f32⟩ : BufTy).Contents (Elt F)),
    reshape main_v222 main_v223 rfl shapeCasts_S16x128x1_S16x128,
    nullary main_cst_72 (constant S_ .f32 0x3E800000#32),
    unary main_cst_72 main_v224 (broadcastInDim S16x128 ![] bcast_S_S16x128 : (⟨S_, .f32⟩ : BufTy).Contents (Elt F) → (⟨S16x128, .f32⟩ : BufTy).Contents (Elt F)),
    binary main_v224 main_v209 main_v225 (mulf : (⟨S16x128, .f32⟩ : BufTy).Contents (Elt F) → (⟨S16x128, .f32⟩ : BufTy).Contents (Elt F) → (⟨S16x128, .f32⟩ : BufTy).Contents (Elt F)),
    binary main_v223 main_v225 main_v226 (subf : (⟨S16x128, .f32⟩ : BufTy).Contents (Elt F) → (⟨S16x128, .f32⟩ : BufTy).Contents (Elt F) → (⟨S16x128, .f32⟩ : BufTy).Contents (Elt F)),
    unary main_arg4 main_v227 ((extractStridedSlice S16x128x1 ![0, 0, 2] · slices_S16x128x4_S16x128x1_0_0_2) : (⟨S16x128x4, .f32⟩ : BufTy).Contents (Elt F) → (⟨S16x128x1, .f32⟩ : BufTy).Contents (Elt F)),
    reshape main_v227 main_v228 rfl shapeCasts_S16x128x1_S16x128,
    nullary main_cst_73 (constant S_ .f32 0x3E800000#32),
    unary main_cst_73 main_v229 (broadcastInDim S16x128 ![] bcast_S_S16x128 : (⟨S_, .f32⟩ : BufTy).Contents (Elt F) → (⟨S16x128, .f32⟩ : BufTy).Contents (Elt F)),
    binary main_v229 main_v216 main_v230 (mulf : (⟨S16x128, .f32⟩ : BufTy).Contents (Elt F) → (⟨S16x128, .f32⟩ : BufTy).Contents (Elt F) → (⟨S16x128, .f32⟩ : BufTy).Contents (Elt F)),
    binary main_v228 main_v230 main_v231 (addf : (⟨S16x128, .f32⟩ : BufTy).Contents (Elt F) → (⟨S16x128, .f32⟩ : BufTy).Contents (Elt F) → (⟨S16x128, .f32⟩ : BufTy).Contents (Elt F)),
    unary main_arg4 main_v232 ((extractStridedSlice S16x128x1 ![0, 0, 3] · slices_S16x128x4_S16x128x1_0_0_3) : (⟨S16x128x4, .f32⟩ : BufTy).Contents (Elt F) → (⟨S16x128x1, .f32⟩ : BufTy).Contents (Elt F)),
    reshape main_v232 main_v233 rfl shapeCasts_S16x128x1_S16x128,
    nullary main_cst_74 (constant S_ .f32 0x3E800000#32),
    unary main_cst_74 main_v234 (broadcastInDim S16x128 ![] bcast_S_S16x128 : (⟨S_, .f32⟩ : BufTy).Contents (Elt F) → (⟨S16x128, .f32⟩ : BufTy).Contents (Elt F)),
    binary main_v234 main_v209 main_v235 (mulf : (⟨S16x128, .f32⟩ : BufTy).Contents (Elt F) → (⟨S16x128, .f32⟩ : BufTy).Contents (Elt F) → (⟨S16x128, .f32⟩ : BufTy).Contents (Elt F)),
    binary main_v233 main_v235 main_v236 (addf : (⟨S16x128, .f32⟩ : BufTy).Contents (Elt F) → (⟨S16x128, .f32⟩ : BufTy).Contents (Elt F) → (⟨S16x128, .f32⟩ : BufTy).Contents (Elt F)),
    unary main_v221 main_v237 (broadcastInDim S16x128x1 ![0, 1] bcast_S16x128_S16x128x1_0_1 : (⟨S16x128, .f32⟩ : BufTy).Contents (Elt F) → (⟨S16x128x1, .f32⟩ : BufTy).Contents (Elt F)),
    unary main_v226 main_v238 (broadcastInDim S16x128x1 ![0, 1] bcast_S16x128_S16x128x1_0_1 : (⟨S16x128, .f32⟩ : BufTy).Contents (Elt F) → (⟨S16x128x1, .f32⟩ : BufTy).Contents (Elt F)),
    unary main_v231 main_v239 (broadcastInDim S16x128x1 ![0, 1] bcast_S16x128_S16x128x1_0_1 : (⟨S16x128, .f32⟩ : BufTy).Contents (Elt F) → (⟨S16x128x1, .f32⟩ : BufTy).Contents (Elt F)),
    unary main_v236 main_v240 (broadcastInDim S16x128x1 ![0, 1] bcast_S16x128_S16x128x1_0_1 : (⟨S16x128, .f32⟩ : BufTy).Contents (Elt F) → (⟨S16x128x1, .f32⟩ : BufTy).Contents (Elt F)),
    nary ![main_v237, main_v238, main_v239, main_v240] main_v241 (fun u => concatenate S16x128x4 2 [⟨S16x128x1, u 0⟩, ⟨S16x128x1, u 1⟩, ⟨S16x128x1, u 2⟩, ⟨S16x128x1, u 3⟩] concatenates_S16x128x1_S16x128x1_S16x128x1_S16x128x1_S16x128x4_d2),
    unary main_v241 main_v242 ((extractStridedSlice S16x128x2 ![0, 0, 0] · slices_S16x128x4_S16x128x2_0_0_0) : (⟨S16x128x4, .f32⟩ : BufTy).Contents (Elt F) → (⟨S16x128x2, .f32⟩ : BufTy).Contents (Elt F)),
    unary main_v242 main_v243 (broadcastInDim S16x128x1x2 ![0, 1, 3] bcast_S16x128x2_S16x128x1x2_0_1_3 : (⟨S16x128x2, .f32⟩ : BufTy).Contents (Elt F) → (⟨S16x128x1x2, .f32⟩ : BufTy).Contents (Elt F)),
    unary main_v241 main_v244 ((extractStridedSlice S16x128x2 ![0, 0, 0] · slices_S16x128x4_S16x128x2_0_0_0) : (⟨S16x128x4, .f32⟩ : BufTy).Contents (Elt F) → (⟨S16x128x2, .f32⟩ : BufTy).Contents (Elt F)),
    unary main_v244 main_v245 (broadcastInDim S16x1x128x2 ![0, 2, 3] bcast_S16x128x2_S16x1x128x2_0_2_3 : (⟨S16x128x2, .f32⟩ : BufTy).Contents (Elt F) → (⟨S16x1x128x2, .f32⟩ : BufTy).Contents (Elt F)),
    unary main_v243 main_v246 (broadcastInDim S16x128x128x2 ![0, 1, 2, 3] bcast_S16x128x1x2_S16x128x128x2_0_1_2_3 : (⟨S16x128x1x2, .f32⟩ : BufTy).Contents (Elt F) → (⟨S16x128x128x2, .f32⟩ : BufTy).Contents (Elt F)),
    unary main_v245 main_v247 (broadcastInDim S16x128x128x2 ![0, 1, 2, 3] bcast_S16x1x128x2_S16x128x128x2_0_1_2_3 : (⟨S16x1x128x2, .f32⟩ : BufTy).Contents (Elt F) → (⟨S16x128x128x2, .f32⟩ : BufTy).Contents (Elt F)),
    binary main_v246 main_v247 main_v248 (maximumf : (⟨S16x128x128x2, .f32⟩ : BufTy).Contents (Elt F) → (⟨S16x128x128x2, .f32⟩ : BufTy).Contents (Elt F) → (⟨S16x128x128x2, .f32⟩ : BufTy).Contents (Elt F)),
    unary main_v241 main_v249 ((extractStridedSlice S16x128x2 ![0, 0, 2] · slices_S16x128x4_S16x128x2_0_0_2) : (⟨S16x128x4, .f32⟩ : BufTy).Contents (Elt F) → (⟨S16x128x2, .f32⟩ : BufTy).Contents (Elt F)),
    unary main_v249 main_v250 (broadcastInDim S16x128x1x2 ![0, 1, 3] bcast_S16x128x2_S16x128x1x2_0_1_3 : (⟨S16x128x2, .f32⟩ : BufTy).Contents (Elt F) → (⟨S16x128x1x2, .f32⟩ : BufTy).Contents (Elt F)),
    unary main_v241 main_v251 ((extractStridedSlice S16x128x2 ![0, 0, 2] · slices_S16x128x4_S16x128x2_0_0_2) : (⟨S16x128x4, .f32⟩ : BufTy).Contents (Elt F) → (⟨S16x128x2, .f32⟩ : BufTy).Contents (Elt F)),
    unary main_v251 main_v252 (broadcastInDim S16x1x128x2 ![0, 2, 3] bcast_S16x128x2_S16x1x128x2_0_2_3 : (⟨S16x128x2, .f32⟩ : BufTy).Contents (Elt F) → (⟨S16x1x128x2, .f32⟩ : BufTy).Contents (Elt F)),
    unary main_v250 main_v253 (broadcastInDim S16x128x128x2 ![0, 1, 2, 3] bcast_S16x128x1x2_S16x128x128x2_0_1_2_3 : (⟨S16x128x1x2, .f32⟩ : BufTy).Contents (Elt F) → (⟨S16x128x128x2, .f32⟩ : BufTy).Contents (Elt F)),
    unary main_v252 main_v254 (broadcastInDim S16x128x128x2 ![0, 1, 2, 3] bcast_S16x1x128x2_S16x128x128x2_0_1_2_3 : (⟨S16x1x128x2, .f32⟩ : BufTy).Contents (Elt F) → (⟨S16x128x128x2, .f32⟩ : BufTy).Contents (Elt F)),
    binary main_v253 main_v254 main_v255 (minimumf : (⟨S16x128x128x2, .f32⟩ : BufTy).Contents (Elt F) → (⟨S16x128x128x2, .f32⟩ : BufTy).Contents (Elt F) → (⟨S16x128x128x2, .f32⟩ : BufTy).Contents (Elt F)),
    binary main_v255 main_v248 main_v256 (subf : (⟨S16x128x128x2, .f32⟩ : BufTy).Contents (Elt F) → (⟨S16x128x128x2, .f32⟩ : BufTy).Contents (Elt F) → (⟨S16x128x128x2, .f32⟩ : BufTy).Contents (Elt F)),
    nullary main_cst_75 (constant S_ .f32 0x3F800000#32),
    unary main_cst_75 main_v257 (broadcastInDim S16x128x128x2 ![] bcast_S_S16x128x128x2 : (⟨S_, .f32⟩ : BufTy).Contents (Elt F) → (⟨S16x128x128x2, .f32⟩ : BufTy).Contents (Elt F)),
    binary main_v256 main_v257 main_v258 (addf : (⟨S16x128x128x2, .f32⟩ : BufTy).Contents (Elt F) → (⟨S16x128x128x2, .f32⟩ : BufTy).Contents (Elt F) → (⟨S16x128x128x2, .f32⟩ : BufTy).Contents (Elt F)),
    nullary main_cst_76 (constant S_ .f32 0x00000000#32) ]

/-- The lines that clip the overlaps' sides at 0, take the overlaps' and the pairs' joint areas, and ask whether the ratio is positive. -/
abbrev overlapLines : List (HloOp τ sig (Elt F)) :=
  [ TRef.unary (TRef.of (T := ⟨S_, .f32⟩) main_cst_76) (TRef.of (T := ⟨S_, .f32⟩) main_call13_v0) id,
    TRef.unary (TRef.of (T := ⟨S_, .f32⟩) main_call13_v0) (TRef.of (T := ⟨S16x128x128x2, .f32⟩) main_call13_v1) (broadcastInDim S16x128x128x2 ![] bcast_S_S16x128x128x2),
    TRef.binary (TRef.of (T := ⟨S16x128x128x2, .f32⟩) main_call13_v1) (TRef.of (T := ⟨S16x128x128x2, .f32⟩) main_v258) (TRef.of (T := ⟨S16x128x128x2, .f32⟩) main_v259) maximumf,
    unary main_v259 main_v260 ((extractStridedSlice S16x128x128x1 ![0, 0, 0, 0] · slices_S16x128x128x2_S16x128x128x1_0_0_0_0) : (⟨S16x128x128x2, .f32⟩ : BufTy).Contents (Elt F) → (⟨S16x128x128x1, .f32⟩ : BufTy).Contents (Elt F)),
    reshape main_v260 main_v261 rfl shapeCasts_S16x128x128x1_S16x128x128,
    unary main_v259 main_v262 ((extractStridedSlice S16x128x128x1 ![0, 0, 0, 1] · slices_S16x128x128x2_S16x128x128x1_0_0_0_1) : (⟨S16x128x128x2, .f32⟩ : BufTy).Contents (Elt F) → (⟨S16x128x128x1, .f32⟩ : BufTy).Contents (Elt F)),
    reshape main_v262 main_v263 rfl shapeCasts_S16x128x128x1_S16x128x128,
    binary main_v261 main_v263 main_v264 (mulf : (⟨S16x128x128, .f32⟩ : BufTy).Contents (Elt F) → (⟨S16x128x128, .f32⟩ : BufTy).Contents (Elt F) → (⟨S16x128x128, .f32⟩ : BufTy).Contents (Elt F)),
    unary main_v241 main_v265 ((extractStridedSlice S16x128x1 ![0, 0, 2] · slices_S16x128x4_S16x128x1_0_0_2) : (⟨S16x128x4, .f32⟩ : BufTy).Contents (Elt F) → (⟨S16x128x1, .f32⟩ : BufTy).Contents (Elt F)),
    reshape main_v265 main_v266 rfl shapeCasts_S16x128x1_S16x128,
    unary main_v241 main_v267 ((extractStridedSlice S16x128x1 ![0, 0, 0] · slices_S16x128x4_S16x128x1_0_0_0) : (⟨S16x128x4, .f32⟩ : BufTy).Contents (Elt F) → (⟨S16x128x1, .f32⟩ : BufTy).Contents (Elt F)),
    reshape main_v267 main_v268 rfl shapeCasts_S16x128x1_S16x128,
    binary main_v266 main_v268 main_v269 (subf : (⟨S16x128, .f32⟩ : BufTy).Contents (Elt F) → (⟨S16x128, .f32⟩ : BufTy).Contents (Elt F) → (⟨S16x128, .f32⟩ : BufTy).Contents (Elt F)),
    nullary main_cst_77 (constant S_ .f32 0x3F800000#32),
    unary main_cst_77 main_v270 (broadcastInDim S16x128 ![] bcast_S_S16x128 : (⟨S_, .f32⟩ : BufTy).Contents (Elt F) → (⟨S16x128, .f32⟩ : BufTy).Contents (Elt F)),
    binary main_v269 main_v270 main_v271 (addf : (⟨S16x128, .f32⟩ : BufTy).Contents (Elt F) → (⟨S16x128, .f32⟩ : BufTy).Contents (Elt F) → (⟨S16x128, .f32⟩ : BufTy).Contents (Elt F)),
    unary main_v241 main_v272 ((extractStridedSlice S16x128x1 ![0, 0, 3] · slices_S16x128x4_S16x128x1_0_0_3) : (⟨S16x128x4, .f32⟩ : BufTy).Contents (Elt F) → (⟨S16x128x1, .f32⟩ : BufTy).Contents (Elt F)),
    reshape main_v272 main_v273 rfl shapeCasts_S16x128x1_S16x128,
    unary main_v241 main_v274 ((extractStridedSlice S16x128x1 ![0, 0, 1] · slices_S16x128x4_S16x128x1_0_0_1) : (⟨S16x128x4, .f32⟩ : BufTy).Contents (Elt F) → (⟨S16x128x1, .f32⟩ : BufTy).Contents (Elt F)),
    reshape main_v274 main_v275 rfl shapeCasts_S16x128x1_S16x128,
    binary main_v273 main_v275 main_v276 (subf : (⟨S16x128, .f32⟩ : BufTy).Contents (Elt F) → (⟨S16x128, .f32⟩ : BufTy).Contents (Elt F) → (⟨S16x128, .f32⟩ : BufTy).Contents (Elt F)),
    nullary main_cst_78 (constant S_ .f32 0x3F800000#32),
    unary main_cst_78 main_v277 (broadcastInDim S16x128 ![] bcast_S_S16x128 : (⟨S_, .f32⟩ : BufTy).Contents (Elt F) → (⟨S16x128, .f32⟩ : BufTy).Contents (Elt F)),
    binary main_v276 main_v277 main_v278 (addf : (⟨S16x128, .f32⟩ : BufTy).Contents (Elt F) → (⟨S16x128, .f32⟩ : BufTy).Contents (Elt F) → (⟨S16x128, .f32⟩ : BufTy).Contents (Elt F)),
    binary main_v271 main_v278 main_v279 (mulf : (⟨S16x128, .f32⟩ : BufTy).Contents (Elt F) → (⟨S16x128, .f32⟩ : BufTy).Contents (Elt F) → (⟨S16x128, .f32⟩ : BufTy).Contents (Elt F)),
    unary main_v279 main_v280 (broadcastInDim S16x128x1 ![0, 1] bcast_S16x128_S16x128x1_0_1 : (⟨S16x128, .f32⟩ : BufTy).Contents (Elt F) → (⟨S16x128x1, .f32⟩ : BufTy).Contents (Elt F)),
    unary main_v279 main_v281 (broadcastInDim S16x1x128 ![0, 2] bcast_S16x128_S16x1x128_0_2 : (⟨S16x128, .f32⟩ : BufTy).Contents (Elt F) → (⟨S16x1x128, .f32⟩ : BufTy).Contents (Elt F)),
    unary main_v280 main_v282 (broadcastInDim S16x128x128 ![0, 1, 2] bcast_S16x128x1_S16x128x128_0_1_2 : (⟨S16x128x1, .f32⟩ : BufTy).Contents (Elt F) → (⟨S16x128x128, .f32⟩ : BufTy).Contents (Elt F)),
    unary main_v281 main_v283 (broadcastInDim S16x128x128 ![0, 1, 2] bcast_S16x1x128_S16x128x128_0_1_2 : (⟨S16x1x128, .f32⟩ : BufTy).Contents (Elt F) → (⟨S16x128x128, .f32⟩ : BufTy).Contents (Elt F)),
    binary main_v282 main_v283 main_v284 (addf : (⟨S16x128x128, .f32⟩ : BufTy).Contents (Elt F) → (⟨S16x128x128, .f32⟩ : BufTy).Contents (Elt F) → (⟨S16x128x128, .f32⟩ : BufTy).Contents (Elt F)),
    binary main_v284 main_v264 main_v285 (subf : (⟨S16x128x128, .f32⟩ : BufTy).Contents (Elt F) → (⟨S16x128x128, .f32⟩ : BufTy).Contents (Elt F) → (⟨S16x128x128, .f32⟩ : BufTy).Contents (Elt F)),
    binary main_v264 main_v285 main_v286 (Host.divf : (⟨S16x128x128, .f32⟩ : BufTy).Contents (Elt F) → (⟨S16x128x128, .f32⟩ : BufTy).Contents (Elt F) → (⟨S16x128x128, .f32⟩ : BufTy).Contents (Elt F)),
    nullary main_cst_79 (constant S_ .f32 0x00000000#32),
    unary main_cst_79 main_v287 (broadcastInDim S16x128x128 ![] bcast_S_S16x128x128 : (⟨S_, .f32⟩ : BufTy).Contents (Elt F) → (⟨S16x128x128, .f32⟩ : BufTy).Contents (Elt F)),
    binary main_v286 main_v287 main_v288 (cmpf .ogt : (⟨S16x128x128, .f32⟩ : BufTy).Contents (Elt F) → (⟨S16x128x128, .f32⟩ : BufTy).Contents (Elt F) → (⟨S16x128x128, .i1⟩ : BufTy).Contents (Elt F)),
    nullary main_cst_80 (constant S_ .f32 0x3F800000#32),
    nullary main_cst_81 (constant S_ .f32 0x3DCCCCCD#32) ]

/-- The lines that choose the push weight: 1 or 0.1 by overlap, 0 where the similarity is below 0.001. -/
abbrev weightLines : List (HloOp τ sig (Elt F)) :=
  [ TRef.unary (TRef.of (T := ⟨S_, .f32⟩) main_cst_80) (TRef.of (T := ⟨S128x128, .f32⟩) main_call14_v0) (broadcastInDim S128x128 ![] bcast_S_S128x128),
    TRef.unary (TRef.of (T := ⟨S_, .f32⟩) main_cst_81) (TRef.of (T := ⟨S128x128, .f32⟩) main_call14_v1) (broadcastInDim S128x128 ![] bcast_S_S128x128),
    TRef.unary (TRef.of (T := ⟨S128x128, .f32⟩) main_call14_v1) (TRef.of (T := ⟨S16x128x128, .f32⟩) main_call14_v2) (broadcastInDim S16x128x128 ![1, 2] bcast_S128x128_S16x128x128_1_2),
    TRef.unary (TRef.of (T := ⟨S128x128, .f32⟩) main_call14_v0) (TRef.of (T := ⟨S16x128x128, .f32⟩) main_call14_v3) (broadcastInDim S16x128x128 ![1, 2] bcast_S128x128_S16x128x128_1_2),
    TRef.ternary (TRef.of (T := ⟨S16x128x128, .i1⟩) main_v288) (TRef.of (T := ⟨S16x128x128, .f32⟩) main_call14_v3) (TRef.of (T := ⟨S16x128x128, .f32⟩) main_call14_v2) (TRef.of (T := ⟨S16x128x128, .f32⟩) main_v289) select,
    nullary main_cst_82 (constant S_ .f32 0x3A83126F#32),
    unary main_cst_82 main_v290 (broadcastInDim S16x128x128 ![] bcast_S_S16x128x128 : (⟨S_, .f32⟩ : BufTy).Contents (Elt F) → (⟨S16x128x128, .f32⟩ : BufTy).Contents (Elt F)),
    binary main_v202 main_v290 main_v291 (cmpf .olt : (⟨S16x128x128, .f32⟩ : BufTy).Contents (Elt F) → (⟨S16x128x128, .f32⟩ : BufTy).Contents (Elt F) → (⟨S16x128x128, .i1⟩ : BufTy).Contents (Elt F)),
    nullary main_cst_83 (constant S_ .f32 0x00000000#32),
    TRef.unary (TRef.of (T := ⟨S_, .f32⟩) main_cst_83) (TRef.of (T := ⟨S16x128x128, .f32⟩) main_call15_v0) (broadcastInDim S16x128x128 ![] bcast_S_S16x128x128),
    TRef.ternary (TRef.of (T := ⟨S16x128x128, .i1⟩) main_v291) (TRef.of (T := ⟨S16x128x128, .f32⟩) main_call15_v0) (TRef.of (T := ⟨S16x128x128, .f32⟩) main_v289) (TRef.of (T := ⟨S16x128x128, .f32⟩) main_v292) select ]

/-- The lines that sum, scale and average: the two losses, side by side. -/
abbrev lossLines : List (HloOp τ sig (Elt F)) :=
  [ unary main_v292 main_v293 (id : (⟨S16x128x128, .f32⟩ : BufTy).Contents (Elt F) → (⟨S16x128x128, .f32⟩ : BufTy).Contents (Elt F)),
    binary main_v202 main_v293 main_v294 (mulf : (⟨S16x128x128, .f32⟩ : BufTy).Contents (Elt F) → (⟨S16x128x128, .f32⟩ : BufTy).Contents (Elt F) → (⟨S16x128x128, .f32⟩ : BufTy).Contents (Elt F)),
    nullary main_cst_84 (constant S_ .f32 0x00000000#32),
    binary main_v294 main_cst_84 main_v295 ((fun x v => Host.reduceAdd x v reducesTo_S16x128x128_S16_d1_2 h_S_) : (⟨S16x128x128, .f32⟩ : BufTy).Contents (Elt F) → (⟨S_, .f32⟩ : BufTy).Contents (Elt F) → (⟨S16, .f32⟩ : BufTy).Contents (Elt F)),
    nullary main_cst_85 (constant S_ .f32 0x43000000#32),
    unary main_cst_85 main_v296 (broadcastInDim S16 ![] bcast_S_S16 : (⟨S_, .f32⟩ : BufTy).Contents (Elt F) → (⟨S16, .f32⟩ : BufTy).Contents (Elt F)),
    binary main_v295 main_v296 main_v297 (subf : (⟨S16, .f32⟩ : BufTy).Contents (Elt F) → (⟨S16, .f32⟩ : BufTy).Contents (Elt F) → (⟨S16, .f32⟩ : BufTy).Contents (Elt F)),
    nullary main_cst_86 (constant S_ .f32 0x467E0000#32),
    unary main_cst_86 main_v298 (broadcastInDim S16 ![] bcast_S_S16 : (⟨S_, .f32⟩ : BufTy).Contents (Elt F) → (⟨S16, .f32⟩ : BufTy).Contents (Elt F)),
    binary main_v297 main_v298 main_v299 (Host.divf : (⟨S16, .f32⟩ : BufTy).Contents (Elt F) → (⟨S16, .f32⟩ : BufTy).Contents (Elt F) → (⟨S16, .f32⟩ : BufTy).Contents (Elt F)),
    nullary main_cst_87 (constant S_ .f32 0x3F000000#32),
    unary main_cst_87 main_v300 (broadcastInDim S16 ![] bcast_S_S16 : (⟨S_, .f32⟩ : BufTy).Contents (Elt F) → (⟨S16, .f32⟩ : BufTy).Contents (Elt F)),
    binary main_v299 main_v300 main_v301 (mulf : (⟨S16, .f32⟩ : BufTy).Contents (Elt F) → (⟨S16, .f32⟩ : BufTy).Contents (Elt F) → (⟨S16, .f32⟩ : BufTy).Contents (Elt F)),
    nullary main_cst_88 (constant S_ .f32 0x00000000#32),
    binary main_v301 main_cst_88 main_v302 ((fun x v => Host.reduceAdd x v reducesTo_S16_S_d0 h_S_) : (⟨S16, .f32⟩ : BufTy).Contents (Elt F) → (⟨S_, .f32⟩ : BufTy).Contents (Elt F) → (⟨S_, .f32⟩ : BufTy).Contents (Elt F)),
    nullary main_cst_89 (constant S_ .f32 0x41800000#32),
    binary main_v302 main_cst_89 main_v303 (Host.divf : (⟨S_, .f32⟩ : BufTy).Contents (Elt F) → (⟨S_, .f32⟩ : BufTy).Contents (Elt F) → (⟨S_, .f32⟩ : BufTy).Contents (Elt F)),
    nullary main_cst_90 (constant S_ .f32 0x00000000#32),
    binary main_v191 main_cst_90 main_v304 ((fun x v => Host.reduceAdd x v reducesTo_S16_S_d0 h_S_) : (⟨S16, .f32⟩ : BufTy).Contents (Elt F) → (⟨S_, .f32⟩ : BufTy).Contents (Elt F) → (⟨S_, .f32⟩ : BufTy).Contents (Elt F)),
    nullary main_cst_91 (constant S_ .f32 0x41800000#32),
    binary main_v304 main_cst_91 main_v305 (Host.divf : (⟨S_, .f32⟩ : BufTy).Contents (Elt F) → (⟨S_, .f32⟩ : BufTy).Contents (Elt F) → (⟨S_, .f32⟩ : BufTy).Contents (Elt F)),
    unary main_v303 main_v306 (broadcastInDim S1 ![] bcast_S_S1 : (⟨S_, .f32⟩ : BufTy).Contents (Elt F) → (⟨S1, .f32⟩ : BufTy).Contents (Elt F)),
    unary main_v305 main_v307 (broadcastInDim S1 ![] bcast_S_S1 : (⟨S_, .f32⟩ : BufTy).Contents (Elt F) → (⟨S1, .f32⟩ : BufTy).Contents (Elt F)),
    binary main_v306 main_v307 main_v308 ((fun a b => concatenate S2 0 [⟨S1, a⟩, ⟨S1, b⟩] concatenates_S1_S1_S2_d0) : (⟨S1, .f32⟩ : BufTy).Contents (Elt F) → (⟨S1, .f32⟩ : BufTy).Contents (Elt F) → (⟨S2, .f32⟩ : BufTy).Contents (Elt F)) ]

set_option maxRecDepth 100000

/-- The program's lines are the ten stretches in order. -/
theorem ops_eq : (Cert.ReferenceIdeal.ValueQ.ops (F := F))
    = coordLines ++ (cornerLines0 ++ (cornerLines1 ++ (cornerLines2 ++ (cornerLines3 ++ (pullLines ++ (middleLines ++ (overlapLines ++ (weightLines ++ lossLines)))))))) := rfl

/-! ## Each stretch, array by array

In each lemma `V` is what the buffers hold when the stretch begins, and the hypotheses say that the arrays the stretch
reads and does not itself write hold the stages named. The stretch's lines, composed, are one function of those arrays:
the composition of the stages of the same stretch. -/

theorem coordLines_main_arg0 (V : Valuation τ sig (Elt Ideal))
    (x0 : (⟨S16x8x320x320, .f32⟩ : BufTy).Contents (Elt Ideal)) (x2 : (⟨S8192x4, .f32⟩ : BufTy).Contents (Elt Ideal))
    (x3 : (⟨S16x8192x2, .f32⟩ : BufTy).Contents (Elt Ideal)) (x4 : (⟨S16x128x4, .f32⟩ : BufTy).Contents (Elt Ideal))
    (h_main_arg0 : V (Proc.devRef .tc main_arg0) = x0) :
    StableHlo.after (coordLines (F := Ideal)) V (Proc.devRef .tc main_arg0) = x0 := by
  simp only [coordLines]
  simp (disch := decide) only [after_cons, after_nil,
      nullary_result', unary_result', binary_result', ternary_result', reshape_result',
      nullary_result_ne', unary_result_ne', binary_result_ne', ternary_result_ne', reshape_result_ne', nary_result_ne']
  exact h_main_arg0

theorem coordLines_main_arg4 (V : Valuation τ sig (Elt Ideal))
    (x0 : (⟨S16x8x320x320, .f32⟩ : BufTy).Contents (Elt Ideal)) (x2 : (⟨S8192x4, .f32⟩ : BufTy).Contents (Elt Ideal))
    (x3 : (⟨S16x8192x2, .f32⟩ : BufTy).Contents (Elt Ideal)) (x4 : (⟨S16x128x4, .f32⟩ : BufTy).Contents (Elt Ideal))
    (h_main_arg4 : V (Proc.devRef .tc main_arg4) = x4) :
    StableHlo.after (coordLines (F := Ideal)) V (Proc.devRef .tc main_arg4) = x4 := by
  simp only [coordLines]
  simp (disch := decide) only [after_cons, after_nil,
      nullary_result', unary_result', binary_result', ternary_result', reshape_result',
      nullary_result_ne', unary_result_ne', binary_result_ne', ternary_result_ne', reshape_result_ne', nary_result_ne']
  exact h_main_arg4

theorem coordLines_main_v12 (V : Valuation τ sig (Elt Ideal))
    (x0 : (⟨S16x8x320x320, .f32⟩ : BufTy).Contents (Elt Ideal)) (x2 : (⟨S8192x4, .f32⟩ : BufTy).Contents (Elt Ideal))
    (x3 : (⟨S16x8192x2, .f32⟩ : BufTy).Contents (Elt Ideal)) (x4 : (⟨S16x128x4, .f32⟩ : BufTy).Contents (Elt Ideal))
    (h_main_arg2 : V (Proc.devRef .tc main_arg2) = x2)
    (h_main_arg3 : V (Proc.devRef .tc main_arg3) = x3) :
    StableHlo.after (coordLines (F := Ideal)) V (Proc.devRef .tc main_v12) = Cert.ReferenceIdeal.ReadP.val_main_v12 (F := Ideal) x2 x3 := by
  simp only [coordLines]
  simp (disch := decide) only [after_cons, after_nil,
      nullary_result', unary_result', binary_result', ternary_result', reshape_result',
      nullary_result_ne', unary_result_ne', binary_result_ne', ternary_result_ne', reshape_result_ne', nary_result_ne']
  rw [h_main_arg2, h_main_arg3]
  simp only [Cert.ReferenceIdeal.ReadP.val_main_v12, Cert.ReferenceIdeal.ReadP.val_main_v9, Cert.ReferenceIdeal.ReadP.val_main_v8, Cert.ReferenceIdeal.ReadP.val_main_v7, Cert.ReferenceIdeal.ReadP.val_main_v6, Cert.ReferenceIdeal.ReadP.val_main_v5, Cert.ReferenceIdeal.ReadP.val_main_v4, Cert.ReferenceIdeal.ReadP.val_main_v3, Cert.ReferenceIdeal.ReadP.val_main_cst, Cert.ReferenceIdeal.ReadP.val_main_v2, Cert.ReferenceIdeal.ReadP.val_main_v1, Cert.ReferenceIdeal.ReadP.val_main_v0] <;> rfl

theorem coordLines_main_v13 (V : Valuation τ sig (Elt Ideal))
    (x0 : (⟨S16x8x320x320, .f32⟩ : BufTy).Contents (Elt Ideal)) (x2 : (⟨S8192x4, .f32⟩ : BufTy).Contents (Elt Ideal))
    (x3 : (⟨S16x8192x2, .f32⟩ : BufTy).Contents (Elt Ideal)) (x4 : (⟨S16x128x4, .f32⟩ : BufTy).Contents (Elt Ideal))
    (h_main_arg2 : V (Proc.devRef .tc main_arg2) = x2)
    (h_main_arg3 : V (Proc.devRef .tc main_arg3) = x3) :
    StableHlo.after (coordLines (F := Ideal)) V (Proc.devRef .tc main_v13) = Cert.ReferenceIdeal.ReadP.val_main_v13 (F := Ideal) x2 x3 := by
  simp only [coordLines]
  simp (disch := decide) only [after_cons, after_nil,
      nullary_result', unary_result', binary_result', ternary_result', reshape_result',
      nullary_result_ne', unary_result_ne', binary_result_ne', ternary_result_ne', reshape_result_ne', nary_result_ne']
  rw [h_main_arg2, h_main_arg3]
  simp only [Cert.ReferenceIdeal.ReadP.val_main_v13, Cert.ReferenceIdeal.ReadP.val_main_v11, Cert.ReferenceIdeal.ReadP.val_main_v10, Cert.ReferenceIdeal.ReadP.val_main_v7, Cert.ReferenceIdeal.ReadP.val_main_v6, Cert.ReferenceIdeal.ReadP.val_main_v5, Cert.ReferenceIdeal.ReadP.val_main_v4, Cert.ReferenceIdeal.ReadP.val_main_v3, Cert.ReferenceIdeal.ReadP.val_main_cst, Cert.ReferenceIdeal.ReadP.val_main_v2, Cert.ReferenceIdeal.ReadP.val_main_v1, Cert.ReferenceIdeal.ReadP.val_main_v0] <;> rfl

theorem coordLines_main_v14 (V : Valuation τ sig (Elt Ideal))
    (x0 : (⟨S16x8x320x320, .f32⟩ : BufTy).Contents (Elt Ideal)) (x2 : (⟨S8192x4, .f32⟩ : BufTy).Contents (Elt Ideal))
    (x3 : (⟨S16x8192x2, .f32⟩ : BufTy).Contents (Elt Ideal)) (x4 : (⟨S16x128x4, .f32⟩ : BufTy).Contents (Elt Ideal))
    (h_main_arg2 : V (Proc.devRef .tc main_arg2) = x2)
    (h_main_arg3 : V (Proc.devRef .tc main_arg3) = x3) :
    StableHlo.after (coordLines (F := Ideal)) V (Proc.devRef .tc main_v14) = Cert.ReferenceIdeal.ReadP.val_main_v14 (F := Ideal) x2 x3 := by
  simp only [coordLines]
  simp (disch := decide) only [after_cons, after_nil,
      nullary_result', unary_result', binary_result', ternary_result', reshape_result',
      nullary_result_ne', unary_result_ne', binary_result_ne', ternary_result_ne', reshape_result_ne', nary_result_ne']
  rw [h_main_arg2, h_main_arg3]
  simp only [Cert.ReferenceIdeal.ReadP.val_main_v14, Cert.ReferenceIdeal.ReadP.val_main_v12, Cert.ReferenceIdeal.ReadP.val_main_v9, Cert.ReferenceIdeal.ReadP.val_main_v8, Cert.ReferenceIdeal.ReadP.val_main_v7, Cert.ReferenceIdeal.ReadP.val_main_v6, Cert.ReferenceIdeal.ReadP.val_main_v5, Cert.ReferenceIdeal.ReadP.val_main_v4, Cert.ReferenceIdeal.ReadP.val_main_v3, Cert.ReferenceIdeal.ReadP.val_main_cst, Cert.ReferenceIdeal.ReadP.val_main_v2, Cert.ReferenceIdeal.ReadP.val_main_v1, Cert.ReferenceIdeal.ReadP.val_main_v0] <;> rfl

theorem coordLines_main_v16 (V : Valuation τ sig (Elt Ideal))
    (x0 : (⟨S16x8x320x320, .f32⟩ : BufTy).Contents (Elt Ideal)) (x2 : (⟨S8192x4, .f32⟩ : BufTy).Contents (Elt Ideal))
    (x3 : (⟨S16x8192x2, .f32⟩ : BufTy).Contents (Elt Ideal)) (x4 : (⟨S16x128x4, .f32⟩ : BufTy).Contents (Elt Ideal))
    (h_main_arg2 : V (Proc.devRef .tc main_arg2) = x2)
    (h_main_arg3 : V (Proc.devRef .tc main_arg3) = x3) :
    StableHlo.after (coordLines (F := Ideal)) V (Proc.devRef .tc main_v16) = Cert.ReferenceIdeal.ReadP.val_main_v16 (F := Ideal) x2 x3 := by
  simp only [coordLines]
  simp (disch := decide) only [after_cons, after_nil,
      nullary_result', unary_result', binary_result', ternary_result', reshape_result',
      nullary_result_ne', unary_result_ne', binary_result_ne', ternary_result_ne', reshape_result_ne', nary_result_ne']
  rw [h_main_arg2, h_main_arg3]
  simp only [Cert.ReferenceIdeal.ReadP.val_main_v16, Cert.ReferenceIdeal.ReadP.val_main_v15, Cert.ReferenceIdeal.ReadP.val_main_cst_0, Cert.ReferenceIdeal.ReadP.val_main_v14, Cert.ReferenceIdeal.ReadP.val_main_v12, Cert.ReferenceIdeal.ReadP.val_main_v9, Cert.ReferenceIdeal.ReadP.val_main_v8, Cert.ReferenceIdeal.ReadP.val_main_v7, Cert.ReferenceIdeal.ReadP.val_main_v6, Cert.ReferenceIdeal.ReadP.val_main_v5, Cert.ReferenceIdeal.ReadP.val_main_v4, Cert.ReferenceIdeal.ReadP.val_main_v3, Cert.ReferenceIdeal.ReadP.val_main_cst, Cert.ReferenceIdeal.ReadP.val_main_v2, Cert.ReferenceIdeal.ReadP.val_main_v1, Cert.ReferenceIdeal.ReadP.val_main_v0] <;> rfl

theorem coordLines_main_v17 (V : Valuation τ sig (Elt Ideal))
    (x0 : (⟨S16x8x320x320, .f32⟩ : BufTy).Contents (Elt Ideal)) (x2 : (⟨S8192x4, .f32⟩ : BufTy).Contents (Elt Ideal))
    (x3 : (⟨S16x8192x2, .f32⟩ : BufTy).Contents (Elt Ideal)) (x4 : (⟨S16x128x4, .f32⟩ : BufTy).Contents (Elt Ideal))
    (h_main_arg2 : V (Proc.devRef .tc main_arg2) = x2)
    (h_main_arg3 : V (Proc.devRef .tc main_arg3) = x3) :
    StableHlo.after (coordLines (F := Ideal)) V (Proc.devRef .tc main_v17) = Cert.ReferenceIdeal.ReadP.val_main_v17 (F := Ideal) x2 x3 := by
  simp only [coordLines]
  simp (disch := decide) only [after_cons, after_nil,
      nullary_result', unary_result', binary_result', ternary_result', reshape_result',
      nullary_result_ne', unary_result_ne', binary_result_ne', ternary_result_ne', reshape_result_ne', nary_result_ne']
  rw [h_main_arg2, h_main_arg3]
  simp only [Cert.ReferenceIdeal.ReadP.val_main_v17, Cert.ReferenceIdeal.ReadP.val_main_v13, Cert.ReferenceIdeal.ReadP.val_main_v11, Cert.ReferenceIdeal.ReadP.val_main_v10, Cert.ReferenceIdeal.ReadP.val_main_v7, Cert.ReferenceIdeal.ReadP.val_main_v6, Cert.ReferenceIdeal.ReadP.val_main_v5, Cert.ReferenceIdeal.ReadP.val_main_v4, Cert.ReferenceIdeal.ReadP.val_main_v3, Cert.ReferenceIdeal.ReadP.val_main_cst, Cert.ReferenceIdeal.ReadP.val_main_v2, Cert.ReferenceIdeal.ReadP.val_main_v1, Cert.ReferenceIdeal.ReadP.val_main_v0] <;> rfl

theorem coordLines_main_v19 (V : Valuation τ sig (Elt Ideal))
    (x0 : (⟨S16x8x320x320, .f32⟩ : BufTy).Contents (Elt Ideal)) (x2 : (⟨S8192x4, .f32⟩ : BufTy).Contents (Elt Ideal))
    (x3 : (⟨S16x8192x2, .f32⟩ : BufTy).Contents (Elt Ideal)) (x4 : (⟨S16x128x4, .f32⟩ : BufTy).Contents (Elt Ideal))
    (h_main_arg2 : V (Proc.devRef .tc main_arg2) = x2)
    (h_main_arg3 : V (Proc.devRef .tc main_arg3) = x3) :
    StableHlo.after (coordLines (F := Ideal)) V (Proc.devRef .tc main_v19) = Cert.ReferenceIdeal.ReadP.val_main_v19 (F := Ideal) x2 x3 := by
  simp only [coordLines]
  simp (disch := decide) only [after_cons, after_nil,
      nullary_result', unary_result', binary_result', ternary_result', reshape_result',
      nullary_result_ne', unary_result_ne', binary_result_ne', ternary_result_ne', reshape_result_ne', nary_result_ne']
  rw [h_main_arg2, h_main_arg3]
  simp only [Cert.ReferenceIdeal.ReadP.val_main_v19, Cert.ReferenceIdeal.ReadP.val_main_v18, Cert.ReferenceIdeal.ReadP.val_main_cst_1, Cert.ReferenceIdeal.ReadP.val_main_v17, Cert.ReferenceIdeal.ReadP.val_main_v13, Cert.ReferenceIdeal.ReadP.val_main_v11, Cert.ReferenceIdeal.ReadP.val_main_v10, Cert.ReferenceIdeal.ReadP.val_main_v7, Cert.ReferenceIdeal.ReadP.val_main_v6, Cert.ReferenceIdeal.ReadP.val_main_v5, Cert.ReferenceIdeal.ReadP.val_main_v4, Cert.ReferenceIdeal.ReadP.val_main_v3, Cert.ReferenceIdeal.ReadP.val_main_cst, Cert.ReferenceIdeal.ReadP.val_main_v2, Cert.ReferenceIdeal.ReadP.val_main_v1, Cert.ReferenceIdeal.ReadP.val_main_v0] <;> rfl

theorem cornerLines0_main_arg0 (V : Valuation τ sig (Elt Ideal))
    (x0 : (⟨S16x8x320x320, .f32⟩ : BufTy).Contents (Elt Ideal)) (x2 : (⟨S8192x4, .f32⟩ : BufTy).Contents (Elt Ideal))
    (x3 : (⟨S16x8192x2, .f32⟩ : BufTy).Contents (Elt Ideal)) (x4 : (⟨S16x128x4, .f32⟩ : BufTy).Contents (Elt Ideal))
    (h_main_arg0 : V (Proc.devRef .tc main_arg0) = x0) :
    StableHlo.after (cornerLines0 (F := Ideal)) V (Proc.devRef .tc main_arg0) = x0 := by
  simp only [cornerLines0]
  simp (disch := decide) only [after_cons, after_nil,
      nullary_result', unary_result', binary_result', ternary_result', reshape_result',
      nullary_result_ne', unary_result_ne', binary_result_ne', ternary_result_ne', reshape_result_ne', nary_result_ne']
  exact h_main_arg0

theorem cornerLines0_main_arg4 (V : Valuation τ sig (Elt Ideal))
    (x0 : (⟨S16x8x320x320, .f32⟩ : BufTy).Contents (Elt Ideal)) (x2 : (⟨S8192x4, .f32⟩ : BufTy).Contents (Elt Ideal))
    (x3 : (⟨S16x8192x2, .f32⟩ : BufTy).Contents (Elt Ideal)) (x4 : (⟨S16x128x4, .f32⟩ : BufTy).Contents (Elt Ideal))
    (h_main_arg4 : V (Proc.devRef .tc main_arg4) = x4) :
    StableHlo.after (cornerLines0 (F := Ideal)) V (Proc.devRef .tc main_arg4) = x4 := by
  simp only [cornerLines0]
  simp (disch := decide) only [after_cons, after_nil,
      nullary_result', unary_result', binary_result', ternary_result', reshape_result',
      nullary_result_ne', unary_result_ne', binary_result_ne', ternary_result_ne', reshape_result_ne', nary_result_ne']
  exact h_main_arg4

theorem cornerLines0_main_v12 (V : Valuation τ sig (Elt Ideal))
    (x0 : (⟨S16x8x320x320, .f32⟩ : BufTy).Contents (Elt Ideal)) (x2 : (⟨S8192x4, .f32⟩ : BufTy).Contents (Elt Ideal))
    (x3 : (⟨S16x8192x2, .f32⟩ : BufTy).Contents (Elt Ideal)) (x4 : (⟨S16x128x4, .f32⟩ : BufTy).Contents (Elt Ideal))
    (h_main_v12 : V (Proc.devRef .tc main_v12) = Cert.ReferenceIdeal.ReadP.val_main_v12 (F := Ideal) x2 x3) :
    StableHlo.after (cornerLines0 (F := Ideal)) V (Proc.devRef .tc main_v12) = Cert.ReferenceIdeal.ReadP.val_main_v12 (F := Ideal) x2 x3 := by
  simp only [cornerLines0]
  simp (disch := decide) only [after_cons, after_nil,
      nullary_result', unary_result', binary_result', ternary_result', reshape_result',
      nullary_result_ne', unary_result_ne', binary_result_ne', ternary_result_ne', reshape_result_ne', nary_result_ne']
  exact h_main_v12

theorem cornerLines0_main_v13 (V : Valuation τ sig (Elt Ideal))
    (x0 : (⟨S16x8x320x320, .f32⟩ : BufTy).Contents (Elt Ideal)) (x2 : (⟨S8192x4, .f32⟩ : BufTy).Contents (Elt Ideal))
    (x3 : (⟨S16x8192x2, .f32⟩ : BufTy).Contents (Elt Ideal)) (x4 : (⟨S16x128x4, .f32⟩ : BufTy).Contents (Elt Ideal))
    (h_main_v13 : V (Proc.devRef .tc main_v13) = Cert.ReferenceIdeal.ReadP.val_main_v13 (F := Ideal) x2 x3) :
    StableHlo.after (cornerLines0 (F := Ideal)) V (Proc.devRef .tc main_v13) = Cert.ReferenceIdeal.ReadP.val_main_v13 (F := Ideal) x2 x3 := by
  simp only [cornerLines0]
  simp (disch := decide) only [after_cons, after_nil,
      nullary_result', unary_result', binary_result', ternary_result', reshape_result',
      nullary_result_ne', unary_result_ne', binary_result_ne', ternary_result_ne', reshape_result_ne', nary_result_ne']
  exact h_main_v13

theorem cornerLines0_main_v14 (V : Valuation τ sig (Elt Ideal))
    (x0 : (⟨S16x8x320x320, .f32⟩ : BufTy).Contents (Elt Ideal)) (x2 : (⟨S8192x4, .f32⟩ : BufTy).Contents (Elt Ideal))
    (x3 : (⟨S16x8192x2, .f32⟩ : BufTy).Contents (Elt Ideal)) (x4 : (⟨S16x128x4, .f32⟩ : BufTy).Contents (Elt Ideal))
    (h_main_v14 : V (Proc.devRef .tc main_v14) = Cert.ReferenceIdeal.ReadP.val_main_v14 (F := Ideal) x2 x3) :
    StableHlo.after (cornerLines0 (F := Ideal)) V (Proc.devRef .tc main_v14) = Cert.ReferenceIdeal.ReadP.val_main_v14 (F := Ideal) x2 x3 := by
  simp only [cornerLines0]
  simp (disch := decide) only [after_cons, after_nil,
      nullary_result', unary_result', binary_result', ternary_result', reshape_result',
      nullary_result_ne', unary_result_ne', binary_result_ne', ternary_result_ne', reshape_result_ne', nary_result_ne']
  exact h_main_v14

theorem cornerLines0_main_v16 (V : Valuation τ sig (Elt Ideal))
    (x0 : (⟨S16x8x320x320, .f32⟩ : BufTy).Contents (Elt Ideal)) (x2 : (⟨S8192x4, .f32⟩ : BufTy).Contents (Elt Ideal))
    (x3 : (⟨S16x8192x2, .f32⟩ : BufTy).Contents (Elt Ideal)) (x4 : (⟨S16x128x4, .f32⟩ : BufTy).Contents (Elt Ideal))
    (h_main_v16 : V (Proc.devRef .tc main_v16) = Cert.ReferenceIdeal.ReadP.val_main_v16 (F := Ideal) x2 x3) :
    StableHlo.after (cornerLines0 (F := Ideal)) V (Proc.devRef .tc main_v16) = Cert.ReferenceIdeal.ReadP.val_main_v16 (F := Ideal) x2 x3 := by
  simp only [cornerLines0]
  simp (disch := decide) only [after_cons, after_nil,
      nullary_result', unary_result', binary_result', ternary_result', reshape_result',
      nullary_result_ne', unary_result_ne', binary_result_ne', ternary_result_ne', reshape_result_ne', nary_result_ne']
  exact h_main_v16

theorem cornerLines0_main_v17 (V : Valuation τ sig (Elt Ideal))
    (x0 : (⟨S16x8x320x320, .f32⟩ : BufTy).Contents (Elt Ideal)) (x2 : (⟨S8192x4, .f32⟩ : BufTy).Contents (Elt Ideal))
    (x3 : (⟨S16x8192x2, .f32⟩ : BufTy).Contents (Elt Ideal)) (x4 : (⟨S16x128x4, .f32⟩ : BufTy).Contents (Elt Ideal))
    (h_main_v17 : V (Proc.devRef .tc main_v17) = Cert.ReferenceIdeal.ReadP.val_main_v17 (F := Ideal) x2 x3) :
    StableHlo.after (cornerLines0 (F := Ideal)) V (Proc.devRef .tc main_v17) = Cert.ReferenceIdeal.ReadP.val_main_v17 (F := Ideal) x2 x3 := by
  simp only [cornerLines0]
  simp (disch := decide) only [after_cons, after_nil,
      nullary_result', unary_result', binary_result', ternary_result', reshape_result',
      nullary_result_ne', unary_result_ne', binary_result_ne', ternary_result_ne', reshape_result_ne', nary_result_ne']
  exact h_main_v17

theorem cornerLines0_main_v19 (V : Valuation τ sig (Elt Ideal))
    (x0 : (⟨S16x8x320x320, .f32⟩ : BufTy).Contents (Elt Ideal)) (x2 : (⟨S8192x4, .f32⟩ : BufTy).Contents (Elt Ideal))
    (x3 : (⟨S16x8192x2, .f32⟩ : BufTy).Contents (Elt Ideal)) (x4 : (⟨S16x128x4, .f32⟩ : BufTy).Contents (Elt Ideal))
    (h_main_v19 : V (Proc.devRef .tc main_v19) = Cert.ReferenceIdeal.ReadP.val_main_v19 (F := Ideal) x2 x3) :
    StableHlo.after (cornerLines0 (F := Ideal)) V (Proc.devRef .tc main_v19) = Cert.ReferenceIdeal.ReadP.val_main_v19 (F := Ideal) x2 x3 := by
  simp only [cornerLines0]
  simp (disch := decide) only [after_cons, after_nil,
      nullary_result', unary_result', binary_result', ternary_result', reshape_result',
      nullary_result_ne', unary_result_ne', binary_result_ne', ternary_result_ne', reshape_result_ne', nary_result_ne']
  exact h_main_v19

theorem cornerLines0_main_v54 (V : Valuation τ sig (Elt Ideal))
    (x0 : (⟨S16x8x320x320, .f32⟩ : BufTy).Contents (Elt Ideal)) (x2 : (⟨S8192x4, .f32⟩ : BufTy).Contents (Elt Ideal))
    (x3 : (⟨S16x8192x2, .f32⟩ : BufTy).Contents (Elt Ideal)) (x4 : (⟨S16x128x4, .f32⟩ : BufTy).Contents (Elt Ideal))
    (h_main_v12 : V (Proc.devRef .tc main_v12) = Cert.ReferenceIdeal.ReadP.val_main_v12 (F := Ideal) x2 x3)
    (h_main_v13 : V (Proc.devRef .tc main_v13) = Cert.ReferenceIdeal.ReadP.val_main_v13 (F := Ideal) x2 x3)
    (h_main_arg0 : V (Proc.devRef .tc main_arg0) = x0)
    (h_main_v16 : V (Proc.devRef .tc main_v16) = Cert.ReferenceIdeal.ReadP.val_main_v16 (F := Ideal) x2 x3)
    (h_main_v19 : V (Proc.devRef .tc main_v19) = Cert.ReferenceIdeal.ReadP.val_main_v19 (F := Ideal) x2 x3) :
    StableHlo.after (cornerLines0 (F := Ideal)) V (Proc.devRef .tc main_v54) = Cert.ReferenceIdeal.ReadP.val_main_v54 (F := Ideal) x0 x2 x3 := by
  simp only [cornerLines0]
  simp (disch := decide) only [after_cons, after_nil,
      nullary_result', unary_result', binary_result', ternary_result', reshape_result',
      nullary_result_ne', unary_result_ne', binary_result_ne', ternary_result_ne', reshape_result_ne', nary_result_ne',
      concatenate_two]
  rw [h_main_v12, h_main_v13, h_main_arg0, h_main_v16, h_main_v19]
  simp only [Cert.ReferenceIdeal.ReadP.val_main_v54, Cert.ReferenceIdeal.ReadP.val_main_v53, Cert.ReferenceIdeal.ReadP.val_main_v52, Cert.ReferenceIdeal.ReadP.val_main_v51, Cert.ReferenceIdeal.ReadP.val_main_v50, Cert.ReferenceIdeal.ReadP.val_main_call2_v3, Cert.ReferenceIdeal.ReadP.val_main_call2_v2, Cert.ReferenceIdeal.ReadP.val_main_call2_v1, Cert.ReferenceIdeal.ReadP.val_main_call2_v0, Cert.ReferenceIdeal.ReadP.val_main_cst_13, Cert.ReferenceIdeal.ReadP.val_main_v49, Cert.ReferenceIdeal.ReadP.val_main_v48, Cert.ReferenceIdeal.ReadP.val_main_v47, Cert.ReferenceIdeal.ReadP.val_main_v46, Cert.ReferenceIdeal.ReadP.val_main_v45, Cert.ReferenceIdeal.ReadP.val_main_v44, Cert.ReferenceIdeal.ReadP.val_main_v43, Cert.ReferenceIdeal.ReadP.val_main_v42, Cert.ReferenceIdeal.ReadP.val_main_c_12, Cert.ReferenceIdeal.ReadP.val_main_v41, Cert.ReferenceIdeal.ReadP.val_main_v40, Cert.ReferenceIdeal.ReadP.val_main_c_11, Cert.ReferenceIdeal.ReadP.val_main_v39, Cert.ReferenceIdeal.ReadP.val_main_v38, Cert.ReferenceIdeal.ReadP.val_main_v37, Cert.ReferenceIdeal.ReadP.val_main_c_10, Cert.ReferenceIdeal.ReadP.val_main_v36, Cert.ReferenceIdeal.ReadP.val_main_v35, Cert.ReferenceIdeal.ReadP.val_main_c_9, Cert.ReferenceIdeal.ReadP.val_main_v34, Cert.ReferenceIdeal.ReadP.val_main_v33, Cert.ReferenceIdeal.ReadP.val_main_call1_v4, Cert.ReferenceIdeal.ReadP.val_main_call1_v3, Cert.ReferenceIdeal.ReadP.val_main_call1_v2, Cert.ReferenceIdeal.ReadP.val_main_call1_v1, Cert.ReferenceIdeal.ReadP.val_main_call1_v0, Cert.ReferenceIdeal.ReadP.val_main_c_8, Cert.ReferenceIdeal.ReadP.val_main_c_7, Cert.ReferenceIdeal.ReadP.val_main_v32, Cert.ReferenceIdeal.ReadP.val_main_v31, Cert.ReferenceIdeal.ReadP.val_main_call0_v4, Cert.ReferenceIdeal.ReadP.val_main_call0_v3, Cert.ReferenceIdeal.ReadP.val_main_call0_v2, Cert.ReferenceIdeal.ReadP.val_main_call0_v1, Cert.ReferenceIdeal.ReadP.val_main_call0_v0, Cert.ReferenceIdeal.ReadP.val_main_c_6, Cert.ReferenceIdeal.ReadP.val_main_c, Cert.ReferenceIdeal.ReadP.val_main_v30, Cert.ReferenceIdeal.ReadP.val_main_v29, Cert.ReferenceIdeal.ReadP.val_main_v28, Cert.ReferenceIdeal.ReadP.val_main_cst_5, Cert.ReferenceIdeal.ReadP.val_main_v27, Cert.ReferenceIdeal.ReadP.val_main_v26, Cert.ReferenceIdeal.ReadP.val_main_v25, Cert.ReferenceIdeal.ReadP.val_main_cst_4, Cert.ReferenceIdeal.ReadP.val_main_v24, Cert.ReferenceIdeal.ReadP.val_main_v23, Cert.ReferenceIdeal.ReadP.val_main_v22, Cert.ReferenceIdeal.ReadP.val_main_cst_3, Cert.ReferenceIdeal.ReadP.val_main_v21, Cert.ReferenceIdeal.ReadP.val_main_v20, Cert.ReferenceIdeal.ReadP.val_main_cst_2, join2] <;> rfl

theorem cornerLines1_main_arg0 (V : Valuation τ sig (Elt Ideal))
    (x0 : (⟨S16x8x320x320, .f32⟩ : BufTy).Contents (Elt Ideal)) (x2 : (⟨S8192x4, .f32⟩ : BufTy).Contents (Elt Ideal))
    (x3 : (⟨S16x8192x2, .f32⟩ : BufTy).Contents (Elt Ideal)) (x4 : (⟨S16x128x4, .f32⟩ : BufTy).Contents (Elt Ideal))
    (h_main_arg0 : V (Proc.devRef .tc main_arg0) = x0) :
    StableHlo.after (cornerLines1 (F := Ideal)) V (Proc.devRef .tc main_arg0) = x0 := by
  simp only [cornerLines1]
  simp (disch := decide) only [after_cons, after_nil,
      nullary_result', unary_result', binary_result', ternary_result', reshape_result',
      nullary_result_ne', unary_result_ne', binary_result_ne', ternary_result_ne', reshape_result_ne', nary_result_ne']
  exact h_main_arg0

theorem cornerLines1_main_arg4 (V : Valuation τ sig (Elt Ideal))
    (x0 : (⟨S16x8x320x320, .f32⟩ : BufTy).Contents (Elt Ideal)) (x2 : (⟨S8192x4, .f32⟩ : BufTy).Contents (Elt Ideal))
    (x3 : (⟨S16x8192x2, .f32⟩ : BufTy).Contents (Elt Ideal)) (x4 : (⟨S16x128x4, .f32⟩ : BufTy).Contents (Elt Ideal))
    (h_main_arg4 : V (Proc.devRef .tc main_arg4) = x4) :
    StableHlo.after (cornerLines1 (F := Ideal)) V (Proc.devRef .tc main_arg4) = x4 := by
  simp only [cornerLines1]
  simp (disch := decide) only [after_cons, after_nil,
      nullary_result', unary_result', binary_result', ternary_result', reshape_result',
      nullary_result_ne', unary_result_ne', binary_result_ne', ternary_result_ne', reshape_result_ne', nary_result_ne']
  exact h_main_arg4

theorem cornerLines1_main_v12 (V : Valuation τ sig (Elt Ideal))
    (x0 : (⟨S16x8x320x320, .f32⟩ : BufTy).Contents (Elt Ideal)) (x2 : (⟨S8192x4, .f32⟩ : BufTy).Contents (Elt Ideal))
    (x3 : (⟨S16x8192x2, .f32⟩ : BufTy).Contents (Elt Ideal)) (x4 : (⟨S16x128x4, .f32⟩ : BufTy).Contents (Elt Ideal))
    (h_main_v12 : V (Proc.devRef .tc main_v12) = Cert.ReferenceIdeal.ReadP.val_main_v12 (F := Ideal) x2 x3) :
    StableHlo.after (cornerLines1 (F := Ideal)) V (Proc.devRef .tc main_v12) = Cert.ReferenceIdeal.ReadP.val_main_v12 (F := Ideal) x2 x3 := by
  simp only [cornerLines1]
  simp (disch := decide) only [after_cons, after_nil,
      nullary_result', unary_result', binary_result', ternary_result', reshape_result',
      nullary_result_ne', unary_result_ne', binary_result_ne', ternary_result_ne', reshape_result_ne', nary_result_ne']
  exact h_main_v12

theorem cornerLines1_main_v13 (V : Valuation τ sig (Elt Ideal))
    (x0 : (⟨S16x8x320x320, .f32⟩ : BufTy).Contents (Elt Ideal)) (x2 : (⟨S8192x4, .f32⟩ : BufTy).Contents (Elt Ideal))
    (x3 : (⟨S16x8192x2, .f32⟩ : BufTy).Contents (Elt Ideal)) (x4 : (⟨S16x128x4, .f32⟩ : BufTy).Contents (Elt Ideal))
    (h_main_v13 : V (Proc.devRef .tc main_v13) = Cert.ReferenceIdeal.ReadP.val_main_v13 (F := Ideal) x2 x3) :
    StableHlo.after (cornerLines1 (F := Ideal)) V (Proc.devRef .tc main_v13) = Cert.ReferenceIdeal.ReadP.val_main_v13 (F := Ideal) x2 x3 := by
  simp only [cornerLines1]
  simp (disch := decide) only [after_cons, after_nil,
      nullary_result', unary_result', binary_result', ternary_result', reshape_result',
      nullary_result_ne', unary_result_ne', binary_result_ne', ternary_result_ne', reshape_result_ne', nary_result_ne']
  exact h_main_v13

theorem cornerLines1_main_v14 (V : Valuation τ sig (Elt Ideal))
    (x0 : (⟨S16x8x320x320, .f32⟩ : BufTy).Contents (Elt Ideal)) (x2 : (⟨S8192x4, .f32⟩ : BufTy).Contents (Elt Ideal))
    (x3 : (⟨S16x8192x2, .f32⟩ : BufTy).Contents (Elt Ideal)) (x4 : (⟨S16x128x4, .f32⟩ : BufTy).Contents (Elt Ideal))
    (h_main_v14 : V (Proc.devRef .tc main_v14) = Cert.ReferenceIdeal.ReadP.val_main_v14 (F := Ideal) x2 x3) :
    StableHlo.after (cornerLines1 (F := Ideal)) V (Proc.devRef .tc main_v14) = Cert.ReferenceIdeal.ReadP.val_main_v14 (F := Ideal) x2 x3 := by
  simp only [cornerLines1]
  simp (disch := decide) only [after_cons, after_nil,
      nullary_result', unary_result', binary_result', ternary_result', reshape_result',
      nullary_result_ne', unary_result_ne', binary_result_ne', ternary_result_ne', reshape_result_ne', nary_result_ne']
  exact h_main_v14

theorem cornerLines1_main_v16 (V : Valuation τ sig (Elt Ideal))
    (x0 : (⟨S16x8x320x320, .f32⟩ : BufTy).Contents (Elt Ideal)) (x2 : (⟨S8192x4, .f32⟩ : BufTy).Contents (Elt Ideal))
    (x3 : (⟨S16x8192x2, .f32⟩ : BufTy).Contents (Elt Ideal)) (x4 : (⟨S16x128x4, .f32⟩ : BufTy).Contents (Elt Ideal))
    (h_main_v16 : V (Proc.devRef .tc main_v16) = Cert.ReferenceIdeal.ReadP.val_main_v16 (F := Ideal) x2 x3) :
    StableHlo.after (cornerLines1 (F := Ideal)) V (Proc.devRef .tc main_v16) = Cert.ReferenceIdeal.ReadP.val_main_v16 (F := Ideal) x2 x3 := by
  simp only [cornerLines1]
  simp (disch := decide) only [after_cons, after_nil,
      nullary_result', unary_result', binary_result', ternary_result', reshape_result',
      nullary_result_ne', unary_result_ne', binary_result_ne', ternary_result_ne', reshape_result_ne', nary_result_ne']
  exact h_main_v16

theorem cornerLines1_main_v17 (V : Valuation τ sig (Elt Ideal))
    (x0 : (⟨S16x8x320x320, .f32⟩ : BufTy).Contents (Elt Ideal)) (x2 : (⟨S8192x4, .f32⟩ : BufTy).Contents (Elt Ideal))
    (x3 : (⟨S16x8192x2, .f32⟩ : BufTy).Contents (Elt Ideal)) (x4 : (⟨S16x128x4, .f32⟩ : BufTy).Contents (Elt Ideal))
    (h_main_v17 : V (Proc.devRef .tc main_v17) = Cert.ReferenceIdeal.ReadP.val_main_v17 (F := Ideal) x2 x3) :
    StableHlo.after (cornerLines1 (F := Ideal)) V (Proc.devRef .tc main_v17) = Cert.ReferenceIdeal.ReadP.val_main_v17 (F := Ideal) x2 x3 := by
  simp only [cornerLines1]
  simp (disch := decide) only [after_cons, after_nil,
      nullary_result', unary_result', binary_result', ternary_result', reshape_result',
      nullary_result_ne', unary_result_ne', binary_result_ne', ternary_result_ne', reshape_result_ne', nary_result_ne']
  exact h_main_v17

theorem cornerLines1_main_v92 (V : Valuation τ sig (Elt Ideal))
    (x0 : (⟨S16x8x320x320, .f32⟩ : BufTy).Contents (Elt Ideal)) (x2 : (⟨S8192x4, .f32⟩ : BufTy).Contents (Elt Ideal))
    (x3 : (⟨S16x8192x2, .f32⟩ : BufTy).Contents (Elt Ideal)) (x4 : (⟨S16x128x4, .f32⟩ : BufTy).Contents (Elt Ideal))
    (h_main_v54 : V (Proc.devRef .tc main_v54) = Cert.ReferenceIdeal.ReadP.val_main_v54 (F := Ideal) x0 x2 x3)
    (h_main_v12 : V (Proc.devRef .tc main_v12) = Cert.ReferenceIdeal.ReadP.val_main_v12 (F := Ideal) x2 x3)
    (h_main_v13 : V (Proc.devRef .tc main_v13) = Cert.ReferenceIdeal.ReadP.val_main_v13 (F := Ideal) x2 x3)
    (h_main_arg0 : V (Proc.devRef .tc main_arg0) = x0)
    (h_main_v14 : V (Proc.devRef .tc main_v14) = Cert.ReferenceIdeal.ReadP.val_main_v14 (F := Ideal) x2 x3)
    (h_main_v19 : V (Proc.devRef .tc main_v19) = Cert.ReferenceIdeal.ReadP.val_main_v19 (F := Ideal) x2 x3) :
    StableHlo.after (cornerLines1 (F := Ideal)) V (Proc.devRef .tc main_v92) = Cert.ReferenceIdeal.ReadP.val_main_v92 (F := Ideal) x0 x2 x3 := by
  simp only [cornerLines1]
  simp (disch := decide) only [after_cons, after_nil,
      nullary_result', unary_result', binary_result', ternary_result', reshape_result',
      nullary_result_ne', unary_result_ne', binary_result_ne', ternary_result_ne', reshape_result_ne', nary_result_ne',
      concatenate_two]
  rw [h_main_v54, h_main_v12, h_main_v13, h_main_arg0, h_main_v14, h_main_v19]
  simp only [Cert.ReferenceIdeal.ReadP.val_main_v92, Cert.ReferenceIdeal.ReadP.val_main_v91, Cert.ReferenceIdeal.ReadP.val_main_v90, Cert.ReferenceIdeal.ReadP.val_main_v89, Cert.ReferenceIdeal.ReadP.val_main_v88, Cert.ReferenceIdeal.ReadP.val_main_v87, Cert.ReferenceIdeal.ReadP.val_main_call5_v3, Cert.ReferenceIdeal.ReadP.val_main_call5_v2, Cert.ReferenceIdeal.ReadP.val_main_call5_v1, Cert.ReferenceIdeal.ReadP.val_main_call5_v0, Cert.ReferenceIdeal.ReadP.val_main_cst_27, Cert.ReferenceIdeal.ReadP.val_main_v86, Cert.ReferenceIdeal.ReadP.val_main_v85, Cert.ReferenceIdeal.ReadP.val_main_v84, Cert.ReferenceIdeal.ReadP.val_main_v83, Cert.ReferenceIdeal.ReadP.val_main_v82, Cert.ReferenceIdeal.ReadP.val_main_v81, Cert.ReferenceIdeal.ReadP.val_main_v80, Cert.ReferenceIdeal.ReadP.val_main_v79, Cert.ReferenceIdeal.ReadP.val_main_c_26, Cert.ReferenceIdeal.ReadP.val_main_v78, Cert.ReferenceIdeal.ReadP.val_main_v77, Cert.ReferenceIdeal.ReadP.val_main_c_25, Cert.ReferenceIdeal.ReadP.val_main_v76, Cert.ReferenceIdeal.ReadP.val_main_v75, Cert.ReferenceIdeal.ReadP.val_main_v74, Cert.ReferenceIdeal.ReadP.val_main_c_24, Cert.ReferenceIdeal.ReadP.val_main_v73, Cert.ReferenceIdeal.ReadP.val_main_v72, Cert.ReferenceIdeal.ReadP.val_main_c_23, Cert.ReferenceIdeal.ReadP.val_main_v71, Cert.ReferenceIdeal.ReadP.val_main_v70, Cert.ReferenceIdeal.ReadP.val_main_call4_v4, Cert.ReferenceIdeal.ReadP.val_main_call4_v3, Cert.ReferenceIdeal.ReadP.val_main_call4_v2, Cert.ReferenceIdeal.ReadP.val_main_call4_v1, Cert.ReferenceIdeal.ReadP.val_main_call4_v0, Cert.ReferenceIdeal.ReadP.val_main_c_22, Cert.ReferenceIdeal.ReadP.val_main_c_21, Cert.ReferenceIdeal.ReadP.val_main_v69, Cert.ReferenceIdeal.ReadP.val_main_v68, Cert.ReferenceIdeal.ReadP.val_main_call3_v4, Cert.ReferenceIdeal.ReadP.val_main_call3_v3, Cert.ReferenceIdeal.ReadP.val_main_call3_v2, Cert.ReferenceIdeal.ReadP.val_main_call3_v1, Cert.ReferenceIdeal.ReadP.val_main_call3_v0, Cert.ReferenceIdeal.ReadP.val_main_c_20, Cert.ReferenceIdeal.ReadP.val_main_c_19, Cert.ReferenceIdeal.ReadP.val_main_v67, Cert.ReferenceIdeal.ReadP.val_main_v66, Cert.ReferenceIdeal.ReadP.val_main_v65, Cert.ReferenceIdeal.ReadP.val_main_cst_18, Cert.ReferenceIdeal.ReadP.val_main_v64, Cert.ReferenceIdeal.ReadP.val_main_v63, Cert.ReferenceIdeal.ReadP.val_main_v62, Cert.ReferenceIdeal.ReadP.val_main_cst_17, Cert.ReferenceIdeal.ReadP.val_main_v61, Cert.ReferenceIdeal.ReadP.val_main_v60, Cert.ReferenceIdeal.ReadP.val_main_v59, Cert.ReferenceIdeal.ReadP.val_main_cst_16, Cert.ReferenceIdeal.ReadP.val_main_v58, Cert.ReferenceIdeal.ReadP.val_main_v57, Cert.ReferenceIdeal.ReadP.val_main_cst_15, Cert.ReferenceIdeal.ReadP.val_main_v56, Cert.ReferenceIdeal.ReadP.val_main_v55, Cert.ReferenceIdeal.ReadP.val_main_cst_14, join2] <;> rfl

theorem cornerLines2_main_arg0 (V : Valuation τ sig (Elt Ideal))
    (x0 : (⟨S16x8x320x320, .f32⟩ : BufTy).Contents (Elt Ideal)) (x2 : (⟨S8192x4, .f32⟩ : BufTy).Contents (Elt Ideal))
    (x3 : (⟨S16x8192x2, .f32⟩ : BufTy).Contents (Elt Ideal)) (x4 : (⟨S16x128x4, .f32⟩ : BufTy).Contents (Elt Ideal))
    (h_main_arg0 : V (Proc.devRef .tc main_arg0) = x0) :
    StableHlo.after (cornerLines2 (F := Ideal)) V (Proc.devRef .tc main_arg0) = x0 := by
  simp only [cornerLines2]
  simp (disch := decide) only [after_cons, after_nil,
      nullary_result', unary_result', binary_result', ternary_result', reshape_result',
      nullary_result_ne', unary_result_ne', binary_result_ne', ternary_result_ne', reshape_result_ne', nary_result_ne']
  exact h_main_arg0

theorem cornerLines2_main_arg4 (V : Valuation τ sig (Elt Ideal))
    (x0 : (⟨S16x8x320x320, .f32⟩ : BufTy).Contents (Elt Ideal)) (x2 : (⟨S8192x4, .f32⟩ : BufTy).Contents (Elt Ideal))
    (x3 : (⟨S16x8192x2, .f32⟩ : BufTy).Contents (Elt Ideal)) (x4 : (⟨S16x128x4, .f32⟩ : BufTy).Contents (Elt Ideal))
    (h_main_arg4 : V (Proc.devRef .tc main_arg4) = x4) :
    StableHlo.after (cornerLines2 (F := Ideal)) V (Proc.devRef .tc main_arg4) = x4 := by
  simp only [cornerLines2]
  simp (disch := decide) only [after_cons, after_nil,
      nullary_result', unary_result', binary_result', ternary_result', reshape_result',
      nullary_result_ne', unary_result_ne', binary_result_ne', ternary_result_ne', reshape_result_ne', nary_result_ne']
  exact h_main_arg4

theorem cornerLines2_main_v12 (V : Valuation τ sig (Elt Ideal))
    (x0 : (⟨S16x8x320x320, .f32⟩ : BufTy).Contents (Elt Ideal)) (x2 : (⟨S8192x4, .f32⟩ : BufTy).Contents (Elt Ideal))
    (x3 : (⟨S16x8192x2, .f32⟩ : BufTy).Contents (Elt Ideal)) (x4 : (⟨S16x128x4, .f32⟩ : BufTy).Contents (Elt Ideal))
    (h_main_v12 : V (Proc.devRef .tc main_v12) = Cert.ReferenceIdeal.ReadP.val_main_v12 (F := Ideal) x2 x3) :
    StableHlo.after (cornerLines2 (F := Ideal)) V (Proc.devRef .tc main_v12) = Cert.ReferenceIdeal.ReadP.val_main_v12 (F := Ideal) x2 x3 := by
  simp only [cornerLines2]
  simp (disch := decide) only [after_cons, after_nil,
      nullary_result', unary_result', binary_result', ternary_result', reshape_result',
      nullary_result_ne', unary_result_ne', binary_result_ne', ternary_result_ne', reshape_result_ne', nary_result_ne']
  exact h_main_v12

theorem cornerLines2_main_v13 (V : Valuation τ sig (Elt Ideal))
    (x0 : (⟨S16x8x320x320, .f32⟩ : BufTy).Contents (Elt Ideal)) (x2 : (⟨S8192x4, .f32⟩ : BufTy).Contents (Elt Ideal))
    (x3 : (⟨S16x8192x2, .f32⟩ : BufTy).Contents (Elt Ideal)) (x4 : (⟨S16x128x4, .f32⟩ : BufTy).Contents (Elt Ideal))
    (h_main_v13 : V (Proc.devRef .tc main_v13) = Cert.ReferenceIdeal.ReadP.val_main_v13 (F := Ideal) x2 x3) :
    StableHlo.after (cornerLines2 (F := Ideal)) V (Proc.devRef .tc main_v13) = Cert.ReferenceIdeal.ReadP.val_main_v13 (F := Ideal) x2 x3 := by
  simp only [cornerLines2]
  simp (disch := decide) only [after_cons, after_nil,
      nullary_result', unary_result', binary_result', ternary_result', reshape_result',
      nullary_result_ne', unary_result_ne', binary_result_ne', ternary_result_ne', reshape_result_ne', nary_result_ne']
  exact h_main_v13

theorem cornerLines2_main_v14 (V : Valuation τ sig (Elt Ideal))
    (x0 : (⟨S16x8x320x320, .f32⟩ : BufTy).Contents (Elt Ideal)) (x2 : (⟨S8192x4, .f32⟩ : BufTy).Contents (Elt Ideal))
    (x3 : (⟨S16x8192x2, .f32⟩ : BufTy).Contents (Elt Ideal)) (x4 : (⟨S16x128x4, .f32⟩ : BufTy).Contents (Elt Ideal))
    (h_main_v14 : V (Proc.devRef .tc main_v14) = Cert.ReferenceIdeal.ReadP.val_main_v14 (F := Ideal) x2 x3) :
    StableHlo.after (cornerLines2 (F := Ideal)) V (Proc.devRef .tc main_v14) = Cert.ReferenceIdeal.ReadP.val_main_v14 (F := Ideal) x2 x3 := by
  simp only [cornerLines2]
  simp (disch := decide) only [after_cons, after_nil,
      nullary_result', unary_result', binary_result', ternary_result', reshape_result',
      nullary_result_ne', unary_result_ne', binary_result_ne', ternary_result_ne', reshape_result_ne', nary_result_ne']
  exact h_main_v14

theorem cornerLines2_main_v17 (V : Valuation τ sig (Elt Ideal))
    (x0 : (⟨S16x8x320x320, .f32⟩ : BufTy).Contents (Elt Ideal)) (x2 : (⟨S8192x4, .f32⟩ : BufTy).Contents (Elt Ideal))
    (x3 : (⟨S16x8192x2, .f32⟩ : BufTy).Contents (Elt Ideal)) (x4 : (⟨S16x128x4, .f32⟩ : BufTy).Contents (Elt Ideal))
    (h_main_v17 : V (Proc.devRef .tc main_v17) = Cert.ReferenceIdeal.ReadP.val_main_v17 (F := Ideal) x2 x3) :
    StableHlo.after (cornerLines2 (F := Ideal)) V (Proc.devRef .tc main_v17) = Cert.ReferenceIdeal.ReadP.val_main_v17 (F := Ideal) x2 x3 := by
  simp only [cornerLines2]
  simp (disch := decide) only [after_cons, after_nil,
      nullary_result', unary_result', binary_result', ternary_result', reshape_result',
      nullary_result_ne', unary_result_ne', binary_result_ne', ternary_result_ne', reshape_result_ne', nary_result_ne']
  exact h_main_v17

theorem cornerLines2_main_v130 (V : Valuation τ sig (Elt Ideal))
    (x0 : (⟨S16x8x320x320, .f32⟩ : BufTy).Contents (Elt Ideal)) (x2 : (⟨S8192x4, .f32⟩ : BufTy).Contents (Elt Ideal))
    (x3 : (⟨S16x8192x2, .f32⟩ : BufTy).Contents (Elt Ideal)) (x4 : (⟨S16x128x4, .f32⟩ : BufTy).Contents (Elt Ideal))
    (h_main_v92 : V (Proc.devRef .tc main_v92) = Cert.ReferenceIdeal.ReadP.val_main_v92 (F := Ideal) x0 x2 x3)
    (h_main_v12 : V (Proc.devRef .tc main_v12) = Cert.ReferenceIdeal.ReadP.val_main_v12 (F := Ideal) x2 x3)
    (h_main_v13 : V (Proc.devRef .tc main_v13) = Cert.ReferenceIdeal.ReadP.val_main_v13 (F := Ideal) x2 x3)
    (h_main_arg0 : V (Proc.devRef .tc main_arg0) = x0)
    (h_main_v16 : V (Proc.devRef .tc main_v16) = Cert.ReferenceIdeal.ReadP.val_main_v16 (F := Ideal) x2 x3)
    (h_main_v17 : V (Proc.devRef .tc main_v17) = Cert.ReferenceIdeal.ReadP.val_main_v17 (F := Ideal) x2 x3) :
    StableHlo.after (cornerLines2 (F := Ideal)) V (Proc.devRef .tc main_v130) = Cert.ReferenceIdeal.ReadP.val_main_v130 (F := Ideal) x0 x2 x3 := by
  simp only [cornerLines2]
  simp (disch := decide) only [after_cons, after_nil,
      nullary_result', unary_result', binary_result', ternary_result', reshape_result',
      nullary_result_ne', unary_result_ne', binary_result_ne', ternary_result_ne', reshape_result_ne', nary_result_ne',
      concatenate_two]
  rw [h_main_v92, h_main_v12, h_main_v13, h_main_arg0, h_main_v16, h_main_v17]
  simp only [Cert.ReferenceIdeal.ReadP.val_main_v130, Cert.ReferenceIdeal.ReadP.val_main_v129, Cert.ReferenceIdeal.ReadP.val_main_v128, Cert.ReferenceIdeal.ReadP.val_main_v127, Cert.ReferenceIdeal.ReadP.val_main_v126, Cert.ReferenceIdeal.ReadP.val_main_v125, Cert.ReferenceIdeal.ReadP.val_main_call8_v3, Cert.ReferenceIdeal.ReadP.val_main_call8_v2, Cert.ReferenceIdeal.ReadP.val_main_call8_v1, Cert.ReferenceIdeal.ReadP.val_main_call8_v0, Cert.ReferenceIdeal.ReadP.val_main_cst_41, Cert.ReferenceIdeal.ReadP.val_main_v124, Cert.ReferenceIdeal.ReadP.val_main_v123, Cert.ReferenceIdeal.ReadP.val_main_v122, Cert.ReferenceIdeal.ReadP.val_main_v121, Cert.ReferenceIdeal.ReadP.val_main_v120, Cert.ReferenceIdeal.ReadP.val_main_v119, Cert.ReferenceIdeal.ReadP.val_main_v118, Cert.ReferenceIdeal.ReadP.val_main_v117, Cert.ReferenceIdeal.ReadP.val_main_c_40, Cert.ReferenceIdeal.ReadP.val_main_v116, Cert.ReferenceIdeal.ReadP.val_main_v115, Cert.ReferenceIdeal.ReadP.val_main_c_39, Cert.ReferenceIdeal.ReadP.val_main_v114, Cert.ReferenceIdeal.ReadP.val_main_v113, Cert.ReferenceIdeal.ReadP.val_main_v112, Cert.ReferenceIdeal.ReadP.val_main_c_38, Cert.ReferenceIdeal.ReadP.val_main_v111, Cert.ReferenceIdeal.ReadP.val_main_v110, Cert.ReferenceIdeal.ReadP.val_main_c_37, Cert.ReferenceIdeal.ReadP.val_main_v109, Cert.ReferenceIdeal.ReadP.val_main_v108, Cert.ReferenceIdeal.ReadP.val_main_call7_v4, Cert.ReferenceIdeal.ReadP.val_main_call7_v3, Cert.ReferenceIdeal.ReadP.val_main_call7_v2, Cert.ReferenceIdeal.ReadP.val_main_call7_v1, Cert.ReferenceIdeal.ReadP.val_main_call7_v0, Cert.ReferenceIdeal.ReadP.val_main_c_36, Cert.ReferenceIdeal.ReadP.val_main_c_35, Cert.ReferenceIdeal.ReadP.val_main_v107, Cert.ReferenceIdeal.ReadP.val_main_v106, Cert.ReferenceIdeal.ReadP.val_main_call6_v4, Cert.ReferenceIdeal.ReadP.val_main_call6_v3, Cert.ReferenceIdeal.ReadP.val_main_call6_v2, Cert.ReferenceIdeal.ReadP.val_main_call6_v1, Cert.ReferenceIdeal.ReadP.val_main_call6_v0, Cert.ReferenceIdeal.ReadP.val_main_c_34, Cert.ReferenceIdeal.ReadP.val_main_c_33, Cert.ReferenceIdeal.ReadP.val_main_v105, Cert.ReferenceIdeal.ReadP.val_main_v104, Cert.ReferenceIdeal.ReadP.val_main_v103, Cert.ReferenceIdeal.ReadP.val_main_cst_32, Cert.ReferenceIdeal.ReadP.val_main_v102, Cert.ReferenceIdeal.ReadP.val_main_v101, Cert.ReferenceIdeal.ReadP.val_main_v100, Cert.ReferenceIdeal.ReadP.val_main_cst_31, Cert.ReferenceIdeal.ReadP.val_main_v99, Cert.ReferenceIdeal.ReadP.val_main_v98, Cert.ReferenceIdeal.ReadP.val_main_v97, Cert.ReferenceIdeal.ReadP.val_main_cst_30, Cert.ReferenceIdeal.ReadP.val_main_v96, Cert.ReferenceIdeal.ReadP.val_main_v95, Cert.ReferenceIdeal.ReadP.val_main_cst_29, Cert.ReferenceIdeal.ReadP.val_main_v94, Cert.ReferenceIdeal.ReadP.val_main_v93, Cert.ReferenceIdeal.ReadP.val_main_cst_28, join2] <;> rfl

theorem cornerLines3_main_arg4 (V : Valuation τ sig (Elt Ideal))
    (x0 : (⟨S16x8x320x320, .f32⟩ : BufTy).Contents (Elt Ideal)) (x2 : (⟨S8192x4, .f32⟩ : BufTy).Contents (Elt Ideal))
    (x3 : (⟨S16x8192x2, .f32⟩ : BufTy).Contents (Elt Ideal)) (x4 : (⟨S16x128x4, .f32⟩ : BufTy).Contents (Elt Ideal))
    (h_main_arg4 : V (Proc.devRef .tc main_arg4) = x4) :
    StableHlo.after (cornerLines3 (F := Ideal)) V (Proc.devRef .tc main_arg4) = x4 := by
  simp only [cornerLines3]
  simp (disch := decide) only [after_cons, after_nil,
      nullary_result', unary_result', binary_result', ternary_result', reshape_result',
      nullary_result_ne', unary_result_ne', binary_result_ne', ternary_result_ne', reshape_result_ne', nary_result_ne']
  exact h_main_arg4

theorem cornerLines3_main_v170 (V : Valuation τ sig (Elt Ideal))
    (x0 : (⟨S16x8x320x320, .f32⟩ : BufTy).Contents (Elt Ideal)) (x2 : (⟨S8192x4, .f32⟩ : BufTy).Contents (Elt Ideal))
    (x3 : (⟨S16x8192x2, .f32⟩ : BufTy).Contents (Elt Ideal)) (x4 : (⟨S16x128x4, .f32⟩ : BufTy).Contents (Elt Ideal))
    (h_main_v130 : V (Proc.devRef .tc main_v130) = Cert.ReferenceIdeal.ReadP.val_main_v130 (F := Ideal) x0 x2 x3)
    (h_main_v12 : V (Proc.devRef .tc main_v12) = Cert.ReferenceIdeal.ReadP.val_main_v12 (F := Ideal) x2 x3)
    (h_main_v13 : V (Proc.devRef .tc main_v13) = Cert.ReferenceIdeal.ReadP.val_main_v13 (F := Ideal) x2 x3)
    (h_main_arg0 : V (Proc.devRef .tc main_arg0) = x0)
    (h_main_v14 : V (Proc.devRef .tc main_v14) = Cert.ReferenceIdeal.ReadP.val_main_v14 (F := Ideal) x2 x3)
    (h_main_v17 : V (Proc.devRef .tc main_v17) = Cert.ReferenceIdeal.ReadP.val_main_v17 (F := Ideal) x2 x3) :
    StableHlo.after (cornerLines3 (F := Ideal)) V (Proc.devRef .tc main_v170) = Cert.ReferenceIdeal.ReadP.val_main_v170 (F := Ideal) x0 x2 x3 := by
  simp only [cornerLines3]
  simp (disch := decide) only [after_cons, after_nil,
      nullary_result', unary_result', binary_result', ternary_result', reshape_result',
      nullary_result_ne', unary_result_ne', binary_result_ne', ternary_result_ne', reshape_result_ne', nary_result_ne',
      concatenate_two]
  rw [h_main_v130, h_main_v12, h_main_v13, h_main_arg0, h_main_v14, h_main_v17]
  simp only [Cert.ReferenceIdeal.ReadP.val_main_v170, Cert.ReferenceIdeal.ReadP.val_main_v169, Cert.ReferenceIdeal.ReadP.val_main_v168, Cert.ReferenceIdeal.ReadP.val_main_v167, Cert.ReferenceIdeal.ReadP.val_main_v166, Cert.ReferenceIdeal.ReadP.val_main_v165, Cert.ReferenceIdeal.ReadP.val_main_call11_v3, Cert.ReferenceIdeal.ReadP.val_main_call11_v2, Cert.ReferenceIdeal.ReadP.val_main_call11_v1, Cert.ReferenceIdeal.ReadP.val_main_call11_v0, Cert.ReferenceIdeal.ReadP.val_main_cst_56, Cert.ReferenceIdeal.ReadP.val_main_v164, Cert.ReferenceIdeal.ReadP.val_main_v163, Cert.ReferenceIdeal.ReadP.val_main_v162, Cert.ReferenceIdeal.ReadP.val_main_v161, Cert.ReferenceIdeal.ReadP.val_main_v160, Cert.ReferenceIdeal.ReadP.val_main_v159, Cert.ReferenceIdeal.ReadP.val_main_v158, Cert.ReferenceIdeal.ReadP.val_main_v157, Cert.ReferenceIdeal.ReadP.val_main_c_55, Cert.ReferenceIdeal.ReadP.val_main_v156, Cert.ReferenceIdeal.ReadP.val_main_v155, Cert.ReferenceIdeal.ReadP.val_main_c_54, Cert.ReferenceIdeal.ReadP.val_main_v154, Cert.ReferenceIdeal.ReadP.val_main_v153, Cert.ReferenceIdeal.ReadP.val_main_v152, Cert.ReferenceIdeal.ReadP.val_main_c_53, Cert.ReferenceIdeal.ReadP.val_main_v151, Cert.ReferenceIdeal.ReadP.val_main_v150, Cert.ReferenceIdeal.ReadP.val_main_c_52, Cert.ReferenceIdeal.ReadP.val_main_v149, Cert.ReferenceIdeal.ReadP.val_main_v148, Cert.ReferenceIdeal.ReadP.val_main_call10_v4, Cert.ReferenceIdeal.ReadP.val_main_call10_v3, Cert.ReferenceIdeal.ReadP.val_main_call10_v2, Cert.ReferenceIdeal.ReadP.val_main_call10_v1, Cert.ReferenceIdeal.ReadP.val_main_call10_v0, Cert.ReferenceIdeal.ReadP.val_main_c_51, Cert.ReferenceIdeal.ReadP.val_main_c_50, Cert.ReferenceIdeal.ReadP.val_main_v147, Cert.ReferenceIdeal.ReadP.val_main_v146, Cert.ReferenceIdeal.ReadP.val_main_call9_v4, Cert.ReferenceIdeal.ReadP.val_main_call9_v3, Cert.ReferenceIdeal.ReadP.val_main_call9_v2, Cert.ReferenceIdeal.ReadP.val_main_call9_v1, Cert.ReferenceIdeal.ReadP.val_main_call9_v0, Cert.ReferenceIdeal.ReadP.val_main_c_49, Cert.ReferenceIdeal.ReadP.val_main_c_48, Cert.ReferenceIdeal.ReadP.val_main_v145, Cert.ReferenceIdeal.ReadP.val_main_v144, Cert.ReferenceIdeal.ReadP.val_main_v143, Cert.ReferenceIdeal.ReadP.val_main_cst_47, Cert.ReferenceIdeal.ReadP.val_main_v142, Cert.ReferenceIdeal.ReadP.val_main_v141, Cert.ReferenceIdeal.ReadP.val_main_v140, Cert.ReferenceIdeal.ReadP.val_main_cst_46, Cert.ReferenceIdeal.ReadP.val_main_v139, Cert.ReferenceIdeal.ReadP.val_main_v138, Cert.ReferenceIdeal.ReadP.val_main_v137, Cert.ReferenceIdeal.ReadP.val_main_cst_45, Cert.ReferenceIdeal.ReadP.val_main_v136, Cert.ReferenceIdeal.ReadP.val_main_v135, Cert.ReferenceIdeal.ReadP.val_main_cst_44, Cert.ReferenceIdeal.ReadP.val_main_v134, Cert.ReferenceIdeal.ReadP.val_main_v133, Cert.ReferenceIdeal.ReadP.val_main_cst_43, Cert.ReferenceIdeal.ReadP.val_main_v132, Cert.ReferenceIdeal.ReadP.val_main_v131, Cert.ReferenceIdeal.ReadP.val_main_cst_42, join2] <;> rfl

theorem pullLines_main_arg4 (V : Valuation τ sig (Elt Ideal))
    (x0 : (⟨S16x8x320x320, .f32⟩ : BufTy).Contents (Elt Ideal)) (x2 : (⟨S8192x4, .f32⟩ : BufTy).Contents (Elt Ideal))
    (x3 : (⟨S16x8192x2, .f32⟩ : BufTy).Contents (Elt Ideal)) (x4 : (⟨S16x128x4, .f32⟩ : BufTy).Contents (Elt Ideal))
    (h_main_arg4 : V (Proc.devRef .tc main_arg4) = x4) :
    StableHlo.after (pullLines (F := Ideal)) V (Proc.devRef .tc main_arg4) = x4 := by
  simp only [pullLines]
  simp (disch := decide) only [after_cons, after_nil,
      nullary_result', unary_result', binary_result', ternary_result', reshape_result',
      nullary_result_ne', unary_result_ne', binary_result_ne', ternary_result_ne', reshape_result_ne', nary_result_ne']
  exact h_main_arg4

theorem pullLines_main_v175 (V : Valuation τ sig (Elt Ideal))
    (x0 : (⟨S16x8x320x320, .f32⟩ : BufTy).Contents (Elt Ideal)) (x2 : (⟨S8192x4, .f32⟩ : BufTy).Contents (Elt Ideal))
    (x3 : (⟨S16x8192x2, .f32⟩ : BufTy).Contents (Elt Ideal)) (x4 : (⟨S16x128x4, .f32⟩ : BufTy).Contents (Elt Ideal))
    (h_main_v170 : V (Proc.devRef .tc main_v170) = Cert.ReferenceIdeal.ReadP.val_main_v170 (F := Ideal) x0 x2 x3) :
    StableHlo.after (pullLines (F := Ideal)) V (Proc.devRef .tc main_v175) = Cert.ReferenceIdeal.ReadP.val_main_v175 (F := Ideal) x0 x2 x3 := by
  simp only [pullLines]
  simp (disch := decide) only [after_cons, after_nil,
      nullary_result', unary_result', binary_result', ternary_result', reshape_result',
      nullary_result_ne', unary_result_ne', binary_result_ne', ternary_result_ne', reshape_result_ne', nary_result_ne']
  rw [h_main_v170]
  simp only [Cert.ReferenceIdeal.ReadP.val_main_v175, Cert.ReferenceIdeal.ReadP.val_main_v174, Cert.ReferenceIdeal.ReadP.val_main_cst_58, Cert.ReferenceIdeal.ReadP.val_main_v173, Cert.ReferenceIdeal.ReadP.val_main_cst_57, Cert.ReferenceIdeal.ReadP.val_main_v172, Cert.ReferenceIdeal.ReadP.val_main_v171] <;> rfl

theorem pullLines_main_v185 (V : Valuation τ sig (Elt Ideal))
    (x0 : (⟨S16x8x320x320, .f32⟩ : BufTy).Contents (Elt Ideal)) (x2 : (⟨S8192x4, .f32⟩ : BufTy).Contents (Elt Ideal))
    (x3 : (⟨S16x8192x2, .f32⟩ : BufTy).Contents (Elt Ideal)) (x4 : (⟨S16x128x4, .f32⟩ : BufTy).Contents (Elt Ideal))
    (h_main_v170 : V (Proc.devRef .tc main_v170) = Cert.ReferenceIdeal.ReadP.val_main_v170 (F := Ideal) x0 x2 x3) :
    StableHlo.after (pullLines (F := Ideal)) V (Proc.devRef .tc main_v185) = Cert.ReferenceIdeal.ReadP.val_main_v185 (F := Ideal) x0 x2 x3 := by
  simp only [pullLines]
  simp (disch := decide) only [after_cons, after_nil,
      nullary_result', unary_result', binary_result', ternary_result', reshape_result',
      nullary_result_ne', unary_result_ne', binary_result_ne', ternary_result_ne', reshape_result_ne', nary_result_ne']
  rw [h_main_v170]
  simp only [Cert.ReferenceIdeal.ReadP.val_main_v185, Cert.ReferenceIdeal.ReadP.val_main_call12_v1, Cert.ReferenceIdeal.ReadP.val_main_call12_v0, Cert.ReferenceIdeal.ReadP.val_main_cst_62, Cert.ReferenceIdeal.ReadP.val_main_v184, Cert.ReferenceIdeal.ReadP.val_main_v183, Cert.ReferenceIdeal.ReadP.val_main_cst_61, Cert.ReferenceIdeal.ReadP.val_main_v182, Cert.ReferenceIdeal.ReadP.val_main_v181, Cert.ReferenceIdeal.ReadP.val_main_cst_60, Cert.ReferenceIdeal.ReadP.val_main_v180, Cert.ReferenceIdeal.ReadP.val_main_cst_59, Cert.ReferenceIdeal.ReadP.val_main_v179, Cert.ReferenceIdeal.ReadP.val_main_v178, Cert.ReferenceIdeal.ReadP.val_main_v177, Cert.ReferenceIdeal.ReadP.val_main_v176, Cert.ReferenceIdeal.ReadP.val_main_v175, Cert.ReferenceIdeal.ReadP.val_main_v174, Cert.ReferenceIdeal.ReadP.val_main_cst_58, Cert.ReferenceIdeal.ReadP.val_main_v173, Cert.ReferenceIdeal.ReadP.val_main_cst_57, Cert.ReferenceIdeal.ReadP.val_main_v172, Cert.ReferenceIdeal.ReadP.val_main_v171] <;> rfl

theorem middleLines_main_v191 (V : Valuation τ sig (Elt Ideal))
    (x0 : (⟨S16x8x320x320, .f32⟩ : BufTy).Contents (Elt Ideal)) (x2 : (⟨S8192x4, .f32⟩ : BufTy).Contents (Elt Ideal))
    (x3 : (⟨S16x8192x2, .f32⟩ : BufTy).Contents (Elt Ideal)) (x4 : (⟨S16x128x4, .f32⟩ : BufTy).Contents (Elt Ideal))
    (h_main_v185 : V (Proc.devRef .tc main_v185) = Cert.ReferenceIdeal.ReadP.val_main_v185 (F := Ideal) x0 x2 x3) :
    StableHlo.after (middleLines (F := Ideal)) V (Proc.devRef .tc main_v191) = Cert.ReferenceIdeal.ReadP.val_main_v191 (F := Ideal) x0 x2 x3 := by
  simp only [middleLines]
  simp (disch := decide) only [after_cons, after_nil,
      nullary_result', unary_result', binary_result', ternary_result', reshape_result',
      nullary_result_ne', unary_result_ne', binary_result_ne', ternary_result_ne', reshape_result_ne', nary_result_ne']
  rw [h_main_v185]
  simp only [Cert.ReferenceIdeal.ReadP.val_main_v191, Cert.ReferenceIdeal.ReadP.val_main_v190, Cert.ReferenceIdeal.ReadP.val_main_cst_66, Cert.ReferenceIdeal.ReadP.val_main_v189, Cert.ReferenceIdeal.ReadP.val_main_cst_65, Cert.ReferenceIdeal.ReadP.val_main_v188, Cert.ReferenceIdeal.ReadP.val_main_v187, Cert.ReferenceIdeal.ReadP.val_main_cst_64, Cert.ReferenceIdeal.ReadP.val_main_v186, Cert.ReferenceIdeal.ReadP.val_main_cst_63] <;> rfl

theorem middleLines_main_v202 (V : Valuation τ sig (Elt Ideal))
    (x0 : (⟨S16x8x320x320, .f32⟩ : BufTy).Contents (Elt Ideal)) (x2 : (⟨S8192x4, .f32⟩ : BufTy).Contents (Elt Ideal))
    (x3 : (⟨S16x8192x2, .f32⟩ : BufTy).Contents (Elt Ideal)) (x4 : (⟨S16x128x4, .f32⟩ : BufTy).Contents (Elt Ideal))
    (h_main_v175 : V (Proc.devRef .tc main_v175) = Cert.ReferenceIdeal.ReadP.val_main_v175 (F := Ideal) x0 x2 x3) :
    StableHlo.after (middleLines (F := Ideal)) V (Proc.devRef .tc main_v202) = Cert.ReferenceIdeal.ReadP.val_main_v202 (F := Ideal) x0 x2 x3 := by
  simp only [middleLines]
  simp (disch := decide) only [after_cons, after_nil,
      nullary_result', unary_result', binary_result', ternary_result', reshape_result',
      nullary_result_ne', unary_result_ne', binary_result_ne', ternary_result_ne', reshape_result_ne', nary_result_ne']
  rw [h_main_v175]
  simp only [Cert.ReferenceIdeal.ReadP.val_main_v202, Cert.ReferenceIdeal.ReadP.val_main_v201, Cert.ReferenceIdeal.ReadP.val_main_v200, Cert.ReferenceIdeal.ReadP.val_main_v199, Cert.ReferenceIdeal.ReadP.val_main_cst_68, Cert.ReferenceIdeal.ReadP.val_main_v198, Cert.ReferenceIdeal.ReadP.val_main_cst_67, Cert.ReferenceIdeal.ReadP.val_main_v197, Cert.ReferenceIdeal.ReadP.val_main_v196, Cert.ReferenceIdeal.ReadP.val_main_v195, Cert.ReferenceIdeal.ReadP.val_main_v194, Cert.ReferenceIdeal.ReadP.val_main_v193, Cert.ReferenceIdeal.ReadP.val_main_v192] <;> rfl

theorem middleLines_main_v241 (V : Valuation τ sig (Elt Ideal))
    (x0 : (⟨S16x8x320x320, .f32⟩ : BufTy).Contents (Elt Ideal)) (x2 : (⟨S8192x4, .f32⟩ : BufTy).Contents (Elt Ideal))
    (x3 : (⟨S16x8192x2, .f32⟩ : BufTy).Contents (Elt Ideal)) (x4 : (⟨S16x128x4, .f32⟩ : BufTy).Contents (Elt Ideal))
    (h_main_arg4 : V (Proc.devRef .tc main_arg4) = x4) :
    StableHlo.after (middleLines (F := Ideal)) V (Proc.devRef .tc main_v241) = Cert.ReferenceIdeal.ReadP.val_main_v241 (F := Ideal) x4 := by
  simp only [middleLines]
  simp (disch := decide) only [after_cons, after_nil,
      nullary_result', unary_result', binary_result', ternary_result', reshape_result', joinCorners_result,
      nullary_result_ne', unary_result_ne', binary_result_ne', ternary_result_ne', reshape_result_ne', nary_result_ne']
  rw [h_main_arg4]
  simp only [Cert.ReferenceIdeal.ReadP.val_main_v241, Cert.ReferenceIdeal.ReadP.val_main_v240, Cert.ReferenceIdeal.ReadP.val_main_v239, Cert.ReferenceIdeal.ReadP.val_main_v238, Cert.ReferenceIdeal.ReadP.val_main_v237, Cert.ReferenceIdeal.ReadP.val_main_v236, Cert.ReferenceIdeal.ReadP.val_main_v235, Cert.ReferenceIdeal.ReadP.val_main_v234, Cert.ReferenceIdeal.ReadP.val_main_cst_74, Cert.ReferenceIdeal.ReadP.val_main_v233, Cert.ReferenceIdeal.ReadP.val_main_v232, Cert.ReferenceIdeal.ReadP.val_main_v231, Cert.ReferenceIdeal.ReadP.val_main_v230, Cert.ReferenceIdeal.ReadP.val_main_v229, Cert.ReferenceIdeal.ReadP.val_main_cst_73, Cert.ReferenceIdeal.ReadP.val_main_v228, Cert.ReferenceIdeal.ReadP.val_main_v227, Cert.ReferenceIdeal.ReadP.val_main_v226, Cert.ReferenceIdeal.ReadP.val_main_v225, Cert.ReferenceIdeal.ReadP.val_main_v224, Cert.ReferenceIdeal.ReadP.val_main_cst_72, Cert.ReferenceIdeal.ReadP.val_main_v223, Cert.ReferenceIdeal.ReadP.val_main_v222, Cert.ReferenceIdeal.ReadP.val_main_v221, Cert.ReferenceIdeal.ReadP.val_main_v220, Cert.ReferenceIdeal.ReadP.val_main_v219, Cert.ReferenceIdeal.ReadP.val_main_cst_71, Cert.ReferenceIdeal.ReadP.val_main_v218, Cert.ReferenceIdeal.ReadP.val_main_v217, Cert.ReferenceIdeal.ReadP.val_main_v216, Cert.ReferenceIdeal.ReadP.val_main_v215, Cert.ReferenceIdeal.ReadP.val_main_cst_70, Cert.ReferenceIdeal.ReadP.val_main_v214, Cert.ReferenceIdeal.ReadP.val_main_v213, Cert.ReferenceIdeal.ReadP.val_main_v212, Cert.ReferenceIdeal.ReadP.val_main_v211, Cert.ReferenceIdeal.ReadP.val_main_v210, Cert.ReferenceIdeal.ReadP.val_main_v209, Cert.ReferenceIdeal.ReadP.val_main_v208, Cert.ReferenceIdeal.ReadP.val_main_cst_69, Cert.ReferenceIdeal.ReadP.val_main_v207, Cert.ReferenceIdeal.ReadP.val_main_v206, Cert.ReferenceIdeal.ReadP.val_main_v205, Cert.ReferenceIdeal.ReadP.val_main_v204, Cert.ReferenceIdeal.ReadP.val_main_v203, join4] <;> rfl

theorem middleLines_main_v258 (V : Valuation τ sig (Elt Ideal))
    (x0 : (⟨S16x8x320x320, .f32⟩ : BufTy).Contents (Elt Ideal)) (x2 : (⟨S8192x4, .f32⟩ : BufTy).Contents (Elt Ideal))
    (x3 : (⟨S16x8192x2, .f32⟩ : BufTy).Contents (Elt Ideal)) (x4 : (⟨S16x128x4, .f32⟩ : BufTy).Contents (Elt Ideal))
    (h_main_arg4 : V (Proc.devRef .tc main_arg4) = x4) :
    StableHlo.after (middleLines (F := Ideal)) V (Proc.devRef .tc main_v258) = Cert.ReferenceIdeal.ReadP.val_main_v258 (F := Ideal) x4 := by
  simp only [middleLines]
  simp (disch := decide) only [after_cons, after_nil,
      nullary_result', unary_result', binary_result', ternary_result', reshape_result', joinCorners_result,
      nullary_result_ne', unary_result_ne', binary_result_ne', ternary_result_ne', reshape_result_ne', nary_result_ne']
  rw [h_main_arg4]
  simp only [Cert.ReferenceIdeal.ReadP.val_main_v258, Cert.ReferenceIdeal.ReadP.val_main_v257, Cert.ReferenceIdeal.ReadP.val_main_cst_75, Cert.ReferenceIdeal.ReadP.val_main_v256, Cert.ReferenceIdeal.ReadP.val_main_v255, Cert.ReferenceIdeal.ReadP.val_main_v254, Cert.ReferenceIdeal.ReadP.val_main_v253, Cert.ReferenceIdeal.ReadP.val_main_v252, Cert.ReferenceIdeal.ReadP.val_main_v251, Cert.ReferenceIdeal.ReadP.val_main_v250, Cert.ReferenceIdeal.ReadP.val_main_v249, Cert.ReferenceIdeal.ReadP.val_main_v248, Cert.ReferenceIdeal.ReadP.val_main_v247, Cert.ReferenceIdeal.ReadP.val_main_v246, Cert.ReferenceIdeal.ReadP.val_main_v245, Cert.ReferenceIdeal.ReadP.val_main_v244, Cert.ReferenceIdeal.ReadP.val_main_v243, Cert.ReferenceIdeal.ReadP.val_main_v242, Cert.ReferenceIdeal.ReadP.val_main_v241, Cert.ReferenceIdeal.ReadP.val_main_v240, Cert.ReferenceIdeal.ReadP.val_main_v239, Cert.ReferenceIdeal.ReadP.val_main_v238, Cert.ReferenceIdeal.ReadP.val_main_v237, Cert.ReferenceIdeal.ReadP.val_main_v236, Cert.ReferenceIdeal.ReadP.val_main_v235, Cert.ReferenceIdeal.ReadP.val_main_v234, Cert.ReferenceIdeal.ReadP.val_main_cst_74, Cert.ReferenceIdeal.ReadP.val_main_v233, Cert.ReferenceIdeal.ReadP.val_main_v232, Cert.ReferenceIdeal.ReadP.val_main_v231, Cert.ReferenceIdeal.ReadP.val_main_v230, Cert.ReferenceIdeal.ReadP.val_main_v229, Cert.ReferenceIdeal.ReadP.val_main_cst_73, Cert.ReferenceIdeal.ReadP.val_main_v228, Cert.ReferenceIdeal.ReadP.val_main_v227, Cert.ReferenceIdeal.ReadP.val_main_v226, Cert.ReferenceIdeal.ReadP.val_main_v225, Cert.ReferenceIdeal.ReadP.val_main_v224, Cert.ReferenceIdeal.ReadP.val_main_cst_72, Cert.ReferenceIdeal.ReadP.val_main_v223, Cert.ReferenceIdeal.ReadP.val_main_v222, Cert.ReferenceIdeal.ReadP.val_main_v221, Cert.ReferenceIdeal.ReadP.val_main_v220, Cert.ReferenceIdeal.ReadP.val_main_v219, Cert.ReferenceIdeal.ReadP.val_main_cst_71, Cert.ReferenceIdeal.ReadP.val_main_v218, Cert.ReferenceIdeal.ReadP.val_main_v217, Cert.ReferenceIdeal.ReadP.val_main_v216, Cert.ReferenceIdeal.ReadP.val_main_v215, Cert.ReferenceIdeal.ReadP.val_main_cst_70, Cert.ReferenceIdeal.ReadP.val_main_v214, Cert.ReferenceIdeal.ReadP.val_main_v213, Cert.ReferenceIdeal.ReadP.val_main_v212, Cert.ReferenceIdeal.ReadP.val_main_v211, Cert.ReferenceIdeal.ReadP.val_main_v210, Cert.ReferenceIdeal.ReadP.val_main_v209, Cert.ReferenceIdeal.ReadP.val_main_v208, Cert.ReferenceIdeal.ReadP.val_main_cst_69, Cert.ReferenceIdeal.ReadP.val_main_v207, Cert.ReferenceIdeal.ReadP.val_main_v206, Cert.ReferenceIdeal.ReadP.val_main_v205, Cert.ReferenceIdeal.ReadP.val_main_v204, Cert.ReferenceIdeal.ReadP.val_main_v203, join4] <;> rfl

theorem middleLines_main_cst_76 (V : Valuation τ sig (Elt Ideal))
    (x0 : (⟨S16x8x320x320, .f32⟩ : BufTy).Contents (Elt Ideal)) (x2 : (⟨S8192x4, .f32⟩ : BufTy).Contents (Elt Ideal))
    (x3 : (⟨S16x8192x2, .f32⟩ : BufTy).Contents (Elt Ideal)) (x4 : (⟨S16x128x4, .f32⟩ : BufTy).Contents (Elt Ideal)) :
    StableHlo.after (middleLines (F := Ideal)) V (Proc.devRef .tc main_cst_76) = Cert.ReferenceIdeal.ReadP.val_main_cst_76 (F := Ideal) := by
  simp only [middleLines]
  simp (disch := decide) only [after_cons, after_nil,
      nullary_result', unary_result', binary_result', ternary_result', reshape_result',
      nullary_result_ne', unary_result_ne', binary_result_ne', ternary_result_ne', reshape_result_ne', nary_result_ne']
  simp only [Cert.ReferenceIdeal.ReadP.val_main_cst_76] <;> rfl

theorem overlapLines_main_v191 (V : Valuation τ sig (Elt Ideal))
    (x0 : (⟨S16x8x320x320, .f32⟩ : BufTy).Contents (Elt Ideal)) (x2 : (⟨S8192x4, .f32⟩ : BufTy).Contents (Elt Ideal))
    (x3 : (⟨S16x8192x2, .f32⟩ : BufTy).Contents (Elt Ideal)) (x4 : (⟨S16x128x4, .f32⟩ : BufTy).Contents (Elt Ideal))
    (h_main_v191 : V (Proc.devRef .tc main_v191) = Cert.ReferenceIdeal.ReadP.val_main_v191 (F := Ideal) x0 x2 x3) :
    StableHlo.after (overlapLines (F := Ideal)) V (Proc.devRef .tc main_v191) = Cert.ReferenceIdeal.ReadP.val_main_v191 (F := Ideal) x0 x2 x3 := by
  simp only [overlapLines]
  simp (disch := decide) only [after_cons, after_nil,
      nullary_result', unary_result', binary_result', ternary_result', reshape_result',
      nullary_result_ne', unary_result_ne', binary_result_ne', ternary_result_ne', reshape_result_ne', nary_result_ne']
  exact h_main_v191

theorem overlapLines_main_v202 (V : Valuation τ sig (Elt Ideal))
    (x0 : (⟨S16x8x320x320, .f32⟩ : BufTy).Contents (Elt Ideal)) (x2 : (⟨S8192x4, .f32⟩ : BufTy).Contents (Elt Ideal))
    (x3 : (⟨S16x8192x2, .f32⟩ : BufTy).Contents (Elt Ideal)) (x4 : (⟨S16x128x4, .f32⟩ : BufTy).Contents (Elt Ideal))
    (h_main_v202 : V (Proc.devRef .tc main_v202) = Cert.ReferenceIdeal.ReadP.val_main_v202 (F := Ideal) x0 x2 x3) :
    StableHlo.after (overlapLines (F := Ideal)) V (Proc.devRef .tc main_v202) = Cert.ReferenceIdeal.ReadP.val_main_v202 (F := Ideal) x0 x2 x3 := by
  simp only [overlapLines]
  simp (disch := decide) only [after_cons, after_nil,
      nullary_result', unary_result', binary_result', ternary_result', reshape_result',
      nullary_result_ne', unary_result_ne', binary_result_ne', ternary_result_ne', reshape_result_ne', nary_result_ne']
  exact h_main_v202

theorem overlapLines_main_v288 (V : Valuation τ sig (Elt Ideal))
    (x0 : (⟨S16x8x320x320, .f32⟩ : BufTy).Contents (Elt Ideal)) (x2 : (⟨S8192x4, .f32⟩ : BufTy).Contents (Elt Ideal))
    (x3 : (⟨S16x8192x2, .f32⟩ : BufTy).Contents (Elt Ideal)) (x4 : (⟨S16x128x4, .f32⟩ : BufTy).Contents (Elt Ideal))
    (h_main_cst_76 : V (Proc.devRef .tc main_cst_76) = Cert.ReferenceIdeal.ReadP.val_main_cst_76 (F := Ideal))
    (h_main_v258 : V (Proc.devRef .tc main_v258) = Cert.ReferenceIdeal.ReadP.val_main_v258 (F := Ideal) x4)
    (h_main_v241 : V (Proc.devRef .tc main_v241) = Cert.ReferenceIdeal.ReadP.val_main_v241 (F := Ideal) x4) :
    StableHlo.after (overlapLines (F := Ideal)) V (Proc.devRef .tc main_v288) = Cert.ReferenceIdeal.ReadP.val_main_v288 (F := Ideal) x4 := by
  simp only [overlapLines]
  simp (disch := decide) only [after_cons, after_nil,
      nullary_result', unary_result', binary_result', ternary_result', reshape_result',
      nullary_result_ne', unary_result_ne', binary_result_ne', ternary_result_ne', reshape_result_ne', nary_result_ne']
  rw [h_main_cst_76, h_main_v258, h_main_v241]
  simp only [Cert.ReferenceIdeal.ReadP.val_main_v288, Cert.ReferenceIdeal.ReadP.val_main_v287, Cert.ReferenceIdeal.ReadP.val_main_cst_79, Cert.ReferenceIdeal.ReadP.val_main_v286, Cert.ReferenceIdeal.ReadP.val_main_v285, Cert.ReferenceIdeal.ReadP.val_main_v284, Cert.ReferenceIdeal.ReadP.val_main_v283, Cert.ReferenceIdeal.ReadP.val_main_v282, Cert.ReferenceIdeal.ReadP.val_main_v281, Cert.ReferenceIdeal.ReadP.val_main_v280, Cert.ReferenceIdeal.ReadP.val_main_v279, Cert.ReferenceIdeal.ReadP.val_main_v278, Cert.ReferenceIdeal.ReadP.val_main_v277, Cert.ReferenceIdeal.ReadP.val_main_cst_78, Cert.ReferenceIdeal.ReadP.val_main_v276, Cert.ReferenceIdeal.ReadP.val_main_v275, Cert.ReferenceIdeal.ReadP.val_main_v274, Cert.ReferenceIdeal.ReadP.val_main_v273, Cert.ReferenceIdeal.ReadP.val_main_v272, Cert.ReferenceIdeal.ReadP.val_main_v271, Cert.ReferenceIdeal.ReadP.val_main_v270, Cert.ReferenceIdeal.ReadP.val_main_cst_77, Cert.ReferenceIdeal.ReadP.val_main_v269, Cert.ReferenceIdeal.ReadP.val_main_v268, Cert.ReferenceIdeal.ReadP.val_main_v267, Cert.ReferenceIdeal.ReadP.val_main_v266, Cert.ReferenceIdeal.ReadP.val_main_v265, Cert.ReferenceIdeal.ReadP.val_main_v264, Cert.ReferenceIdeal.ReadP.val_main_v263, Cert.ReferenceIdeal.ReadP.val_main_v262, Cert.ReferenceIdeal.ReadP.val_main_v261, Cert.ReferenceIdeal.ReadP.val_main_v260, Cert.ReferenceIdeal.ReadP.val_main_v259, Cert.ReferenceIdeal.ReadP.val_main_call13_v1, Cert.ReferenceIdeal.ReadP.val_main_call13_v0] <;> rfl

theorem overlapLines_main_cst_80 (V : Valuation τ sig (Elt Ideal))
    (x0 : (⟨S16x8x320x320, .f32⟩ : BufTy).Contents (Elt Ideal)) (x2 : (⟨S8192x4, .f32⟩ : BufTy).Contents (Elt Ideal))
    (x3 : (⟨S16x8192x2, .f32⟩ : BufTy).Contents (Elt Ideal)) (x4 : (⟨S16x128x4, .f32⟩ : BufTy).Contents (Elt Ideal)) :
    StableHlo.after (overlapLines (F := Ideal)) V (Proc.devRef .tc main_cst_80) = Cert.ReferenceIdeal.ReadP.val_main_cst_80 (F := Ideal) := by
  simp only [overlapLines]
  simp (disch := decide) only [after_cons, after_nil,
      nullary_result', unary_result', binary_result', ternary_result', reshape_result',
      nullary_result_ne', unary_result_ne', binary_result_ne', ternary_result_ne', reshape_result_ne', nary_result_ne']
  simp only [Cert.ReferenceIdeal.ReadP.val_main_cst_80] <;> rfl

theorem overlapLines_main_cst_81 (V : Valuation τ sig (Elt Ideal))
    (x0 : (⟨S16x8x320x320, .f32⟩ : BufTy).Contents (Elt Ideal)) (x2 : (⟨S8192x4, .f32⟩ : BufTy).Contents (Elt Ideal))
    (x3 : (⟨S16x8192x2, .f32⟩ : BufTy).Contents (Elt Ideal)) (x4 : (⟨S16x128x4, .f32⟩ : BufTy).Contents (Elt Ideal)) :
    StableHlo.after (overlapLines (F := Ideal)) V (Proc.devRef .tc main_cst_81) = Cert.ReferenceIdeal.ReadP.val_main_cst_81 (F := Ideal) := by
  simp only [overlapLines]
  simp (disch := decide) only [after_cons, after_nil,
      nullary_result', unary_result', binary_result', ternary_result', reshape_result',
      nullary_result_ne', unary_result_ne', binary_result_ne', ternary_result_ne', reshape_result_ne', nary_result_ne']
  simp only [Cert.ReferenceIdeal.ReadP.val_main_cst_81] <;> rfl

theorem weightLines_main_v191 (V : Valuation τ sig (Elt Ideal))
    (x0 : (⟨S16x8x320x320, .f32⟩ : BufTy).Contents (Elt Ideal)) (x2 : (⟨S8192x4, .f32⟩ : BufTy).Contents (Elt Ideal))
    (x3 : (⟨S16x8192x2, .f32⟩ : BufTy).Contents (Elt Ideal)) (x4 : (⟨S16x128x4, .f32⟩ : BufTy).Contents (Elt Ideal))
    (h_main_v191 : V (Proc.devRef .tc main_v191) = Cert.ReferenceIdeal.ReadP.val_main_v191 (F := Ideal) x0 x2 x3) :
    StableHlo.after (weightLines (F := Ideal)) V (Proc.devRef .tc main_v191) = Cert.ReferenceIdeal.ReadP.val_main_v191 (F := Ideal) x0 x2 x3 := by
  simp only [weightLines]
  simp (disch := decide) only [after_cons, after_nil,
      nullary_result', unary_result', binary_result', ternary_result', reshape_result',
      nullary_result_ne', unary_result_ne', binary_result_ne', ternary_result_ne', reshape_result_ne', nary_result_ne']
  exact h_main_v191

theorem weightLines_main_v202 (V : Valuation τ sig (Elt Ideal))
    (x0 : (⟨S16x8x320x320, .f32⟩ : BufTy).Contents (Elt Ideal)) (x2 : (⟨S8192x4, .f32⟩ : BufTy).Contents (Elt Ideal))
    (x3 : (⟨S16x8192x2, .f32⟩ : BufTy).Contents (Elt Ideal)) (x4 : (⟨S16x128x4, .f32⟩ : BufTy).Contents (Elt Ideal))
    (h_main_v202 : V (Proc.devRef .tc main_v202) = Cert.ReferenceIdeal.ReadP.val_main_v202 (F := Ideal) x0 x2 x3) :
    StableHlo.after (weightLines (F := Ideal)) V (Proc.devRef .tc main_v202) = Cert.ReferenceIdeal.ReadP.val_main_v202 (F := Ideal) x0 x2 x3 := by
  simp only [weightLines]
  simp (disch := decide) only [after_cons, after_nil,
      nullary_result', unary_result', binary_result', ternary_result', reshape_result',
      nullary_result_ne', unary_result_ne', binary_result_ne', ternary_result_ne', reshape_result_ne', nary_result_ne']
  exact h_main_v202

theorem weightLines_main_v292 (V : Valuation τ sig (Elt Ideal))
    (x0 : (⟨S16x8x320x320, .f32⟩ : BufTy).Contents (Elt Ideal)) (x2 : (⟨S8192x4, .f32⟩ : BufTy).Contents (Elt Ideal))
    (x3 : (⟨S16x8192x2, .f32⟩ : BufTy).Contents (Elt Ideal)) (x4 : (⟨S16x128x4, .f32⟩ : BufTy).Contents (Elt Ideal))
    (h_main_v202 : V (Proc.devRef .tc main_v202) = Cert.ReferenceIdeal.ReadP.val_main_v202 (F := Ideal) x0 x2 x3)
    (h_main_v288 : V (Proc.devRef .tc main_v288) = Cert.ReferenceIdeal.ReadP.val_main_v288 (F := Ideal) x4)
    (h_main_cst_80 : V (Proc.devRef .tc main_cst_80) = Cert.ReferenceIdeal.ReadP.val_main_cst_80 (F := Ideal))
    (h_main_cst_81 : V (Proc.devRef .tc main_cst_81) = Cert.ReferenceIdeal.ReadP.val_main_cst_81 (F := Ideal)) :
    StableHlo.after (weightLines (F := Ideal)) V (Proc.devRef .tc main_v292) = Cert.ReferenceIdeal.ReadP.val_main_v292 (F := Ideal) x0 x2 x3 x4 := by
  simp only [weightLines]
  simp (disch := decide) only [after_cons, after_nil,
      nullary_result', unary_result', binary_result', ternary_result', reshape_result',
      nullary_result_ne', unary_result_ne', binary_result_ne', ternary_result_ne', reshape_result_ne', nary_result_ne']
  rw [h_main_v202, h_main_v288, h_main_cst_80, h_main_cst_81]
  simp only [Cert.ReferenceIdeal.ReadP.val_main_v292, Cert.ReferenceIdeal.ReadP.val_main_call15_v0, Cert.ReferenceIdeal.ReadP.val_main_cst_83, Cert.ReferenceIdeal.ReadP.val_main_v291, Cert.ReferenceIdeal.ReadP.val_main_v290, Cert.ReferenceIdeal.ReadP.val_main_cst_82, Cert.ReferenceIdeal.ReadP.val_main_v289, Cert.ReferenceIdeal.ReadP.val_main_call14_v3, Cert.ReferenceIdeal.ReadP.val_main_call14_v2, Cert.ReferenceIdeal.ReadP.val_main_call14_v1, Cert.ReferenceIdeal.ReadP.val_main_call14_v0] <;> rfl

theorem lossLines_main_v308 (V : Valuation τ sig (Elt Ideal))
    (x0 : (⟨S16x8x320x320, .f32⟩ : BufTy).Contents (Elt Ideal)) (x2 : (⟨S8192x4, .f32⟩ : BufTy).Contents (Elt Ideal))
    (x3 : (⟨S16x8192x2, .f32⟩ : BufTy).Contents (Elt Ideal)) (x4 : (⟨S16x128x4, .f32⟩ : BufTy).Contents (Elt Ideal))
    (h_main_v202 : V (Proc.devRef .tc main_v202) = Cert.ReferenceIdeal.ReadP.val_main_v202 (F := Ideal) x0 x2 x3)
    (h_main_v292 : V (Proc.devRef .tc main_v292) = Cert.ReferenceIdeal.ReadP.val_main_v292 (F := Ideal) x0 x2 x3 x4)
    (h_main_v191 : V (Proc.devRef .tc main_v191) = Cert.ReferenceIdeal.ReadP.val_main_v191 (F := Ideal) x0 x2 x3) :
    StableHlo.after (lossLines (F := Ideal)) V (Proc.devRef .tc main_v308) = Cert.ReferenceIdeal.ReadP.val_main_v308 (F := Ideal) x0 x2 x3 x4 := by
  simp only [lossLines]
  simp (disch := decide) only [after_cons, after_nil,
      nullary_result', unary_result', binary_result', ternary_result', reshape_result',
      nullary_result_ne', unary_result_ne', binary_result_ne', ternary_result_ne', reshape_result_ne', nary_result_ne',
      concatenate_two]
  rw [h_main_v202, h_main_v292, h_main_v191]
  simp only [Cert.ReferenceIdeal.ReadP.val_main_v308, Cert.ReferenceIdeal.ReadP.val_main_v307, Cert.ReferenceIdeal.ReadP.val_main_v306, Cert.ReferenceIdeal.ReadP.val_main_v305, Cert.ReferenceIdeal.ReadP.val_main_cst_91, Cert.ReferenceIdeal.ReadP.val_main_v304, Cert.ReferenceIdeal.ReadP.val_main_cst_90, Cert.ReferenceIdeal.ReadP.val_main_v303, Cert.ReferenceIdeal.ReadP.val_main_cst_89, Cert.ReferenceIdeal.ReadP.val_main_v302, Cert.ReferenceIdeal.ReadP.val_main_cst_88, Cert.ReferenceIdeal.ReadP.val_main_v301, Cert.ReferenceIdeal.ReadP.val_main_v300, Cert.ReferenceIdeal.ReadP.val_main_cst_87, Cert.ReferenceIdeal.ReadP.val_main_v299, Cert.ReferenceIdeal.ReadP.val_main_v298, Cert.ReferenceIdeal.ReadP.val_main_cst_86, Cert.ReferenceIdeal.ReadP.val_main_v297, Cert.ReferenceIdeal.ReadP.val_main_v296, Cert.ReferenceIdeal.ReadP.val_main_cst_85, Cert.ReferenceIdeal.ReadP.val_main_v295, Cert.ReferenceIdeal.ReadP.val_main_cst_84, Cert.ReferenceIdeal.ReadP.val_main_v294, Cert.ReferenceIdeal.ReadP.val_main_v293, join2] <;> rfl

/-! ## The chain -/

/-- From buffer contents `V` whose argument arrays are x0, x2, x3, x4, the program leaves the last stage of those
    arguments in its result. -/
theorem ref_value (V : Valuation τ sig (Elt Ideal))
    (x0 : (⟨S16x8x320x320, .f32⟩ : BufTy).Contents (Elt Ideal)) (x2 : (⟨S8192x4, .f32⟩ : BufTy).Contents (Elt Ideal))
    (x3 : (⟨S16x8192x2, .f32⟩ : BufTy).Contents (Elt Ideal)) (x4 : (⟨S16x128x4, .f32⟩ : BufTy).Contents (Elt Ideal))
    (h0 : V (Proc.devRef .tc main_arg0) = x0) (h2 : V (Proc.devRef .tc main_arg2) = x2)
    (h3 : V (Proc.devRef .tc main_arg3) = x3) (h4 : V (Proc.devRef .tc main_arg4) = x4) :
    StableHlo.after (Cert.ReferenceIdeal.ValueQ.ops (F := Ideal)) V (Proc.devRef .tc main_v308) = Cert.ReferenceIdeal.ReadP.val_main_v308 x0 x2 x3 x4 := by
  rw [ops_eq, StableHlo.after_append, StableHlo.after_append, StableHlo.after_append, StableHlo.after_append, StableHlo.after_append,
    StableHlo.after_append, StableHlo.after_append, StableHlo.after_append, StableHlo.after_append]
  have f0_main_arg0 := coordLines_main_arg0 V x0 x2 x3 x4 h0
  have f0_main_arg4 := coordLines_main_arg4 V x0 x2 x3 x4 h4
  have f0_main_v12 := coordLines_main_v12 V x0 x2 x3 x4 h2 h3
  have f0_main_v13 := coordLines_main_v13 V x0 x2 x3 x4 h2 h3
  have f0_main_v14 := coordLines_main_v14 V x0 x2 x3 x4 h2 h3
  have f0_main_v16 := coordLines_main_v16 V x0 x2 x3 x4 h2 h3
  have f0_main_v17 := coordLines_main_v17 V x0 x2 x3 x4 h2 h3
  have f0_main_v19 := coordLines_main_v19 V x0 x2 x3 x4 h2 h3
  have f1_main_arg0 := cornerLines0_main_arg0 (StableHlo.after (coordLines (F := Ideal)) V) x0 x2 x3 x4 f0_main_arg0
  have f1_main_arg4 := cornerLines0_main_arg4 (StableHlo.after (coordLines (F := Ideal)) V) x0 x2 x3 x4 f0_main_arg4
  have f1_main_v12 := cornerLines0_main_v12 (StableHlo.after (coordLines (F := Ideal)) V) x0 x2 x3 x4 f0_main_v12
  have f1_main_v13 := cornerLines0_main_v13 (StableHlo.after (coordLines (F := Ideal)) V) x0 x2 x3 x4 f0_main_v13
  have f1_main_v14 := cornerLines0_main_v14 (StableHlo.after (coordLines (F := Ideal)) V) x0 x2 x3 x4 f0_main_v14
  have f1_main_v16 := cornerLines0_main_v16 (StableHlo.after (coordLines (F := Ideal)) V) x0 x2 x3 x4 f0_main_v16
  have f1_main_v17 := cornerLines0_main_v17 (StableHlo.after (coordLines (F := Ideal)) V) x0 x2 x3 x4 f0_main_v17
  have f1_main_v19 := cornerLines0_main_v19 (StableHlo.after (coordLines (F := Ideal)) V) x0 x2 x3 x4 f0_main_v19
  have f1_main_v54 := cornerLines0_main_v54 (StableHlo.after (coordLines (F := Ideal)) V) x0 x2 x3 x4 f0_main_v12 f0_main_v13 f0_main_arg0 f0_main_v16 f0_main_v19
  have f2_main_arg0 := cornerLines1_main_arg0 (StableHlo.after (cornerLines0 (F := Ideal)) (StableHlo.after (coordLines (F := Ideal)) V)) x0 x2 x3 x4 f1_main_arg0
  have f2_main_arg4 := cornerLines1_main_arg4 (StableHlo.after (cornerLines0 (F := Ideal)) (StableHlo.after (coordLines (F := Ideal)) V)) x0 x2 x3 x4 f1_main_arg4
  have f2_main_v12 := cornerLines1_main_v12 (StableHlo.after (cornerLines0 (F := Ideal)) (StableHlo.after (coordLines (F := Ideal)) V)) x0 x2 x3 x4 f1_main_v12
  have f2_main_v13 := cornerLines1_main_v13 (StableHlo.after (cornerLines0 (F := Ideal)) (StableHlo.after (coordLines (F := Ideal)) V)) x0 x2 x3 x4 f1_main_v13
  have f2_main_v14 := cornerLines1_main_v14 (StableHlo.after (cornerLines0 (F := Ideal)) (StableHlo.after (coordLines (F := Ideal)) V)) x0 x2 x3 x4 f1_main_v14
  have f2_main_v16 := cornerLines1_main_v16 (StableHlo.after (cornerLines0 (F := Ideal)) (StableHlo.after (coordLines (F := Ideal)) V)) x0 x2 x3 x4 f1_main_v16
  have f2_main_v17 := cornerLines1_main_v17 (StableHlo.after (cornerLines0 (F := Ideal)) (StableHlo.after (coordLines (F := Ideal)) V)) x0 x2 x3 x4 f1_main_v17
  have f2_main_v92 := cornerLines1_main_v92 (StableHlo.after (cornerLines0 (F := Ideal)) (StableHlo.after (coordLines (F := Ideal)) V)) x0 x2 x3 x4 f1_main_v54 f1_main_v12 f1_main_v13 f1_main_arg0 f1_main_v14 f1_main_v19
  have f3_main_arg0 := cornerLines2_main_arg0 (StableHlo.after (cornerLines1 (F := Ideal)) (StableHlo.after (cornerLines0 (F := Ideal)) (StableHlo.after (coordLines (F := Ideal)) V))) x0 x2 x3 x4 f2_main_arg0
  have f3_main_arg4 := cornerLines2_main_arg4 (StableHlo.after (cornerLines1 (F := Ideal)) (StableHlo.after (cornerLines0 (F := Ideal)) (StableHlo.after (coordLines (F := Ideal)) V))) x0 x2 x3 x4 f2_main_arg4
  have f3_main_v12 := cornerLines2_main_v12 (StableHlo.after (cornerLines1 (F := Ideal)) (StableHlo.after (cornerLines0 (F := Ideal)) (StableHlo.after (coordLines (F := Ideal)) V))) x0 x2 x3 x4 f2_main_v12
  have f3_main_v13 := cornerLines2_main_v13 (StableHlo.after (cornerLines1 (F := Ideal)) (StableHlo.after (cornerLines0 (F := Ideal)) (StableHlo.after (coordLines (F := Ideal)) V))) x0 x2 x3 x4 f2_main_v13
  have f3_main_v14 := cornerLines2_main_v14 (StableHlo.after (cornerLines1 (F := Ideal)) (StableHlo.after (cornerLines0 (F := Ideal)) (StableHlo.after (coordLines (F := Ideal)) V))) x0 x2 x3 x4 f2_main_v14
  have f3_main_v17 := cornerLines2_main_v17 (StableHlo.after (cornerLines1 (F := Ideal)) (StableHlo.after (cornerLines0 (F := Ideal)) (StableHlo.after (coordLines (F := Ideal)) V))) x0 x2 x3 x4 f2_main_v17
  have f3_main_v130 := cornerLines2_main_v130 (StableHlo.after (cornerLines1 (F := Ideal)) (StableHlo.after (cornerLines0 (F := Ideal)) (StableHlo.after (coordLines (F := Ideal)) V))) x0 x2 x3 x4 f2_main_v92 f2_main_v12 f2_main_v13 f2_main_arg0 f2_main_v16 f2_main_v17
  have f4_main_arg4 := cornerLines3_main_arg4 (StableHlo.after (cornerLines2 (F := Ideal)) (StableHlo.after (cornerLines1 (F := Ideal)) (StableHlo.after (cornerLines0 (F := Ideal)) (StableHlo.after (coordLines (F := Ideal)) V)))) x0 x2 x3 x4 f3_main_arg4
  have f4_main_v170 := cornerLines3_main_v170 (StableHlo.after (cornerLines2 (F := Ideal)) (StableHlo.after (cornerLines1 (F := Ideal)) (StableHlo.after (cornerLines0 (F := Ideal)) (StableHlo.after (coordLines (F := Ideal)) V)))) x0 x2 x3 x4 f3_main_v130 f3_main_v12 f3_main_v13 f3_main_arg0 f3_main_v14 f3_main_v17
  have f5_main_arg4 := pullLines_main_arg4 (StableHlo.after (cornerLines3 (F := Ideal)) (StableHlo.after (cornerLines2 (F := Ideal)) (StableHlo.after (cornerLines1 (F := Ideal)) (StableHlo.after (cornerLines0 (F := Ideal)) (StableHlo.after (coordLines (F := Ideal)) V))))) x0 x2 x3 x4 f4_main_arg4
  have f5_main_v175 := pullLines_main_v175 (StableHlo.after (cornerLines3 (F := Ideal)) (StableHlo.after (cornerLines2 (F := Ideal)) (StableHlo.after (cornerLines1 (F := Ideal)) (StableHlo.after (cornerLines0 (F := Ideal)) (StableHlo.after (coordLines (F := Ideal)) V))))) x0 x2 x3 x4 f4_main_v170
  have f5_main_v185 := pullLines_main_v185 (StableHlo.after (cornerLines3 (F := Ideal)) (StableHlo.after (cornerLines2 (F := Ideal)) (StableHlo.after (cornerLines1 (F := Ideal)) (StableHlo.after (cornerLines0 (F := Ideal)) (StableHlo.after (coordLines (F := Ideal)) V))))) x0 x2 x3 x4 f4_main_v170
  have f6_main_v191 := middleLines_main_v191 (StableHlo.after (pullLines (F := Ideal)) (StableHlo.after (cornerLines3 (F := Ideal)) (StableHlo.after (cornerLines2 (F := Ideal)) (StableHlo.after (cornerLines1 (F := Ideal)) (StableHlo.after (cornerLines0 (F := Ideal)) (StableHlo.after (coordLines (F := Ideal)) V)))))) x0 x2 x3 x4 f5_main_v185
  have f6_main_v202 := middleLines_main_v202 (StableHlo.after (pullLines (F := Ideal)) (StableHlo.after (cornerLines3 (F := Ideal)) (StableHlo.after (cornerLines2 (F := Ideal)) (StableHlo.after (cornerLines1 (F := Ideal)) (StableHlo.after (cornerLines0 (F := Ideal)) (StableHlo.after (coordLines (F := Ideal)) V)))))) x0 x2 x3 x4 f5_main_v175
  have f6_main_v241 := middleLines_main_v241 (StableHlo.after (pullLines (F := Ideal)) (StableHlo.after (cornerLines3 (F := Ideal)) (StableHlo.after (cornerLines2 (F := Ideal)) (StableHlo.after (cornerLines1 (F := Ideal)) (StableHlo.after (cornerLines0 (F := Ideal)) (StableHlo.after (coordLines (F := Ideal)) V)))))) x0 x2 x3 x4 f5_main_arg4
  have f6_main_v258 := middleLines_main_v258 (StableHlo.after (pullLines (F := Ideal)) (StableHlo.after (cornerLines3 (F := Ideal)) (StableHlo.after (cornerLines2 (F := Ideal)) (StableHlo.after (cornerLines1 (F := Ideal)) (StableHlo.after (cornerLines0 (F := Ideal)) (StableHlo.after (coordLines (F := Ideal)) V)))))) x0 x2 x3 x4 f5_main_arg4
  have f6_main_cst_76 := middleLines_main_cst_76 (StableHlo.after (pullLines (F := Ideal)) (StableHlo.after (cornerLines3 (F := Ideal)) (StableHlo.after (cornerLines2 (F := Ideal)) (StableHlo.after (cornerLines1 (F := Ideal)) (StableHlo.after (cornerLines0 (F := Ideal)) (StableHlo.after (coordLines (F := Ideal)) V)))))) x0 x2 x3 x4
  have f7_main_v191 := overlapLines_main_v191 (StableHlo.after (middleLines (F := Ideal)) (StableHlo.after (pullLines (F := Ideal)) (StableHlo.after (cornerLines3 (F := Ideal)) (StableHlo.after (cornerLines2 (F := Ideal)) (StableHlo.after (cornerLines1 (F := Ideal)) (StableHlo.after (cornerLines0 (F := Ideal)) (StableHlo.after (coordLines (F := Ideal)) V))))))) x0 x2 x3 x4 f6_main_v191
  have f7_main_v202 := overlapLines_main_v202 (StableHlo.after (middleLines (F := Ideal)) (StableHlo.after (pullLines (F := Ideal)) (StableHlo.after (cornerLines3 (F := Ideal)) (StableHlo.after (cornerLines2 (F := Ideal)) (StableHlo.after (cornerLines1 (F := Ideal)) (StableHlo.after (cornerLines0 (F := Ideal)) (StableHlo.after (coordLines (F := Ideal)) V))))))) x0 x2 x3 x4 f6_main_v202
  have f7_main_v288 := overlapLines_main_v288 (StableHlo.after (middleLines (F := Ideal)) (StableHlo.after (pullLines (F := Ideal)) (StableHlo.after (cornerLines3 (F := Ideal)) (StableHlo.after (cornerLines2 (F := Ideal)) (StableHlo.after (cornerLines1 (F := Ideal)) (StableHlo.after (cornerLines0 (F := Ideal)) (StableHlo.after (coordLines (F := Ideal)) V))))))) x0 x2 x3 x4 f6_main_cst_76 f6_main_v258 f6_main_v241
  have f7_main_cst_80 := overlapLines_main_cst_80 (StableHlo.after (middleLines (F := Ideal)) (StableHlo.after (pullLines (F := Ideal)) (StableHlo.after (cornerLines3 (F := Ideal)) (StableHlo.after (cornerLines2 (F := Ideal)) (StableHlo.after (cornerLines1 (F := Ideal)) (StableHlo.after (cornerLines0 (F := Ideal)) (StableHlo.after (coordLines (F := Ideal)) V))))))) x0 x2 x3 x4
  have f7_main_cst_81 := overlapLines_main_cst_81 (StableHlo.after (middleLines (F := Ideal)) (StableHlo.after (pullLines (F := Ideal)) (StableHlo.after (cornerLines3 (F := Ideal)) (StableHlo.after (cornerLines2 (F := Ideal)) (StableHlo.after (cornerLines1 (F := Ideal)) (StableHlo.after (cornerLines0 (F := Ideal)) (StableHlo.after (coordLines (F := Ideal)) V))))))) x0 x2 x3 x4
  have f8_main_v191 := weightLines_main_v191 (StableHlo.after (overlapLines (F := Ideal)) (StableHlo.after (middleLines (F := Ideal)) (StableHlo.after (pullLines (F := Ideal)) (StableHlo.after (cornerLines3 (F := Ideal)) (StableHlo.after (cornerLines2 (F := Ideal)) (StableHlo.after (cornerLines1 (F := Ideal)) (StableHlo.after (cornerLines0 (F := Ideal)) (StableHlo.after (coordLines (F := Ideal)) V)))))))) x0 x2 x3 x4 f7_main_v191
  have f8_main_v202 := weightLines_main_v202 (StableHlo.after (overlapLines (F := Ideal)) (StableHlo.after (middleLines (F := Ideal)) (StableHlo.after (pullLines (F := Ideal)) (StableHlo.after (cornerLines3 (F := Ideal)) (StableHlo.after (cornerLines2 (F := Ideal)) (StableHlo.after (cornerLines1 (F := Ideal)) (StableHlo.after (cornerLines0 (F := Ideal)) (StableHlo.after (coordLines (F := Ideal)) V)))))))) x0 x2 x3 x4 f7_main_v202
  have f8_main_v292 := weightLines_main_v292 (StableHlo.after (overlapLines (F := Ideal)) (StableHlo.after (middleLines (F := Ideal)) (StableHlo.after (pullLines (F := Ideal)) (StableHlo.after (cornerLines3 (F := Ideal)) (StableHlo.after (cornerLines2 (F := Ideal)) (StableHlo.after (cornerLines1 (F := Ideal)) (StableHlo.after (cornerLines0 (F := Ideal)) (StableHlo.after (coordLines (F := Ideal)) V)))))))) x0 x2 x3 x4 f7_main_v202 f7_main_v288 f7_main_cst_80 f7_main_cst_81
  have f9_main_v308 := lossLines_main_v308 (StableHlo.after (weightLines (F := Ideal)) (StableHlo.after (overlapLines (F := Ideal)) (StableHlo.after (middleLines (F := Ideal)) (StableHlo.after (pullLines (F := Ideal)) (StableHlo.after (cornerLines3 (F := Ideal)) (StableHlo.after (cornerLines2 (F := Ideal)) (StableHlo.after (cornerLines1 (F := Ideal)) (StableHlo.after (cornerLines0 (F := Ideal)) (StableHlo.after (coordLines (F := Ideal)) V))))))))) x0 x2 x3 x4 f8_main_v202 f8_main_v292 f8_main_v191
  exact f9_main_v308

/-- The program's result, from any buffer contents: the last stage of what the argument arrays hold. -/
theorem ref_result (V : Valuation τ sig (Elt Ideal)) :
    StableHlo.after (Cert.ReferenceIdeal.ValueQ.ops (F := Ideal)) V (Proc.devRef .tc main_v308)
      = Cert.ReferenceIdeal.ReadP.val_main_v308 (V (Proc.devRef .tc main_arg0)) (V (Proc.devRef .tc main_arg2)) (V (Proc.devRef .tc main_arg3)) (V (Proc.devRef .tc main_arg4)) :=
  ref_value V _ _ _ _ rfl rfl rfl rfl

end Cert.ReferenceIdeal.RunFast

end
-- ==== Proof.RefRun.lean ====
/-
  The reference's run, without ever forming its result as one term.

  Every buffer of the reference program ends at the operations' fold over the launch memory (the raw run). The five
  arguments are written by no operation, so they end as launched; the result buffer is read back stretch by stretch
  against the stage functions, and ends at the last stage of the arguments.
-/
import proofs.«169545_j87136296501797_2_alg».proof.Proof.RunQ
import proofs.«169545_j87136296501797_2_alg».proof.Proof.RefKept
import proofs.«169545_j87136296501797_2_alg».proof.Proof.RefValue

noncomputable section

namespace Cert.ReferenceIdeal.RunFast

open Cert.ReferenceIdeal Cert.ReferenceIdeal.Gen
open Idealize.ShloMosaic Idealize.ShloMosaic.TcCoe Idealize.SL.Sem Idealize.ShloMosaic.StableHlo

/-- On every device, from any memory with zero counters: every weakly fair execution of the reference terminates with
    its result at the last stage of the arguments and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v308)
          = Cert.ReferenceIdeal.ReadP.val_main_v308 (F := Ideal) (m ((c.tc : Thread nD τ).loc main_arg0)) (m ((c.tc : Thread nD τ).loc main_arg2))
              (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
      ⟨(h c main_v308).trans (ref_result (fun b => m (c, b))),
        (h c main_arg0).trans (kept_main_arg0 m c), (h c main_arg1).trans (kept_main_arg1 m c),
        (h c main_arg2).trans (kept_main_arg2 m c), (h c main_arg3).trans (kept_main_arg3 m c),
        (h c main_arg4).trans (kept_main_arg4 m c)⟩)
    (Cert.ReferenceIdeal.ValueQ.run_raw (F := Ideal) m ρ)

end Cert.ReferenceIdeal.RunFast

end
-- ==== Proof.TailBridge.lean ====
/-
  The host lines after the sampling region, and the reference program's last stages, are one function.

  Both programs end the same way. From the sampled features f (16 images × 8 channels × 8192 points) and the boxes
  (16 × 128 × 4) they compute, in this order and with the same literals:

    · the features with the channel axis last, cut into 128 groups of 64 points: t[b, g, k, c] = f[b, c, 64 g + k];
    · the group means m[b, g, c] = (Σ_k t[b, g, k, c]) / 64;
    · the spread d[b, g, k] = (Σ_c (t[b, g, k, c] − m[b, g, c])²) / 8, set to 0 where d < 0.001; the pull term of image b
      is the sum over the groups of the group's mean of d, divided by the literal for 128;
    · the similarity e[b, g, h] = exp (−(Σ_c (m[b, g, c] − m[b, h, c])²) / 8);
    · the boxes grown by a quarter of their width and height (widths and heights counted with + 1); for every pair of
      grown boxes the sides of the overlap rectangle (far corners' minimum minus near corners' maximum, plus 1, clipped
      below at 0), the overlap's area, the pair's joint area, and whether their ratio is positive;
    · the push weight: 1 for an overlapping pair, 0.1 otherwise, 0 where e < 0.001;
    · per image (Σ_{g,h} e · weight − 128) / 16256 · 0.5; the two losses are the means over the 16 images of this and
      of the pull term, side by side.

  The kernel program does this on the array its region wrote; the reference does it on its own sampled features (its
  stage just before the transposition). Operation by operation the two lists agree: 182 operations each, the same
  function, the same literal, the same operands in the same positions. The quantities above are where the computation
  is cut: the lines fall into five stretches, and what one stretch hands to the next is, in turn, the means m and the
  thresholded spread d; the pull terms, the similarities e, the grown boxes and the overlaps' sides; whether each pair
  overlaps; the push weights. Each of these is the same function of the features and the boxes in both programs, and so
  are the two losses.
-/
import proofs.«169545_j87136296501797_2_alg».proof.Proof.SamplerData
import proofs.«169545_j87136296501797_2_alg».proof.Proof.ReadP
import Idealize.ShloMosaic.Lib.StableHlo.Run

noncomputable section

namespace Cert.KernelIdeal.Sampler

open Cert.KernelIdeal Cert.KernelIdeal.Gen
open Idealize.ShloMosaic Idealize.ShloMosaic.TcCoe Idealize.SL.Sem Idealize.ShloMosaic.StableHlo

variable {F : FTy → Type} [FloatOps F]

/-! ## Joins, with the joined arrays as arguments -/
section Operands
variable {α : Type}

/-- Two arrays joined along an axis of the result, the two arrays as arguments of their own. -/
def join2 (t : Shape) (a : Fin t.rank) (s₁ s₂ : Shape) (h : Shape.Concatenates [s₁, s₂] t a)
    (x : s₁.Idx → α) (y : s₂.Idx → α) : t.Idx → α :=
  concatenate t a [⟨s₁, x⟩, ⟨s₂, y⟩] h

/-- A join of two arrays, as `join2` of them. -/
theorem concatenate_two (t : Shape) (a : Fin t.rank) (s₁ s₂ : Shape) (x : s₁.Idx → α) (y : s₂.Idx → α)
    (h : Shape.Concatenates [s₁, s₂] t a) :
    concatenate t a [⟨s₁, x⟩, ⟨s₂, y⟩] h = join2 t a s₁ s₂ h x y := rfl

/-- Four arrays joined along an axis of the result, the four arrays as arguments of their own. -/
def join4 (t : Shape) (a : Fin t.rank) (s₁ s₂ s₃ s₄ : Shape) (h : Shape.Concatenates [s₁, s₂, s₃, s₄] t a)
    (x : s₁.Idx → α) (y : s₂.Idx → α) (z : s₃.Idx → α) (w : s₄.Idx → α) : t.Idx → α :=
  concatenate t a [⟨s₁, x⟩, ⟨s₂, y⟩, ⟨s₃, z⟩, ⟨s₄, w⟩] h

end Operands

/-- The line that puts the four grown corners side by side: its result is the join, along the last axis, of what its four
    operands hold. -/
theorem joinCorners_result (G : Valuation τ sig (Elt F)) :
    (StableHlo.nary ![main_v95, main_v96, main_v97, main_v98] main_v99 (fun u => concatenate S16x128x4 2 [⟨S16x128x1, u 0⟩, ⟨S16x128x1, u 1⟩, ⟨S16x128x1, u 2⟩, ⟨S16x128x1, u 3⟩] concatenates_S16x128x1_S16x128x1_S16x128x1_S16x128x1_S16x128x4_d2)).result G (no_index (Proc.devRef .tc main_v99))
      = join4 S16x128x4 2 S16x128x1 S16x128x1 S16x128x1 S16x128x1 concatenates_S16x128x1_S16x128x1_S16x128x1_S16x128x1_S16x128x4_d2
          (G (Proc.devRef .tc main_v95)) (G (Proc.devRef .tc main_v96)) (G (Proc.devRef .tc main_v97)) (G (Proc.devRef .tc main_v98)) := by
  rw [nary_result]; rfl

/-! ## The five stretches -/

/-- The lines that regroup the features, take the group means and each point's spread about its group's mean. -/
abbrev pullLines : List (HloOp τ sig (Elt F)) := hostOps1 ++ hostOps1_1
/-- The lines that finish the pull term, compare the group means pairwise, grow the boxes and take the sides of the pairwise overlaps. -/
abbrev middleLines : List (HloOp τ sig (Elt F)) := hostOps1_2
/-- The lines that clip the overlaps' sides at 0, take the overlaps' and the pairs' joint areas, and ask whether the ratio is positive. -/
abbrev overlapLines : List (HloOp τ sig (Elt F)) := hostOps1_3 ++ hostOps1_4
/-- The lines that choose the push weight: 1 or 0.1 by overlap, 0 where the similarity is below 0.001. -/
abbrev weightLines : List (HloOp τ sig (Elt F)) := hostOps1_5 ++ (hostOps1_6 ++ hostOps1_7)
/-- The lines that sum, scale and average: the two losses, side by side. -/
abbrev lossLines : List (HloOp τ sig (Elt F)) := hostOps1_8

/-- The lines after the region are the five stretches in order. -/
theorem linesAfter_eq : List.flatten (linesAfter (F := F))
    = pullLines ++ (middleLines ++ (overlapLines ++ (weightLines ++ lossLines))) := by
  simp only [linesAfter, pullLines, middleLines, overlapLines, weightLines, lossLines, List.flatten_cons, List.flatten_nil,
    List.append_nil, List.append_assoc]

/-! ## Each stretch, array by array

In each lemma `V` is what the buffers hold when the stretch begins, and the hypotheses say that the arrays the stretch
reads and does not itself write hold the reference's stages. The stretch's lines, composed, are one function of those
arrays; it is the composition of the reference's stages of the same stretch. -/

-- a stretch of 87 lines is folded line by line
set_option maxRecDepth 100000
set_option maxHeartbeats 4000000

/-- The spread of each point about its group's mean: the mean over the 8 channels of the squared difference, set to 0 below 0.001. -/
theorem pullLines_main_v43 (V : Valuation τ sig (Elt Ideal))
    (x0 : (⟨S16x8x320x320, .f32⟩ : BufTy).Contents (Elt Ideal)) (x2 : (⟨S8192x4, .f32⟩ : BufTy).Contents (Elt Ideal))
    (x3 : (⟨S16x8192x2, .f32⟩ : BufTy).Contents (Elt Ideal)) (x4 : (⟨S16x128x4, .f32⟩ : BufTy).Contents (Elt Ideal))
    (h_main_v28 : V (Proc.devRef .tc main_v28) = Cert.ReferenceIdeal.ReadP.val_main_v170 (F := Ideal) x0 x2 x3) :
    StableHlo.after (pullLines (F := Ideal)) V (Proc.devRef .tc main_v43) = Cert.ReferenceIdeal.ReadP.val_main_v185 (F := Ideal) x0 x2 x3 := by
  simp only [pullLines, hostOps1, hostOps1_1, List.cons_append, List.nil_append]
  simp (disch := decide) only [after_cons, after_nil,
      nullary_result', unary_result', binary_result', ternary_result', reshape_result',
      nullary_result_ne', unary_result_ne', binary_result_ne', ternary_result_ne', reshape_result_ne', nary_result_ne']
  rw [h_main_v28]
  simp only [Cert.ReferenceIdeal.ReadP.val_main_v185, Cert.ReferenceIdeal.ReadP.val_main_call12_v1, Cert.ReferenceIdeal.ReadP.val_main_call12_v0, Cert.ReferenceIdeal.ReadP.val_main_cst_62, Cert.ReferenceIdeal.ReadP.val_main_v184, Cert.ReferenceIdeal.ReadP.val_main_v183, Cert.ReferenceIdeal.ReadP.val_main_cst_61, Cert.ReferenceIdeal.ReadP.val_main_v182, Cert.ReferenceIdeal.ReadP.val_main_v181, Cert.ReferenceIdeal.ReadP.val_main_cst_60, Cert.ReferenceIdeal.ReadP.val_main_v180, Cert.ReferenceIdeal.ReadP.val_main_cst_59, Cert.ReferenceIdeal.ReadP.val_main_v179, Cert.ReferenceIdeal.ReadP.val_main_v178, Cert.ReferenceIdeal.ReadP.val_main_v177, Cert.ReferenceIdeal.ReadP.val_main_v176, Cert.ReferenceIdeal.ReadP.val_main_v175, Cert.ReferenceIdeal.ReadP.val_main_v174, Cert.ReferenceIdeal.ReadP.val_main_cst_58, Cert.ReferenceIdeal.ReadP.val_main_v173, Cert.ReferenceIdeal.ReadP.val_main_cst_57, Cert.ReferenceIdeal.ReadP.val_main_v172, Cert.ReferenceIdeal.ReadP.val_main_v171] <;>
    first | (generalize Cert.ReferenceIdeal.ReadP.val_main_v170 (F := Ideal) x0 x2 x3 = feat; rfl) | rfl

/-- The group means: the features with the channel axis last, cut into 128 groups of 64 points, summed over the 64 and divided by 64. -/
theorem pullLines_main_v33 (V : Valuation τ sig (Elt Ideal))
    (x0 : (⟨S16x8x320x320, .f32⟩ : BufTy).Contents (Elt Ideal)) (x2 : (⟨S8192x4, .f32⟩ : BufTy).Contents (Elt Ideal))
    (x3 : (⟨S16x8192x2, .f32⟩ : BufTy).Contents (Elt Ideal)) (x4 : (⟨S16x128x4, .f32⟩ : BufTy).Contents (Elt Ideal))
    (h_main_v28 : V (Proc.devRef .tc main_v28) = Cert.ReferenceIdeal.ReadP.val_main_v170 (F := Ideal) x0 x2 x3) :
    StableHlo.after (pullLines (F := Ideal)) V (Proc.devRef .tc main_v33) = Cert.ReferenceIdeal.ReadP.val_main_v175 (F := Ideal) x0 x2 x3 := by
  simp only [pullLines, hostOps1, hostOps1_1, List.cons_append, List.nil_append]
  simp (disch := decide) only [after_cons, after_nil,
      nullary_result', unary_result', binary_result', ternary_result', reshape_result',
      nullary_result_ne', unary_result_ne', binary_result_ne', ternary_result_ne', reshape_result_ne', nary_result_ne']
  rw [h_main_v28]
  simp only [Cert.ReferenceIdeal.ReadP.val_main_v175, Cert.ReferenceIdeal.ReadP.val_main_v174, Cert.ReferenceIdeal.ReadP.val_main_cst_58, Cert.ReferenceIdeal.ReadP.val_main_v173, Cert.ReferenceIdeal.ReadP.val_main_cst_57, Cert.ReferenceIdeal.ReadP.val_main_v172, Cert.ReferenceIdeal.ReadP.val_main_v171] <;>
    first | (generalize Cert.ReferenceIdeal.ReadP.val_main_v170 (F := Ideal) x0 x2 x3 = feat; rfl) | rfl

/-- These lines do not write the boxes. -/
theorem pullLines_main_arg4 (V : Valuation τ sig (Elt Ideal))
    (x0 : (⟨S16x8x320x320, .f32⟩ : BufTy).Contents (Elt Ideal)) (x2 : (⟨S8192x4, .f32⟩ : BufTy).Contents (Elt Ideal))
    (x3 : (⟨S16x8192x2, .f32⟩ : BufTy).Contents (Elt Ideal)) (x4 : (⟨S16x128x4, .f32⟩ : BufTy).Contents (Elt Ideal))
    (h_main_arg4 : V (Proc.devRef .tc main_arg4) = x4) :
    StableHlo.after (pullLines (F := Ideal)) V (Proc.devRef .tc main_arg4) = x4 := by
  simp only [pullLines, hostOps1, hostOps1_1, List.cons_append, List.nil_append]
  simp (disch := decide) only [after_cons, after_nil,
      nullary_result', unary_result', binary_result', ternary_result', reshape_result',
      nullary_result_ne', unary_result_ne', binary_result_ne', ternary_result_ne', reshape_result_ne', nary_result_ne']
  exact h_main_arg4

/-- The zero the overlap's sides are clipped at. -/
theorem middleLines_main_cst_24 (V : Valuation τ sig (Elt Ideal))
    (x0 : (⟨S16x8x320x320, .f32⟩ : BufTy).Contents (Elt Ideal)) (x2 : (⟨S8192x4, .f32⟩ : BufTy).Contents (Elt Ideal))
    (x3 : (⟨S16x8192x2, .f32⟩ : BufTy).Contents (Elt Ideal)) (x4 : (⟨S16x128x4, .f32⟩ : BufTy).Contents (Elt Ideal)) :
    StableHlo.after (middleLines (F := Ideal)) V (Proc.devRef .tc main_cst_24) = Cert.ReferenceIdeal.ReadP.val_main_cst_76 (F := Ideal) := by
  simp only [middleLines, hostOps1_2, List.cons_append, List.nil_append]
  simp (disch := decide) only [after_cons, after_nil,
      nullary_result', unary_result', binary_result', ternary_result', reshape_result',
      nullary_result_ne', unary_result_ne', binary_result_ne', ternary_result_ne', reshape_result_ne', nary_result_ne']
  simp only [Cert.ReferenceIdeal.ReadP.val_main_cst_76] <;> rfl

/-- The sides of the overlap rectangle of every pair of grown boxes: the smaller of the two far corners minus the larger of the two near corners, plus 1. -/
theorem middleLines_main_v116 (V : Valuation τ sig (Elt Ideal))
    (x0 : (⟨S16x8x320x320, .f32⟩ : BufTy).Contents (Elt Ideal)) (x2 : (⟨S8192x4, .f32⟩ : BufTy).Contents (Elt Ideal))
    (x3 : (⟨S16x8192x2, .f32⟩ : BufTy).Contents (Elt Ideal)) (x4 : (⟨S16x128x4, .f32⟩ : BufTy).Contents (Elt Ideal))
    (h_main_arg4 : V (Proc.devRef .tc main_arg4) = x4) :
    StableHlo.after (middleLines (F := Ideal)) V (Proc.devRef .tc main_v116) = Cert.ReferenceIdeal.ReadP.val_main_v258 (F := Ideal) x4 := by
  simp only [middleLines, hostOps1_2, List.cons_append, List.nil_append]
  simp (disch := decide) only [after_cons, after_nil,
      nullary_result', unary_result', binary_result', ternary_result', reshape_result', joinCorners_result,
      nullary_result_ne', unary_result_ne', binary_result_ne', ternary_result_ne', reshape_result_ne', nary_result_ne']
  rw [h_main_arg4]
  simp only [Cert.ReferenceIdeal.ReadP.val_main_v258, Cert.ReferenceIdeal.ReadP.val_main_v257, Cert.ReferenceIdeal.ReadP.val_main_cst_75, Cert.ReferenceIdeal.ReadP.val_main_v256, Cert.ReferenceIdeal.ReadP.val_main_v255, Cert.ReferenceIdeal.ReadP.val_main_v254, Cert.ReferenceIdeal.ReadP.val_main_v253, Cert.ReferenceIdeal.ReadP.val_main_v252, Cert.ReferenceIdeal.ReadP.val_main_v251, Cert.ReferenceIdeal.ReadP.val_main_v250, Cert.ReferenceIdeal.ReadP.val_main_v249, Cert.ReferenceIdeal.ReadP.val_main_v248, Cert.ReferenceIdeal.ReadP.val_main_v247, Cert.ReferenceIdeal.ReadP.val_main_v246, Cert.ReferenceIdeal.ReadP.val_main_v245, Cert.ReferenceIdeal.ReadP.val_main_v244, Cert.ReferenceIdeal.ReadP.val_main_v243, Cert.ReferenceIdeal.ReadP.val_main_v242, Cert.ReferenceIdeal.ReadP.val_main_v241, Cert.ReferenceIdeal.ReadP.val_main_v240, Cert.ReferenceIdeal.ReadP.val_main_v239, Cert.ReferenceIdeal.ReadP.val_main_v238, Cert.ReferenceIdeal.ReadP.val_main_v237, Cert.ReferenceIdeal.ReadP.val_main_v236, Cert.ReferenceIdeal.ReadP.val_main_v235, Cert.ReferenceIdeal.ReadP.val_main_v234, Cert.ReferenceIdeal.ReadP.val_main_cst_74, Cert.ReferenceIdeal.ReadP.val_main_v233, Cert.ReferenceIdeal.ReadP.val_main_v232, Cert.ReferenceIdeal.ReadP.val_main_v231, Cert.ReferenceIdeal.ReadP.val_main_v230, Cert.ReferenceIdeal.ReadP.val_main_v229, Cert.ReferenceIdeal.ReadP.val_main_cst_73, Cert.ReferenceIdeal.ReadP.val_main_v228, Cert.ReferenceIdeal.ReadP.val_main_v227, Cert.ReferenceIdeal.ReadP.val_main_v226, Cert.ReferenceIdeal.ReadP.val_main_v225, Cert.ReferenceIdeal.ReadP.val_main_v224, Cert.ReferenceIdeal.ReadP.val_main_cst_72, Cert.ReferenceIdeal.ReadP.val_main_v223, Cert.ReferenceIdeal.ReadP.val_main_v222, Cert.ReferenceIdeal.ReadP.val_main_v221, Cert.ReferenceIdeal.ReadP.val_main_v220, Cert.ReferenceIdeal.ReadP.val_main_v219, Cert.ReferenceIdeal.ReadP.val_main_cst_71, Cert.ReferenceIdeal.ReadP.val_main_v218, Cert.ReferenceIdeal.ReadP.val_main_v217, Cert.ReferenceIdeal.ReadP.val_main_v216, Cert.ReferenceIdeal.ReadP.val_main_v215, Cert.ReferenceIdeal.ReadP.val_main_cst_70, Cert.ReferenceIdeal.ReadP.val_main_v214, Cert.ReferenceIdeal.ReadP.val_main_v213, Cert.ReferenceIdeal.ReadP.val_main_v212, Cert.ReferenceIdeal.ReadP.val_main_v211, Cert.ReferenceIdeal.ReadP.val_main_v210, Cert.ReferenceIdeal.ReadP.val_main_v209, Cert.ReferenceIdeal.ReadP.val_main_v208, Cert.ReferenceIdeal.ReadP.val_main_cst_69, Cert.ReferenceIdeal.ReadP.val_main_v207, Cert.ReferenceIdeal.ReadP.val_main_v206, Cert.ReferenceIdeal.ReadP.val_main_v205, Cert.ReferenceIdeal.ReadP.val_main_v204, Cert.ReferenceIdeal.ReadP.val_main_v203, join4] <;> rfl

/-- The grown boxes: each corner moved outwards by a quarter of the box's width or height (counted with + 1). -/
theorem middleLines_main_v99 (V : Valuation τ sig (Elt Ideal))
    (x0 : (⟨S16x8x320x320, .f32⟩ : BufTy).Contents (Elt Ideal)) (x2 : (⟨S8192x4, .f32⟩ : BufTy).Contents (Elt Ideal))
    (x3 : (⟨S16x8192x2, .f32⟩ : BufTy).Contents (Elt Ideal)) (x4 : (⟨S16x128x4, .f32⟩ : BufTy).Contents (Elt Ideal))
    (h_main_arg4 : V (Proc.devRef .tc main_arg4) = x4) :
    StableHlo.after (middleLines (F := Ideal)) V (Proc.devRef .tc main_v99) = Cert.ReferenceIdeal.ReadP.val_main_v241 (F := Ideal) x4 := by
  simp only [middleLines, hostOps1_2, List.cons_append, List.nil_append]
  simp (disch := decide) only [after_cons, after_nil,
      nullary_result', unary_result', binary_result', ternary_result', reshape_result', joinCorners_result,
      nullary_result_ne', unary_result_ne', binary_result_ne', ternary_result_ne', reshape_result_ne', nary_result_ne']
  rw [h_main_arg4]
  simp only [Cert.ReferenceIdeal.ReadP.val_main_v241, Cert.ReferenceIdeal.ReadP.val_main_v240, Cert.ReferenceIdeal.ReadP.val_main_v239, Cert.ReferenceIdeal.ReadP.val_main_v238, Cert.ReferenceIdeal.ReadP.val_main_v237, Cert.ReferenceIdeal.ReadP.val_main_v236, Cert.ReferenceIdeal.ReadP.val_main_v235, Cert.ReferenceIdeal.ReadP.val_main_v234, Cert.ReferenceIdeal.ReadP.val_main_cst_74, Cert.ReferenceIdeal.ReadP.val_main_v233, Cert.ReferenceIdeal.ReadP.val_main_v232, Cert.ReferenceIdeal.ReadP.val_main_v231, Cert.ReferenceIdeal.ReadP.val_main_v230, Cert.ReferenceIdeal.ReadP.val_main_v229, Cert.ReferenceIdeal.ReadP.val_main_cst_73, Cert.ReferenceIdeal.ReadP.val_main_v228, Cert.ReferenceIdeal.ReadP.val_main_v227, Cert.ReferenceIdeal.ReadP.val_main_v226, Cert.ReferenceIdeal.ReadP.val_main_v225, Cert.ReferenceIdeal.ReadP.val_main_v224, Cert.ReferenceIdeal.ReadP.val_main_cst_72, Cert.ReferenceIdeal.ReadP.val_main_v223, Cert.ReferenceIdeal.ReadP.val_main_v222, Cert.ReferenceIdeal.ReadP.val_main_v221, Cert.ReferenceIdeal.ReadP.val_main_v220, Cert.ReferenceIdeal.ReadP.val_main_v219, Cert.ReferenceIdeal.ReadP.val_main_cst_71, Cert.ReferenceIdeal.ReadP.val_main_v218, Cert.ReferenceIdeal.ReadP.val_main_v217, Cert.ReferenceIdeal.ReadP.val_main_v216, Cert.ReferenceIdeal.ReadP.val_main_v215, Cert.ReferenceIdeal.ReadP.val_main_cst_70, Cert.ReferenceIdeal.ReadP.val_main_v214, Cert.ReferenceIdeal.ReadP.val_main_v213, Cert.ReferenceIdeal.ReadP.val_main_v212, Cert.ReferenceIdeal.ReadP.val_main_v211, Cert.ReferenceIdeal.ReadP.val_main_v210, Cert.ReferenceIdeal.ReadP.val_main_v209, Cert.ReferenceIdeal.ReadP.val_main_v208, Cert.ReferenceIdeal.ReadP.val_main_cst_69, Cert.ReferenceIdeal.ReadP.val_main_v207, Cert.ReferenceIdeal.ReadP.val_main_v206, Cert.ReferenceIdeal.ReadP.val_main_v205, Cert.ReferenceIdeal.ReadP.val_main_v204, Cert.ReferenceIdeal.ReadP.val_main_v203, join4] <;> rfl

/-- The similarity of every pair of groups of an image: exp of minus the mean over the channels of the squared difference of their means. -/
theorem middleLines_main_v60 (V : Valuation τ sig (Elt Ideal))
    (x0 : (⟨S16x8x320x320, .f32⟩ : BufTy).Contents (Elt Ideal)) (x2 : (⟨S8192x4, .f32⟩ : BufTy).Contents (Elt Ideal))
    (x3 : (⟨S16x8192x2, .f32⟩ : BufTy).Contents (Elt Ideal)) (x4 : (⟨S16x128x4, .f32⟩ : BufTy).Contents (Elt Ideal))
    (h_main_v33 : V (Proc.devRef .tc main_v33) = Cert.ReferenceIdeal.ReadP.val_main_v175 (F := Ideal) x0 x2 x3) :
    StableHlo.after (middleLines (F := Ideal)) V (Proc.devRef .tc main_v60) = Cert.ReferenceIdeal.ReadP.val_main_v202 (F := Ideal) x0 x2 x3 := by
  simp only [middleLines, hostOps1_2, List.cons_append, List.nil_append]
  simp (disch := decide) only [after_cons, after_nil,
      nullary_result', unary_result', binary_result', ternary_result', reshape_result',
      nullary_result_ne', unary_result_ne', binary_result_ne', ternary_result_ne', reshape_result_ne', nary_result_ne']
  rw [h_main_v33]
  simp only [Cert.ReferenceIdeal.ReadP.val_main_v202, Cert.ReferenceIdeal.ReadP.val_main_v201, Cert.ReferenceIdeal.ReadP.val_main_v200, Cert.ReferenceIdeal.ReadP.val_main_v199, Cert.ReferenceIdeal.ReadP.val_main_cst_68, Cert.ReferenceIdeal.ReadP.val_main_v198, Cert.ReferenceIdeal.ReadP.val_main_cst_67, Cert.ReferenceIdeal.ReadP.val_main_v197, Cert.ReferenceIdeal.ReadP.val_main_v196, Cert.ReferenceIdeal.ReadP.val_main_v195, Cert.ReferenceIdeal.ReadP.val_main_v194, Cert.ReferenceIdeal.ReadP.val_main_v193, Cert.ReferenceIdeal.ReadP.val_main_v192] <;> rfl

/-- The pull term of each image: the sum over the groups of the group's mean spread, divided by the literal for 128. -/
theorem middleLines_main_v49 (V : Valuation τ sig (Elt Ideal))
    (x0 : (⟨S16x8x320x320, .f32⟩ : BufTy).Contents (Elt Ideal)) (x2 : (⟨S8192x4, .f32⟩ : BufTy).Contents (Elt Ideal))
    (x3 : (⟨S16x8192x2, .f32⟩ : BufTy).Contents (Elt Ideal)) (x4 : (⟨S16x128x4, .f32⟩ : BufTy).Contents (Elt Ideal))
    (h_main_v43 : V (Proc.devRef .tc main_v43) = Cert.ReferenceIdeal.ReadP.val_main_v185 (F := Ideal) x0 x2 x3) :
    StableHlo.after (middleLines (F := Ideal)) V (Proc.devRef .tc main_v49) = Cert.ReferenceIdeal.ReadP.val_main_v191 (F := Ideal) x0 x2 x3 := by
  simp only [middleLines, hostOps1_2, List.cons_append, List.nil_append]
  simp (disch := decide) only [after_cons, after_nil,
      nullary_result', unary_result', binary_result', ternary_result', reshape_result',
      nullary_result_ne', unary_result_ne', binary_result_ne', ternary_result_ne', reshape_result_ne', nary_result_ne']
  rw [h_main_v43]
  simp only [Cert.ReferenceIdeal.ReadP.val_main_v191, Cert.ReferenceIdeal.ReadP.val_main_v190, Cert.ReferenceIdeal.ReadP.val_main_cst_66, Cert.ReferenceIdeal.ReadP.val_main_v189, Cert.ReferenceIdeal.ReadP.val_main_cst_65, Cert.ReferenceIdeal.ReadP.val_main_v188, Cert.ReferenceIdeal.ReadP.val_main_v187, Cert.ReferenceIdeal.ReadP.val_main_cst_64, Cert.ReferenceIdeal.ReadP.val_main_v186, Cert.ReferenceIdeal.ReadP.val_main_cst_63] <;> rfl

/-- The weight of an overlapping pair, 1. -/
theorem overlapLines_main_cst_28 (V : Valuation τ sig (Elt Ideal))
    (x0 : (⟨S16x8x320x320, .f32⟩ : BufTy).Contents (Elt Ideal)) (x2 : (⟨S8192x4, .f32⟩ : BufTy).Contents (Elt Ideal))
    (x3 : (⟨S16x8192x2, .f32⟩ : BufTy).Contents (Elt Ideal)) (x4 : (⟨S16x128x4, .f32⟩ : BufTy).Contents (Elt Ideal)) :
    StableHlo.after (overlapLines (F := Ideal)) V (Proc.devRef .tc main_cst_28) = Cert.ReferenceIdeal.ReadP.val_main_cst_80 (F := Ideal) := by
  simp only [overlapLines, hostOps1_3, hostOps1_4, List.cons_append, List.nil_append]
  simp (disch := decide) only [after_cons, after_nil,
      nullary_result', unary_result', binary_result', ternary_result', reshape_result',
      nullary_result_ne', unary_result_ne', binary_result_ne', ternary_result_ne', reshape_result_ne', nary_result_ne']
  simp only [Cert.ReferenceIdeal.ReadP.val_main_cst_80] <;> rfl

/-- The weight of a pair that does not overlap, 0.1. -/
theorem overlapLines_main_cst_29 (V : Valuation τ sig (Elt Ideal))
    (x0 : (⟨S16x8x320x320, .f32⟩ : BufTy).Contents (Elt Ideal)) (x2 : (⟨S8192x4, .f32⟩ : BufTy).Contents (Elt Ideal))
    (x3 : (⟨S16x8192x2, .f32⟩ : BufTy).Contents (Elt Ideal)) (x4 : (⟨S16x128x4, .f32⟩ : BufTy).Contents (Elt Ideal)) :
    StableHlo.after (overlapLines (F := Ideal)) V (Proc.devRef .tc main_cst_29) = Cert.ReferenceIdeal.ReadP.val_main_cst_81 (F := Ideal) := by
  simp only [overlapLines, hostOps1_3, hostOps1_4, List.cons_append, List.nil_append]
  simp (disch := decide) only [after_cons, after_nil,
      nullary_result', unary_result', binary_result', ternary_result', reshape_result',
      nullary_result_ne', unary_result_ne', binary_result_ne', ternary_result_ne', reshape_result_ne', nary_result_ne']
  simp only [Cert.ReferenceIdeal.ReadP.val_main_cst_81] <;> rfl

/-- Whether a pair of grown boxes overlaps: the overlap's area (its sides clipped below at 0) over the pair's joint area is positive. -/
theorem overlapLines_main_v146 (V : Valuation τ sig (Elt Ideal))
    (x0 : (⟨S16x8x320x320, .f32⟩ : BufTy).Contents (Elt Ideal)) (x2 : (⟨S8192x4, .f32⟩ : BufTy).Contents (Elt Ideal))
    (x3 : (⟨S16x8192x2, .f32⟩ : BufTy).Contents (Elt Ideal)) (x4 : (⟨S16x128x4, .f32⟩ : BufTy).Contents (Elt Ideal))
    (h_main_cst_24 : V (Proc.devRef .tc main_cst_24) = Cert.ReferenceIdeal.ReadP.val_main_cst_76 (F := Ideal))
    (h_main_v116 : V (Proc.devRef .tc main_v116) = Cert.ReferenceIdeal.ReadP.val_main_v258 (F := Ideal) x4)
    (h_main_v99 : V (Proc.devRef .tc main_v99) = Cert.ReferenceIdeal.ReadP.val_main_v241 (F := Ideal) x4) :
    StableHlo.after (overlapLines (F := Ideal)) V (Proc.devRef .tc main_v146) = Cert.ReferenceIdeal.ReadP.val_main_v288 (F := Ideal) x4 := by
  simp only [overlapLines, hostOps1_3, hostOps1_4, List.cons_append, List.nil_append]
  simp (disch := decide) only [after_cons, after_nil,
      nullary_result', unary_result', binary_result', ternary_result', reshape_result',
      nullary_result_ne', unary_result_ne', binary_result_ne', ternary_result_ne', reshape_result_ne', nary_result_ne']
  rw [h_main_cst_24, h_main_v116, h_main_v99]
  simp only [Cert.ReferenceIdeal.ReadP.val_main_v288, Cert.ReferenceIdeal.ReadP.val_main_v287, Cert.ReferenceIdeal.ReadP.val_main_cst_79, Cert.ReferenceIdeal.ReadP.val_main_v286, Cert.ReferenceIdeal.ReadP.val_main_v285, Cert.ReferenceIdeal.ReadP.val_main_v284, Cert.ReferenceIdeal.ReadP.val_main_v283, Cert.ReferenceIdeal.ReadP.val_main_v282, Cert.ReferenceIdeal.ReadP.val_main_v281, Cert.ReferenceIdeal.ReadP.val_main_v280, Cert.ReferenceIdeal.ReadP.val_main_v279, Cert.ReferenceIdeal.ReadP.val_main_v278, Cert.ReferenceIdeal.ReadP.val_main_v277, Cert.ReferenceIdeal.ReadP.val_main_cst_78, Cert.ReferenceIdeal.ReadP.val_main_v276, Cert.ReferenceIdeal.ReadP.val_main_v275, Cert.ReferenceIdeal.ReadP.val_main_v274, Cert.ReferenceIdeal.ReadP.val_main_v273, Cert.ReferenceIdeal.ReadP.val_main_v272, Cert.ReferenceIdeal.ReadP.val_main_v271, Cert.ReferenceIdeal.ReadP.val_main_v270, Cert.ReferenceIdeal.ReadP.val_main_cst_77, Cert.ReferenceIdeal.ReadP.val_main_v269, Cert.ReferenceIdeal.ReadP.val_main_v268, Cert.ReferenceIdeal.ReadP.val_main_v267, Cert.ReferenceIdeal.ReadP.val_main_v266, Cert.ReferenceIdeal.ReadP.val_main_v265, Cert.ReferenceIdeal.ReadP.val_main_v264, Cert.ReferenceIdeal.ReadP.val_main_v263, Cert.ReferenceIdeal.ReadP.val_main_v262, Cert.ReferenceIdeal.ReadP.val_main_v261, Cert.ReferenceIdeal.ReadP.val_main_v260, Cert.ReferenceIdeal.ReadP.val_main_v259, Cert.ReferenceIdeal.ReadP.val_main_call13_v1, Cert.ReferenceIdeal.ReadP.val_main_call13_v0] <;> rfl

/-- These lines do not write the similarities. -/
theorem overlapLines_main_v60 (V : Valuation τ sig (Elt Ideal))
    (x0 : (⟨S16x8x320x320, .f32⟩ : BufTy).Contents (Elt Ideal)) (x2 : (⟨S8192x4, .f32⟩ : BufTy).Contents (Elt Ideal))
    (x3 : (⟨S16x8192x2, .f32⟩ : BufTy).Contents (Elt Ideal)) (x4 : (⟨S16x128x4, .f32⟩ : BufTy).Contents (Elt Ideal))
    (h_main_v60 : V (Proc.devRef .tc main_v60) = Cert.ReferenceIdeal.ReadP.val_main_v202 (F := Ideal) x0 x2 x3) :
    StableHlo.after (overlapLines (F := Ideal)) V (Proc.devRef .tc main_v60) = Cert.ReferenceIdeal.ReadP.val_main_v202 (F := Ideal) x0 x2 x3 := by
  simp only [overlapLines, hostOps1_3, hostOps1_4, List.cons_append, List.nil_append]
  simp (disch := decide) only [after_cons, after_nil,
      nullary_result', unary_result', binary_result', ternary_result', reshape_result',
      nullary_result_ne', unary_result_ne', binary_result_ne', ternary_result_ne', reshape_result_ne', nary_result_ne']
  exact h_main_v60

/-- These lines do not write the pull terms. -/
theorem overlapLines_main_v49 (V : Valuation τ sig (Elt Ideal))
    (x0 : (⟨S16x8x320x320, .f32⟩ : BufTy).Contents (Elt Ideal)) (x2 : (⟨S8192x4, .f32⟩ : BufTy).Contents (Elt Ideal))
    (x3 : (⟨S16x8192x2, .f32⟩ : BufTy).Contents (Elt Ideal)) (x4 : (⟨S16x128x4, .f32⟩ : BufTy).Contents (Elt Ideal))
    (h_main_v49 : V (Proc.devRef .tc main_v49) = Cert.ReferenceIdeal.ReadP.val_main_v191 (F := Ideal) x0 x2 x3) :
    StableHlo.after (overlapLines (F := Ideal)) V (Proc.devRef .tc main_v49) = Cert.ReferenceIdeal.ReadP.val_main_v191 (F := Ideal) x0 x2 x3 := by
  simp only [overlapLines, hostOps1_3, hostOps1_4, List.cons_append, List.nil_append]
  simp (disch := decide) only [after_cons, after_nil,
      nullary_result', unary_result', binary_result', ternary_result', reshape_result',
      nullary_result_ne', unary_result_ne', binary_result_ne', ternary_result_ne', reshape_result_ne', nary_result_ne']
  exact h_main_v49

/-- The push weight: 1 for an overlapping pair and 0.1 otherwise, and 0 where the similarity is below 0.001. -/
theorem weightLines_main_v150 (V : Valuation τ sig (Elt Ideal))
    (x0 : (⟨S16x8x320x320, .f32⟩ : BufTy).Contents (Elt Ideal)) (x2 : (⟨S8192x4, .f32⟩ : BufTy).Contents (Elt Ideal))
    (x3 : (⟨S16x8192x2, .f32⟩ : BufTy).Contents (Elt Ideal)) (x4 : (⟨S16x128x4, .f32⟩ : BufTy).Contents (Elt Ideal))
    (h_main_v60 : V (Proc.devRef .tc main_v60) = Cert.ReferenceIdeal.ReadP.val_main_v202 (F := Ideal) x0 x2 x3)
    (h_main_v146 : V (Proc.devRef .tc main_v146) = Cert.ReferenceIdeal.ReadP.val_main_v288 (F := Ideal) x4)
    (h_main_cst_28 : V (Proc.devRef .tc main_cst_28) = Cert.ReferenceIdeal.ReadP.val_main_cst_80 (F := Ideal))
    (h_main_cst_29 : V (Proc.devRef .tc main_cst_29) = Cert.ReferenceIdeal.ReadP.val_main_cst_81 (F := Ideal)) :
    StableHlo.after (weightLines (F := Ideal)) V (Proc.devRef .tc main_v150) = Cert.ReferenceIdeal.ReadP.val_main_v292 (F := Ideal) x0 x2 x3 x4 := by
  simp only [weightLines, hostOps1_5, hostOps1_6, hostOps1_7, List.cons_append, List.nil_append]
  simp (disch := decide) only [after_cons, after_nil,
      nullary_result', unary_result', binary_result', ternary_result', reshape_result',
      nullary_result_ne', unary_result_ne', binary_result_ne', ternary_result_ne', reshape_result_ne', nary_result_ne']
  rw [h_main_v60, h_main_v146, h_main_cst_28, h_main_cst_29]
  simp only [Cert.ReferenceIdeal.ReadP.val_main_v292, Cert.ReferenceIdeal.ReadP.val_main_call15_v0, Cert.ReferenceIdeal.ReadP.val_main_cst_83, Cert.ReferenceIdeal.ReadP.val_main_v291, Cert.ReferenceIdeal.ReadP.val_main_v290, Cert.ReferenceIdeal.ReadP.val_main_cst_82, Cert.ReferenceIdeal.ReadP.val_main_v289, Cert.ReferenceIdeal.ReadP.val_main_call14_v3, Cert.ReferenceIdeal.ReadP.val_main_call14_v2, Cert.ReferenceIdeal.ReadP.val_main_call14_v1, Cert.ReferenceIdeal.ReadP.val_main_call14_v0] <;> rfl

/-- These lines do not write the similarities. -/
theorem weightLines_main_v60 (V : Valuation τ sig (Elt Ideal))
    (x0 : (⟨S16x8x320x320, .f32⟩ : BufTy).Contents (Elt Ideal)) (x2 : (⟨S8192x4, .f32⟩ : BufTy).Contents (Elt Ideal))
    (x3 : (⟨S16x8192x2, .f32⟩ : BufTy).Contents (Elt Ideal)) (x4 : (⟨S16x128x4, .f32⟩ : BufTy).Contents (Elt Ideal))
    (h_main_v60 : V (Proc.devRef .tc main_v60) = Cert.ReferenceIdeal.ReadP.val_main_v202 (F := Ideal) x0 x2 x3) :
    StableHlo.after (weightLines (F := Ideal)) V (Proc.devRef .tc main_v60) = Cert.ReferenceIdeal.ReadP.val_main_v202 (F := Ideal) x0 x2 x3 := by
  simp only [weightLines, hostOps1_5, hostOps1_6, hostOps1_7, List.cons_append, List.nil_append]
  simp (disch := decide) only [after_cons, after_nil,
      nullary_result', unary_result', binary_result', ternary_result', reshape_result',
      nullary_result_ne', unary_result_ne', binary_result_ne', ternary_result_ne', reshape_result_ne', nary_result_ne']
  exact h_main_v60

/-- These lines do not write the pull terms. -/
theorem weightLines_main_v49 (V : Valuation τ sig (Elt Ideal))
    (x0 : (⟨S16x8x320x320, .f32⟩ : BufTy).Contents (Elt Ideal)) (x2 : (⟨S8192x4, .f32⟩ : BufTy).Contents (Elt Ideal))
    (x3 : (⟨S16x8192x2, .f32⟩ : BufTy).Contents (Elt Ideal)) (x4 : (⟨S16x128x4, .f32⟩ : BufTy).Contents (Elt Ideal))
    (h_main_v49 : V (Proc.devRef .tc main_v49) = Cert.ReferenceIdeal.ReadP.val_main_v191 (F := Ideal) x0 x2 x3) :
    StableHlo.after (weightLines (F := Ideal)) V (Proc.devRef .tc main_v49) = Cert.ReferenceIdeal.ReadP.val_main_v191 (F := Ideal) x0 x2 x3 := by
  simp only [weightLines, hostOps1_5, hostOps1_6, hostOps1_7, List.cons_append, List.nil_append]
  simp (disch := decide) only [after_cons, after_nil,
      nullary_result', unary_result', binary_result', ternary_result', reshape_result',
      nullary_result_ne', unary_result_ne', binary_result_ne', ternary_result_ne', reshape_result_ne', nary_result_ne']
  exact h_main_v49

/-- The two losses: per image the weighted sum of the similarities minus 128, over 16256, halved; the means over the 16 images of that and of the pull terms, side by side. -/
theorem lossLines_main_v166 (V : Valuation τ sig (Elt Ideal))
    (x0 : (⟨S16x8x320x320, .f32⟩ : BufTy).Contents (Elt Ideal)) (x2 : (⟨S8192x4, .f32⟩ : BufTy).Contents (Elt Ideal))
    (x3 : (⟨S16x8192x2, .f32⟩ : BufTy).Contents (Elt Ideal)) (x4 : (⟨S16x128x4, .f32⟩ : BufTy).Contents (Elt Ideal))
    (h_main_v60 : V (Proc.devRef .tc main_v60) = Cert.ReferenceIdeal.ReadP.val_main_v202 (F := Ideal) x0 x2 x3)
    (h_main_v150 : V (Proc.devRef .tc main_v150) = Cert.ReferenceIdeal.ReadP.val_main_v292 (F := Ideal) x0 x2 x3 x4)
    (h_main_v49 : V (Proc.devRef .tc main_v49) = Cert.ReferenceIdeal.ReadP.val_main_v191 (F := Ideal) x0 x2 x3) :
    StableHlo.after (lossLines (F := Ideal)) V (Proc.devRef .tc main_v166) = Cert.ReferenceIdeal.ReadP.val_main_v308 (F := Ideal) x0 x2 x3 x4 := by
  simp only [lossLines, hostOps1_8, List.cons_append, List.nil_append]
  simp (disch := decide) only [after_cons, after_nil,
      nullary_result', unary_result', binary_result', ternary_result', reshape_result',
      nullary_result_ne', unary_result_ne', binary_result_ne', ternary_result_ne', reshape_result_ne', nary_result_ne',
      concatenate_two]
  rw [h_main_v60, h_main_v150, h_main_v49]
  simp only [Cert.ReferenceIdeal.ReadP.val_main_v308, Cert.ReferenceIdeal.ReadP.val_main_v307, Cert.ReferenceIdeal.ReadP.val_main_v306, Cert.ReferenceIdeal.ReadP.val_main_v305, Cert.ReferenceIdeal.ReadP.val_main_cst_91, Cert.ReferenceIdeal.ReadP.val_main_v304, Cert.ReferenceIdeal.ReadP.val_main_cst_90, Cert.ReferenceIdeal.ReadP.val_main_v303, Cert.ReferenceIdeal.ReadP.val_main_cst_89, Cert.ReferenceIdeal.ReadP.val_main_v302, Cert.ReferenceIdeal.ReadP.val_main_cst_88, Cert.ReferenceIdeal.ReadP.val_main_v301, Cert.ReferenceIdeal.ReadP.val_main_v300, Cert.ReferenceIdeal.ReadP.val_main_cst_87, Cert.ReferenceIdeal.ReadP.val_main_v299, Cert.ReferenceIdeal.ReadP.val_main_v298, Cert.ReferenceIdeal.ReadP.val_main_cst_86, Cert.ReferenceIdeal.ReadP.val_main_v297, Cert.ReferenceIdeal.ReadP.val_main_v296, Cert.ReferenceIdeal.ReadP.val_main_cst_85, Cert.ReferenceIdeal.ReadP.val_main_v295, Cert.ReferenceIdeal.ReadP.val_main_cst_84, Cert.ReferenceIdeal.ReadP.val_main_v294, Cert.ReferenceIdeal.ReadP.val_main_v293, join2] <;> rfl

/-! ## The chain -/

/-- From buffer contents `W` in which the region's result array holds the reference's sampled features (its stage
    before the transposition) and the boxes' array holds the boxes, the lines after the region leave the reference's
    two losses in the program's result. The lines read nothing else that they do not first write: every constant they
    use is set by one of them. -/
theorem tail_eq (W : Valuation τ sig (Elt Ideal))
    (x0 : (⟨S16x8x320x320, .f32⟩ : BufTy).Contents (Elt Ideal)) (x2 : (⟨S8192x4, .f32⟩ : BufTy).Contents (Elt Ideal))
    (x3 : (⟨S16x8192x2, .f32⟩ : BufTy).Contents (Elt Ideal)) (x4 : (⟨S16x128x4, .f32⟩ : BufTy).Contents (Elt Ideal))
    (hfeat : W (Proc.devRef .tc main_v28) = Cert.ReferenceIdeal.ReadP.val_main_v170 x0 x2 x3)
    (hbox : W (Proc.devRef .tc main_arg4) = x4) :
    StableHlo.after (List.flatten (linesAfter (F := Ideal))) W (Proc.devRef .tc main_v166)
      = Cert.ReferenceIdeal.ReadP.val_main_v308 x0 x2 x3 x4 := by
  rw [linesAfter_eq, StableHlo.after_append, StableHlo.after_append, StableHlo.after_append, StableHlo.after_append]
  have f0_main_v43 := pullLines_main_v43 W x0 x2 x3 x4 hfeat
  have f0_main_v33 := pullLines_main_v33 W x0 x2 x3 x4 hfeat
  have f0_main_arg4 := pullLines_main_arg4 W x0 x2 x3 x4 hbox
  have f1_main_cst_24 := middleLines_main_cst_24 (StableHlo.after (pullLines (F := Ideal)) W) x0 x2 x3 x4
  have f1_main_v116 := middleLines_main_v116 (StableHlo.after (pullLines (F := Ideal)) W) x0 x2 x3 x4 f0_main_arg4
  have f1_main_v99 := middleLines_main_v99 (StableHlo.after (pullLines (F := Ideal)) W) x0 x2 x3 x4 f0_main_arg4
  have f1_main_v60 := middleLines_main_v60 (StableHlo.after (pullLines (F := Ideal)) W) x0 x2 x3 x4 f0_main_v33
  have f1_main_v49 := middleLines_main_v49 (StableHlo.after (pullLines (F := Ideal)) W) x0 x2 x3 x4 f0_main_v43
  have f2_main_cst_28 := overlapLines_main_cst_28 (StableHlo.after (middleLines (F := Ideal)) (StableHlo.after (pullLines (F := Ideal)) W)) x0 x2 x3 x4
  have f2_main_cst_29 := overlapLines_main_cst_29 (StableHlo.after (middleLines (F := Ideal)) (StableHlo.after (pullLines (F := Ideal)) W)) x0 x2 x3 x4
  have f2_main_v146 := overlapLines_main_v146 (StableHlo.after (middleLines (F := Ideal)) (StableHlo.after (pullLines (F := Ideal)) W)) x0 x2 x3 x4 f1_main_cst_24 f1_main_v116 f1_main_v99
  have f2_main_v60 := overlapLines_main_v60 (StableHlo.after (middleLines (F := Ideal)) (StableHlo.after (pullLines (F := Ideal)) W)) x0 x2 x3 x4 f1_main_v60
  have f2_main_v49 := overlapLines_main_v49 (StableHlo.after (middleLines (F := Ideal)) (StableHlo.after (pullLines (F := Ideal)) W)) x0 x2 x3 x4 f1_main_v49
  have f3_main_v150 := weightLines_main_v150 (StableHlo.after (overlapLines (F := Ideal)) (StableHlo.after (middleLines (F := Ideal)) (StableHlo.after (pullLines (F := Ideal)) W))) x0 x2 x3 x4 f2_main_v60 f2_main_v146 f2_main_cst_28 f2_main_cst_29
  have f3_main_v60 := weightLines_main_v60 (StableHlo.after (overlapLines (F := Ideal)) (StableHlo.after (middleLines (F := Ideal)) (StableHlo.after (pullLines (F := Ideal)) W))) x0 x2 x3 x4 f2_main_v60
  have f3_main_v49 := weightLines_main_v49 (StableHlo.after (overlapLines (F := Ideal)) (StableHlo.after (middleLines (F := Ideal)) (StableHlo.after (pullLines (F := Ideal)) W))) x0 x2 x3 x4 f2_main_v49
  have f4_main_v166 := lossLines_main_v166 (StableHlo.after (weightLines (F := Ideal)) (StableHlo.after (overlapLines (F := Ideal)) (StableHlo.after (middleLines (F := Ideal)) (StableHlo.after (pullLines (F := Ideal)) W)))) x0 x2 x3 x4 f3_main_v60 f3_main_v150 f3_main_v49
  exact f4_main_v166

end Cert.KernelIdeal.Sampler

end
-- ==== Proof.SamplerArray.lean ====
/-
  From the region's blocks to its whole result array.

  The region's result is a 16 × 8 × 8192 array: for image b, channel k and sample point n it holds the bilinear sample of
  channel k of image b at the point whose coordinates are entry n of image b's two coordinate rows. The grid cuts the
  8192 sample points of an image into four runs of 2048; grid point (b, j) computes run j of image b for all eight
  channels at once, from image b whole and run j of each coordinate row. So entry (b, k, n) of the result is entry
  (k, n mod 2048) of the tile computed from run n / 2048 — that is the function `arrayOf` below, and this module shows the
  result array is exactly that function of the three arrays the region reads.
-/
import proofs.«169545_j87136296501797_2_alg».proof.Proof.SamplerData
import Idealize.ShloMosaic.Lib.Pipeline.Value
import Idealize.ShloMosaic.Lib.ValueIdx

noncomputable section

namespace Cert.KernelIdeal.Sampler

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Idealize.ShloMosaic.Pipeline (Dat Cfg Window)
open Idealize.ShloMosaic.ValueIdx

variable {F : FTy → Type} [FloatOps F]

/-! ## The result as one function of the three arrays -/

/-- Sample point y of run j, as a sample point of the image: j · 2048 + y. -/
def runCol (j : Nat) (hj : j < 4) (y : Fin 2048) : Fin 8192 := ⟨j * 2048 + y.val, by have := y.isLt; omega⟩

/-- Run j of image b's row of a coordinate array, as the body is handed it. -/
def rowRun (C : S16x1x8192.Idx → Elt F .f32) (b : Fin 16) (j : Nat) (hj : j < 4) : Vec F S1x1x2048 .f32 :=
  fun y => C (ix3 b (0 : Fin 1) (runCol j hj (y 2)))

/-- Channel q of image b, as the body loads it. -/
def chanImg (P : S16x8x320x320.Idx → Elt F .f32) (b : Fin 16) (q : Fin 8) : Vec F S1x1x320x320 .f32 :=
  fun y => P (ix4 b q (y 2) (y 3))

/-- The tile of image b's run j: the body's stored value on that run of the two coordinate rows and the image's channels. -/
def tileOf (P : S16x8x320x320.Idx → Elt F .f32) (CX CY : S16x1x8192.Idx → Elt F .f32) (b : Fin 16) (j : Nat) (hj : j < 4) :
    FVec F S1x8x2048 .f32 :=
  tileVal (rowRun CX b j hj) (rowRun CY b j hj)
    (chanImg P b 0) (chanImg P b 1) (chanImg P b 2) (chanImg P b 3) (chanImg P b 4) (chanImg P b 5) (chanImg P b 6) (chanImg P b 7)

/-- THE RESULT ARRAY: entry (b, k, n) is entry (k, n mod 2048) of the tile of image b's run n / 2048. -/
def arrayOf (P : S16x8x320x320.Idx → Elt F .f32) (CX CY : S16x1x8192.Idx → Elt F .f32) : S16x8x8192.Idx → Elt F .f32 :=
  fun i => tileOf P CX CY (i 0) ((i 2).val / 2048) (by have h : (i 2).val < 8192 := (i 2).isLt; omega)
    (ix3 (0 : Fin 1) (i 1) (⟨(i 2).val % 2048, Nat.mod_lt _ (by decide)⟩ : Fin 2048))

variable (m : (ℓ : Loc nD τ sig) → Buf (Elt F) ℓ)

/-! ## What the body stores at a grid point is a tile of that function -/

theorem hz3 : (![0, 0, 0] : Fin 3 → Nat) = fun _ => 0 := funext fun a => by fin_cases a <;> rfl

/-- Loading channel k of a block that holds image b reads channel k of image b. -/
theorem ld_chan (P : S16x8x320x320.Idx → Elt F .f32) (img : Vec F S1x8x320x320 .f32) (b : Fin 16)
    (himg : ∀ y : S1x8x320x320.Idx, img y = P (ix4 b (y 1) (y 2) (y 3)))
    (k : Nat) (hk : k < 8) (inb : ∀ a, (![0, k, 0, 0] : Fin 4 → Nat) a + S1x1x320x320.size a ≤ S1x8x320x320.size a) :
    View.ld img (Rect.unit (s := S1x8x320x320) ![0, k, 0, 0] S1x1x320x320.size inb) = chanImg P b ⟨k, hk⟩ := by
  funext y
  show img _ = P _
  rw [himg]
  refine congrArg P (funext fun a => Fin.ext ?_)
  have h1 : (y 1).val < 1 := (y 1).isLt
  match a with
  | ⟨0, _⟩ => rfl
  | ⟨1, _⟩ => show k + 1 * (y 1).val = k; omega
  | ⟨2, _⟩ => show 0 + 1 * (y 2).val = (y 2).val; omega
  | ⟨3, _⟩ => show 0 + 1 * (y 3).val = (y 3).val; omega

/-- The result block the body leaves, when its three input blocks hold image b and run j of image b's two
    coordinate rows, is the tile of image b's run j. -/
theorem outBlock_eq_tile (P : S16x8x320x320.Idx → Elt F .f32) (CX CY : S16x1x8192.Idx → Elt F .f32)
    (img : Vec F S1x8x320x320 .f32) (bx by_ : Vec F S1x1x2048 .f32) (b : Fin 16) (j : Nat) (hj : j < 4)
    (himg : ∀ y : S1x8x320x320.Idx, img y = P (ix4 b (y 1) (y 2) (y 3)))
    (hbx : ∀ y : S1x1x2048.Idx, bx y = CX (ix3 b (0 : Fin 1) (runCol j hj (y 2))))
    (hby : ∀ y : S1x1x2048.Idx, by_ y = CY (ix3 b (0 : Fin 1) (runCol j hj (y 2)))) :
    outBlock img bx by_ = tileOf P CX CY b j hj := by
  unfold outBlock
  rw [View.canon_unit_zero hz3]
  simp only [View.ld_unit_zero (S := S1x1x2048) hz3]
  have ex : bx = rowRun CX b j hj := funext hbx
  have ey : by_ = rowRun CY b j hj := funext hby
  rw [ld_chan P img b himg 0 (by decide), ld_chan P img b himg 1 (by decide), ld_chan P img b himg 2 (by decide),
    ld_chan P img b himg 3 (by decide), ld_chan P img b himg 4 (by decide), ld_chan P img b himg 5 (by decide),
    ld_chan P img b himg 6 (by decide), ld_chan P img b himg 7 (by decide), ex, ey]
  rfl

/-- An entry of the result array inside the block of image b's run j is that tile's entry. -/
theorem arrayOf_at (P : S16x8x320x320.Idx → Elt F .f32) (CX CY : S16x1x8192.Idx → Elt F .f32)
    (b : Fin 16) (j : Nat) (hj : j < 4) (x : S1x8x2048.Idx) (i : S16x8x8192.Idx)
    (h0 : (i 0).val = b.val) (h1 : (i 1).val = (x 1).val) (h2 : (i 2).val = j * 2048 + (x 2).val) :
    arrayOf P CX CY i = tileOf P CX CY b j hj x := by
  have hx0 : (x 0).val < 1 := (x 0).isLt
  have hx2 : (x 2).val < 2048 := (x 2).isLt
  have e0 : i 0 = b := Fin.ext h0
  have ej : (i 2).val / 2048 = j := by omega
  have er : (i 2).val % 2048 = (x 2).val := by omega
  subst e0
  subst ej
  unfold arrayOf
  refine congrArg (tileOf P CX CY (i 0) ((i 2).val / 2048) hj) (funext fun a => Fin.ext ?_)
  match a with
  | ⟨0, _⟩ => show 0 = (x 0).val; omega
  | ⟨1, _⟩ => exact h1
  | ⟨2, _⟩ => exact er

/-! ## The grid's index maps, decided once -/

/-- At every grid point the image window sits at (b, 0, 0, 0), both coordinate windows and the result window at
    (b, 0, j), with b < 16 and j < 4. -/
theorem idx_facts : ∀ t : Fin cfg0.N,
    win0_0.index t (0 : Fin 4) = win0_3.index t (0 : Fin 3)
    ∧ win0_0.index t (1 : Fin 4) = 0 ∧ win0_0.index t (2 : Fin 4) = 0 ∧ win0_0.index t (3 : Fin 4) = 0
    ∧ win0_1.index t (0 : Fin 3) = win0_3.index t (0 : Fin 3) ∧ win0_1.index t (1 : Fin 3) = 0
    ∧ win0_1.index t (2 : Fin 3) = win0_3.index t (2 : Fin 3)
    ∧ win0_2.index t (0 : Fin 3) = win0_3.index t (0 : Fin 3) ∧ win0_2.index t (1 : Fin 3) = 0
    ∧ win0_2.index t (2 : Fin 3) = win0_3.index t (2 : Fin 3)
    ∧ win0_3.index t (0 : Fin 3) < 16 ∧ win0_3.index t (1 : Fin 3) = 0 ∧ win0_3.index t (2 : Fin 3) < 4 :=
  (by decide +kernel : ∀ t : Fin grid0.N, _)

/-- Every (image, run) pair is some grid point's. -/
theorem idx_onto : ∀ (q0 : Fin 16) (q2 : Fin 4), ∃ t : Fin cfg0.N, win0_3.index t = ![q0.val, 0, q2.val] :=
  (by decide +kernel : ∀ (q0 : Fin 16) (q2 : Fin 4), ∃ t : Fin grid0.N, win0_3.index t = ![q0.val, 0, q2.val])

/-! ## Each input block, read where the result's block says -/

/-- The image block at a point is its image, whole. -/
theorem iblk_img (c : Dev nD) (t : Fin cfg0.N) (h3 : win0_3.index t (0 : Fin 3) < 16) (y : S1x8x320x320.Idx) :
    (iblk m c 0 t : Vec F S1x8x320x320 .f32) y
      = (V m c main_arg0 : S16x8x320x320.Idx → Elt F .f32) (ix4 (⟨win0_3.index t (0 : Fin 3), h3⟩ : Fin 16) (y 1) (y 2) (y 3)) := by
  obtain ⟨a0, a1, a2, a3, -⟩ := idx_facts t
  unfold iblk
  rw [View.read_apply]
  show V m c main_arg0 (((cfg0.win 0).blk t).view.emb y) = V m c main_arg0 _
  refine congrArg (V m c main_arg0) (funext fun a => Fin.ext ?_)
  have hy0 : (y 0).val < 1 := (y 0).isLt
  match a with
  | ⟨0, _⟩ => show win0_0.index t (0 : Fin 4) * 1 + 1 * (y 0).val = win0_3.index t (0 : Fin 3); omega
  | ⟨1, _⟩ => show win0_0.index t (1 : Fin 4) * 8 + 1 * (y 1).val = (y 1).val; omega
  | ⟨2, _⟩ => show win0_0.index t (2 : Fin 4) * 320 + 1 * (y 2).val = (y 2).val; omega
  | ⟨3, _⟩ => show win0_0.index t (3 : Fin 4) * 320 + 1 * (y 3).val = (y 3).val; omega

/-- The x-coordinate block at a point is its run of its image's row. -/
theorem iblk_cx (c : Dev nD) (t : Fin cfg0.N) (h3 : win0_3.index t (0 : Fin 3) < 16) (hj : win0_3.index t (2 : Fin 3) < 4)
    (y : S1x1x2048.Idx) :
    (iblk m c 1 t : Vec F S1x1x2048 .f32) y
      = (V m c main_v26 : S16x1x8192.Idx → Elt F .f32)
          (ix3 (⟨win0_3.index t (0 : Fin 3), h3⟩ : Fin 16) (0 : Fin 1) (runCol (win0_3.index t (2 : Fin 3)) hj (y 2))) := by
  obtain ⟨-, -, -, -, b0, b1, b2, -⟩ := idx_facts t
  unfold iblk
  rw [View.read_apply]
  show V m c main_v26 (((cfg0.win 1).blk t).view.emb y) = V m c main_v26 _
  refine congrArg (V m c main_v26) (funext fun a => Fin.ext ?_)
  have hy0 : (y 0).val < 1 := (y 0).isLt
  have hy1 : (y 1).val < 1 := (y 1).isLt
  match a with
  | ⟨0, _⟩ => show win0_1.index t (0 : Fin 3) * 1 + 1 * (y 0).val = win0_3.index t (0 : Fin 3); omega
  | ⟨1, _⟩ => show win0_1.index t (1 : Fin 3) * 1 + 1 * (y 1).val = 0; omega
  | ⟨2, _⟩ => show win0_1.index t (2 : Fin 3) * 2048 + 1 * (y 2).val = win0_3.index t (2 : Fin 3) * 2048 + (y 2).val; omega

/-- The y-coordinate block at a point is its run of its image's row. -/
theorem iblk_cy (c : Dev nD) (t : Fin cfg0.N) (h3 : win0_3.index t (0 : Fin 3) < 16) (hj : win0_3.index t (2 : Fin 3) < 4)
    (y : S1x1x2048.Idx) :
    (iblk m c 2 t : Vec F S1x1x2048 .f32) y
      = (V m c main_v27 : S16x1x8192.Idx → Elt F .f32)
          (ix3 (⟨win0_3.index t (0 : Fin 3), h3⟩ : Fin 16) (0 : Fin 1) (runCol (win0_3.index t (2 : Fin 3)) hj (y 2))) := by
  obtain ⟨-, -, -, -, -, -, -, c0, c1, c2, -⟩ := idx_facts t
  unfold iblk
  rw [View.read_apply]
  show V m c main_v27 (((cfg0.win 2).blk t).view.emb y) = V m c main_v27 _
  refine congrArg (V m c main_v27) (funext fun a => Fin.ext ?_)
  have hy0 : (y 0).val < 1 := (y 0).isLt
  have hy1 : (y 1).val < 1 := (y 1).isLt
  match a with
  | ⟨0, _⟩ => show win0_2.index t (0 : Fin 3) * 1 + 1 * (y 0).val = win0_3.index t (0 : Fin 3); omega
  | ⟨1, _⟩ => show win0_2.index t (1 : Fin 3) * 1 + 1 * (y 1).val = 0; omega
  | ⟨2, _⟩ => show win0_2.index t (2 : Fin 3) * 2048 + 1 * (y 2).val = win0_3.index t (2 : Fin 3) * 2048 + (y 2).val; omega

/-! ## What a point writes back, and the cover -/

/-- WHAT POINT t WRITES BACK is block t of the result array's function of the three arrays the region reads. -/
theorem flushed_eq (c : Dev nD) (t : Fin cfg0.N) :
    (dats m 0 c).flushed 3 t
      = ((cfg0.win 3).blk t).view.read (Elt F) (arrayOf (V m c main_arg0) (V m c main_v26) (V m c main_v27)) := by
  show (cfg0.win 3).cut (grid0.coords t) ((dats m 0 c).after 3 t) = _
  rw [after_out]
  obtain ⟨-, -, -, -, -, -, -, -, -, -, d0, d1, d2⟩ := idx_facts t
  have e := outBlock_eq_tile (V m c main_arg0) (V m c main_v26) (V m c main_v27) (iblk m c 0 t) (iblk m c 1 t) (iblk m c 2 t)
    (⟨win0_3.index t (0 : Fin 3), d0⟩ : Fin 16) (win0_3.index t (2 : Fin 3)) d2
    (iblk_img m c t d0) (iblk_cx m c t d0 d2) (iblk_cy m c t d0 d2)
  refine (congrArg ((cfg0.win 3).cut (grid0.coords t)) e).trans ?_
  funext x
  rw [View.read_apply]
  show tileOf (V m c main_arg0) (V m c main_v26) (V m c main_v27) (⟨win0_3.index t (0 : Fin 3), d0⟩ : Fin 16)
      (win0_3.index t (2 : Fin 3)) d2 x = arrayOf (V m c main_arg0) (V m c main_v26) (V m c main_v27) (((cfg0.win 3).blk t).view.emb x)
  have hx0 : (x 0).val < 1 := (x 0).isLt
  refine (arrayOf_at (V m c main_arg0) (V m c main_v26) (V m c main_v27) (⟨win0_3.index t (0 : Fin 3), d0⟩ : Fin 16)
    (win0_3.index t (2 : Fin 3)) d2 x (((cfg0.win 3).blk t).view.emb x) ?_ ?_ ?_).symm
  · show win0_3.index t (0 : Fin 3) * 1 + 1 * (x 0).val = win0_3.index t (0 : Fin 3); omega
  · show win0_3.index t (1 : Fin 3) * 8 + 1 * (x 1).val = (x 1).val; omega
  · show win0_3.index t (2 : Fin 3) * 2048 + 1 * (x 2).val = win0_3.index t (2 : Fin 3) * 2048 + (x 2).val; omega

/-- An index of the result array is in point t's block iff each coordinate is in the block's range on its axis. -/
theorem mem_blk (t : Fin cfg0.N) (i : S16x8x8192.Idx) :
    i ∈ ((cfg0.win 3).blk t).view.set
      ↔ ∀ a : Fin 3, win0_3.index t a * S1x8x2048.size a ≤ (i a).val ∧ (i a).val < win0_3.index t a * S1x8x2048.size a + S1x8x2048.size a := by
  show i ∈ ((View.whole main_v28).slice (win0_3.rect t)).set ↔ _
  rw [View.set_slice_whole, Rect.mem_set_unit]
  exact Iff.rfl

/-- Every index of the result array is in the block of the point of its image and its run. -/
theorem cover (i : S16x8x8192.Idx) :
    ∃ t : Fin cfg0.N, (cfg0.win 3).flush t = true ∧ i ∈ ((cfg0.win 3).blk t).view.set := by
  have hi0 : (i 0).val < 16 := (i 0).isLt
  have hi1 : (i 1).val < 8 := (i 1).isLt
  have hi2 : (i 2).val < 8192 := (i 2).isLt
  obtain ⟨t, ht⟩ := idx_onto ⟨(i 0).val, hi0⟩ ⟨(i 2).val / 2048, by omega⟩
  have q0 : win0_3.index t (0 : Fin 3) = (i 0).val := congrFun ht 0
  have q1 : win0_3.index t (1 : Fin 3) = 0 := congrFun ht 1
  have q2 : win0_3.index t (2 : Fin 3) = (i 2).val / 2048 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 8 ≤ (i 1).val ∧ (i 1).val < win0_3.index t (1 : Fin 3) * 8 + 8; omega
  | ⟨2, _⟩ => show win0_3.index t (2 : Fin 3) * 2048 ≤ (i 2).val ∧ (i 2).val < win0_3.index t (2 : Fin 3) * 2048 + 2048; omega

/-- THE RESULT ARRAY after the region: that function of the image array and the two coordinate arrays as the region
    finds them. -/
theorem final_out (c : Dev nD) :
    (dats m 0 c).arrAt 3 cfg0.N = arrayOf (V m c main_arg0) (V m c main_v26) (V m c main_v27) :=
  (dats m 0 c).arrAt_eq_of_cover 3 (arrayOf (V m c main_arg0) (V m c main_v26) (V m c main_v27))
    (fun t _ => flushed_eq m c t) cover

end Cert.KernelIdeal.Sampler

end
-- ==== Proof.SamplerCoords.lean ====
/-
  The two coordinate arrays the region reads, entry by entry, and the image array it reads.

  Before the region the host computes, for image b and sample point n, the point's x-coordinate as the anchor box's
  centre ½·(x₀ + x₁) plus the predicted offset, clamped to [−2, 321], and likewise its y-coordinate; each is laid out
  as a 16 × 1 × 8192 array. The image array is the program's first argument, untouched by those host lines.
-/
import proofs.«169545_j87136296501797_2_alg».proof.Proof.SamplerData
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.Sampler

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Idealize.ShloMosaic.Pipeline (Dat Cfg Window)
open Idealize.ShloMosaic.ValueIdx
open Idealize.ShloMosaic.StableHlo

variable {F : FTy → Type} [FloatOps F]

/-! ## Layout operations of these host lines, read at an index -/

section Layout
variable {α : Type}

/-- Column q of the 8192 × 4 anchor array, flattened to a row of 8192: entry n is the array's (n, q). -/
theorem anchor_col (A : S8192x4.Idx → α) (q : Nat) (hq : q < 4) (h : S8192x4.Slices ![0, q] S8192x1) (n : Fin 8192) :
    shapeCast S8192 (extractStridedSlice S8192x1 ![0, q] A h) shapeCasts_S8192x1_S8192 (ix1 n) = A (ix2 n (⟨q, hq⟩ : Fin 4)) := by
  rw [shapeCast_apply _ shapeCasts_S8192x1_S8192 (ix1 n) (ix2 n (0 : Fin 1))
    (by rw [Shape.rowMajor_val_two, Shape.rowMajor_val_one]; show n.val * 1 + 0 = n.val; omega)]
  exact extractStridedSlice_apply ![0, q] A h (ix2 n (0 : Fin 1)) (ix2 n (⟨q, hq⟩ : Fin 4)) (fun a => match a with
    | ⟨0, _⟩ => by show n.val = 0 + n.val; omega
    | ⟨1, _⟩ => by show q = q + 0; omega)

/-- Component q of the 16 × 8192 × 2 offset array, flattened to 16 × 8192: entry (b, n) is the array's (b, n, q). -/
theorem offset_comp (O : S16x8192x2.Idx → α) (q : Nat) (hq : q < 2) (h : S16x8192x2.Slices ![0, 0, q] S16x8192x1)
    (b : Fin 16) (n : Fin 8192) :
    shapeCast S16x8192 (extractStridedSlice S16x8192x1 ![0, 0, q] O h) shapeCasts_S16x8192x1_S16x8192 (ix2 b n)
      = O (ix3 b n (⟨q, hq⟩ : Fin 2)) := by
  rw [shapeCast_apply _ shapeCasts_S16x8192x1_S16x8192 (ix2 b n) (ix3 b n (0 : Fin 1))
    (by rw [Shape.rowMajor_val_three, Shape.rowMajor_val_two]; show (b.val * 8192 + n.val) * 1 + 0 = b.val * 8192 + n.val; omega)]
  exact extractStridedSlice_apply ![0, 0, q] O h (ix3 b n (0 : Fin 1)) (ix3 b n (⟨q, hq⟩ : Fin 2)) (fun a => match a with
    | ⟨0, _⟩ => by show b.val = 0 + b.val; omega
    | ⟨1, _⟩ => by show n.val = 0 + n.val; omega
    | ⟨2, _⟩ => by show q = q + 0; omega)

/-- A row of 8192 repeated for each of the 16 images: entry (b, n) is the row's n. -/
theorem row_to_images (x : S8192.Idx → α) (b : Fin 16) (n : Fin 8192) :
    broadcastInDim S16x8192 ![0, 1] bcast_S1x8192_S16x8192_0_1 (broadcastInDim S1x8192 ![1] bcast_S8192_S1x8192_1 x) (ix2 b n)
      = x (ix1 n) := by
  rw [broadcastInDim_apply _ bcast_S1x8192_S16x8192_0_1 _ (ix2 b n) (ix2 (0 : Fin 1) n) (fun a => match a with
    | ⟨0, _⟩ => by show 0 = if (1 : Nat) = 1 then 0 else b.val; rw [if_pos rfl]
    | ⟨1, _⟩ => by show n.val = if (8192 : Nat) = 1 then 0 else n.val; rw [if_neg (by decide)])]
  exact broadcastInDim_apply _ bcast_S8192_S1x8192_1 x (ix2 (0 : Fin 1) n) (ix1 n) (fun a => match a with
    | ⟨0, _⟩ => by show n.val = if (8192 : Nat) = 1 then 0 else n.val; rw [if_neg (by decide)])

/-- A 16 × 8192 array given a unit middle axis: entry (b, 0, n) is the array's (b, n). -/
theorem add_unit_axis (x : S16x8192.Idx → α) (b : Fin 16) (n : Fin 8192) :
    broadcastInDim S16x1x8192 ![0, 2] bcast_S16x8192_S16x1x8192_0_2 x (ix3 b (0 : Fin 1) n) = x (ix2 b n) :=
  broadcastInDim_apply _ bcast_S16x8192_S16x1x8192_0_2 x (ix3 b (0 : Fin 1) n) (ix2 b n) (fun a => match a with
    | ⟨0, _⟩ => by show b.val = if (16 : Nat) = 1 then 0 else b.val; rw [if_neg (by decide)]
    | ⟨1, _⟩ => by show n.val = if (8192 : Nat) = 1 then 0 else n.val; rw [if_neg (by decide)])

/-- A scalar repeated over a row of 8192, and over a 16 × 8192 array. -/
theorem scalar_row (z : S_.Idx → α) (i : S8192.Idx) : broadcastInDim S8192 ![] bcast_S_S8192 z i = z ix0 :=
  broadcastInDim_apply _ bcast_S_S8192 z i ix0 (fun a => a.elim0)
theorem scalar_images (z : S_.Idx → α) (i : S16x8192.Idx) : broadcastInDim S16x8192 ![] bcast_S_S16x8192 z i = z ix0 :=
  broadcastInDim_apply _ bcast_S_S16x8192 z i ix0 (fun a => a.elim0)

end Layout

/-! ## A coordinate array as one term of the anchors and the offsets -/

/-- The host lines that build one coordinate array, composed: ½ · (anchor column qa + anchor column qb), repeated for
    every image, plus offset component qo, the sum clamped to [−2, 321]; with a unit middle axis. -/
def coordRow (A : FVec F S8192x4 .f32) (O : FVec F S16x8192x2 .f32) (qa qb qo : Nat)
    (sa : S8192x4.Slices ![0, qa] S8192x1) (sb : S8192x4.Slices ![0, qb] S8192x1)
    (so : S16x8192x2.Slices ![0, 0, qo] S16x8192x1) : FVec F S16x1x8192 .f32 :=
  broadcastInDim S16x1x8192 ![0, 2] bcast_S16x8192_S16x1x8192_0_2
    (minimumf (broadcastInDim S16x8192 ![] bcast_S_S16x8192 (constant (F := F) S_ .f32 0x43A08000#32))
      (maximumf (broadcastInDim S16x8192 ![] bcast_S_S16x8192 (constant (F := F) S_ .f32 0xC0000000#32))
        (addf
          (broadcastInDim S16x8192 ![0, 1] bcast_S1x8192_S16x8192_0_1
            (broadcastInDim S1x8192 ![1] bcast_S8192_S1x8192_1
              (mulf (broadcastInDim S8192 ![] bcast_S_S8192 (constant (F := F) S_ .f32 0x3F000000#32))
                (addf (shapeCast S8192 (extractStridedSlice S8192x1 ![0, qa] A sa) shapeCasts_S8192x1_S8192)
                  (shapeCast S8192 (extractStridedSlice S8192x1 ![0, qb] A sb) shapeCasts_S8192x1_S8192)))))
          (shapeCast S16x8192 (extractStridedSlice S16x8192x1 ![0, 0, qo] O so) shapeCasts_S16x8192x1_S16x8192))))

/-- Its entry for image b and sample point n, on the extended reals. -/
theorem coordRow_apply (A : FVec Ideal S8192x4 .f32) (O : FVec Ideal S16x8192x2 .f32) (qa qb qo : Nat)
    (hqa : qa < 4) (hqb : qb < 4) (hqo : qo < 2)
    (sa : S8192x4.Slices ![0, qa] S8192x1) (sb : S8192x4.Slices ![0, qb] S8192x1)
    (so : S16x8192x2.Slices ![0, 0, qo] S16x8192x1) (b : Fin 16) (n : Fin 8192) :
    coordRow (F := Ideal) A O qa qb qo sa sb so (ix3 b (0 : Fin 1) n)
      = min (Ideal.ofBits .f32 0x43A08000#32) (max (Ideal.ofBits .f32 0xC0000000#32)
          (Ideal.ofBits .f32 0x3F000000#32 * (A (ix2 n (⟨qa, hqa⟩ : Fin 4)) + A (ix2 n (⟨qb, hqb⟩ : Fin 4)))
            + O (ix3 b n (⟨qo, hqo⟩ : Fin 2)))) := by
  unfold coordRow
  rw [add_unit_axis, minimumf_apply, maximumf_apply, addf_apply, scalar_images, scalar_images, row_to_images, mulf_apply,
    addf_apply, scalar_row, anchor_col A qa hqa sa n, anchor_col A qb hqb sb n, offset_comp O qo hqo so b n,
    constant_apply, constant_apply, constant_apply]

/-! ## The arrays as the region finds them -/

variable (m : (ℓ : Loc nD τ sig) → Buf (Elt F) ℓ)

/-- The x-coordinate array is that term at anchor columns 0 and 2 and offset component 0. -/
theorem V_cx_eq (c : Dev nD) :
    (V m c main_v26 : S16x1x8192.Idx → Elt F .f32)
      = coordRow (m ((c : Thread nD τ).loc main_arg2)) (m ((c : Thread nD τ).loc main_arg3)) 0 2 0
          slices_S8192x4_S8192x1_0_0 slices_S8192x4_S8192x1_0_2 slices_S16x8192x2_S16x8192x1_0_0_0 := by
  dsimp only [V, V0]
  simp only [linesBefore, hostOps0, hostOps0_1, hostOps0_2, hostOps0_3, hostOps0_4, List.flatten_cons, List.flatten_nil,
    List.append_nil, List.cons_append, List.nil_append]
  after_results_simp
  rfl

/-- The y-coordinate array is that term at anchor columns 1 and 3 and offset component 1. -/
theorem V_cy_eq (c : Dev nD) :
    (V m c main_v27 : S16x1x8192.Idx → Elt F .f32)
      = coordRow (m ((c : Thread nD τ).loc main_arg2)) (m ((c : Thread nD τ).loc main_arg3)) 1 3 1
          slices_S8192x4_S8192x1_0_1 slices_S8192x4_S8192x1_0_3 slices_S16x8192x2_S16x8192x1_0_0_1 := by
  dsimp only [V, V0]
  simp only [linesBefore, hostOps0, hostOps0_1, hostOps0_2, hostOps0_3, hostOps0_4, List.flatten_cons, List.flatten_nil,
    List.append_nil, List.cons_append, List.nil_append]
  after_results_simp
  rfl

/-- No host line before the region writes the image array: the region finds the program's first argument. -/
theorem V_pred (c : Dev nD) : V m c main_arg0 = m ((c : Thread nD τ).loc main_arg0) := by
  dsimp only [V, V0]
  simp only [linesBefore, hostOps0, hostOps0_1, hostOps0_2, hostOps0_3, hostOps0_4, List.flatten_cons, List.flatten_nil,
    List.append_nil, List.cons_append, List.nil_append]
  after_results_simp

/-! ## The coordinate arrays' entries on the extended reals -/

/-- The anchor boxes (8192 × 4: x₀, y₀, x₁, y₁) and the predicted offsets (16 × 8192 × 2) as core c holds them at launch. -/
abbrev anchorsOf (c : Dev nD) : S8192x4.Idx → Elt F .f32 := m ((c : Thread nD τ).loc main_arg2)
abbrev offsetsOf (c : Dev nD) : S16x8192x2.Idx → Elt F .f32 := m ((c : Thread nD τ).loc main_arg3)

section AtIdeal
variable (m : (ℓ : Loc nD τ sig) → Buf (Elt Ideal) ℓ)

/-- The x-coordinate of image b's sample point n: the anchor's horizontal centre plus the offset, clamped to [−2, 321]. -/
theorem V_cx_apply (c : Dev nD) (b : Fin 16) (n : Fin 8192) :
    (V m c main_v26 : S16x1x8192.Idx → EReal) (ix3 b (0 : Fin 1) n)
      = min (Ideal.ofBits .f32 0x43A08000#32) (max (Ideal.ofBits .f32 0xC0000000#32)
          (Ideal.ofBits .f32 0x3F000000#32
              * (anchorsOf (F := Ideal) m c (ix2 n (0 : Fin 4)) + anchorsOf (F := Ideal) m c (ix2 n (2 : Fin 4)))
            + offsetsOf (F := Ideal) m c (ix3 b n (0 : Fin 2)))) := by
  rw [V_cx_eq m c]
  exact coordRow_apply _ _ 0 2 0 (by decide) (by decide) (by decide) _ _ _ b n

/-- The y-coordinate of image b's sample point n: the anchor's vertical centre plus the offset, clamped to [−2, 321]. -/
theorem V_cy_apply (c : Dev nD) (b : Fin 16) (n : Fin 8192) :
    (V m c main_v27 : S16x1x8192.Idx → EReal) (ix3 b (0 : Fin 1) n)
      = min (Ideal.ofBits .f32 0x43A08000#32) (max (Ideal.ofBits .f32 0xC0000000#32)
          (Ideal.ofBits .f32 0x3F000000#32
              * (anchorsOf (F := Ideal) m c (ix2 n (1 : Fin 4)) + anchorsOf (F := Ideal) m c (ix2 n (3 : Fin 4)))
            + offsetsOf (F := Ideal) m c (ix3 b n (1 : Fin 2)))) := by
  rw [V_cy_eq m c]
  exact coordRow_apply _ _ 1 3 1 (by decide) (by decide) (by decide) _ _ _ b n

end AtIdeal

end Cert.KernelIdeal.Sampler

end
-- ==== Proof.FiniteInputs.lean ====
/-
  The finiteness precondition, read back.

  The precondition says that a predicate computed from the program's arguments is true: for each floating-point argument,
  every entry's absolute value is below +∞, all conjoined. On the extended reals an entry whose absolute value is below
  +∞ is neither infinity, so it is a real number. This module draws that conclusion for the three arguments the sampling
  region depends on: the image array, the anchor boxes and the predicted offsets.
-/
import proofs.«169545_j87136296501797_2_alg».proof.Defs
import proofs.«169545_j87136296501797_2_alg».proof.Proof.Gen.Pre_finite_inputs
import Idealize.ShloMosaic.Lib.ReduceAll
import Idealize.ShloMosaic.Lib.ValueIdx
import Idealize.ShloMosaic.Lib.Pipeline.Value

noncomputable section

namespace Cert.KernelIdeal.Sampler

open Cert.KernelIdeal
open Idealize.ShloMosaic Idealize.ShloMosaic.TcCoe
open Idealize.SL.Sem
open Idealize.ShloMosaic.ValueIdx

/-- The scalar shape has one index. -/
instance subsingleton_scalar_idx : Subsingleton (⟨0, ![]⟩ : Shape).Idx := ⟨fun a b => funext fun d => d.elim0⟩

/-- The word 0x7F800000 denotes +∞. -/
theorem ofBits_inf : Ideal.ofBits .f32 0x7F800000#32 = (⊤ : EReal) := by simp [Ideal.ofBits, Ideal.ieee]

/-- An extended real whose absolute value compares below +∞ is a real number. -/
theorem real_of_abs_lt (x : EReal) (h : Ideal.cmp .olt (max x (-x)) (Ideal.ofBits .f32 0x7F800000#32) = 1#1) :
    ∃ r : ℝ, x = (r : EReal) := by
  rw [ofBits_inf] at h
  have hlt : max x (-x) < ⊤ := by
    by_contra hn
    unfold Ideal.cmp at h
    simp [hn] at h
  induction x using EReal.rec with
  | bot => simp at hlt
  | coe r => exact ⟨r, rfl⟩
  | top => simp at hlt

/-- One entry of an array all of whose entries compare, in absolute value, below the repeated scalar +∞. -/
theorem real_of_cmp {s : Shape} (x : FVec Ideal s .f32) (hb : (⟨0, ![]⟩ : Shape).BroadcastsInDim s (![] : Fin 0 → Fin s.rank))
    (i : s.Idx)
    (h : cmpf .olt (Host.absf x) (broadcastInDim s ![] hb (constant (F := Ideal) (⟨0, ![]⟩ : Shape) .f32 0x7F800000#32)) i = 1#1) :
    ∃ r : ℝ, x i = (r : EReal) := by
  have e : broadcastInDim s ![] hb (constant (F := Ideal) (⟨0, ![]⟩ : Shape) .f32 0x7F800000#32) i
      = Ideal.ofBits .f32 0x7F800000#32 :=
    broadcastInDim_apply _ hb _ i ix0 (fun a => a.elim0)
  have h' : Ideal.cmp .olt (max (x i) (-(x i)))
      (broadcastInDim s ![] hb (constant (F := Ideal) (⟨0, ![]⟩ : Shape) .f32 0x7F800000#32) i) = 1#1 := h
  rw [e] at h'
  exact real_of_abs_lt (x i) h'

/-- FINITE INPUTS GIVE REALS: under the precondition, on every core, every entry of the image array, of the anchor boxes
    and of the predicted offsets is a real number. -/
theorem finite_args (m : (ℓ : Loc nD τ sig) → Buf (Elt Ideal) ℓ) (h : Cert.Pre_KernelIdeal m) (c : Dev nD) :
    (∀ i : S16x8x320x320.Idx, ∃ r : ℝ, (m ((c : Thread nD τ).loc main_arg0) : S16x8x320x320.Idx → EReal) i = (r : EReal))
    ∧ (∀ i : S8192x4.Idx, ∃ r : ℝ, (m ((c : Thread nD τ).loc main_arg2) : S8192x4.Idx → EReal) i = (r : EReal))
    ∧ (∀ i : S16x8192x2.Idx, ∃ r : ℝ, (m ((c : Thread nD τ).loc main_arg3) : S16x8192x2.Idx → EReal) i = (r : EReal)) := by
  have h0 := congrFun (h c) ValueIdx.ix0
  dsimp only [Cert.Pre_finite_inputs.fn, Cert.Pre_finite_inputs.fn_part1] at h0
  obtain ⟨h123, h4⟩ := IntOp.andi_eq_one.1 h0
  obtain ⟨h12, h3⟩ := IntOp.andi_eq_one.1 h123
  obtain ⟨h1, h2⟩ := IntOp.andi_eq_one.1 h12
  refine ⟨fun i => ?_, fun i => ?_, fun i => ?_⟩
  · exact real_of_cmp _ _ i (Host.reduce_andi_all _ _ _ _ _ h1 i)
  · exact real_of_cmp _ _ i (Host.reduce_andi_all _ _ _ _ _ h2 i)
  · exact real_of_cmp _ _ i (Host.reduce_andi_all _ _ _ _ _ h3 i)

end Cert.KernelIdeal.Sampler

end
-- ==== Proof.Bilinear.lean ====
/-
  Bilinear sampling with zero padding on a 320-wide axis, as one-hot weight tables.

  For a real coordinate u on an axis of 320 positions, the two neighbours are ⌊u⌋ and ⌊u⌋ + 1 with weights
  1 − (u − ⌊u⌋) and u − ⌊u⌋; a neighbour outside 0 … 319 contributes nothing. `table u` is the length-320 vector that
  holds, at each neighbour's position clamped into 0 … 319, that neighbour's weight if the neighbour is inside, and 0
  elsewhere. Contracting any vector against `table u` picks out the two neighbours (`sum_mul_table`); contracting an image's
  rows against `table y` and its columns against `table x` gives the four-corner bilinear sum (`bilinear`). Clamping u into
  [−2, 321] first changes nothing (`table_clip`): a coordinate that the clamp moves has both neighbours outside before
  and after. The last section pushes a finite sum of reals through the coercion to the extended reals.
-/
import Idealize.ShloMosaic.PureOps.Ideal

noncomputable section

namespace Cert.Bilinear

open Idealize.ShloMosaic

/-! ## Neighbours, weights, the table -/

/-- Position `k` lies on the axis. -/
def inb (k : ℤ) : Prop := 0 ≤ k ∧ k ≤ 319

instance (k : ℤ) : Decidable (inb k) := inferInstanceAs (Decidable (0 ≤ k ∧ k ≤ 319))

/-- Position `k` clamped onto the axis. -/
def pos (k : ℤ) : Fin 320 := ⟨(min 319 (max 0 k)).toNat, by omega⟩

/-- The fractional part. -/
def frac (u : ℝ) : ℝ := u - ⌊u⌋

/-- The lower neighbour's weight, zero when it is off the axis. -/
def ew0 (u : ℝ) : ℝ := if inb ⌊u⌋ then 1 - frac u else 0

/-- The upper neighbour's weight, zero when it is off the axis. -/
def ew1 (u : ℝ) : ℝ := if inb (⌊u⌋ + 1) then frac u else 0

/-- The weight table of coordinate `u`. -/
def table (u : ℝ) (h : Fin 320) : ℝ :=
  (if h = pos ⌊u⌋ then ew0 u else 0) + (if h = pos (⌊u⌋ + 1) then ew1 u else 0)

/-- Contracting against the table picks out the two neighbours. -/
theorem sum_mul_table (u : ℝ) (g : Fin 320 → ℝ) :
    ∑ h, g h * table u h = ew0 u * g (pos ⌊u⌋) + ew1 u * g (pos (⌊u⌋ + 1)) := by
  simp only [table, mul_add, mul_ite, mul_zero, Finset.sum_add_distrib, Finset.sum_ite_eq', Finset.mem_univ, if_true]
  ring

/-- Rows against `table y`, then columns against `table x`: the four corners. -/
theorem bilinear (x y : ℝ) (P : Fin 320 → Fin 320 → ℝ) :
    ∑ w, (∑ h, P h w * table y h) * table x w
      = ew0 x * ew0 y * P (pos ⌊y⌋) (pos ⌊x⌋) + ew1 x * ew0 y * P (pos ⌊y⌋) (pos (⌊x⌋ + 1))
        + ew0 x * ew1 y * P (pos (⌊y⌋ + 1)) (pos ⌊x⌋) + ew1 x * ew1 y * P (pos (⌊y⌋ + 1)) (pos (⌊x⌋ + 1)) := by
  simp only [sum_mul_table]
  ring

/-- A corner masked by both neighbours being on their axes, times the product of the raw weights, is the product of the
    effective weights times the corner. -/
theorem corner (a b : Prop) [Decidable a] [Decidable b] (p u v : ℝ) :
    (if a ∧ b then p else 0) * (u * v) = (if a then u else 0) * (if b then v else 0) * p := by
  by_cases ha : a <;> by_cases hb : b <;> simp [ha, hb] <;> ring

/-! ## Clamping the coordinate first -/

theorem table_eq_zero {u : ℝ} (h0 : ¬ inb ⌊u⌋) (h1 : ¬ inb (⌊u⌋ + 1)) : table u = fun _ => 0 := by
  funext h
  simp [table, ew0, ew1, h0, h1]

/-- Clamping the coordinate into [−2, 321] does not change its table. -/
theorem table_clip (u : ℝ) : table (min 321 (max (-2) u)) = table u := by
  by_cases hlo : u < -2
  · have e : min (321 : ℝ) (max (-2) u) = -2 := by
      rw [max_eq_left hlo.le]; norm_num
    have hf : ⌊u⌋ < -2 := by
      have := Int.floor_le u
      have h2 : ((⌊u⌋ : ℤ) : ℝ) < ((-2 : ℤ) : ℝ) := by push_cast; linarith
      exact_mod_cast h2
    rw [e, table_eq_zero (u := u) (by unfold inb; omega) (by unfold inb; omega)]
    have hm : ⌊(-2 : ℝ)⌋ = -2 := by
      have : ((-2 : ℤ) : ℝ) = (-2 : ℝ) := by norm_num
      rw [← this, Int.floor_intCast]
    exact table_eq_zero (by rw [hm]; unfold inb; omega) (by rw [hm]; unfold inb; omega)
  · by_cases hhi : 321 < u
    · have e : min (321 : ℝ) (max (-2) u) = 321 := by
        rw [max_eq_right (by linarith), min_eq_left hhi.le]
      have hf : 321 ≤ ⌊u⌋ := by
        rw [Int.le_floor]; push_cast; linarith
      rw [e, table_eq_zero (u := u) (by unfold inb; omega) (by unfold inb; omega)]
      have hm : ⌊(321 : ℝ)⌋ = 321 := by
        have : ((321 : ℤ) : ℝ) = (321 : ℝ) := by norm_num
        rw [← this, Int.floor_intCast]
      exact table_eq_zero (by rw [hm]; unfold inb; omega) (by rw [hm]; unfold inb; omega)
    · have e : min (321 : ℝ) (max (-2) u) = u := by
        rw [max_eq_right (by linarith), min_eq_right (by linarith)]
      rw [e]

/-- After the clamp the floor lies in −2 … 321. -/
theorem floor_clip_mem (u : ℝ) : -2 ≤ ⌊min 321 (max (-2) u)⌋ ∧ ⌊min 321 (max (-2) u)⌋ ≤ 321 := by
  constructor
  · rw [Int.le_floor]; push_cast
    exact le_min (by norm_num) (le_max_left _ _)
  · have h : min (321 : ℝ) (max (-2) u) ≤ 321 := min_le_left _ _
    have := Int.floor_le (min (321 : ℝ) (max (-2) u))
    have h2 : ((⌊min (321 : ℝ) (max (-2) u)⌋ : ℤ) : ℝ) ≤ ((321 : ℤ) : ℝ) := by push_cast; linarith
    exact_mod_cast h2

/-! ## Finite sums of reals in the extended reals -/

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

end Cert.Bilinear

end
-- ==== Proof.SamplerWords.lean ====
/-
  The machine words of bilinear sampling on a 320-wide axis.

  A real coordinate x enters as the extended real ↑x. Its floor is the integer ⌊x⌋ as a real; converted to a 32-bit word it
  is the two's-complement word of ⌊x⌋ as long as ⌊x⌋ fits. For ⌊x⌋ between −2 and 322 — every value the clamped
  coordinate's floor and its successor take — the in-range flag "0 ≤ k ≤ 319" computed on words is the flag of the integer,
  the position clamped on words is the clamped integer, and adding the word 1 adds 1: decided case by case. A row counter
  equals a clamped position as words exactly when they are equal as numbers. Put together: the two selected-and-added
  weights at row h of the table are `Bilinear.table x h`.
-/
import proofs.«169545_j87136296501797_2_alg».proof.Proof.Bilinear
import Idealize.ShloMosaic.PureOps.Ideal.Laws

noncomputable section

namespace Cert.Bilinear

open Idealize.ShloMosaic

/-! ## The float literals the two programs spell -/

theorem f32_one : Ideal.ofBits .f32 0x3F800000#32 = ((1 : ℝ) : EReal) := by
  simp [Ideal.ofBits, Ideal.ieee, -EReal.coe_mul]; norm_num
theorem f32_319 : Ideal.ofBits .f32 0x439F8000#32 = ((319 : ℝ) : EReal) := by
  simp [Ideal.ofBits, Ideal.ieee, -EReal.coe_mul]; norm_num
theorem f32_neg2 : Ideal.ofBits .f32 0xC0000000#32 = ((-2 : ℝ) : EReal) := by
  simp [Ideal.ofBits, Ideal.ieee, -EReal.coe_mul]; norm_num
theorem f32_321 : Ideal.ofBits .f32 0x43A08000#32 = ((321 : ℝ) : EReal) := by
  simp [Ideal.ofBits, Ideal.ieee, -EReal.coe_mul]; norm_num
theorem f32_half : Ideal.ofBits .f32 0x3F000000#32 = ((1 / 2 : ℝ) : EReal) := by
  simp [Ideal.ofBits, Ideal.ieee, -EReal.coe_mul]; norm_num

/-! ## Floor and conversion to a word -/

theorem floor_coe (x : ℝ) : FloatOps.floor (F := Ideal) (φ := .f32) (x : EReal) = (((⌊x⌋ : ℤ) : ℝ) : EReal) := rfl

theorem fptosi_int (k : ℤ) (h1 : -2147483648 ≤ k) (h2 : k ≤ 2147483647) :
    Ideal.fptosi 32 (((k : ℤ) : ℝ) : EReal) = BitVec.ofInt 32 k := by
  rw [Ideal.fptosi, Ideal.toIntClamped_coe]
  congr 1
  have e : (if (0 : ℝ) ≤ (k : ℝ) then ⌊(k : ℝ)⌋ else ⌈(k : ℝ)⌉) = k := by
    split <;> simp
  rw [e]
  norm_num
  omega

/-! ## The words, for every floor the clamped coordinate and its successor take -/

set_option maxRecDepth 100000 in
theorem words : ∀ j : Fin 325,
    IntOp.andi (IntOp.cmpi .sge (BitVec.ofInt 32 ((j.val : ℤ) - 2)) 0#32) (IntOp.cmpi .sle (BitVec.ofInt 32 ((j.val : ℤ) - 2)) 319#32)
        = BitVec.ofBool (decide (inb ((j.val : ℤ) - 2)))
      ∧ IntOp.minsi 319#32 (IntOp.maxsi 0#32 (BitVec.ofInt 32 ((j.val : ℤ) - 2))) = BitVec.ofNat 32 (pos ((j.val : ℤ) - 2)).val
      ∧ IntOp.addi (BitVec.ofInt 32 ((j.val : ℤ) - 2)) 1#32 = BitVec.ofInt 32 ((j.val : ℤ) - 2 + 1) := by
  decide +kernel

/-- The same, stated for an integer in range. -/
theorem words_of {k : ℤ} (h1 : -2 ≤ k) (h2 : k ≤ 322) :
    IntOp.andi (IntOp.cmpi .sge (BitVec.ofInt 32 k) 0#32) (IntOp.cmpi .sle (BitVec.ofInt 32 k) 319#32) = BitVec.ofBool (decide (inb k))
      ∧ IntOp.minsi 319#32 (IntOp.maxsi 0#32 (BitVec.ofInt 32 k)) = BitVec.ofNat 32 (pos k).val
      ∧ IntOp.addi (BitVec.ofInt 32 k) 1#32 = BitVec.ofInt 32 (k + 1) := by
  have hj : (k + 2).toNat < 325 := by omega
  have e : (((⟨(k + 2).toNat, hj⟩ : Fin 325).val : ℤ) - 2) = k := by
    show (((k + 2).toNat : ℤ) - 2) = k
    omega
  have := words ⟨(k + 2).toNat, hj⟩
  rw [e] at this
  exact this

/-- A row counter and a position on the axis are equal as words exactly when they are equal. -/
theorem cmpi_eq_ofNat (h p : Fin 320) :
    IntOp.cmpi .eq (BitVec.ofNat 32 h.val) (BitVec.ofNat 32 p.val) = BitVec.ofBool (decide (h = p)) := by
  unfold IntOp.cmpi
  congr 1
  rw [Bool.eq_iff_iff]
  simp only [beq_iff_eq, decide_eq_true_eq]
  constructor
  · intro hh
    have := congrArg BitVec.toNat hh
    simp only [BitVec.toNat_ofNat] at this
    have h1 := h.isLt
    have h2 := p.isLt
    exact Fin.ext (by omega)
  · rintro rfl; rfl

theorem select_ofBool {α : Type} (b : Bool) (a c : α) : Scalar.select (BitVec.ofBool b) a c = if b then a else c := by
  cases b <;> simp [Scalar.select]

/-! ## The two selected weights at a row of the table -/

/-- What the program computes at row `h` from the coordinate ↑x, when ⌊x⌋ lies in −2 … 321: the lower neighbour's weight
    where the row is the lower neighbour's clamped position and that neighbour is on the axis, plus the same for the upper
    neighbour — the table's entry. `Z` is any value denoting 0 and `O` any value denoting 1. -/
theorem table_words (x : ℝ) (hk : -2 ≤ ⌊x⌋ ∧ ⌊x⌋ ≤ 321) (h : Fin 320) (Z O : EReal) (hZ : Z = 0) (hO : O = ((1 : ℝ) : EReal)) :
    FloatOps.addf (F := Ideal) (φ := .f32)
        (Scalar.select (IntOp.cmpi .eq (BitVec.ofNat 32 h.val)
            (IntOp.minsi 319#32 (IntOp.maxsi 0#32 (FloatOps.fptosi (F := Ideal) (φ := .f32) 32 (FloatOps.floor (F := Ideal) (φ := .f32) (x : EReal))))))
          (Scalar.select
            (IntOp.andi (IntOp.cmpi .sge (FloatOps.fptosi (F := Ideal) (φ := .f32) 32 (FloatOps.floor (F := Ideal) (φ := .f32) (x : EReal))) 0#32)
              (IntOp.cmpi .sle (FloatOps.fptosi (F := Ideal) (φ := .f32) 32 (FloatOps.floor (F := Ideal) (φ := .f32) (x : EReal))) 319#32))
            (FloatOps.subf (F := Ideal) (φ := .f32) O (FloatOps.subf (F := Ideal) (φ := .f32) (x : EReal) (FloatOps.floor (F := Ideal) (φ := .f32) (x : EReal)))) Z) Z)
        (Scalar.select (IntOp.cmpi .eq (BitVec.ofNat 32 h.val)
            (IntOp.minsi 319#32 (IntOp.maxsi 0#32 (IntOp.addi (FloatOps.fptosi (F := Ideal) (φ := .f32) 32 (FloatOps.floor (F := Ideal) (φ := .f32) (x : EReal))) 1#32))))
          (Scalar.select
            (IntOp.andi (IntOp.cmpi .sge (IntOp.addi (FloatOps.fptosi (F := Ideal) (φ := .f32) 32 (FloatOps.floor (F := Ideal) (φ := .f32) (x : EReal))) 1#32) 0#32)
              (IntOp.cmpi .sle (IntOp.addi (FloatOps.fptosi (F := Ideal) (φ := .f32) 32 (FloatOps.floor (F := Ideal) (φ := .f32) (x : EReal))) 1#32) 319#32))
            (FloatOps.subf (F := Ideal) (φ := .f32) (x : EReal) (FloatOps.floor (F := Ideal) (φ := .f32) (x : EReal))) Z) Z)
      = ((table x h : ℝ) : EReal) := by
  subst hZ hO
  have hfl : FloatOps.fptosi (F := Ideal) (φ := .f32) 32 (FloatOps.floor (F := Ideal) (φ := .f32) (x : EReal)) = BitVec.ofInt 32 ⌊x⌋ := by
    rw [floor_coe]; exact fptosi_int _ (by omega) (by omega)
  obtain ⟨a0, p0, s0⟩ := words_of (k := ⌊x⌋) hk.1 (by omega)
  obtain ⟨a1, p1, -⟩ := words_of (k := ⌊x⌋ + 1) (by omega) (by omega)
  rw [hfl, s0, a0, a1, p0, p1, cmpi_eq_ofNat, cmpi_eq_ofNat, select_ofBool, select_ofBool, select_ofBool, select_ofBool, floor_coe]
  have e1 : FloatOps.subf (F := Ideal) (φ := .f32) (x : EReal) (((⌊x⌋ : ℤ) : ℝ) : EReal) = ((frac x : ℝ) : EReal) := by
    show (x : EReal) - (((⌊x⌋ : ℤ) : ℝ) : EReal) = _
    rw [← EReal.coe_sub]; rfl
  rw [e1]
  have e0 : FloatOps.subf (F := Ideal) (φ := .f32) ((1 : ℝ) : EReal) ((frac x : ℝ) : EReal) = ((1 - frac x : ℝ) : EReal) := by
    show ((1 : ℝ) : EReal) - _ = _
    rw [← EReal.coe_sub]
  rw [e0]
  show (_ : EReal) + _ = _
  unfold table ew0 ew1
  rw [EReal.coe_add]
  congr 1 <;> split_ifs <;> simp_all

end Cert.Bilinear

end
-- ==== Proof.SamplerTile.lean ====
/-
  The sampling body's stored block, read at an index.

  With the x-coordinate row holding ↑x at column n and the y-coordinate row ↑y there, both with floors between −2 and
  321, the column-weight table at (w, n) is `Bilinear.table x w`, the row-weight table at (h, n) is `Bilinear.table y h`, and
  channel k's entry at column n is the sum over columns w of (the sum over rows h of image[k, h, w] · rowWeight[h, n]) ·
  colWeight[w, n].
-/
import proofs.«169545_j87136296501797_2_alg».proof.Proof.SamplerData
import proofs.«169545_j87136296501797_2_alg».proof.Proof.SamplerWords
import Idealize.ShloMosaic.Lib.ValueIdx
import Idealize.ShloMosaic.Lib.Pipeline.Value
import Idealize.ShloMosaic.PureOps.Ideal.Laws

noncomputable section

namespace Cert.KernelIdeal.Sampler

open Cert.KernelIdeal Cert.KernelIdeal.Gen
open Idealize.ShloMosaic Idealize.ShloMosaic.ValueIdx
open Cert.Bilinear

/-! ## Layout operations of the body at an index -/

/-- A row broadcast down the 320 rows of a table reads the row's entry. -/
theorem bcastRows_apply {α : Type} (v : S1x2048.Idx → α) (w : Fin 320) (n : Fin 2048) :
    broadcastTo S320x2048 v broadcasts_S1x2048_S320x2048 (ix2 w n) = v (ix2 0 n) :=
  broadcastTo_apply v broadcasts_S1x2048_S320x2048 (ix2 w n) (ix2 0 n) (fun a => match a with
    | ⟨0, _⟩ => by show (0 : ℕ) = if (1 : Nat) = 1 then 0 else w.val; rw [if_pos rfl]
    | ⟨1, _⟩ => by show n.val = if (2048 : Nat) = 1 then 0 else n.val; rw [if_neg (by decide)])

/-- The row counter of a 320 × 2048 table. -/
theorem rowIota_apply (l : List (Fin S320x2048.rank)) (hI : S320x2048.Iotas .tc 32 l) (hl : l = [0]) (w : Fin 320) (n : Fin 2048) :
    iota .tc S320x2048 32 l hI (ix2 w n) = BitVec.ofNat 32 w.val := by
  subst hl
  unfold iota
  simp only [List.foldl_cons, List.foldl_nil, Nat.zero_mul, Nat.zero_add]

/-- A coordinate row block read as a row. -/
theorem rowX_apply (v : Vec Ideal S1x1x2048 .f32) (n : Fin 2048) : k0_pay2 v (ix2 0 n) = v (ix3 0 0 n) := by
  unfold k0_pay2
  exact shapeCast_apply v shapeCasts_S1x1x2048_S1x2048 (ix2 0 n) (ix3 0 0 n)
    (by rw [Shape.rowMajor_val_three, Shape.rowMajor_val_two]; rfl)

theorem rowY_apply (v : Vec Ideal S1x1x2048 .f32) (n : Fin 2048) : k0_pay3 v (ix2 0 n) = v (ix3 0 0 n) := by
  unfold k0_pay3
  exact shapeCast_apply v shapeCasts_S1x1x2048_S1x2048 (ix2 0 n) (ix3 0 0 n)
    (by rw [Shape.rowMajor_val_three, Shape.rowMajor_val_two]; rfl)

/-! ## The two weight tables -/

/-- The column weights at (w, n). -/
theorem colWeight_apply (cx : Vec Ideal S1x1x2048 .f32) (n : Fin 2048) (x : ℝ) (hx : cx (ix3 0 0 n) = (x : EReal))
    (hk : -2 ≤ ⌊x⌋ ∧ ⌊x⌋ ≤ 321) (w : Fin 320) : colWeight cx (ix2 w n) = ((table x w : ℝ) : EReal) := by
  have hX : k0_pay2 cx (ix2 0 n) = (x : EReal) := (rowX_apply cx n).trans hx
  refine Eq.trans ?_ (table_words x hk w (Scalar.ofBits (F := Ideal) .f32 0x00000000#32) (Scalar.ofBits (F := Ideal) .f32 0x3F800000#32)
    Ideal.ofBits_zero_f32 f32_one)
  rw [← hX]
  unfold colWeight k0_pay19 k0_pay15 k0_pay14 k0_pay11 k0_pay7 k0_pay10 k0_pay6 k0_pay4
  simp only [select, addf, subf, floor, fptosi, cmpi, maxsi, minsi, andi, addi, broadcast, bcastRows_apply, shapeCast_self]
  rw [rowIota_apply _ _ rfl w n]

/-- The row weights at (h, n). -/
theorem rowWeight_apply (cy : Vec Ideal S1x1x2048 .f32) (n : Fin 2048) (y : ℝ) (hy : cy (ix3 0 0 n) = (y : EReal))
    (hk : -2 ≤ ⌊y⌋ ∧ ⌊y⌋ ≤ 321) (h : Fin 320) : rowWeight cy (ix2 h n) = ((table y h : ℝ) : EReal) := by
  have hY : k0_pay3 cy (ix2 0 n) = (y : EReal) := (rowY_apply cy n).trans hy
  refine Eq.trans ?_ (table_words y hk h (Scalar.ofBits (F := Ideal) .f32 0x00000000#32) (Scalar.ofBits (F := Ideal) .f32 0x3F800000#32)
    Ideal.ofBits_zero_f32 f32_one)
  rw [← hY]
  unfold rowWeight k0_pay22 k0_pay18 k0_pay20 k0_pay21 k0_pay17 k0_pay16 k0_pay13 k0_pay9 k0_pay12 k0_pay8 k0_pay5
  simp only [select, addf, subf, floor, fptosi, cmpi, maxsi, minsi, andi, addi, broadcast, truncf, bcastRows_apply, shapeCast_self]
  rw [rowIota_apply _ _ rfl h n]
  rfl

/-! ## One channel's row of sampled values -/

/-- Contract the image's rows against the row weights (the matrix unit, into a zero accumulator), multiply by the column
    weights, sum over the columns. -/
def chan (wy : FVec Ideal S320x2048 .bf16) (wx : FVec Ideal S320x2048 .f32) (img : Vec Ideal S1x1x320x320 .f32) : FVec Ideal S2048 .f32 :=
  multiReduction .add [0] S2048
    (mulf (matmul dot_S320x320_S320x2048_S320x2048_0_0_1_1_n_n none
        (truncf .bf16 (shapeCast S320x320 img shapeCasts_S1x1x320x320_S320x320) bitsLt_bf16_f32) wy (constant S320x2048 .f32 0x00000000#32)) wx)
    0x00000000#32 reduces_S320x2048_S2048 (.inl rfl) rfl

theorem chan_apply (wy : FVec Ideal S320x2048 .bf16) (wx : FVec Ideal S320x2048 .f32) (img : Vec Ideal S1x1x320x320 .f32) (n : Fin 2048) :
    chan wy wx img (ix1 n) = ∑ w : Fin 320, (∑ h : Fin 320, img (ix4 0 0 h w) * wy (ix2 h n)) * wx (ix2 w n) := by
  unfold chan
  refine (Ideal.multiReduction_add_single _ _ reduces_S320x2048_S2048 _ _ (ix1 n)).trans ?_
  show ∑ w : Fin 320, _ = _
  refine Finset.sum_congr rfl fun w _ => ?_
  have hl : reduces_S320x2048_S2048.lift (ix1 n) w = ix2 w n := by
    funext a; match a with | ⟨0, _⟩ => rfl | ⟨1, _⟩ => rfl
  rw [hl]
  show (matmul dot_S320x320_S320x2048_S320x2048_0_0_1_1_n_n none _ wy _ (ix2 w n) : EReal) * wx (ix2 w n) = _
  congr 1
  simp only [matmul]
  rw [Ideal.matmul_constant_zero_apply]
  rw [← Equiv.sum_comp (contrEquiv1 dot_S320x320_S320x2048_S320x2048_0_0_1_1_n_n 320 rfl rfl).symm]
  refine Finset.sum_congr rfl fun h _ => ?_
  have e0 : (dot_S320x320_S320x2048_S320x2048_0_0_1_1_n_n.lhsIdx (ix2 w n)
      ((contrEquiv1 dot_S320x320_S320x2048_S320x2048_0_0_1_1_n_n 320 rfl rfl).symm h) 0).val = h.val :=
    (DotDims.lhsIdx_val_of_single _ rfl _ _).trans (contrEquiv1_symm_val _ 320 rfl rfl h)
  have e1 : (dot_S320x320_S320x2048_S320x2048_0_0_1_1_n_n.rhsIdx (ix2 w n)
      ((contrEquiv1 dot_S320x320_S320x2048_S320x2048_0_0_1_1_n_n 320 rfl rfl).symm h) 0).val = h.val :=
    (DotDims.rhsIdx_val_of_single _ rfl _ _).trans (contrEquiv1_symm_val _ 320 rfl rfl h)
  congr 1
  · show shapeCast S320x320 img shapeCasts_S1x1x320x320_S320x320 _ = _
    refine shapeCast_apply img shapeCasts_S1x1x320x320_S320x320 _ (ix4 0 0 h w) ?_
    rw [Shape.rowMajor_val_four, Shape.rowMajor_val_two, e0]
    show ((0 * 1 + 0) * 320 + h.val) * 320 + w.val = h.val * 320 + w.val
    omega
  · refine congrArg wy (funext fun a => ?_)
    match a with
    | ⟨0, _⟩ => exact Fin.ext e1
    | ⟨1, _⟩ => rfl

/-! ## The stored block at an index -/

/-- The block the body stores, at channel k and column r: that channel's row at r. -/
theorem tileVal_apply (cx cy : Vec Ideal S1x1x2048 .f32) (p : Fin 8 → Vec Ideal S1x1x320x320 .f32) (k : Fin 8) (r : Fin 2048) :
    tileVal cx cy (p 0) (p 1) (p 2) (p 3) (p 4) (p 5) (p 6) (p 7) (ix3 0 k r)
      = chan (rowWeight cy) (colWeight cx) (p k) (ix1 r) := by
  let f : Fin 8 → (S1x2048.Idx → EReal) := fun q => shapeCast S1x2048 (chan (rowWeight cy) (colWeight cx) (p q)) shapeCasts_S2048_S1x2048
  have hc : Shape.Concatenates ((List.ofFn fun q : Fin 8 => (⟨S1x2048, f q⟩ : (s : Shape) × (s.Idx → EReal))).map (·.1)) S8x2048 (0 : Fin S8x2048.rank) :=
    concatenates_S1x2048_S1x2048_S1x2048_S1x2048_S1x2048_S1x2048_S1x2048_S1x2048_S8x2048_d0
  have hrows : tileVal cx cy (p 0) (p 1) (p 2) (p 3) (p 4) (p 5) (p 6) (p 7)
      = k0_pay1 (concatenate S8x2048 0 (List.ofFn fun q : Fin 8 => (⟨S1x2048, f q⟩ : (s : Shape) × (s.Idx → EReal))) hc) := rfl
  rw [hrows]
  unfold k0_pay1
  rw [shapeCast_apply _ shapeCasts_S8x2048_S1x8x2048 (ix3 0 k r) (ix2 k r)
    (by rw [Shape.rowMajor_val_two, Shape.rowMajor_val_three]; show k.val * 2048 + r.val = ((0 * 8) + k.val) * 2048 + r.val; omega)]
  rw [concatenate_ofFn_unit_apply (0 : Fin S8x2048.rank) f hc rfl rfl (ix2 k r) k rfl (ix2 0 r)
    (fun b hb => match b with
      | ⟨0, _⟩ => absurd rfl hb
      | ⟨1, _⟩ => rfl)]
  exact shapeCast_apply _ shapeCasts_S2048_S1x2048 (ix2 0 r) (ix1 r)
    (by rw [Shape.rowMajor_val_one, Shape.rowMajor_val_two]; show r.val = 0 * 2048 + r.val; omega)

/-- With real coordinates whose floors lie in −2 … 321 and a real image, the stored entry is the image contracted against
    the two coordinates' tables. -/
theorem tile_value (cx cy : Vec Ideal S1x1x2048 .f32) (p : Fin 8 → Vec Ideal S1x1x320x320 .f32) (k : Fin 8) (r : Fin 2048)
    (x y : ℝ) (hx : cx (ix3 0 0 r) = (x : EReal)) (hy : cy (ix3 0 0 r) = (y : EReal))
    (hkx : -2 ≤ ⌊x⌋ ∧ ⌊x⌋ ≤ 321) (hky : -2 ≤ ⌊y⌋ ∧ ⌊y⌋ ≤ 321)
    (Pr : Fin 320 → Fin 320 → ℝ) (hP : ∀ h w, p k (ix4 0 0 h w) = ((Pr h w : ℝ) : EReal)) :
    tileVal cx cy (p 0) (p 1) (p 2) (p 3) (p 4) (p 5) (p 6) (p 7) (ix3 0 k r)
      = ((∑ w, (∑ h, Pr h w * table y h) * table x w : ℝ) : EReal) := by
  rw [tileVal_apply, chan_apply, coe_sum]
  refine Finset.sum_congr rfl fun w _ => ?_
  rw [colWeight_apply cx r x hx hkx w, EReal.coe_mul, coe_sum]
  congr 1
  refine Finset.sum_congr rfl fun h _ => ?_
  rw [hP, rowWeight_apply cy r y hy hky h, EReal.coe_mul]

end Cert.KernelIdeal.Sampler

end
-- ==== Proof.KernelSample.lean ====
/-
  The value of one entry of the region's result, in closed form.

  Under the finiteness precondition the anchors, the offsets and the image are real. So for image b, channel k and sample
  point n the two coordinates before the clamp are reals x and y; the region is handed them clamped to [−2, 321]; the tile
  it computes holds, at channel k and the point's column, the image's channel contracted against the weight tables of the
  clamped coordinates; and clamping does not change a weight table. Hence the result's entry (b, k, n) is
  Σ_w (Σ_h image[b, k, h, w] · table y h) · table x w.
-/
import proofs.«169545_j87136296501797_2_alg».proof.Proof.SamplerArray
import proofs.«169545_j87136296501797_2_alg».proof.Proof.SamplerCoords
import proofs.«169545_j87136296501797_2_alg».proof.Proof.FiniteInputs
import proofs.«169545_j87136296501797_2_alg».proof.Proof.SamplerTile

noncomputable section

namespace Cert.KernelIdeal.Sampler

open Cert.KernelIdeal Cert.KernelIdeal.Gen
open Idealize.ShloMosaic Idealize.ShloMosaic.TcCoe
open Idealize.SL Idealize.SL.Sem
open Idealize.ShloMosaic.Pipeline (Dat Cfg Window)
open Idealize.ShloMosaic.ValueIdx
open Cert.Bilinear

/-- The clamp to [−2, 321] of a real, computed on the extended reals with the two literals' words, is the clamp on the reals. -/
theorem clamp_coe (u : ℝ) :
    min (Ideal.ofBits .f32 0x43A08000#32) (max (Ideal.ofBits .f32 0xC0000000#32) (u : EReal))
      = ((min 321 (max (-2) u) : ℝ) : EReal) := by
  rw [f32_neg2, f32_321, EReal.coe_strictMono.monotone.map_min, EReal.coe_strictMono.monotone.map_max]

/-- A centre-plus-offset of reals is a real: ½ · (a + a') + o. -/
theorem centre_coe (a a' o : ℝ) :
    Ideal.ofBits .f32 0x3F000000#32 * ((a : EReal) + (a' : EReal)) + (o : EReal) = ((1 / 2 * (a + a') + o : ℝ) : EReal) := by
  rw [f32_half, ← EReal.coe_add, ← EReal.coe_mul, ← EReal.coe_add]

/-- ENTRY (b, k, n) OF THE REGION'S RESULT: with x and y the point's coordinates before the clamp and Pr channel k of image b,
    all real under the precondition, the entry is the image contracted against the two coordinates' weight tables. -/
theorem kernel_value (m : (ℓ : Loc nD τ sig) → Buf (Elt Ideal) ℓ) (hpre : Cert.Pre_KernelIdeal m) (c : Dev nD)
    (b : Fin 16) (k : Fin 8) (n : Fin 8192) :
    ∃ (x y : ℝ) (Pr : Fin 320 → Fin 320 → ℝ),
      Ideal.ofBits .f32 0x3F000000#32
            * (anchorsOf (F := Ideal) m c (ix2 n (0 : Fin 4)) + anchorsOf (F := Ideal) m c (ix2 n (2 : Fin 4)))
          + offsetsOf (F := Ideal) m c (ix3 b n (0 : Fin 2)) = (x : EReal)
      ∧ Ideal.ofBits .f32 0x3F000000#32
            * (anchorsOf (F := Ideal) m c (ix2 n (1 : Fin 4)) + anchorsOf (F := Ideal) m c (ix2 n (3 : Fin 4)))
          + offsetsOf (F := Ideal) m c (ix3 b n (1 : Fin 2)) = (y : EReal)
      ∧ (∀ h w, (m ((c : Thread nD τ).loc main_arg0) : S16x8x320x320.Idx → EReal) (ix4 b k h w) = ((Pr h w : ℝ) : EReal))
      ∧ ((dats m 0 c).arrAt 3 cfg0.N : S16x8x8192.Idx → EReal) (ix3 b k n)
          = ((∑ w, (∑ h, Pr h w * table y h) * table x w : ℝ) : EReal) := by
  obtain ⟨hP, hA, hO⟩ := finite_args m hpre c
  obtain ⟨a0, ha0⟩ : ∃ r : ℝ, anchorsOf (F := Ideal) m c (ix2 n (0 : Fin 4)) = (r : EReal) := hA _
  obtain ⟨a1, ha1⟩ : ∃ r : ℝ, anchorsOf (F := Ideal) m c (ix2 n (1 : Fin 4)) = (r : EReal) := hA _
  obtain ⟨a2, ha2⟩ : ∃ r : ℝ, anchorsOf (F := Ideal) m c (ix2 n (2 : Fin 4)) = (r : EReal) := hA _
  obtain ⟨a3, ha3⟩ : ∃ r : ℝ, anchorsOf (F := Ideal) m c (ix2 n (3 : Fin 4)) = (r : EReal) := hA _
  obtain ⟨o0, ho0⟩ : ∃ r : ℝ, offsetsOf (F := Ideal) m c (ix3 b n (0 : Fin 2)) = (r : EReal) := hO _
  obtain ⟨o1, ho1⟩ : ∃ r : ℝ, offsetsOf (F := Ideal) m c (ix3 b n (1 : Fin 2)) = (r : EReal) := hO _
  choose Pr hPr using fun (h w : Fin 320) => hP (ix4 b k h w)
  have hx : Ideal.ofBits .f32 0x3F000000#32
        * (anchorsOf (F := Ideal) m c (ix2 n (0 : Fin 4)) + anchorsOf (F := Ideal) m c (ix2 n (2 : Fin 4)))
      + offsetsOf (F := Ideal) m c (ix3 b n (0 : Fin 2)) = ((1 / 2 * (a0 + a2) + o0 : ℝ) : EReal) := by
    rw [ha0, ha2, ho0, centre_coe]
  have hy : Ideal.ofBits .f32 0x3F000000#32
        * (anchorsOf (F := Ideal) m c (ix2 n (1 : Fin 4)) + anchorsOf (F := Ideal) m c (ix2 n (3 : Fin 4)))
      + offsetsOf (F := Ideal) m c (ix3 b n (1 : Fin 2)) = ((1 / 2 * (a1 + a3) + o1 : ℝ) : EReal) := by
    rw [ha1, ha3, ho1, centre_coe]
  refine ⟨1 / 2 * (a0 + a2) + o0, 1 / 2 * (a1 + a3) + o1, Pr, hx, hy, hPr, ?_⟩
  -- the entry is an entry of the tile of image b's run n / 2048, at column n mod 2048
  have hn : n.val < 8192 := n.isLt
  have hj : n.val / 2048 < 4 := by omega
  have hcol : runCol (n.val / 2048) hj (⟨n.val % 2048, Nat.mod_lt _ (by decide)⟩ : Fin 2048) = n :=
    Fin.ext (by show n.val / 2048 * 2048 + n.val % 2048 = n.val; omega)
  rw [final_out m c]
  show tileOf (V m c main_arg0) (V m c main_v26) (V m c main_v27) b (n.val / 2048) hj
      (ix3 (0 : Fin 1) k (⟨n.val % 2048, Nat.mod_lt _ (by decide)⟩ : Fin 2048)) = _
  unfold tileOf
  have t := tile_value (rowRun (V m c main_v26) b (n.val / 2048) hj) (rowRun (V m c main_v27) b (n.val / 2048) hj)
    (chanImg (V m c main_arg0) b) k (⟨n.val % 2048, Nat.mod_lt _ (by decide)⟩ : Fin 2048)
    (min 321 (max (-2) (1 / 2 * (a0 + a2) + o0))) (min 321 (max (-2) (1 / 2 * (a1 + a3) + o1)))
    (by show (V m c main_v26 : S16x1x8192.Idx → EReal) (ix3 b (0 : Fin 1) (runCol (n.val / 2048) hj _)) = _
        rw [hcol, V_cx_apply m c b n, hx, clamp_coe])
    (by show (V m c main_v27 : S16x1x8192.Idx → EReal) (ix3 b (0 : Fin 1) (runCol (n.val / 2048) hj _)) = _
        rw [hcol, V_cy_apply m c b n, hy, clamp_coe])
    (floor_clip_mem _) (floor_clip_mem _) Pr
    (fun h w => by
      show (V m c main_arg0 : S16x8x320x320.Idx → EReal) (ix4 b k h w) = _
      rw [V_pred m c]
      exact hPr h w)
  rw [table_clip, table_clip] at t
  exact t

end Cert.KernelIdeal.Sampler

end
-- ==== Proof.RefCorner.lean ====
/-
  One corner of the reference's bilinear sample, read at an index.

  The reference gathers image[b, k, iy[b, n], ix[b, n]] (each start index read signed and clamped into 0 … 319, as the
  gather clamps), keeps it where a per-(b, n) mask holds and replaces it by zero elsewhere, and multiplies by a per-(b, n)
  weight; mask and weight are first given a unit channel axis and then repeated along the eight channels. Read at
  (b, k, n) this is: select (mask[b, n]) (image[b, k, iy, ix]) 0 · weight[b, n].
-/
import proofs.«169545_j87136296501797_2_alg».proof.Proof.Gen.ReferenceIdeal
import Idealize.ShloMosaic.Lib.ValueIdx
import Idealize.ShloMosaic.Lib.Pipeline.Value
import Idealize.ShloMosaic.PureOps.Ideal.Laws

noncomputable section

namespace Cert.ReferenceIdeal.Sample

open Cert.ReferenceIdeal Cert.ReferenceIdeal.Gen
open Idealize.ShloMosaic Idealize.ShloMosaic.ValueIdx

variable {α : Type}

/-! ## The layout operations around the gather -/

/-- A per-(b, n) array given a unit channel axis and repeated along the channels reads its (b, n) entry. -/
theorem spread_apply (f : S16x8192.Idx → α) (b : Fin 16) (k : Fin 8) (n : Fin 8192) :
    broadcastInDim S16x8x8192 ![0, 1, 2] bcast_S16x1x8192_S16x8x8192_0_1_2
      (broadcastInDim S16x1x8192 ![0, 2] bcast_S16x8192_S16x1x8192_0_2 f) (ix3 b k n) = f (ix2 b n) := by
  rw [broadcastInDim_apply _ bcast_S16x1x8192_S16x8x8192_0_1_2 _ (ix3 b k n) (ix3 b 0 n) (fun a => match a with
    | ⟨0, _⟩ => by show b.val = if (16 : Nat) = 1 then 0 else b.val; rw [if_neg (by decide)]
    | ⟨1, _⟩ => by show (0 : ℕ) = if (1 : Nat) = 1 then 0 else k.val; rw [if_pos rfl]
    | ⟨2, _⟩ => by show n.val = if (8192 : Nat) = 1 then 0 else n.val; rw [if_neg (by decide)])]
  exact broadcastInDim_apply _ bcast_S16x8192_S16x1x8192_0_2 f (ix3 b 0 n) (ix2 b n) (fun a => match a with
    | ⟨0, _⟩ => by show b.val = if (16 : Nat) = 1 then 0 else b.val; rw [if_neg (by decide)]
    | ⟨1, _⟩ => by show n.val = if (8192 : Nat) = 1 then 0 else n.val; rw [if_neg (by decide)])

/-- A scalar repeated over (k, n) and then over the images reads the scalar. -/
theorem fill_apply (z : S_.Idx → α) (b : Fin 16) (k : Fin 8) (n : Fin 8192) :
    broadcastInDim S16x8x8192 ![1, 2] bcast_S8x8192_S16x8x8192_1_2
      (broadcastInDim S8x8192 ![] bcast_S_S8x8192 z) (ix3 b k n) = z ix0 := by
  rw [broadcastInDim_apply _ bcast_S8x8192_S16x8x8192_1_2 _ (ix3 b k n) (ix2 k n) (fun a => match a with
    | ⟨0, _⟩ => by show k.val = if (8 : Nat) = 1 then 0 else k.val; rw [if_neg (by decide)]
    | ⟨1, _⟩ => by show n.val = if (8192 : Nat) = 1 then 0 else n.val; rw [if_neg (by decide)])]
  exact broadcastInDim_apply _ bcast_S_S8x8192 z (ix2 k n) ix0 (fun a => a.elim0)

/-- The two start-index components, each given a unit last axis and joined along it, read back at (b, n, 0) and (b, n, 1). -/
theorem pair_apply0 (iy ix : IVec S16x8192 32) (a : Fin S16x8192x2.rank) (ha : a.val = 2)
    (hc : Shape.Concatenates [S16x8192x1, S16x8192x1] S16x8192x2 a) (b : Fin 16) (n : Fin 8192) :
    concatenate S16x8192x2 a [⟨S16x8192x1, broadcastInDim S16x8192x1 ![0, 1] bcast_S16x8192_S16x8192x1_0_1 iy⟩,
        ⟨S16x8192x1, broadcastInDim S16x8192x1 ![0, 1] bcast_S16x8192_S16x8192x1_0_1 ix⟩] hc (ix3 b n 0) = iy (ix2 b n) := by
  obtain rfl : a = ⟨2, by decide⟩ := Fin.ext ha
  rw [concatenate_pair_apply_left _ _ _ hc (ix3 b n 0) rfl (ix3 b n 0)
    (fun a => match a with | ⟨0, _⟩ => rfl | ⟨1, _⟩ => rfl | ⟨2, _⟩ => rfl)]
  exact broadcastInDim_apply _ bcast_S16x8192_S16x8192x1_0_1 iy (ix3 b n 0) (ix2 b n) (fun a => match a with
    | ⟨0, _⟩ => by show b.val = if (16 : Nat) = 1 then 0 else b.val; rw [if_neg (by decide)]
    | ⟨1, _⟩ => by show n.val = if (8192 : Nat) = 1 then 0 else n.val; rw [if_neg (by decide)])

theorem pair_apply1 (iy ix : IVec S16x8192 32) (a : Fin S16x8192x2.rank) (ha : a.val = 2)
    (hc : Shape.Concatenates [S16x8192x1, S16x8192x1] S16x8192x2 a) (b : Fin 16) (n : Fin 8192) :
    concatenate S16x8192x2 a [⟨S16x8192x1, broadcastInDim S16x8192x1 ![0, 1] bcast_S16x8192_S16x8192x1_0_1 iy⟩,
        ⟨S16x8192x1, broadcastInDim S16x8192x1 ![0, 1] bcast_S16x8192_S16x8192x1_0_1 ix⟩] hc (ix3 b n 1) = ix (ix2 b n) := by
  obtain rfl : a = ⟨2, by decide⟩ := Fin.ext ha
  rw [concatenate_pair_apply_right _ _ _ hc (ix3 b n 1) rfl rfl (ix3 b n 0)
    (fun a ha => match a with | ⟨0, _⟩ => rfl | ⟨1, _⟩ => rfl | ⟨2, _⟩ => absurd rfl ha) rfl]
  exact broadcastInDim_apply _ bcast_S16x8192_S16x8192x1_0_1 ix (ix3 b n 0) (ix2 b n) (fun a => match a with
    | ⟨0, _⟩ => by show b.val = if (16 : Nat) = 1 then 0 else b.val; rw [if_neg (by decide)]
    | ⟨1, _⟩ => by show n.val = if (8192 : Nat) = 1 then 0 else n.val; rw [if_neg (by decide)])

/-! ## The gather -/

/-- The pixel of image b, channel k that two start words name: each word read signed and clamped into 0 … 319. -/
def pix (b : Fin 16) (k : Fin 8) (u v : BitVec 32) : S16x8x320x320.Idx :=
  ix4 b k ⟨min u.toInt.toNat 319, by omega⟩ ⟨min v.toInt.toNat 319, by omega⟩

/-- The gather of one pixel per (image, channel, query): image[b, k, ·, ·] at the two start-index components of (b, n),
    each read signed and clamped into 0 … 319. -/
theorem gather_apply (x0 : S16x8x320x320.Idx → α) (idx : IVec S16x8192x2 32) (b : Fin 16) (k : Fin 8) (n : Fin 8192) :
    Host.gather gather_S16x8x320x320_S16x8192x2_S16x8x8192_1_23_0_0_23_2_1811 x0 idx (ix3 b k n)
      = x0 (pix b k (idx (ix3 b n 0)) (idx (ix3 b n 1))) := by
  unfold Host.gather pix
  congr 1
  funext a
  have hsi0 : gather_S16x8x320x320_S16x8192x2_S16x8x8192_1_23_0_0_23_2_1811.siIdx (ix3 b k n) ⟨0, by decide⟩ = ix3 b n 0 := by
    funext c; refine Fin.ext ?_
    match c with
    | ⟨0, _⟩ => rfl
    | ⟨1, _⟩ => rfl
    | ⟨2, _⟩ => rfl
  have hsi1 : gather_S16x8x320x320_S16x8192x2_S16x8x8192_1_23_0_0_23_2_1811.siIdx (ix3 b k n) ⟨1, by decide⟩ = ix3 b n 1 := by
    funext c; refine Fin.ext ?_
    match c with
    | ⟨0, _⟩ => rfl
    | ⟨1, _⟩ => rfl
    | ⟨2, _⟩ => rfl
  refine Fin.ext ?_
  match a with
  | ⟨0, _⟩ =>
    show gather_S16x8x320x320_S16x8192x2_S16x8x8192_1_23_0_0_23_2_1811.start (ix3 b k n) idx 0
        + gather_S16x8x320x320_S16x8192x2_S16x8x8192_1_23_0_0_23_2_1811.batchCoord (ix3 b k n) 0
        + gather_S16x8x320x320_S16x8192x2_S16x8x8192_1_23_0_0_23_2_1811.offCoord (ix3 b k n) 0 = b.val
    rw [GatherDims.start_batching _ _ _ _ (by decide), GatherDims.offCoord_eq_zero _ _ _ (by decide)]
    simp only [Nat.zero_add, Nat.add_zero]
    rfl
  | ⟨1, _⟩ =>
    show gather_S16x8x320x320_S16x8192x2_S16x8x8192_1_23_0_0_23_2_1811.start (ix3 b k n) idx 1
        + gather_S16x8x320x320_S16x8192x2_S16x8x8192_1_23_0_0_23_2_1811.batchCoord (ix3 b k n) 1
        + gather_S16x8x320x320_S16x8192x2_S16x8x8192_1_23_0_0_23_2_1811.offCoord (ix3 b k n) 1 = k.val
    have hs : gather_S16x8x320x320_S16x8192x2_S16x8x8192_1_23_0_0_23_2_1811.start (ix3 b k n) idx 1 = 0 := by
      unfold GatherDims.start; rw [dif_neg (by decide)]
    rw [hs, GatherDims.batchCoord_eq_zero _ _ _ (by decide)]
    simp only [Nat.zero_add, Nat.add_zero]
    rfl
  | ⟨2, _⟩ =>
    show gather_S16x8x320x320_S16x8192x2_S16x8x8192_1_23_0_0_23_2_1811.start (ix3 b k n) idx 2
        + gather_S16x8x320x320_S16x8192x2_S16x8x8192_1_23_0_0_23_2_1811.batchCoord (ix3 b k n) 2
        + gather_S16x8x320x320_S16x8192x2_S16x8x8192_1_23_0_0_23_2_1811.offCoord (ix3 b k n) 2 = _
    rw [GatherDims.batchCoord_eq_zero _ _ _ (by decide), GatherDims.offCoord_eq_zero _ _ _ (by decide)]
    unfold GatherDims.start
    rw [dif_pos (by decide)]
    simp only [Nat.add_zero]
    show min (idx (gather_S16x8x320x320_S16x8192x2_S16x8x8192_1_23_0_0_23_2_1811.siIdx (ix3 b k n) ⟨0, by decide⟩)).toInt.toNat 319 = _
    rw [hsi0]
  | ⟨3, _⟩ =>
    show gather_S16x8x320x320_S16x8192x2_S16x8x8192_1_23_0_0_23_2_1811.start (ix3 b k n) idx 3
        + gather_S16x8x320x320_S16x8192x2_S16x8x8192_1_23_0_0_23_2_1811.batchCoord (ix3 b k n) 3
        + gather_S16x8x320x320_S16x8192x2_S16x8x8192_1_23_0_0_23_2_1811.offCoord (ix3 b k n) 3 = _
    rw [GatherDims.batchCoord_eq_zero _ _ _ (by decide), GatherDims.offCoord_eq_zero _ _ _ (by decide)]
    unfold GatherDims.start
    rw [dif_pos (by decide)]
    simp only [Nat.add_zero]
    show min (idx (gather_S16x8x320x320_S16x8192x2_S16x8x8192_1_23_0_0_23_2_1811.siIdx (ix3 b k n) ⟨1, by decide⟩)).toInt.toNat 319 = _
    rw [hsi1]

/-! ## The corner -/

/-- One masked, weighted gather at (b, k, n). -/
theorem corner_apply (x0 : S16x8x320x320.Idx → EReal) (mask : IVec S16x8192 1) (wgt : FVec Ideal S16x8192 .f32)
    (iy ix : IVec S16x8192 32) (z : FVec Ideal S_ .f32) (b : Fin 16) (k : Fin 8) (n : Fin 8192) :
    mulf (select (broadcastInDim S16x8x8192 ![0, 1, 2] bcast_S16x1x8192_S16x8x8192_0_1_2
              (broadcastInDim S16x1x8192 ![0, 2] bcast_S16x8192_S16x1x8192_0_2 mask))
            (Host.gather gather_S16x8x320x320_S16x8192x2_S16x8x8192_1_23_0_0_23_2_1811 x0
              (concatenate S16x8192x2 2 [⟨S16x8192x1, broadcastInDim S16x8192x1 ![0, 1] bcast_S16x8192_S16x8192x1_0_1 iy⟩,
                ⟨S16x8192x1, broadcastInDim S16x8192x1 ![0, 1] bcast_S16x8192_S16x8192x1_0_1 ix⟩]
                concatenates_S16x8192x1_S16x8192x1_S16x8192x2_d2))
            (broadcastInDim S16x8x8192 ![1, 2] bcast_S8x8192_S16x8x8192_1_2 (broadcastInDim S8x8192 ![] bcast_S_S8x8192 (id z))))
        (broadcastInDim S16x8x8192 ![0, 1, 2] bcast_S16x1x8192_S16x8x8192_0_1_2
          (broadcastInDim S16x1x8192 ![0, 2] bcast_S16x8192_S16x1x8192_0_2 wgt)) (ix3 b k n)
      = FloatOps.mulf (F := Ideal) (φ := .f32)
          (Scalar.select (mask (ix2 b n))
            (x0 (pix b k (iy (ix2 b n)) (ix (ix2 b n)))) (z ix0))
          (wgt (ix2 b n)) := by
  show FloatOps.mulf (Scalar.select (_ : BitVec 1) _ _) _ = _
  rw [spread_apply mask b k n, spread_apply wgt b k n, fill_apply (id z) b k n, gather_apply]
  rw [pair_apply0 iy ix (2 : Fin S16x8192x2.rank) rfl concatenates_S16x8192x1_S16x8192x1_S16x8192x2_d2 b n,
    pair_apply1 iy ix (2 : Fin S16x8192x2.rank) rfl concatenates_S16x8192x1_S16x8192x1_S16x8192x2_d2 b n]
  rfl

end Cert.ReferenceIdeal.Sample

end
-- ==== Proof.RefWords.lean ====
/-
  The reference's scalar quantities of bilinear sampling, for a floor that is any integer.

  The reference compares the floor as a float against 0 and 319, clamps it as a float into [0, 319] before converting it to a
  start index, wraps a negative index by 320 (never taken here), and lets the gather clamp once more; its upper neighbour
  is the floor plus the float 1. Each quantity is read here as the integer fact it computes.
-/
import proofs.«169545_j87136296501797_2_alg».proof.Proof.SamplerWords

noncomputable section

namespace Cert.Bilinear

open Idealize.ShloMosaic

/-- The floor's float is the integer ⌊x⌋. -/
theorem hostFloor_coe (x : ℝ) : FloatOps.hostUnary (F := Ideal) (φ := .f32) .floor (x : EReal) = (((⌊x⌋ : ℤ) : ℝ) : EReal) := rfl

/-- The floor plus the float one is the next integer. -/
theorem int_add_one (k : ℤ) (O : EReal) (hO : O = ((1 : ℝ) : EReal)) :
    FloatOps.addf (F := Ideal) (φ := .f32) (((k : ℤ) : ℝ) : EReal) O = ((((k + 1 : ℤ)) : ℝ) : EReal) := by
  subst hO
  show (((k : ℤ) : ℝ) : EReal) + ((1 : ℝ) : EReal) = _
  rw [← EReal.coe_add]; push_cast; rfl

/-- "0 ≤ floor" and "floor ≤ 319" as the reference computes them on floats. -/
theorem cmp_oge_zero (k : ℤ) (Z : EReal) (hZ : Z = 0) :
    FloatOps.cmpf (F := Ideal) (φ := .f32) .oge (((k : ℤ) : ℝ) : EReal) Z = BitVec.ofBool (decide (0 ≤ k)) := by
  subst hZ
  show BitVec.ofBool (decide ((0 : EReal) ≤ (((k : ℤ) : ℝ) : EReal))) = _
  congr 1
  rw [decide_eq_decide, ← EReal.coe_zero, EReal.coe_le_coe_iff]
  exact_mod_cast Iff.rfl

theorem cmp_ole_319 (k : ℤ) (C : EReal) (hC : C = ((319 : ℝ) : EReal)) :
    FloatOps.cmpf (F := Ideal) (φ := .f32) .ole (((k : ℤ) : ℝ) : EReal) C = BitVec.ofBool (decide (k ≤ 319)) := by
  subst hC
  show BitVec.ofBool (decide ((((k : ℤ) : ℝ) : EReal) ≤ ((319 : ℝ) : EReal))) = _
  congr 1
  rw [decide_eq_decide, EReal.coe_le_coe_iff]
  exact_mod_cast Iff.rfl

theorem andi_ofBool (a b : Bool) : IntOp.andi (BitVec.ofBool a) (BitVec.ofBool b) = BitVec.ofBool (a && b) := by
  cases a <;> cases b <;> rfl

/-- The four comparisons of one corner, joined: both neighbours are on their axes. -/
theorem mask_words (kx ky : ℤ) (Z C : EReal) (hZ : Z = 0) (hC : C = ((319 : ℝ) : EReal)) :
    IntOp.andi (IntOp.andi (IntOp.andi (FloatOps.cmpf (F := Ideal) (φ := .f32) .oge (((kx : ℤ) : ℝ) : EReal) Z)
        (FloatOps.cmpf (F := Ideal) (φ := .f32) .ole (((kx : ℤ) : ℝ) : EReal) C))
        (FloatOps.cmpf (F := Ideal) (φ := .f32) .oge (((ky : ℤ) : ℝ) : EReal) Z))
        (FloatOps.cmpf (F := Ideal) (φ := .f32) .ole (((ky : ℤ) : ℝ) : EReal) C)
      = BitVec.ofBool (decide (inb kx ∧ inb ky)) := by
  rw [cmp_oge_zero kx Z hZ, cmp_ole_319 kx C hC, cmp_oge_zero ky Z hZ, cmp_ole_319 ky C hC, andi_ofBool, andi_ofBool, andi_ofBool]
  congr 1
  unfold inb
  simp only [Bool.and_eq_true, decide_eq_true_eq, Bool.decide_and, Bool.and_assoc]

set_option maxRecDepth 100000 in
/-- A position on the axis as a start index: not negative, so not wrapped, and the gather's clamp leaves it. -/
theorem start_words : ∀ p : Fin 320,
    min (Scalar.select (IntOp.cmpi .slt (BitVec.ofNat 32 p.val) 0#32) (IntOp.addi (BitVec.ofNat 32 p.val) 320#32)
      (BitVec.ofNat 32 p.val)).toInt.toNat 319 = p.val := by
  decide +kernel

/-- The floor clamped as a float into [0, 319] and converted is the clamped position's word. -/
theorem clamp_words (k : ℤ) (Lo Hi : EReal) (hLo : Lo = (((0 : ℤ) : ℝ) : EReal)) (hHi : Hi = (((319 : ℤ) : ℝ) : EReal)) :
    FloatOps.fptosi (F := Ideal) (φ := .f32) 32 (FloatOps.minimumf (F := Ideal) (φ := .f32) Hi (FloatOps.maximumf (F := Ideal) (φ := .f32) Lo (((k : ℤ) : ℝ) : EReal)))
      = BitVec.ofNat 32 (pos k).val := by
  subst hLo hHi
  have hc : min ((((319 : ℤ) : ℝ)) : EReal) (max ((((0 : ℤ) : ℝ)) : EReal) (((k : ℤ) : ℝ) : EReal))
      = ((((min 319 (max 0 k) : ℤ)) : ℝ) : EReal) := by
    rcases le_total k 0 with h0 | h0
    · have e1 : max ((((0 : ℤ) : ℝ)) : EReal) (((k : ℤ) : ℝ) : EReal) = (((0 : ℤ) : ℝ) : EReal) :=
        max_eq_left (by rw [EReal.coe_le_coe_iff]; exact_mod_cast h0)
      rw [e1, min_eq_right (by rw [EReal.coe_le_coe_iff]; norm_num), max_eq_left h0, min_eq_right (by norm_num)]
    · have e1 : max ((((0 : ℤ) : ℝ)) : EReal) (((k : ℤ) : ℝ) : EReal) = (((k : ℤ) : ℝ) : EReal) :=
        max_eq_right (by rw [EReal.coe_le_coe_iff]; exact_mod_cast h0)
      rw [e1, max_eq_right h0]
      rcases le_total k 319 with h1 | h1
      · rw [min_eq_right (by rw [EReal.coe_le_coe_iff]; exact_mod_cast h1), min_eq_right h1]
      · rw [min_eq_left (by rw [EReal.coe_le_coe_iff]; exact_mod_cast h1), min_eq_left h1]
  show Ideal.fptosi 32 (min _ (max _ _)) = _
  rw [hc, fptosi_int _ (by omega) (by omega)]
  have hn : (min 319 (max 0 k) : ℤ) = (((pos k).val : ℕ) : ℤ) := by
    show _ = (((min 319 (max 0 k)).toNat : ℕ) : ℤ)
    omega
  rw [hn, BitVec.ofInt_natCast]

end Cert.Bilinear

end
-- ==== Proof.RefSample.lean ====
/-
  The reference's bilinear sample at an index.

  With the reference's x and y coordinates at (b, n) equal to the reals x and y and image b, channel k holding the reals
  P, the reference's sampled value at (b, k, n) is the four-corner sum
    ew0 x · ew0 y · P[⌊y⌋, ⌊x⌋] + ew1 x · ew0 y · P[⌊y⌋, ⌊x⌋+1] + ew0 x · ew1 y · P[⌊y⌋+1, ⌊x⌋] + ew1 x · ew1 y · P[⌊y⌋+1, ⌊x⌋+1]
  with positions clamped onto the axes and the effective weights of `Bilinear`: each corner is a gather masked by "both
  neighbours on their axes" times the product of the two raw weights.
-/
import proofs.«169545_j87136296501797_2_alg».proof.Proof.ReadP
import proofs.«169545_j87136296501797_2_alg».proof.Proof.RefCorner
import proofs.«169545_j87136296501797_2_alg».proof.Proof.RefWords

noncomputable section

namespace Cert.ReferenceIdeal.Sample

open Cert.ReferenceIdeal Cert.ReferenceIdeal.Gen Cert.ReferenceIdeal.ReadP
open Idealize.ShloMosaic Idealize.ShloMosaic.ValueIdx
open Cert.Bilinear

/-! ## The scalar quantities of a corner, as the reference spells them -/

/-- The floor as a float, and the floor plus one. -/
def fl (X : EReal) : EReal := FloatOps.hostUnary (F := Ideal) (φ := .f32) .floor X
def fl1 (X : EReal) : EReal := FloatOps.addf (F := Ideal) (φ := .f32) (fl X) (Ideal.ofBits .f32 0x3F800000#32)
/-- The upper and the lower neighbour's raw weights. -/
def w1 (X : EReal) : EReal := FloatOps.subf (F := Ideal) (φ := .f32) X (fl X)
def w0 (X : EReal) : EReal := FloatOps.subf (F := Ideal) (φ := .f32) (Ideal.ofBits .f32 0x3F800000#32) (w1 X)
/-- Both neighbours (given as floats) lie on their axes. -/
def maskOf (FX FY : EReal) : BitVec 1 :=
  IntOp.andi (IntOp.andi (IntOp.andi (FloatOps.cmpf (F := Ideal) (φ := .f32) .oge FX (Ideal.ofBits .f32 0x00000000#32))
      (FloatOps.cmpf (F := Ideal) (φ := .f32) .ole FX (Ideal.ofBits .f32 0x439F8000#32)))
      (FloatOps.cmpf (F := Ideal) (φ := .f32) .oge FY (Ideal.ofBits .f32 0x00000000#32)))
      (FloatOps.cmpf (F := Ideal) (φ := .f32) .ole FY (Ideal.ofBits .f32 0x439F8000#32))
/-- A neighbour (given as a float) clamped into [0, 319], converted, and wrapped if negative. -/
def startOf (Fv : EReal) : BitVec 32 :=
  Scalar.select
    (IntOp.cmpi .slt (FloatOps.fptosi (F := Ideal) (φ := .f32) 32 (FloatOps.minimumf (F := Ideal) (φ := .f32) (FloatOps.sitofp (F := Ideal) .f32 (319#32 : BitVec 32))
      (FloatOps.maximumf (F := Ideal) (φ := .f32) (FloatOps.sitofp (F := Ideal) .f32 (0#32 : BitVec 32)) Fv))) 0#32)
    (IntOp.addi (FloatOps.fptosi (F := Ideal) (φ := .f32) 32 (FloatOps.minimumf (F := Ideal) (φ := .f32) (FloatOps.sitofp (F := Ideal) .f32 (319#32 : BitVec 32))
      (FloatOps.maximumf (F := Ideal) (φ := .f32) (FloatOps.sitofp (F := Ideal) .f32 (0#32 : BitVec 32)) Fv))) 320#32)
    (FloatOps.fptosi (F := Ideal) (φ := .f32) 32 (FloatOps.minimumf (F := Ideal) (φ := .f32) (FloatOps.sitofp (F := Ideal) .f32 (319#32 : BitVec 32))
      (FloatOps.maximumf (F := Ideal) (φ := .f32) (FloatOps.sitofp (F := Ideal) .f32 (0#32 : BitVec 32)) Fv)))

theorem fl_coe (x : ℝ) : fl (x : EReal) = (((⌊x⌋ : ℤ) : ℝ) : EReal) := rfl
theorem fl1_coe (x : ℝ) : fl1 (x : EReal) = ((((⌊x⌋ + 1 : ℤ)) : ℝ) : EReal) := by
  unfold fl1; rw [fl_coe]; exact int_add_one _ _ f32_one
theorem w1_coe (x : ℝ) : w1 (x : EReal) = ((frac x : ℝ) : EReal) := by
  unfold w1; rw [fl_coe]; show (x : EReal) - _ = _; rw [← EReal.coe_sub]; rfl
theorem w0_coe (x : ℝ) : w0 (x : EReal) = ((1 - frac x : ℝ) : EReal) := by
  unfold w0; rw [w1_coe, f32_one]; show ((1 : ℝ) : EReal) - _ = _; rw [← EReal.coe_sub]

theorem maskOf_int (kx ky : ℤ) : maskOf (((kx : ℤ) : ℝ) : EReal) (((ky : ℤ) : ℝ) : EReal) = BitVec.ofBool (decide (inb kx ∧ inb ky)) :=
  mask_words kx ky _ _ Ideal.ofBits_zero_f32 f32_319

theorem startOf_int (k : ℤ) : min (startOf (((k : ℤ) : ℝ) : EReal)).toInt.toNat 319 = (pos k).val := by
  unfold startOf
  rw [clamp_words k _ _ (by show ((((0#32 : BitVec 32).toInt : ℤ) : ℝ) : EReal) = _; rfl) (by show ((((319#32 : BitVec 32).toInt : ℤ) : ℝ) : EReal) = _; rfl)]
  exact start_words (pos k)

theorem pix_int (b : Fin 16) (k : Fin 8) (kx ky : ℤ) :
    pix b k (startOf (((ky : ℤ) : ℝ) : EReal)) (startOf (((kx : ℤ) : ℝ) : EReal)) = ix4 b k (pos ky) (pos kx) := by
  unfold pix
  congr 1 <;> exact Fin.ext (startOf_int _)

/-- One corner as a real. -/
theorem corner_scalar (x0 : S16x8x320x320.Idx → EReal) (b : Fin 16) (k : Fin 8) (kx ky : ℤ) (u v : ℝ)
    (Pr : Fin 320 → Fin 320 → ℝ) (hP : ∀ h w, x0 (ix4 b k h w) = ((Pr h w : ℝ) : EReal)) (Z : EReal) (hZ : Z = 0) :
    FloatOps.mulf (F := Ideal) (φ := .f32)
        (Scalar.select (maskOf (((kx : ℤ) : ℝ) : EReal) (((ky : ℤ) : ℝ) : EReal))
          (x0 (pix b k (startOf (((ky : ℤ) : ℝ) : EReal)) (startOf (((kx : ℤ) : ℝ) : EReal)))) Z)
        (FloatOps.mulf (F := Ideal) (φ := .f32) (u : EReal) (v : EReal))
      = (((if inb kx ∧ inb ky then Pr (pos ky) (pos kx) else 0) * (u * v) : ℝ) : EReal) := by
  subst hZ
  rw [maskOf_int, pix_int, hP, select_ofBool]
  show (if decide (inb kx ∧ inb ky) = true then _ else _) * ((u : EReal) * (v : EReal)) = _
  rw [← EReal.coe_mul]
  by_cases h : inb kx ∧ inb ky
  · have hd : decide (inb kx ∧ inb ky) = true := decide_eq_true h
    rw [hd, if_pos rfl, if_pos h, ← EReal.coe_mul]
  · have hd : decide (inb kx ∧ inb ky) = false := decide_eq_false h
    rw [hd, if_neg (by decide), if_neg h, zero_mul, zero_mul, EReal.coe_zero]

/-! ## The four corners of the reference, opened -/

section Stages

variable (x0 : (⟨S16x8x320x320, .f32⟩ : BufTy).Contents (Elt Ideal)) (x2 : (⟨S8192x4, .f32⟩ : BufTy).Contents (Elt Ideal))
  (x3 : (⟨S16x8192x2, .f32⟩ : BufTy).Contents (Elt Ideal)) (b : Fin 16) (k : Fin 8) (n : Fin 8192)

local notation "X" => val_main_v9 (F := Ideal) x2 x3 (ix2 b n)
local notation "Y" => val_main_v11 (F := Ideal) x2 x3 (ix2 b n)
local notation "Z0" => Ideal.ofBits FTy.f32 0x00000000#32

theorem corner00 : val_main_v54 (F := Ideal) x0 x2 x3 (ix3 b k n)
    = FloatOps.mulf (F := Ideal) (φ := .f32) (Scalar.select (maskOf (fl X) (fl Y)) (x0 (pix b k (startOf (fl Y)) (startOf (fl X)))) Z0)
        (FloatOps.mulf (F := Ideal) (φ := .f32) (w0 X) (w0 Y)) := by
  unfold val_main_v54 val_main_v50 val_main_call2_v1 val_main_call2_v3 val_main_call2_v2 val_main_call2_v0 val_main_v53 val_main_v52
    val_main_v49 val_main_v48 val_main_v47 val_main_v45 val_main_v46
  exact corner_apply x0 _ _ _ _ _ b k n

theorem corner10 : val_main_v91 (F := Ideal) x0 x2 x3 (ix3 b k n)
    = FloatOps.mulf (F := Ideal) (φ := .f32) (Scalar.select (maskOf (fl1 X) (fl Y)) (x0 (pix b k (startOf (fl Y)) (startOf (fl1 X)))) Z0)
        (FloatOps.mulf (F := Ideal) (φ := .f32) (w1 X) (w0 Y)) := by
  unfold val_main_v91 val_main_v87 val_main_call5_v1 val_main_call5_v3 val_main_call5_v2 val_main_call5_v0 val_main_v90 val_main_v89
    val_main_v86 val_main_v85 val_main_v84 val_main_v82 val_main_v83
  exact corner_apply x0 _ _ _ _ _ b k n

theorem corner01 : val_main_v129 (F := Ideal) x0 x2 x3 (ix3 b k n)
    = FloatOps.mulf (F := Ideal) (φ := .f32) (Scalar.select (maskOf (fl X) (fl1 Y)) (x0 (pix b k (startOf (fl1 Y)) (startOf (fl X)))) Z0)
        (FloatOps.mulf (F := Ideal) (φ := .f32) (w0 X) (w1 Y)) := by
  unfold val_main_v129 val_main_v125 val_main_call8_v1 val_main_call8_v3 val_main_call8_v2 val_main_call8_v0 val_main_v128 val_main_v127
    val_main_v124 val_main_v123 val_main_v122 val_main_v120 val_main_v121
  exact corner_apply x0 _ _ _ _ _ b k n

theorem corner11 : val_main_v169 (F := Ideal) x0 x2 x3 (ix3 b k n)
    = FloatOps.mulf (F := Ideal) (φ := .f32) (Scalar.select (maskOf (fl1 X) (fl1 Y)) (x0 (pix b k (startOf (fl1 Y)) (startOf (fl1 X)))) Z0)
        (FloatOps.mulf (F := Ideal) (φ := .f32) (w1 X) (w1 Y)) := by
  unfold val_main_v169 val_main_v165 val_main_call11_v1 val_main_call11_v3 val_main_call11_v2 val_main_call11_v0 val_main_v168 val_main_v167
    val_main_v164 val_main_v163 val_main_v162 val_main_v160 val_main_v161
  exact corner_apply x0 _ _ _ _ _ b k n

/-- THE REFERENCE'S SAMPLE: the four-corner sum. -/
theorem ref_value (x y : ℝ) (hX : X = (x : EReal)) (hY : Y = (y : EReal))
    (Pr : Fin 320 → Fin 320 → ℝ) (hP : ∀ h w, x0 (ix4 b k h w) = ((Pr h w : ℝ) : EReal)) :
    val_main_v170 (F := Ideal) x0 x2 x3 (ix3 b k n)
      = ((ew0 x * ew0 y * Pr (pos ⌊y⌋) (pos ⌊x⌋) + ew1 x * ew0 y * Pr (pos ⌊y⌋) (pos (⌊x⌋ + 1))
          + ew0 x * ew1 y * Pr (pos (⌊y⌋ + 1)) (pos ⌊x⌋) + ew1 x * ew1 y * Pr (pos (⌊y⌋ + 1)) (pos (⌊x⌋ + 1)) : ℝ) : EReal) := by
  have e : val_main_v170 (F := Ideal) x0 x2 x3 (ix3 b k n)
      = val_main_v54 (F := Ideal) x0 x2 x3 (ix3 b k n) + val_main_v91 (F := Ideal) x0 x2 x3 (ix3 b k n)
        + val_main_v129 (F := Ideal) x0 x2 x3 (ix3 b k n) + val_main_v169 (F := Ideal) x0 x2 x3 (ix3 b k n) := rfl
  rw [e, corner00, corner10, corner01, corner11, hX, hY, fl_coe, fl_coe, fl1_coe, fl1_coe, w0_coe, w0_coe, w1_coe, w1_coe,
    corner_scalar x0 b k _ _ _ _ Pr hP _ Ideal.ofBits_zero_f32, corner_scalar x0 b k _ _ _ _ Pr hP _ Ideal.ofBits_zero_f32,
    corner_scalar x0 b k _ _ _ _ Pr hP _ Ideal.ofBits_zero_f32, corner_scalar x0 b k _ _ _ _ Pr hP _ Ideal.ofBits_zero_f32,
    ← EReal.coe_add, ← EReal.coe_add, ← EReal.coe_add, corner, corner, corner, corner]
  rfl

end Stages

end Cert.ReferenceIdeal.Sample

end
-- ==== Proof.RefCoords.lean ====
/-
  The reference's sample-point coordinates, entry by entry, before its clamp.

  For image b and sample point n the reference takes the anchor box's centre, ½ · (x₀ + x₁) or ½ · (y₀ + y₁), and adds the
  predicted offset's x or y component. It does so on whole arrays — both centres at once as an 8192 × 2 array, repeated
  for every image, the offsets added, a component sliced out and flattened — and this module reads that chain of whole-array
  steps at one entry.
-/
import proofs.«169545_j87136296501797_2_alg».proof.Proof.ReadP
import Idealize.ShloMosaic.Lib.ValueIdx

noncomputable section

namespace Cert.ReferenceIdeal.Sample

open Cert.ReferenceIdeal Cert.ReferenceIdeal.Gen Cert.ReferenceIdeal.ReadP Idealize.ShloMosaic Idealize.ShloMosaic.ValueIdx

/-! ## The composed index maps at image b and sample point n

The reference first forms ½ · (first two anchor columns + last two) as one 8192 × 2 array, repeats it for every image,
adds the offsets, and only then takes component 0 (x) or 1 (y) and flattens. Read backwards from entry (b, n) of a
flattened component, each layout step names one entry of its operand. -/

variable (b : Fin 16) (n : Fin 8192)

/-- Entry (b, n) of a flattened component comes from entry (b, n, 0) of the sliced array, -/
theorem idx_flat : idx_main_v9 (ix2 b n) = ix3 b n (0 : Fin 1) := by
  have hb : b.val < 16 := b.isLt
  have hn : n.val < 8192 := n.isLt
  funext a
  match a with
  | ⟨0, _⟩ => exact Fin.ext (show (b.val * 8192 + n.val) / 8192 = b.val by omega)
  | ⟨1, _⟩ => exact Fin.ext (show (b.val * 8192 + n.val) / 1 % 8192 = n.val by omega)
  | ⟨2, _⟩ => rfl
theorem idx_flat' : idx_main_v11 (ix2 b n) = ix3 b n (0 : Fin 1) := idx_flat b n

/-- which is entry (b, n, q) of the sum before slicing (q = 0 for x, 1 for y), -/
theorem idx_comp0 : idx_main_v8 (ix3 b n (0 : Fin 1)) = ix3 b n (0 : Fin 2) := by
  funext a
  match a with
  | ⟨0, _⟩ => rfl
  | ⟨1, _⟩ => rfl
  | ⟨2, _⟩ => rfl
theorem idx_comp1 : idx_main_v10 (ix3 b n (0 : Fin 1)) = ix3 b n (1 : Fin 2) := by
  funext a
  match a with
  | ⟨0, _⟩ => rfl
  | ⟨1, _⟩ => rfl
  | ⟨2, _⟩ => rfl

/-- whose anchor part is entry (n, q) of the 8192 × 2 array of centres, through the two repetitions. -/
theorem idx_rep (q : Fin 2) : idx_main_v5 (idx_main_v6 (ix3 b n q)) = ix2 n q := by
  funext a
  match a with
  | ⟨0, _⟩ => rfl
  | ⟨1, _⟩ => rfl

/-- Entry (n, q) of the first two anchor columns is the anchors' (n, q); of the last two, the anchors' (n, q + 2). -/
theorem idx_lo0 : idx_main_v0 (ix2 n (0 : Fin 2)) = ix2 n (0 : Fin 4) := by
  funext a
  match a with
  | ⟨0, _⟩ => rfl
  | ⟨1, _⟩ => rfl
theorem idx_lo1 : idx_main_v0 (ix2 n (1 : Fin 2)) = ix2 n (1 : Fin 4) := by
  funext a
  match a with
  | ⟨0, _⟩ => rfl
  | ⟨1, _⟩ => rfl
theorem idx_hi0 : idx_main_v1 (ix2 n (0 : Fin 2)) = ix2 n (2 : Fin 4) := by
  funext a
  match a with
  | ⟨0, _⟩ => rfl
  | ⟨1, _⟩ => rfl
theorem idx_hi1 : idx_main_v1 (ix2 n (1 : Fin 2)) = ix2 n (3 : Fin 4) := by
  funext a
  match a with
  | ⟨0, _⟩ => rfl
  | ⟨1, _⟩ => rfl

/-! ## The reference's coordinates before the clamp -/

variable (x2 : (⟨S8192x4, .f32⟩ : BufTy).Contents (Elt Ideal)) (x3 : (⟨S16x8192x2, .f32⟩ : BufTy).Contents (Elt Ideal))

/-- Entry (b, n, q) of the centres-plus-offsets array. -/
theorem ref_sum_apply (q : Fin 2) :
    val_main_v7 (F := Ideal) x2 x3 (ix3 b n q)
      = Ideal.ofBits .f32 0x3F000000#32 * (x2 (idx_main_v0 (ix2 n q)) + x2 (idx_main_v1 (ix2 n q))) + x3 (ix3 b n q) := by
  rw [val_main_v7_apply, val_main_v6_apply, val_main_v5_apply, idx_rep, val_main_v4_apply, val_main_v3_apply,
    val_main_cst_apply, val_main_v2_apply, val_main_v0_apply, val_main_v1_apply]
  rfl

/-- The reference's x-coordinate of image b's sample point n, before the clamp. -/
theorem ref_cx_apply :
    val_main_v9 (F := Ideal) x2 x3 (ix2 b n)
      = Ideal.ofBits .f32 0x3F000000#32 * (x2 (ix2 n (0 : Fin 4)) + x2 (ix2 n (2 : Fin 4))) + x3 (ix3 b n (0 : Fin 2)) := by
  rw [val_main_v9_apply, idx_flat, val_main_v8_apply, idx_comp0, ref_sum_apply, idx_lo0, idx_hi0]

/-- The reference's y-coordinate of image b's sample point n, before the clamp. -/
theorem ref_cy_apply :
    val_main_v11 (F := Ideal) x2 x3 (ix2 b n)
      = Ideal.ofBits .f32 0x3F000000#32 * (x2 (ix2 n (1 : Fin 4)) + x2 (ix2 n (3 : Fin 4))) + x3 (ix3 b n (1 : Fin 2)) := by
  rw [val_main_v11_apply, idx_flat', val_main_v10_apply, idx_comp1, ref_sum_apply, idx_lo1, idx_hi1]

end Cert.ReferenceIdeal.Sample

end
-- ==== Proof.SampleEq.lean ====
/-
  The kernel's sampled features are the reference's.

  At every (image b, channel k, query n): the kernel's result array holds the image contracted against the two clamped
  coordinates' weight tables, which are the unclamped coordinates' tables; the reference holds the four-corner sum; and the
  two are one number (`Bilinear.bilinear`). The coordinates are the same reals on both sides: ½·(a₀ + a₂) + offset.
-/
import proofs.«169545_j87136296501797_2_alg».proof.Proof.KernelSample
import proofs.«169545_j87136296501797_2_alg».proof.Proof.RefSample
import proofs.«169545_j87136296501797_2_alg».proof.Proof.RefCoords

noncomputable section

namespace Cert.KernelIdeal.Sampler

open Cert.KernelIdeal Cert.KernelIdeal.Gen
open Idealize.ShloMosaic Idealize.ShloMosaic.TcCoe Idealize.ShloMosaic.ValueIdx Idealize.SL.Sem
open Cert.Bilinear

/-- The region's result array, whole, is the reference's [16, 8, 8192] stage of sampled features at the same arguments. -/
theorem sample_eq (m : (ℓ : Loc nD τ sig) → Buf (Elt Ideal) ℓ) (hpre : Cert.Pre_KernelIdeal m) (c : Dev nD) :
    ((dats m 0 c).arrAt 3 cfg0.N : S16x8x8192.Idx → EReal)
      = Cert.ReferenceIdeal.ReadP.val_main_v170 (F := Ideal) (m ((c : Thread nD τ).loc main_arg0))
          (m ((c : Thread nD τ).loc main_arg2)) (m ((c : Thread nD τ).loc main_arg3)) := by
  funext i
  obtain ⟨b, k, n, rfl⟩ : ∃ (b : Fin 16) (k : Fin 8) (n : Fin 8192), i = ix3 b k n := ⟨i 0, i 1, i 2, eq_ix3 i⟩
  obtain ⟨x, y, Pr, hx, hy, hP, hK⟩ := kernel_value m hpre c b k n
  rw [hK, Cert.ReferenceIdeal.Sample.ref_value _ _ _ b k n x y
    ((Cert.ReferenceIdeal.Sample.ref_cx_apply b n _ _).trans hx) ((Cert.ReferenceIdeal.Sample.ref_cy_apply b n _ _).trans hy) Pr hP,
    bilinear]

end Cert.KernelIdeal.Sampler

end
-- ==== Proof.lean ====
/-
  The sampling kernel against its gather reference: the five claims.

  The kernel samples each 320 × 320 channel image bilinearly, with zero padding, at 8192 query points per image by
  contracting the image against two one-hot weight tables (rows on the matrix unit, columns by a multiply and a lane sum),
  after clamping each coordinate into [−2, 321]; the reference gathers the four neighbouring pixels, masks the ones that
  fall outside, and adds them with the bilinear weights. Over the reals these are the same number for every finite input
  (Proof/Bilinear.lean; the clamp only moves coordinates whose neighbours are all outside). Both programs then run the
  same 182 host operations on the sampled features (Proof/TailBridge.lean). The three frames: the two kernel programs
  through the launch of one region between host lines (Proof/SamplerFrame.lean and its copy for the word-level program),
  the reference through its run (Proof/RefRun.lean: read back stretch by stretch against the stage functions). The idealization rewrote nothing, so `preserves` is `True`.
-/
import proofs.«169545_j87136296501797_2_alg».proof.Defs
import proofs.«169545_j87136296501797_2_alg».proof.Proof.Gen.Kernel
import proofs.«169545_j87136296501797_2_alg».proof.Proof.Gen.KernelIdeal
import proofs.«169545_j87136296501797_2_alg».proof.Proof.Gen.ReferenceIdeal
import proofs.«169545_j87136296501797_2_alg».proof.Proof.Gen.Pre_finite_inputs
import proofs.«169545_j87136296501797_2_alg».proof.Proof.SamplerFrame
import proofs.«169545_j87136296501797_2_alg».proof.Proof.SamplerFrameK
import proofs.«169545_j87136296501797_2_alg».proof.Proof.ReadP
import proofs.«169545_j87136296501797_2_alg».proof.Proof.RefRun
import proofs.«169545_j87136296501797_2_alg».proof.Proof.TailBridge
import proofs.«169545_j87136296501797_2_alg».proof.Proof.SampleEq
import Idealize.ShloMosaic.Adequacy
import Idealize.ShloMosaic.Init

noncomputable section

namespace Cert.Proof

open Idealize.ShloMosaic Idealize.ShloMosaic.TcCoe Idealize.SL.Sem

instance : Cert.Kernel.Facts := Cert.Kernel.Gen.facts
instance : Cert.KernelIdeal.Facts := Cert.KernelIdeal.Gen.facts
instance : Cert.ReferenceIdeal.Facts := Cert.ReferenceIdeal.Gen.facts
instance : Cert.Pre_finite_inputs.Facts := Cert.Pre_finite_inputs.Gen.facts

theorem frame_k : Cert.frame_Kernel := fun m ρ _ => Cert.Kernel.Sampler.frame (F := Bits) m ρ

theorem frame_ki : Cert.frame_KernelIdeal := fun m ρ _ => Cert.KernelIdeal.Sampler.frame (F := Ideal) m ρ

theorem frame_ri : Cert.frame_ReferenceIdeal := fun m ρ _ =>
  (θ_run Cert.ReferenceIdeal.defs _ _).mono (fun _ h c => (h c).2) (Cert.ReferenceIdeal.RunFast.run m ρ)

open Cert.KernelIdeal Cert.KernelIdeal.Gen Cert.KernelIdeal.Sampler in
/-- What the kernel program's result buffer ends at is the reference's last stage at the kernel's own arguments: the
    host lines after the region applied to the sampled features (which are the reference's, `sample_eq`) and the boxes. -/
theorem kernel_result (m : (ℓ : Loc Cert.KernelIdeal.nD Cert.KernelIdeal.τ Cert.KernelIdeal.sig) → Buf (Elt Ideal) ℓ)
    (hpre : Cert.Pre_KernelIdeal m) (c : Dev Cert.KernelIdeal.nD) :
    Pipeline.afterTail₀ cfgs (dats m) 0 (V0 m) linesAfter c main_v166
      = Cert.ReferenceIdeal.ReadP.val_main_v308 (F := Ideal) (m ((c : Thread nD τ).loc main_arg0)) (m ((c : Thread nD τ).loc main_arg2))
          (m ((c : Thread nD τ).loc main_arg3)) (m ((c : Thread nD τ).loc main_arg4)) := by
  unfold Pipeline.afterTail₀
  refine tail_eq _ _ _ _ _ ?_ ?_
  · exact (Pipeline.withArrays_arr spec0 launch0.win.arr_inj c _ _ 3).trans (sample_eq m hpre c)
  · exact (Pipeline.withArrays_of_ne spec0 c (V0 m c) _ main_arg4 (by exact (by decide : ∀ w, Pipeline.arrRef spec0 w ≠ main_arg4))).trans
      (V_main_arg4 m c)

theorem algebraic : Cert.algebraic_KernelIdeal_ReferenceIdeal := by
  intro m ρ m' ρ' hpre hagree
  refine ⟨_, Cert.KernelIdeal.Sampler.run_value (F := Ideal) m ρ, ?_⟩
  refine (θ_run Cert.ReferenceIdeal.defs _ _).mono (fun _ h c => ⟨(h c).1.trans ?_, (h c).2⟩)
    (Cert.ReferenceIdeal.RunFast.run m' ρ')
  rw [(hagree c).1, (hagree c).2.2.1, (hagree c).2.2.2.1, (hagree c).2.2.2.2]
  exact (kernel_result m hpre c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
